-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S50000 : S_.BroadcastsInDim S50000 (![] : Fin 0 → Fin S50000.rank)
  reducesTo_S50000_S_d0 : S50000.ReducesTo [0] S_

variable [Facts]

def fn_part3 {F : FTy → Type} [FloatOps F] (main_arg3 : IVec S50000 32) (main_arg13 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_c_22 : IVec S_ 32 := constantI S_ 32 0#32
  let main_v59 : IVec S50000 32 := broadcastInDim S50000 ![] bcast_S_S50000 main_c_22
  let main_v60 : IVec S50000 1 := cmpi .sge main_arg3 main_v59
  let main_c_23 : IVec S_ 1 := constantI S_ 1 1#1
  let main_v61 : IVec S_ 1 := (fun x v => Host.reduce IntOp.andi x v reducesTo_S50000_S_d0 h_S_) main_v60 main_c_23
  let main_v62 : IVec S_ 1 := andi main_v58 main_v61
  main_v62

def fn_part2 {F : FTy → Type} [FloatOps F] (main_arg3 : IVec S50000 32) (main_arg9 : FVec F S128 .f32) (main_arg10 : FVec F S128x64 .f32) (main_arg11 : FVec F S64 .f32) (main_arg12 : FVec F S64x32 .f32) (main_arg13 : FVec F S32 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg3 main_arg13 main_v48 main_v49 main_v50

def fn_part1 {F : FTy → Type} [FloatOps F] (main_arg3 : IVec S50000 32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S64x32 .f32) (main_arg13 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg9 main_arg10 main_arg11 main_arg12 main_arg13 main_v33

def fn {F : FTy → Type} [FloatOps F] (main_arg0 : FVec F S50000x64 .f32) (main_arg1 : FVec F S50000x64 .f32) (main_arg2 : IVec S2x800000 32) (main_arg3 : IVec S50000 32) (main_arg4 : FVec F S64x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S64x32 .f32) (main_arg13 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S850000x128 : Shape := ⟨2, ![850000, 128]⟩
abbrev S50000x1 : Shape := ⟨2, ![50000, 1]⟩
abbrev S5000x1 : Shape := ⟨2, ![5000, 1]⟩
abbrev S128x1 : Shape := ⟨2, ![128, 1]⟩
abbrev S1x64 : Shape := ⟨2, ![1, 64]⟩
abbrev S1x32 : Shape := ⟨2, ![1, 32]⟩
abbrev S128x32 : Shape := ⟨2, ![128, 32]⟩

abbrev nBuf : Space → Nat
  | .hbm => 124
  | .vmem => 42
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S2x800000, .i32⟩
  | .hbm, ⟨3, _⟩ => ⟨S50000, .i32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S50000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S1x128, .f32⟩
  | .hbm, ⟨55, _⟩ => ⟨S50000x128, .bf16⟩
  | .hbm, ⟨56, _⟩ => ⟨S50000x128, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x1, .f32⟩
  | .hbm, ⟨67, _⟩ => ⟨S850000x128, .f32⟩
  | .hbm, ⟨68, _⟩ => ⟨S850000x128, .f32⟩
  | .hbm, ⟨69, _⟩ => ⟨S_, .f32⟩
  | .hbm, ⟨70, _⟩ => ⟨S50000x128, .f32⟩
  | .hbm, ⟨71, _⟩ => ⟨S850000x1, .i32⟩
  | .hbm, ⟨72, _⟩ => ⟨S50000x128, .f32⟩
  | .hbm, ⟨73, _⟩ => ⟨S1x128, .f32⟩
  | .hbm, ⟨74, _⟩ => ⟨S50000x128, .bf16⟩
  | .hbm, ⟨75, _⟩ => ⟨S50000x128, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x1, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x128, .f32⟩
  | .hbm, ⟨93, _⟩ => ⟨S50000x128, .bf16⟩
  | .hbm, ⟨94, _⟩ => ⟨S50000x1, .i32⟩
  | .hbm, ⟨95, _⟩ => ⟨S128x128, .f32⟩
  | .hbm, ⟨96, _⟩ => ⟨S_, .i32⟩
  | .hbm, ⟨97, _⟩ => ⟨S128, .i32⟩
  | .hbm, ⟨98, _⟩ => ⟨S_, .i32⟩
  | .hbm, ⟨99, _⟩ => ⟨S_, .i32⟩
  | .hbm, ⟨100, _⟩ => ⟨S50000, .i32⟩
  | .hbm, ⟨101, _⟩ => ⟨S50000, .i32⟩
  | .hbm, ⟨102, _⟩ => ⟨S_, .i32⟩
  | .hbm, ⟨103, _⟩ => ⟨S50000, .i32⟩
  | .hbm, ⟨104, _⟩ => ⟨S50000, .i1⟩
  | .hbm, ⟨105, _⟩ => ⟨S_, .i32⟩
  | .hbm, ⟨106, _⟩ => ⟨S50000, .i32⟩
  | .hbm, ⟨107, _⟩ => ⟨S50000, .i32⟩
  | .hbm, ⟨108, _⟩ => ⟨S50000, .i32⟩
  | .hbm, ⟨109, _⟩ => ⟨S50000x1, .i32⟩
  | .hbm, ⟨110, _⟩ => ⟨S_, .i32⟩
  | .hbm, ⟨111, _⟩ => ⟨S50000, .i32⟩
  | .hbm, ⟨112, _⟩ => ⟨S128, .i32⟩
  | .hbm, ⟨113, _⟩ => ⟨S128, .f32⟩
  | .hbm, ⟨114, _⟩ => ⟨S_, .f32⟩
  | .hbm, ⟨115, _⟩ => ⟨S128, .f32⟩
  | .hbm, ⟨116, _⟩ => ⟨S128, .f32⟩
  | .hbm, ⟨117, _⟩ => ⟨S128x1, .f32⟩
  | .hbm, ⟨118, _⟩ => ⟨S128x128, .f32⟩
  | .hbm, ⟨119, _⟩ => ⟨S128x128, .f32⟩
  | .hbm, ⟨120, _⟩ => ⟨S1x64, .f32⟩
  | .hbm, ⟨121, _⟩ => ⟨S128x64, .f32⟩
  | .hbm, ⟨122, _⟩ => ⟨S1x32, .f32⟩
  | .hbm, ⟨123, _⟩ => ⟨S128x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .bf16⟩
  | .local _ .vmem, ⟨9, _⟩ => ⟨S5000x128, .bf16⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .bf16⟩
  | .local _ .vmem, ⟨19, _⟩ => ⟨S5000x128, .bf16⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .bf16⟩
  | .local _ .vmem, ⟨27, _⟩ => ⟨S5000x128, .bf16⟩
  | .local _ .vmem, ⟨28, _⟩ => ⟨S5000x128, .bf16⟩
  | .local _ .vmem, ⟨29, _⟩ => ⟨S5000x128, .bf16⟩
  | .local _ .vmem, ⟨30, _⟩ => ⟨S5000x1, .i32⟩
  | .local _ .vmem, ⟨31, _⟩ => ⟨S5000x1, .i32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S128x64, .f32⟩
  | .local _ .vmem, ⟨36, _⟩ => ⟨S1x64, .f32⟩
  | .local _ .vmem, ⟨37, _⟩ => ⟨S128x64, .f32⟩
  | .local _ .vmem, ⟨38, _⟩ => ⟨S128x64, .f32⟩
  | .local _ .vmem, ⟨39, _⟩ => ⟨S64x32, .f32⟩
  | .local _ .vmem, ⟨40, _⟩ => ⟨S1x32, .f32⟩
  | .local _ .vmem, ⟨41, _⟩ => ⟨S128x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_c_13 : Ref sig .tc := ⟨.hbm, 98, rfl⟩
abbrev main_call1_v0 : Ref sig .tc := ⟨.hbm, 99, rfl⟩
abbrev main_call1_v1 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_17 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_scratch0 : Ref sig .tc := ⟨.vmem, 33, rfl⟩
abbrev cc6_stg0_0 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc7_stg0_0 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg3_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc6_sem0_0 : DmaSem sig := 33
abbrev cc6_sem1_0 : DmaSem sig := 34
abbrev cc6_sem2_0 : DmaSem sig := 35
abbrev cc6_sem3_0 : DmaSem sig := 36
abbrev cc7_sem0_0 : DmaSem sig := 37
abbrev cc7_sem1_0 : DmaSem sig := 38
abbrev cc7_sem2_0 : DmaSem sig := 39
abbrev cc7_sem3_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_8 : BitVec 32 := 0#32
  let v21 : BitVec 1 := Scalar.cmpi .ne v20 c0_i32_8
  v21

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S128x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S128x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S50000_S50000x1 : S50000.ShapeCasts S50000x1
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  bcast_S_S128 : S_.BroadcastsInDim S128 (![] : Fin 0 → Fin S128.rank)
  bcast_S50000_S50000x1_0 : S50000.BroadcastsInDim S50000x1 (![0] : Fin 1 → Fin S50000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  shapeCasts_S32_S1x32 : S32.ShapeCasts S1x32
  shapeCasts_S128x64_S128x64 : S128x64.ShapeCasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S5000x128_S128x128_0_0_1_1_n_n_wf : DotDims.WF S5000x128 S5000x128 S128x128 [0] [0] [1] [1] [] []
  scatter_S128_S50000x1_S50000_n_0_0_1_wf : ScatterDims.WF S128 S50000x1 S50000 [] [0] [0] 1
  dot_S128x128_S128x64_S128x64_1_0_0_1_n_n_wf : DotDims.WF S128x128 S128x64 S128x64 [1] [0] [0] [1] [] []
  dot_S128x64_S64x32_S128x32_1_0_0_1_n_n_wf : DotDims.WF S128x64 S64x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .bf16 = 32 ∨ (Rect.block (s := S50000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .bf16 = 32 ∨ (Rect.block (s := S50000x128) S5000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .bf16 = 32 ∨ (Rect.block (s := S50000x128) S5000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .bf16 = 32 ∨ (Rect.block (s := S50000x128) S5000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .bf16 = 32 ∨ (Rect.block (s := S50000x128) S5000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .i32 = 32 ∨ (Rect.block (s := S50000x1) S5000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S128x128.size a ≤ S128x128.size a
  hwx6_0 : ∀ i : grid6.Coords, EltTy.bits .f32 = 32 ∨ (Rect.block (s := S128x128) S128x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S128x64.size a ≤ S128x64.size a
  hwx7_0 : ∀ i : grid7.Coords, EltTy.bits .f32 = 32 ∨ (Rect.block (s := S128x64) S128x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S128x32.size a ≤ S128x32.size a
  hwx7_3 : ∀ i : grid7.Coords, EltTy.bits .f32 = 32 ∨ (Rect.block (s := S128x32) S128x32.size (cc7_transform_3 i) (hinb7_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65) S128x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v81) S128x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83) S128x64.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v83) S128x64.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v84) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v85) S128x32.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S1x128 : Shape := ⟨2, ![1, 128]⟩
abbrev S_ : Shape := ⟨0, ![]⟩
abbrev S850000x1 : Shape := ⟨2, ![850000, 1]⟩
abbrev S850000x128 : Shape := ⟨2, ![850000, 128]⟩
abbrev S50000x1 : Shape := ⟨2, ![50000, 1]⟩
abbrev S128x1 : Shape := ⟨2, ![128, 1]⟩
abbrev S1x64 : Shape := ⟨2, ![1, 64]⟩
abbrev S128x32 : Shape := ⟨2, ![128, 32]⟩
abbrev S1x32 : Shape := ⟨2, ![1, 32]⟩

abbrev nBuf : Space → Nat
  | .hbm => 171
  | .vmem => 0
  | .smem => 0
  | _ => 0

abbrev hbmTy0_0 (i : Nat) : BufTy := match i % 128 with
  | 0 => ⟨S50000x64, .f32⟩
  | 1 => ⟨S50000x64, .f32⟩
  | 2 => ⟨S2x800000, .i32⟩
  | 3 => ⟨S50000, .i32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S64x32, .f32⟩
  | 13 => ⟨S32, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S50000x64, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x128, .f32⟩
  | 30 => ⟨S_, .f32⟩
  | 31 => ⟨S850000, .f32⟩
  | 32 => ⟨S_, .f32⟩
  | 33 => ⟨S50000, .f32⟩
  | 34 => ⟨S850000x1, .i32⟩
  | 35 => ⟨S50000, .f32⟩
  | 36 => ⟨S_, .f32⟩
  | 37 => ⟨S50000, .f32⟩
  | 38 => ⟨S50000, .i1⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x128, .f32⟩
  | 72 => ⟨S850000x1, .f32⟩
  | 73 => ⟨S850000x128, .f32⟩
  | 74 => ⟨S850000x128, .f32⟩
  | 75 => ⟨S_, .f32⟩
  | 76 => ⟨S50000x128, .f32⟩
  | 77 => ⟨S850000x1, .i32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S_, .f32⟩
  | 87 => ⟨S850000, .f32⟩
  | 88 => ⟨S_, .f32⟩
  | 89 => ⟨S50000, .f32⟩
  | 90 => ⟨S850000x1, .i32⟩
  | 91 => ⟨S50000, .f32⟩
  | 92 => ⟨S_, .f32⟩
  | 93 => ⟨S50000, .f32⟩
  | 94 => ⟨S50000, .i1⟩
  | 95 => ⟨S50000, .f32⟩
  | 96 => ⟨S_, .f32⟩
  | 97 => ⟨S_, .f32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x64, .f32⟩

abbrev hbmTy0_1 (i : Nat) : BufTy := match i % 128 with
  | 0 => ⟨S850000x1, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S128x128, .f32⟩
  | 15 => ⟨S50000x1, .i32⟩
  | 16 => ⟨S128x128, .f32⟩
  | 17 => ⟨S_, .f32⟩
  | 18 => ⟨S50000, .f32⟩
  | 19 => ⟨S_, .f32⟩
  | 20 => ⟨S128, .f32⟩
  | 21 => ⟨S50000x1, .i32⟩
  | 22 => ⟨S128, .f32⟩
  | 23 => ⟨S_, .f32⟩
  | 24 => ⟨S128, .f32⟩
  | 25 => ⟨S128, .f32⟩
  | 26 => ⟨S128x1, .f32⟩
  | 27 => ⟨S128x128, .f32⟩
  | 28 => ⟨S128x128, .f32⟩
  | 29 => ⟨S128x64, .f32⟩
  | 30 => ⟨S1x64, .f32⟩
  | 31 => ⟨S128x64, .f32⟩
  | 32 => ⟨S128x64, .f32⟩
  | 33 => ⟨S_, .f32⟩
  | 34 => ⟨S128x64, .f32⟩
  | 35 => ⟨S128x64, .f32⟩
  | 36 => ⟨S128x32, .f32⟩
  | 37 => ⟨S1x32, .f32⟩
  | 38 => ⟨S128x32, .f32⟩
  | 39 => ⟨S128x32, .f32⟩
  | 40 => ⟨S_, .f32⟩
  | 41 => ⟨S128x32, .f32⟩
  | 42 => ⟨S128x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_6 : Ref sig .tc := ⟨.hbm, 63, rfl⟩
abbrev main_v37 : Ref sig .tc := ⟨.hbm, 64, rfl⟩
abbrev main_v38 : Ref sig .tc := ⟨.hbm, 65, rfl⟩
abbrev main_c_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call2_cst : Ref sig .tc := ⟨.hbm, 82, rfl⟩
abbrev main_call2_v0 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_call3_v0 : Ref sig .tc := ⟨.hbm, 97, rfl⟩
abbrev main_call3_v1 : Ref sig .tc := ⟨.hbm, 98, rfl⟩
abbrev main_v62 : Ref sig .tc := ⟨.hbm, 99, rfl⟩
abbrev main_c_13 : Ref sig .tc := ⟨.hbm, 100, rfl⟩
abbrev main_v63 : Ref sig .tc := ⟨.hbm, 101, rfl⟩
abbrev main_v64 : Ref sig .tc := ⟨.hbm, 102, rfl⟩
abbrev main_c_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_15 : Ref sig .tc := ⟨.hbm, 109, rfl⟩
abbrev main_v70 : Ref sig .tc := ⟨.hbm, 110, rfl⟩
abbrev main_v71 : Ref sig .tc := ⟨.hbm, 111, rfl⟩
abbrev main_c_16 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_17 : Ref sig .tc := ⟨.hbm, 119, rfl⟩
abbrev main_v78 : Ref sig .tc := ⟨.hbm, 120, rfl⟩
abbrev main_v79 : Ref sig .tc := ⟨.hbm, 121, rfl⟩
abbrev main_c_18 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call4_cst : Ref sig .tc := ⟨.hbm, 138, rfl⟩
abbrev main_call4_v0 : Ref sig .tc := ⟨.hbm, 139, rfl⟩
abbrev main_v94 : Ref sig .tc := ⟨.hbm, 140, rfl⟩
abbrev main_cst_20 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_21 : Ref sig .tc := ⟨.hbm, 145, rfl⟩
abbrev main_v98 : Ref sig .tc := ⟨.hbm, 146, rfl⟩
abbrev main_cst_22 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_23 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_call5_cst : Ref sig .tc := ⟨.hbm, 161, rfl⟩
abbrev main_call5_v0 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_call6_cst : Ref sig .tc := ⟨.hbm, 168, rfl⟩
abbrev main_call6_v0 : Ref sig .tc := ⟨.hbm, 169, rfl⟩
abbrev main_v116 : Ref sig .tc := ⟨.hbm, 170, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x64_S128x64_1_0_0_1_n_n_wf : DotDims.WF S128x128 S128x64 S128x64 [1] [0] [0] [1] [] []
  dot_S128x64_S64x32_S128x32_1_0_0_1_n_n_wf : DotDims.WF S128x64 S64x32 S128x32 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

class Facts : Prop extends Facts₀ where

variable [Facts]
-- ==== Proof.BitsRegion0.lean ====
import proofs.«151719_j66898410602732_1_alg».proof.Proof.Gen.Kernel.Launch
import proofs.«151719_j66898410602732_1_alg».proof.Proof.Gen.Kernel.Skeleton
import proofs.«151719_j66898410602732_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- deciding that an index lies in a rectangle of 5000 rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds at the moment the region starts
variable (V : (c : Dev nD) → (b : Ref sig .tc) → Buf (Elt F) ((c : Thread nD τ).loc b))

/-! # Region 0: the sum of two blocks of 5000 rows times the 64×128 weight matrix, plus the bias row, clamped below at zero, rounded to bf16 -/

/-! ## The block each window shows at a grid point -/

/-- The part of window `w`'s array that grid point `t` addresses, taken from the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first row window moves to a new block at every point and is fetched there, so before the body its buffer
    holds that block. Stated for any proof data over the entry contents whose body returns the block unchanged. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second row window, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The weight window has a constant block index: it is fetched at the first point only, and at every later point
    the buffer still holds what the previous body left, which is the same block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The bias window, likewise constant. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer as a whole -/

abbrev r0_in : Rect S5000x64 := Rect.unit (s := S5000x64) ![0, 0] S5000x64.size inb_S5000x64_S5000x64_0_0
abbrev r0_wts : Rect S64x128 := Rect.unit (s := S64x128) ![0, 0] S64x128.size inb_S64x128_S64x128_0_0
abbrev r0_bias : Rect S1x128 := Rect.unit (s := S1x128) ![0, 0] S1x128.size inb_S1x128_S1x128_0_0
abbrev r0_rows : Rect S5000x128 := Rect.unit (s := S5000x128) ![0, 0] S5000x128.size inb_S5000x128_S5000x128_0_0

/-! ## The output buffer after the body -/

/-- The single store writes the whole output buffer with the payload `k0_pay1` of the four values read: the two
    row blocks added and rounded to bf16, multiplied by the weights rounded to bf16, the bias repeated down the
    rows added, the maximum with zero taken, the result rounded to bf16. -/
def out0_4 (x0 : Vec F S5000x64 .f32) (x1 : Vec F S5000x64 .f32) (x2 : Vec F S64x128 .f32) (x3 : Vec F S1x128 .f32) :
    Vec F S5000x128 .bf16 :=
  View.canon [⟨r0_rows, k0_pay1 (View.ld x0 r0_in) (View.ld x1 r0_in) (View.ld x2 r0_wts) (View.ld x3 r0_bias)⟩]

/-- One piece spanning the full extents covers every index; only the sizes are compared. -/
theorem cover0_4 (p0 : Vec F S5000x128 .bf16) (y : S5000x128.Idx) :
    ∃ pc ∈ ([⟨r0_rows, p0⟩] : List (View.Piece (Elt F) S5000x128 .bf16)), y ∈ pc.1.set :=
  View.cover_of_tiled [⟨r0_rows, p0⟩] S5000x128.size (by rfl) y

/-! ## The body's triple -/

set_option maxHeartbeats 1000000 in
/-- Given the four input buffers at read contents `x0 … x3` and the output buffer at anything, the body returns
    the inputs untouched and the output at `out0_4 x0 x1 x2 x3`. The load of the output buffer ahead of the store
    reads a value nothing uses. -/
theorem sound_kernel0 (c : Dev nD) (E : Set ℕ) (i : grid0.Coords)
    (arg1 : Memref sig .tc .vmem S5000x64 .f32) (harg1 : arg1.IsWhole)
    (arg2 : Memref sig .tc .vmem S5000x64 .f32) (harg2 : arg2.IsWhole)
    (arg3 : Memref sig .tc .vmem S64x128 .f32) (harg3 : arg3.IsWhole)
    (arg4 : Memref sig .tc .vmem S1x128 .f32) (harg4 : arg4.IsWhole)
    (arg5 : Memref sig .tc .vmem S5000x128 .bf16) (harg5 : arg5.IsWhole)
    (x0 : Vec F S5000x64 .f32) (x1 : Vec F S5000x64 .f32) (x2 : Vec F S64x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data of the pipeline -/

/-- Arrays as the region finds them; after the body an input buffer still shows its block and the output buffer
    shows `out0_4` of the four input blocks; the invariant is the untouched rest of the memory; full shares,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at an arbitrary point -/

/-- What holds when the body is entered at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what holds when it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The input buffers hold their blocks, so the body's triple applies; the invariant and the debt are carried across. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
import proofs.«151719_j66898410602732_1_alg».proof.Proof.Gen.Kernel.Launch
import proofs.«151719_j66898410602732_1_alg».proof.Proof.Gen.Kernel.Skeleton
import proofs.«151719_j66898410602732_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- deciding that an index lies in a rectangle of 5000 rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds at the moment the region starts
variable (V : (c : Dev nD) → (b : Ref sig .tc) → Buf (Elt F) ((c : Thread nD τ).loc b))

/-! # Region 1: the product of a block of 5000 rows with the 128×128 weight matrix -/

/-! ## The block each window shows at a grid point -/

/-- The part of window `w`'s array that grid point `t` addresses, taken from the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window (window 0) moves to a new block at every point and is fetched there, so before the body
    its buffer holds that block. Stated for any proof data over the entry contents whose body returns the
    block unchanged. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window (window 1) has a constant block index: it is fetched at the first point only, and at
    every later point the buffer still holds what the previous body left, which is the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: each buffer as a whole -/

abbrev r1_rows : Rect S5000x128 := Rect.unit (s := S5000x128) ![0, 0] S5000x128.size inb_S5000x128_S5000x128_0_0
abbrev r1_wts : Rect S128x128 := Rect.unit (s := S128x128) ![0, 0] S128x128.size inb_S128x128_S128x128_0_0

/-! ## The output buffer after the body -/

/-- The single store writes the whole output buffer with the product of the rows read from window 0 and the
    weights read from window 1 (the payload `k1_pay1`). -/
def out1_2 (x0 : Vec F S5000x128 .bf16) (x1 : Vec F S128x128 .f32) : Vec F S5000x128 .f32 :=
  View.canon [⟨r1_rows, k1_pay1 (View.ld x0 r1_rows) (View.ld x1 r1_wts)⟩]

/-- One piece spanning the full extents covers every index; only the sizes are compared. -/
theorem cover1_2 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

/-! ## The body's triple -/

set_option maxHeartbeats 1000000 in
/-- Given the two input buffers at read contents `x0`, `x1` and the output buffer at anything, the body returns
    the inputs untouched and the output at `out1_2 x0 x1`. The load of the output buffer ahead of the store
    reads a value nothing uses. -/
theorem sound_kernel1 (c : Dev nD) (E : Set ℕ) (i : grid1.Coords)
    (arg1 : Memref sig .tc .vmem S5000x128 .bf16) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .bf16) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data of the pipeline -/

/-- Arrays as the region finds them; after the body an input buffer still shows its block and the output buffer
    shows `out1_2` of the two input blocks; the invariant is the untouched rest of the memory; full shares,
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at an arbitrary point -/

/-- What holds when the body is entered at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what holds when it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The input buffers hold their blocks, so the body's triple applies; the invariant and the debt are carried across. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
import proofs.«151719_j66898410602732_1_alg».proof.Proof.Gen.Kernel.Launch
import proofs.«151719_j66898410602732_1_alg».proof.Proof.Gen.Kernel.Skeleton
import proofs.«151719_j66898410602732_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- deciding that an index lies in a rectangle of 5000 rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds at the moment the region starts
variable (V : (c : Dev nD) → (b : Ref sig .tc) → Buf (Elt F) ((c : Thread nD τ).loc b))

/-! # Region 2: a block of 5000 rows plus the bias row, clamped below at zero, rounded to bf16 -/

/-! ## The block each window shows at a grid point -/

/-- The part of window `w`'s array that grid point `t` addresses, taken from the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row window (window 0) moves to a new block at every point and is fetched there, so before the body
    its buffer holds that block. Stated for any proof data over the entry contents whose body returns the
    block unchanged. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias window (window 1) has a constant block index: it is fetched at the first point only, and at
    every later point the buffer still holds what the previous body left, which is the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each buffer as a whole -/

abbrev r2_rows : Rect S5000x128 := Rect.unit (s := S5000x128) ![0, 0] S5000x128.size inb_S5000x128_S5000x128_0_0
abbrev r2_bias : Rect S1x128 := Rect.unit (s := S1x128) ![0, 0] S1x128.size inb_S1x128_S1x128_0_0

/-! ## The output buffer after the body -/

/-- The single store writes the whole output buffer with the payload `k2_pay1` of the rows read from window 0
    and the bias read from window 1: their sum with the bias repeated down the rows, its maximum with zero,
    rounded to bf16. -/
def out2_2 (x0 : Vec F S5000x128 .f32) (x1 : Vec F S1x128 .f32) : Vec F S5000x128 .bf16 :=
  View.canon [⟨r2_rows, k2_pay1 (View.ld x0 r2_rows) (View.ld x1 r2_bias)⟩]

/-- One piece spanning the full extents covers every index; only the sizes are compared. -/
theorem cover2_2 (p0 : Vec F S5000x128 .bf16) (y : S5000x128.Idx) :
    ∃ pc ∈ ([⟨r2_rows, p0⟩] : List (View.Piece (Elt F) S5000x128 .bf16)), y ∈ pc.1.set :=
  View.cover_of_tiled [⟨r2_rows, p0⟩] S5000x128.size (by rfl) y

/-! ## The body's triple -/

set_option maxHeartbeats 1000000 in
/-- Given the two input buffers at read contents `x0`, `x1` and the output buffer at anything, the body returns
    the inputs untouched and the output at `out2_2 x0 x1`. The load of the output buffer ahead of the store
    reads a value nothing uses. -/
theorem sound_kernel2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S5000x128 .bf16) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- Arrays as the region finds them; after the body an input buffer still shows its block and the output buffer
    shows `out2_2` of the two input blocks; the invariant is the untouched rest of the memory; full shares,
    nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at an arbitrary point -/

/-- What holds when the body is entered at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what holds when it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The input buffers hold their blocks, so the body's triple applies; the invariant and the debt are carried across. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRegion3.lean ====
import proofs.«151719_j66898410602732_1_alg».proof.Proof.Gen.Kernel.Launch
import proofs.«151719_j66898410602732_1_alg».proof.Proof.Gen.Kernel.Skeleton
import proofs.«151719_j66898410602732_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- deciding that an index lies in a rectangle of 5000 rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds at the moment the region starts
variable (V : (c : Dev nD) → (b : Ref sig .tc) → Buf (Elt F) ((c : Thread nD τ).loc b))

/-! # Region 3: the product of a block of 5000 rows with the 128×128 weight matrix -/

/-! ## The block each window shows at a grid point -/

/-- The part of window `w`'s array that grid point `t` addresses, taken from the entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row window (window 0) moves to a new block at every point and is fetched there, so before the body
    its buffer holds that block. Stated for any proof data over the entry contents whose body returns the
    block unchanged. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window (window 1) has a constant block index: it is fetched at the first point only, and at
    every later point the buffer still holds what the previous body left, which is the same block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body touches: each buffer as a whole -/

abbrev r3_rows : Rect S5000x128 := Rect.unit (s := S5000x128) ![0, 0] S5000x128.size inb_S5000x128_S5000x128_0_0
abbrev r3_wts : Rect S128x128 := Rect.unit (s := S128x128) ![0, 0] S128x128.size inb_S128x128_S128x128_0_0

/-! ## The output buffer after the body -/

/-- The single store writes the whole output buffer with the product of the rows read from window 0 and the
    weights read from window 1 (the payload `k3_pay1`). -/
def out3_2 (x0 : Vec F S5000x128 .bf16) (x1 : Vec F S128x128 .f32) : Vec F S5000x128 .f32 :=
  View.canon [⟨r3_rows, k3_pay1 (View.ld x0 r3_rows) (View.ld x1 r3_wts)⟩]

/-- One piece spanning the full extents covers every index; only the sizes are compared. -/
theorem cover3_2 (p0 : Vec F S5000x128 .f32) (y : S5000x128.Idx) :
    ∃ pc ∈ ([⟨r3_rows, p0⟩] : List (View.Piece (Elt F) S5000x128 .f32)), y ∈ pc.1.set :=
  View.cover_of_tiled [⟨r3_rows, p0⟩] S5000x128.size (by rfl) y

/-! ## The body's triple -/

set_option maxHeartbeats 1000000 in
/-- Given the two input buffers at read contents `x0`, `x1` and the output buffer at anything, the body returns
    the inputs untouched and the output at `out3_2 x0 x1`. The load of the output buffer ahead of the store
    reads a value nothing uses. -/
theorem sound_kernel3 (c : Dev nD) (E : Set ℕ) (i : grid3.Coords)
    (arg1 : Memref sig .tc .vmem S5000x128 .bf16) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .bf16) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data of the pipeline -/

/-- Arrays as the region finds them; after the body an input buffer still shows its block and the output buffer
    shows `out3_2` of the two input blocks; the invariant is the untouched rest of the memory; full shares,
    nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation at an arbitrary point -/

/-- What holds when the body is entered at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what holds when it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The input buffers hold their blocks, so the body's triple applies; the invariant and the debt are carried across. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsRegion4.lean ====
import proofs.«151719_j66898410602732_1_alg».proof.Proof.Gen.Kernel.Launch
import proofs.«151719_j66898410602732_1_alg».proof.Proof.Gen.Kernel.Skeleton
import proofs.«151719_j66898410602732_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- deciding that an index lies in a rectangle of 5000 rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds at the moment the region starts
variable (V : (c : Dev nD) → (b : Ref sig .tc) → Buf (Elt F) ((c : Thread nD τ).loc b))

/-! # Region 4: a block of 5000 rows plus the bias row, clamped below at zero, rounded to bf16 -/

/-! ## The block each window shows at a grid point -/

/-- The part of window `w`'s array that grid point `t` addresses, taken from the entry contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row window (window 0) moves to a new block at every point and is fetched there, so before the body
    its buffer holds that block. Stated for any proof data over the entry contents whose body returns the
    block unchanged. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias window (window 1) has a constant block index: it is fetched at the first point only, and at
    every later point the buffer still holds what the previous body left, which is the same block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body touches: each buffer as a whole -/

abbrev r4_rows : Rect S5000x128 := Rect.unit (s := S5000x128) ![0, 0] S5000x128.size inb_S5000x128_S5000x128_0_0
abbrev r4_bias : Rect S1x128 := Rect.unit (s := S1x128) ![0, 0] S1x128.size inb_S1x128_S1x128_0_0

/-! ## The output buffer after the body -/

/-- The single store writes the whole output buffer with the payload `k4_pay1` of the rows read from window 0
    and the bias read from window 1: their sum with the bias repeated down the rows, its maximum with zero,
    rounded to bf16. -/
def out4_2 (x0 : Vec F S5000x128 .f32) (x1 : Vec F S1x128 .f32) : Vec F S5000x128 .bf16 :=
  View.canon [⟨r4_rows, k4_pay1 (View.ld x0 r4_rows) (View.ld x1 r4_bias)⟩]

/-- One piece spanning the full extents covers every index; only the sizes are compared. -/
theorem cover4_2 (p0 : Vec F S5000x128 .bf16) (y : S5000x128.Idx) :
    ∃ pc ∈ ([⟨r4_rows, p0⟩] : List (View.Piece (Elt F) S5000x128 .bf16)), y ∈ pc.1.set :=
  View.cover_of_tiled [⟨r4_rows, p0⟩] S5000x128.size (by rfl) y

/-! ## The body's triple -/

set_option maxHeartbeats 1000000 in
/-- Given the two input buffers at read contents `x0`, `x1` and the output buffer at anything, the body returns
    the inputs untouched and the output at `out4_2 x0 x1`. The load of the output buffer ahead of the store
    reads a value nothing uses. -/
theorem sound_kernel4 (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S5000x128 .bf16) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4_kernel i arg1 harg1 arg2 harg2 arg3 harg3) K := by
  simp only [cc4_kernel_eq_skeleton]; unfold cc4_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The proof data of the pipeline -/

/-- Arrays as the region finds them; after the body an input buffer still shows its block and the output buffer
    shows `out4_2` of the two input blocks; the invariant is the untouched rest of the memory; full shares,
    nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation at an arbitrary point -/

/-- What holds when the body is entered at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what holds when it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The input buffers hold their blocks, so the body's triple applies; the invariant and the debt are carried across. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.BitsRegion5Runs.lean ====
import proofs.«151719_j66898410602732_1_alg».proof.Proof.Gen.Kernel.Launch
import proofs.«151719_j66898410602732_1_alg».proof.Proof.Gen.Kernel.Skeleton
import proofs.«151719_j66898410602732_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # Region 5: the body's runs, one per control case

The body of this region keeps a running sum in a scratch buffer: at the first grid point it zeroes the scratch,
at every point it replaces the scratch by `k5_pay2 labels x scratch` (the scratch plus the one-hot pooling of the
point's rows), and at the last point it copies the scratch into the output window's buffer. Every access goes
through the whole-buffer rectangle, so each buffer's final contents are the payload of the last store into it, and
each load reads the buffer's contents (or the payload of the store before it). -/

/-! ## The two conditionals of the body, from the grid coordinate -/

/-- The first conditional's test (the point is the first one), the scalar chain substituted. -/
abbrev cond5_0 (i : grid5.Coords) : Prop := (Scalar.cmpi .ne (Scalar.extui (Scalar.cmpi .eq (BitVec.ofNat 32 (i 0).val) 0#32)) 0#32) = 1#1
/-- The second conditional's test (the point is the last one). -/
abbrev cond5_1 (i : grid5.Coords) : Prop := k5_cond2 i = 1#1

/-- The first test holds exactly at point 0: decided over the ten points. -/
theorem hcond5_0 : ∀ t : Fin cfg5.N, cond5_0 (grid5.coords t) ↔ t.val = 0 :=
  (by decide +kernel : ∀ t : Fin grid5.N, cond5_0 (grid5.coords t) ↔ t.val = 0)
/-- The second test holds exactly at point 9. -/
theorem hcond5_1 : ∀ t : Fin cfg5.N, cond5_1 (grid5.coords t) ↔ t.val = 9 :=
  (by decide +kernel : ∀ t : Fin grid5.N, cond5_1 (grid5.coords t) ↔ t.val = 9)

/-- The offsets of every access of the body are zero on both axes. -/
theorem off2_zero : (![0, 0] : Fin 2 → Nat) = fun _ => 0 := by
  funext a; fin_cases a <;> rfl

/-- A buffer whose last store went through the whole-buffer rectangle reads as that store's payload, whatever
    was stored before and whatever it held. -/
theorem read_writes_cons_whole {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-! ## The three runs -/

set_option maxHeartbeats 1000000 in
/-- THE FIRST POINT (first test true, second false). From the two input blocks `x0` (rows) and `x1` (labels), the
    output buffer at `xo` and the scratch at anything, the body ends with the inputs and the output buffer as they
    were and the scratch at `k5_pay2 x1 x0 k5_pay1`: the zero fill `k5_pay1` is stored whole, read back whole, and the
    sum over this point's rows added to it. -/
theorem run5_first (c : Dev nD) (i : grid5.Coords)
    (arg1 : Memref sig .tc .vmem S5000x128 .bf16) (harg1 : arg1.IsWhole)
    (arg2 : Memref sig .tc .vmem S5000x1 .i32) (harg2 : arg2.IsWhole)
    (arg3 : Memref sig .tc .vmem S128x128 .f32) (harg3 : arg3.IsWhole)
    (arg4 : Memref sig .tc .vmem S128x128 .f32) (harg4 : arg4.IsWhole)
    (hc0 : cond5_0 i) (hc1 : ¬cond5_1 i)
    (x0 : Vec F S5000x128 .bf16) (x1 : Vec F S5000x1 .i32) (xo : Vec F S128x128 .f32)
    (E : Set ℕ) (K : PUnit → sProp 𝕄) :
    iprop(owns (c : Thread nD τ) arg1 fullShare x0 ∗ owns (c : Thread nD τ) arg2 fullShare x1
        ∗ owns (c : Thread nD τ) arg3 fullShare xo ∗ (∃ d, owns (c : Thread nD τ) arg4 fullShare d)
        ∗ (iprop(owns (c : Thread nD τ) arg1 fullShare x0 ∗ owns (c : Thread nD τ) arg2 fullShare x1
            ∗ owns (c : Thread nD τ) arg3 fullShare xo
            ∗ owns (c : Thread nD τ) arg4 fullShare (k5_pay2 x1 x0 (k5_pay1 (F := F)))) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1
  obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  rw [read_writes_cons_whole _ _ off2_zero, View.readCov_cons_toLoadRect]
  simp only [View.readAt_eq_ld, harg1.read_unread, harg2.read_unread]
  rw [View.ld_unit_zero (S := S5000x1) off2_zero, View.ld_unit_zero (S := S5000x128) off2_zero]

set_option maxHeartbeats 1000000 in
/-- A MIDDLE POINT (both tests false). From the input blocks, the output buffer at `xo` and the scratch at `xs`
    (what the point before left), the body ends with the inputs and the output buffer as they were and the scratch
    at `k5_pay2 x1 x0 xs`. -/
theorem run5_mid (c : Dev nD) (i : grid5.Coords)
    (arg1 : Memref sig .tc .vmem S5000x128 .bf16) (harg1 : arg1.IsWhole)
    (arg2 : Memref sig .tc .vmem S5000x1 .i32) (harg2 : arg2.IsWhole)
    (arg3 : Memref sig .tc .vmem S128x128 .f32) (harg3 : arg3.IsWhole)
    (arg4 : Memref sig .tc .vmem S128x128 .f32) (harg4 : arg4.IsWhole)
    (hc0 : ¬cond5_0 i) (hc1 : ¬cond5_1 i)
    (x0 : Vec F S5000x128 .bf16) (x1 : Vec F S5000x1 .i32) (xo : Vec F S128x128 .f32) (xs : Vec F S128x128 .f32)
    (E : Set ℕ) (K : PUnit → sProp 𝕄) :
    iprop(owns (c : Thread nD τ) arg1 fullShare x0 ∗ owns (c : Thread nD τ) arg2 fullShare x1
        ∗ owns (c : Thread nD τ) arg3 fullShare xo ∗ owns (c : Thread nD τ) arg4 fullShare xs
        ∗ (iprop(owns (c : Thread nD τ) arg1 fullShare x0 ∗ owns (c : Thread nD τ) arg2 fullShare x1
            ∗ owns (c : Thread nD τ) arg3 fullShare xo
            ∗ owns (c : Thread nD τ) arg4 fullShare (k5_pay2 x1 x0 xs)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1
  obtain rfl := harg3.eq_unread hf2; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  rw [read_writes_cons_whole _ _ off2_zero]
  simp only [View.readAt_eq_ld, harg1.read_unread, harg2.read_unread, harg4.read_unread]
  rw [View.ld_unit_zero (S := S5000x1) off2_zero, View.ld_unit_zero (S := S5000x128) off2_zero,
    View.ld_unit_zero (S := S128x128) off2_zero]

set_option maxHeartbeats 1000000 in
/-- THE LAST POINT (first test false, second true). From the input blocks, the output buffer at anything and the
    scratch at `xs`, the body ends with the inputs as they were and BOTH the scratch and the output buffer at
    `k5_pay2 x1 x0 xs`: the scratch is updated as at a middle point, then read back whole and stored whole into the
    output buffer. -/
theorem run5_last (c : Dev nD) (i : grid5.Coords)
    (arg1 : Memref sig .tc .vmem S5000x128 .bf16) (harg1 : arg1.IsWhole)
    (arg2 : Memref sig .tc .vmem S5000x1 .i32) (harg2 : arg2.IsWhole)
    (arg3 : Memref sig .tc .vmem S128x128 .f32) (harg3 : arg3.IsWhole)
    (arg4 : Memref sig .tc .vmem S128x128 .f32) (harg4 : arg4.IsWhole)
    (hc0 : ¬cond5_0 i) (hc1 : cond5_1 i)
    (x0 : Vec F S5000x128 .bf16) (x1 : Vec F S5000x1 .i32) (xs : Vec F S128x128 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k5_pay2 x1 x0 xs)
            ∗ owns (c : Thread nD τ) arg4 fullShare (k5_pay2 x1 x0 xs)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1
  obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [read_writes_cons_whole _ _ off2_zero, View.readCov_cons_toLoadRect]
    simp only [View.readAt_eq_ld, harg1.read_unread, harg2.read_unread, harg4.read_unread]
    rw [View.ld_unit_zero (S := S5000x1) off2_zero, View.ld_unit_zero (S := S5000x128) off2_zero,
      View.ld_unit_zero (S := S128x128) off2_zero]
  iexists _; isplitr
  swap; · iexact HS
  ipureintro
  sl_unfold_run_names
  rw [read_writes_cons_whole _ _ off2_zero]
  simp only [View.readAt_eq_ld, harg1.read_unread, harg2.read_unread, harg4.read_unread]
  rw [View.ld_unit_zero (S := S5000x1) off2_zero, View.ld_unit_zero (S := S5000x128) off2_zero,
    View.ld_unit_zero (S := S128x128) off2_zero]

end Cert.Kernel.Hand

end
-- ==== Proof.BitsRegion5.lean ====
import proofs.«151719_j66898410602732_1_alg».proof.Proof.Gen.Kernel.Launch
import proofs.«151719_j66898410602732_1_alg».proof.Proof.Gen.Kernel.Skeleton
import proofs.«151719_j66898410602732_1_alg».proof.Proof.Gen.Kernel.Points
import proofs.«151719_j66898410602732_1_alg».proof.Proof.BitsRegion5Runs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! # Region 5: a pooling sum over ten blocks of rows, kept in a carried scratch

Windows 0 and 1 are the rows (blocks of 5000 × 128) and their labels (blocks of 5000 × 1); window 2 is the pooled
result [128,128], one block whose index never moves, written back once after the last point. A scratch [128,128] holds
the running sum: zeroed at the first point, increased at every point by that point's one-hot pooling
(`k5_pay2 labels rows scratch`), copied to the result's buffer at the last point. At the other nine points the result's
buffer is neither stored into nor written back. -/

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not: the body leaves the block
    in place, and where nothing is fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## Where the windows are idle -/

/-- The inputs are never idle. -/
theorem liveAt5_0 : ∀ t : Fin cfg5.N, cfg5.idle 0 (grid5.coords t) = false := by decide +kernel
theorem liveAt5_1 : ∀ t : Fin cfg5.N, cfg5.idle 1 (grid5.coords t) = false := by decide +kernel
/-- Before the last point the result's window is idle and not written back; at the last point it is live. -/
theorem idleAt5_2 : ∀ t : Fin cfg5.N, ¬t.val = 9 → cfg5.idle 2 (grid5.coords t) = true :=
  (by decide +kernel : ∀ t : Fin grid5.N, ¬t.val = 9 → cfg5.idle 2 (grid5.coords t) = true)
theorem noFlush5_2 : ∀ t : Fin cfg5.N, ¬t.val = 9 → (cfg5.win 2).flush t = false :=
  (by decide +kernel : ∀ t : Fin grid5.N, ¬t.val = 9 → win5_2.flush t = false)
theorem liveAt5_2 : ∀ t : Fin cfg5.N, t.val = 9 → cfg5.idle 2 (grid5.coords t) = false :=
  (by decide +kernel : ∀ t : Fin grid5.N, t.val = 9 → cfg5.idle 2 (grid5.coords t) = false)

/-! ## The staging memrefs, the scratch, and the rest of the scoped memory -/

/-- Each window's current staging memref at point `t`, as the pipeline passes it to the body. -/
abbrev ms5_0 (t : Fin cfg5.N) : Memref sig .tc .vmem S5000x128 .bf16 := win5_0.stage (cfg5.slots t 0)
abbrev ms5_1 (t : Fin cfg5.N) : Memref sig .tc .vmem S5000x1 .i32 := win5_1.stage (cfg5.slots t 1)
abbrev ms5_2 (t : Fin cfg5.N) : Memref sig .tc .vmem S128x128 .f32 := win5_2.stage (cfg5.slots t 2)
/-- The scratch the body carries between points: a whole scoped buffer of the region's own. -/
abbrev scM5 : Memref sig .tc .vmem S128x128 .f32 := Memref.whole cc5_scratch0

/-- Every scoped buffer of the core that is neither a staging buffer of this region nor its scratch (the other
    regions' staging buffers): the body never touches it, and it is carried through every point unopened. -/
def rest5 (c : Dev nD) : sProp 𝕄 :=
  Pipeline.scopedRestBut (Ix := Unit) (Name := ℕ) (U := UR sig nD τ) (Lvl := ℕ) (Val := Elt F) spec5 c [cc5_scratch0]

/-- What the launch hands the region, with the scratch taken out of the scoped rest and owned as a memref at some
    contents. -/
theorem PhiA5_eq (c : Dev nD) :
    (Pipeline.ΦA spec5 c : sProp 𝕄)
      = iprop(iprop(iprop(∃ d, owns (c : Thread nD τ) scM5 fullShare d) ∗ rest5 (F := F) c) ∗ (∃ r, prngReg c r)) := by
  unfold Pipeline.ΦA rest5; rw [scopedRest5_split]; simp only [scM5, owns_whole]; try rfl

/-! ## The running sum -/

/-- The scratch after point `n`: the zero fill plus the poolings of points `0 … n`, accumulated in the body's order. -/
def acc5 (c : Dev nD) : (n : ℕ) → n < cfg5.N → Vec F S128x128 .f32
  | 0, hn => k5_pay2 (iblk5 V c 1 ⟨0, hn⟩) (iblk5 V c 0 ⟨0, hn⟩) (k5_pay1 (F := F))
  | n + 1, hn => k5_pay2 (iblk5 V c 1 ⟨n + 1, hn⟩) (iblk5 V c 0 ⟨n + 1, hn⟩) (acc5 c n (Nat.lt_of_succ_lt hn))

theorem acc5_zero (c : Dev nD) (hn : 0 < cfg5.N) :
    acc5 V c 0 hn = k5_pay2 (iblk5 V c 1 ⟨0, hn⟩) (iblk5 V c 0 ⟨0, hn⟩) (k5_pay1 (F := F)) := rfl
theorem acc5_succ (c : Dev nD) (n : ℕ) (hn : n + 1 < cfg5.N) :
    acc5 V c (n + 1) hn = k5_pay2 (iblk5 V c 1 ⟨n + 1, hn⟩) (iblk5 V c 0 ⟨n + 1, hn⟩) (acc5 V c n (Nat.lt_of_succ_lt hn)) := rfl

/-- The running sum at the first point, stated at a point of the grid. -/
theorem acc5_first (c : Dev nD) (t : Fin cfg5.N) (h0 : t.val = 0) :
    acc5 V c t.val t.isLt = k5_pay2 (iblk5 V c 1 t) (iblk5 V c 0 t) (k5_pay1 (F := F)) := by
  obtain ⟨n, hn⟩ := t
  cases n with
  | zero => rfl
  | succ n => exact absurd h0 (Nat.succ_ne_zero n)

/-- The running sum at a later point: this point's pooling added to what the point before left. -/
theorem acc5_pos (c : Dev nD) (t : Fin cfg5.N) (h0 : ¬t.val = 0) :
    acc5 V c t.val t.isLt = k5_pay2 (iblk5 V c 1 t) (iblk5 V c 0 t)
      (acc5 V c (t.val - 1) (Nat.lt_of_le_of_lt (Nat.sub_le _ _) t.isLt)) := by
  obtain ⟨n, hn⟩ := t
  cases n with
  | zero => exact absurd rfl h0
  | succ n => rfl

/-! ## The region invariant -/

/-- Before the first point: what the launch hands over. Before point `n + 1`: the scratch owned at the running sum
    after point `n`, the untouched rest, and the generator register at some state. -/
def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn) ∗ rest5 (F := F) c) ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega)) ∗ rest5 (F := F) c) ∗ (∃ r, prngReg c r)) := by
  cases n with
  | zero => exact absurd rfl hz
  | succ n => rfl

/-! ## The proof data -/

/-- The arrays as the region finds them; after the body at point `t` each input's buffer at its block and the result's
    buffer at the running sum (which only the last point's value is ever read of: before it the window is idle); the
    invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]

/-- After the last point the result's buffer holds the running sum over all ten points. -/
theorem after5_2_last (c : Dev nD) :
    (dat5 V c).after 2 ⟨9, by decide⟩ = acc5 V c 9 (by decide) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point. The inputs' buffers hold their blocks; the point is the first, a middle or the last one,
    and that case's run applies. The invariant hands the body the scratch — at anything at the first point, at the
    running sum of the point before afterwards — and takes it back at this point's running sum; the rest of the scoped
    memory, the generator register and what the core owes pass through. Before the last point the result's buffer
    comes back as it was found; at the last point it comes back at the running sum. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h0 : t.val = 0
  · have h9 : ¬t.val = 9 := by omega
    rw [Dat.leavesExact_idle (dat5 V c) 2 t (idleAt5_2 t h9) (noFlush5_2 t h9)]
    rw [acc5_first V c t h0]
    rw [PhiS5_castSucc V c t, PhiS5_zero V c _ _ h0, PhiA5_eq]
    iintro ⟨⟨⟨HS, HR⟩, Hg⟩, Ho, ⟨%d0, H0⟩, ⟨%d1, H1⟩, ⟨%d2, H2⟩⟩
    iapply (run5_first c (grid5.coords t) _ _ _ _ _ _ _ _ ((hcond5_0 t).mpr h0) (fun h => h9 ((hcond5_1 t).mp h))
      (iblk5 V c 0 t) (iblk5 V c 1 t) _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h9 : t.val = 9
    · rw [show (dat5 V c).leavesExact 2 t = owns (c : Thread nD τ) (ms5_2 t) fullShare ((dat5 V c).after 2 t) from by
        unfold Dat.leavesExact; rw [liveAt5_2 t h9], after5_2]
      rw [acc5_pos V c t h0]
      rw [PhiS5_castSucc V c t, PhiS5_pos V c _ _ h0]
      iintro ⟨⟨⟨HS, HR⟩, Hg⟩, Ho, ⟨%d0, H0⟩, ⟨%d1, H1⟩, ⟨%d2, H2⟩⟩
      iapply (run5_last c (grid5.coords t) _ _ _ _ _ _ _ _ (fun h => h0 ((hcond5_0 t).mp h)) ((hcond5_1 t).mpr h9)
        (iblk5 V c 0 t) (iblk5 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat5 V c) 2 t (idleAt5_2 t h9) (noFlush5_2 t h9)]
      rw [acc5_pos V c t h0]
      rw [PhiS5_castSucc V c t, PhiS5_pos V c _ _ h0]
      iintro ⟨⟨⟨HS, HR⟩, Hg⟩, Ho, ⟨%d0, H0⟩, ⟨%d1, H1⟩, ⟨%d2, H2⟩⟩
      iapply (run5_mid c (grid5.coords t) _ _ _ _ _ _ _ _ (fun h => h0 ((hcond5_0 t).mp h)) (fun h => h9 ((hcond5_1 t).mp h))
        (iblk5 V c 0 t) (iblk5 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into and out of the invariant -/

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point the invariant gives back what the launch handed over: the scratch's contents are forgotten and it
    goes back into the scoped rest beside the part never opened. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]
    · iexists _; iexact HS
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 10 := N_5; omega)

end Cert.Kernel.Hand

end
-- ==== Proof.BitsRegion6.lean ====
import proofs.«151719_j66898410602732_1_alg».proof.Proof.Gen.Kernel.Launch
import proofs.«151719_j66898410602732_1_alg».proof.Proof.Gen.Kernel.Skeleton
import proofs.«151719_j66898410602732_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle's membership at these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! # The first layer of the prediction head: `max (pooled · W + b, 0)` on 128 rows, one grid point

Windows 0, 1, 2 are the pooled features [128,128], the weights [128,64] and the bias row [1,64], each one whole block;
window 3 is the result [128,64]. The body loads the three inputs whole, forms one value from them and stores it whole. -/

/-- A window's block at a grid point, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, whether or not the point fetches it: the body
    leaves the block in place and an unfetched point has the block index of the point before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev r6_x : Rect S128x128 := Rect.unit (s := S128x128) ![0, 0] S128x128.size inb_S128x128_S128x128_0_0
abbrev r6_w : Rect S128x64 := Rect.unit (s := S128x64) ![0, 0] S128x64.size inb_S128x64_S128x64_0_0
abbrev r6_b : Rect S1x64 := Rect.unit (s := S1x64) ![0, 0] S1x64.size inb_S1x64_S1x64_0_0

/-- What the result window's buffer holds after the body: its one store, of the layer's value of the three input blocks. -/
def out6_3 (x0 : Vec F S128x128 .f32) (x1 : Vec F S128x64 .f32) (x2 : Vec F S1x64 .f32) : Vec F S128x64 .f32 :=
  View.canon [⟨r6_w, k6_pay1 (View.ld x0 r6_x) (View.ld x1 r6_w) (View.ld x2 r6_b)⟩]

/-- The one store is of the whole buffer, so it covers it. -/
theorem cover6_3 (p0 : Vec F S128x64 .f32) (y : S128x64.Idx) :
    ∃ pc ∈ ([⟨r6_w, p0⟩] : List (View.Piece (Elt F) S128x64 .f32)), y ∈ pc.1.set :=
  View.cover_of_tiled [⟨r6_w, p0⟩] S128x64.size (by rfl) y

set_option maxHeartbeats 1000000 in
/-- The body on whole staging buffers, the inputs' at contents `x0 x1 x2` and the result's at anything: it runs to the
    continuation with the inputs' as they were and the result's at `out6_3 x0 x1 x2`. -/
theorem sound_kernel6 (c : Dev nD) (E : Set ℕ) (i : grid6.Coords)
    (arg1 : Memref sig .tc .vmem S128x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S128x64 .f32) (harg4 : arg4.IsWhole)
    (x0 : Vec F S128x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6_kernel i arg1 harg1 arg2 harg2 arg3 harg3 arg4 harg4) K := by
  simp only [cc6_kernel_eq_skeleton]; unfold cc6_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The region's proof data on a core: the arrays as the region finds them; after the body each input's buffer at its
    block and the result's at the layer's value of the input blocks; the invariant is the scoped buffers no window
    stages and the generator register, untouched; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at a point: the invariant, the core's dues, and each window's current buffer. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and the
    dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.BitsRegion7.lean ====
import proofs.«151719_j66898410602732_1_alg».proof.Proof.Gen.Kernel.Launch
import proofs.«151719_j66898410602732_1_alg».proof.Proof.Gen.Kernel.Skeleton
import proofs.«151719_j66898410602732_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle's membership at these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! # The second layer of the prediction head: `max (h · W + b, 0)` on 128 rows, one grid point

Windows 0, 1, 2 are the hidden features [128,64], the weights [64,32] and the bias row [1,32], each one whole block;
window 3 is the result [128,32]. The body loads the three inputs whole, forms one value from them and stores it whole. -/

/-- A window's block at a grid point, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, whether or not the point fetches it: the body
    leaves the block in place and an unfetched point has the block index of the point before. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev r7_x : Rect S128x64 := Rect.unit (s := S128x64) ![0, 0] S128x64.size inb_S128x64_S128x64_0_0
abbrev r7_w : Rect S64x32 := Rect.unit (s := S64x32) ![0, 0] S64x32.size inb_S64x32_S64x32_0_0
abbrev r7_b : Rect S1x32 := Rect.unit (s := S1x32) ![0, 0] S1x32.size inb_S1x32_S1x32_0_0
abbrev r7_o : Rect S128x32 := Rect.unit (s := S128x32) ![0, 0] S128x32.size inb_S128x32_S128x32_0_0

/-- What the result window's buffer holds after the body: its one store, of the layer's value of the three input blocks. -/
def out7_3 (x0 : Vec F S128x64 .f32) (x1 : Vec F S64x32 .f32) (x2 : Vec F S1x32 .f32) : Vec F S128x32 .f32 :=
  View.canon [⟨r7_o, k7_pay1 (View.ld x0 r7_x) (View.ld x1 r7_w) (View.ld x2 r7_b)⟩]

/-- The one store is of the whole buffer, so it covers it. -/
theorem cover7_3 (p0 : Vec F S128x32 .f32) (y : S128x32.Idx) :
    ∃ pc ∈ ([⟨r7_o, p0⟩] : List (View.Piece (Elt F) S128x32 .f32)), y ∈ pc.1.set :=
  View.cover_of_tiled [⟨r7_o, p0⟩] S128x32.size (by rfl) y

set_option maxHeartbeats 1000000 in
/-- The body on whole staging buffers, the inputs' at contents `x0 x1 x2` and the result's at anything: it runs to the
    continuation with the inputs' as they were and the result's at `out7_3 x0 x1 x2`. -/
theorem sound_kernel7 (c : Dev nD) (E : Set ℕ) (i : grid7.Coords)
    (arg1 : Memref sig .tc .vmem S128x64 .f32) (harg1 : arg1.IsWhole) (arg2 : Memref sig .tc .vmem S64x32 .f32) (harg2 : arg2.IsWhole)
    (arg3 : Memref sig .tc .vmem S1x32 .f32) (harg3 : arg3.IsWhole) (arg4 : Memref sig .tc .vmem S128x32 .f32) (harg4 : arg4.IsWhole)
    (x0 : Vec F S128x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The region's proof data on a core: the arrays as the region finds them; after the body each input's buffer at its
    block and the result's at the layer's value of the input blocks; the invariant is the scoped buffers no window
    stages and the generator register, untouched; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at a point: the invariant, the core's dues, and each window's current buffer. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and the
    dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.BitsRun.lean ====
/- The run of the whole program Kernel: what every buffer holds between two items of @main, a fold from the launch
   memory (a host stretch applies its operations; a kernel region leaves in each of its windows' arrays what its
   write-backs leave and every other buffer alone), the eight regions as segments between those contents, and the run:
   every weakly fair execution terminates, nothing faulting, with the result array at the last contents read at it and
   every argument array as launched. -/
import proofs.«151719_j66898410602732_1_alg».proof.Proof.BitsRegion0
import proofs.«151719_j66898410602732_1_alg».proof.Proof.BitsRegion1
import proofs.«151719_j66898410602732_1_alg».proof.Proof.BitsRegion2
import proofs.«151719_j66898410602732_1_alg».proof.Proof.BitsRegion3
import proofs.«151719_j66898410602732_1_alg».proof.Proof.BitsRegion4
import proofs.«151719_j66898410602732_1_alg».proof.Proof.BitsRegion5
import proofs.«151719_j66898410602732_1_alg».proof.Proof.BitsRegion6
import proofs.«151719_j66898410602732_1_alg».proof.Proof.BitsRegion7
import proofs.«151719_j66898410602732_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between two items -/

/-- At launch. -/
abbrev W0 : Dev nD → Valuation τ sig (Elt F) := fun c b => (s₀ m ρ).mem ((c : Dev nD), b)
/-- After the host stretch hostOps0. -/
abbrev W1 : Dev nD → Valuation τ sig (Elt F) := fun c => StableHlo.after hostOps0 (W0 m ρ c)

/-- After the host stretch hostOps0_1. -/
abbrev W2 : Dev nD → Valuation τ sig (Elt F) := fun c => StableHlo.after hostOps0_1 (W1 m ρ c)

/-- After the host stretch hostOps0_2. -/
abbrev W3 : Dev nD → Valuation τ sig (Elt F) := fun c => StableHlo.after hostOps0_2 (W2 m ρ c)

/-- The contents region 0 is entered from, read at the core's own references. -/
abbrev T3 : (c : Dev nD) → (b : Ref sig .tc) → Buf (Elt F) ((c : Thread nD τ).loc b) := fun c b => W3 m ρ c b
/-- After region 0: each of its windows' arrays at what the write-backs leave, every other buffer as entered. -/
def W4 (c : Dev nD) : Valuation τ sig (Elt F) :=
  Pipeline.withArrays spec0 c (W3 m ρ c) fun w => (dat0 (T3 m ρ) c).arrAt w cfg0.N
theorem W4_arr (c : Dev nD) (w : Fin cfg0.W) :
    W4 m ρ c (Proc.devRef .tc (Pipeline.arrRef spec0 w)) = (dat0 (T3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev T4x : (c : Dev nD) → (b : Ref sig .tc) → Buf (Elt F) ((c : Thread nD τ).loc b) := fun c b => W4 m ρ c b
theorem hF0 (c : Dev nD) (w : Fin cfg0.W) : (dat0 (T3 m ρ) c).arrAt w cfg0.N = T4x m ρ c (Pipeline.arrRef spec0 w) :=
  (W4_arr m ρ c w).symm
theorem hrest0 (c : Dev nD) : ∀ b, b ∉ Finset.univ.image (Pipeline.arrRef spec0) → T4x m ρ c b = T3 m ρ c b :=
  fun b hb => W4_of_ne m ρ c b fun w e => hb (Finset.mem_image.mpr ⟨w, Finset.mem_univ _, e⟩)

/-- The contents region 1 is entered from, read at the core's own references. -/
abbrev T4 : (c : Dev nD) → (b : Ref sig .tc) → Buf (Elt F) ((c : Thread nD τ).loc b) := fun c b => W4 m ρ c b
/-- After region 1: each of its windows' arrays at what the write-backs leave, every other buffer as entered. -/
def W5 (c : Dev nD) : Valuation τ sig (Elt F) :=
  Pipeline.withArrays spec1 c (W4 m ρ c) fun w => (dat1 (T4 m ρ) c).arrAt w cfg1.N
theorem W5_arr (c : Dev nD) (w : Fin cfg1.W) :
    W5 m ρ c (Proc.devRef .tc (Pipeline.arrRef spec1 w)) = (dat1 (T4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev T5x : (c : Dev nD) → (b : Ref sig .tc) → Buf (Elt F) ((c : Thread nD τ).loc b) := fun c b => W5 m ρ c b
theorem hF1 (c : Dev nD) (w : Fin cfg1.W) : (dat1 (T4 m ρ) c).arrAt w cfg1.N = T5x m ρ c (Pipeline.arrRef spec1 w) :=
  (W5_arr m ρ c w).symm
theorem hrest1 (c : Dev nD) : ∀ b, b ∉ Finset.univ.image (Pipeline.arrRef spec1) → T5x m ρ c b = T4 m ρ c b :=
  fun b hb => W5_of_ne m ρ c b fun w e => hb (Finset.mem_image.mpr ⟨w, Finset.mem_univ _, e⟩)

/-- After the host stretch hostOps2. -/
abbrev W6 : Dev nD → Valuation τ sig (Elt F) := fun c => StableHlo.after hostOps2 (W5 m ρ c)

/-- The contents region 2 is entered from, read at the core's own references. -/
abbrev T6 : (c : Dev nD) → (b : Ref sig .tc) → Buf (Elt F) ((c : Thread nD τ).loc b) := fun c b => W6 m ρ c b
/-- After region 2: each of its windows' arrays at what the write-backs leave, every other buffer as entered. -/
def W7 (c : Dev nD) : Valuation τ sig (Elt F) :=
  Pipeline.withArrays spec2 c (W6 m ρ c) fun w => (dat2 (T6 m ρ) c).arrAt w cfg2.N
theorem W7_arr (c : Dev nD) (w : Fin cfg2.W) :
    W7 m ρ c (Proc.devRef .tc (Pipeline.arrRef spec2 w)) = (dat2 (T6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev T7x : (c : Dev nD) → (b : Ref sig .tc) → Buf (Elt F) ((c : Thread nD τ).loc b) := fun c b => W7 m ρ c b
theorem hF2 (c : Dev nD) (w : Fin cfg2.W) : (dat2 (T6 m ρ) c).arrAt w cfg2.N = T7x m ρ c (Pipeline.arrRef spec2 w) :=
  (W7_arr m ρ c w).symm
theorem hrest2 (c : Dev nD) : ∀ b, b ∉ Finset.univ.image (Pipeline.arrRef spec2) → T7x m ρ c b = T6 m ρ c b :=
  fun b hb => W7_of_ne m ρ c b fun w e => hb (Finset.mem_image.mpr ⟨w, Finset.mem_univ _, e⟩)

/-- The contents region 3 is entered from, read at the core's own references. -/
abbrev T7 : (c : Dev nD) → (b : Ref sig .tc) → Buf (Elt F) ((c : Thread nD τ).loc b) := fun c b => W7 m ρ c b
/-- After region 3: each of its windows' arrays at what the write-backs leave, every other buffer as entered. -/
def W8 (c : Dev nD) : Valuation τ sig (Elt F) :=
  Pipeline.withArrays spec3 c (W7 m ρ c) fun w => (dat3 (T7 m ρ) c).arrAt w cfg3.N
theorem W8_arr (c : Dev nD) (w : Fin cfg3.W) :
    W8 m ρ c (Proc.devRef .tc (Pipeline.arrRef spec3 w)) = (dat3 (T7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev T8x : (c : Dev nD) → (b : Ref sig .tc) → Buf (Elt F) ((c : Thread nD τ).loc b) := fun c b => W8 m ρ c b
theorem hF3 (c : Dev nD) (w : Fin cfg3.W) : (dat3 (T7 m ρ) c).arrAt w cfg3.N = T8x m ρ c (Pipeline.arrRef spec3 w) :=
  (W8_arr m ρ c w).symm
theorem hrest3 (c : Dev nD) : ∀ b, b ∉ Finset.univ.image (Pipeline.arrRef spec3) → T8x m ρ c b = T7 m ρ c b :=
  fun b hb => W8_of_ne m ρ c b fun w e => hb (Finset.mem_image.mpr ⟨w, Finset.mem_univ _, e⟩)

/-- After the host stretch hostOps4. -/
abbrev W9 : Dev nD → Valuation τ sig (Elt F) := fun c => StableHlo.after hostOps4 (W8 m ρ c)

/-- The contents region 4 is entered from, read at the core's own references. -/
abbrev T9 : (c : Dev nD) → (b : Ref sig .tc) → Buf (Elt F) ((c : Thread nD τ).loc b) := fun c b => W9 m ρ c b
/-- After region 4: each of its windows' arrays at what the write-backs leave, every other buffer as entered. -/
def W10 (c : Dev nD) : Valuation τ sig (Elt F) :=
  Pipeline.withArrays spec4 c (W9 m ρ c) fun w => (dat4 (T9 m ρ) c).arrAt w cfg4.N
theorem W10_arr (c : Dev nD) (w : Fin cfg4.W) :
    W10 m ρ c (Proc.devRef .tc (Pipeline.arrRef spec4 w)) = (dat4 (T9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev T10x : (c : Dev nD) → (b : Ref sig .tc) → Buf (Elt F) ((c : Thread nD τ).loc b) := fun c b => W10 m ρ c b
theorem hF4 (c : Dev nD) (w : Fin cfg4.W) : (dat4 (T9 m ρ) c).arrAt w cfg4.N = T10x m ρ c (Pipeline.arrRef spec4 w) :=
  (W10_arr m ρ c w).symm
theorem hrest4 (c : Dev nD) : ∀ b, b ∉ Finset.univ.image (Pipeline.arrRef spec4) → T10x m ρ c b = T9 m ρ c b :=
  fun b hb => W10_of_ne m ρ c b fun w e => hb (Finset.mem_image.mpr ⟨w, Finset.mem_univ _, e⟩)

/-- After the host stretch hostOps5. -/
abbrev W11 : Dev nD → Valuation τ sig (Elt F) := fun c => StableHlo.after hostOps5 (W10 m ρ c)

/-- The contents region 5 is entered from, read at the core's own references. -/
abbrev T11 : (c : Dev nD) → (b : Ref sig .tc) → Buf (Elt F) ((c : Thread nD τ).loc b) := fun c b => W11 m ρ c b
/-- After region 5: each of its windows' arrays at what the write-backs leave, every other buffer as entered. -/
def W12 (c : Dev nD) : Valuation τ sig (Elt F) :=
  Pipeline.withArrays spec5 c (W11 m ρ c) fun w => (dat5 (T11 m ρ) c).arrAt w cfg5.N
theorem W12_arr (c : Dev nD) (w : Fin cfg5.W) :
    W12 m ρ c (Proc.devRef .tc (Pipeline.arrRef spec5 w)) = (dat5 (T11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev T12x : (c : Dev nD) → (b : Ref sig .tc) → Buf (Elt F) ((c : Thread nD τ).loc b) := fun c b => W12 m ρ c b
theorem hF5 (c : Dev nD) (w : Fin cfg5.W) : (dat5 (T11 m ρ) c).arrAt w cfg5.N = T12x m ρ c (Pipeline.arrRef spec5 w) :=
  (W12_arr m ρ c w).symm
theorem hrest5 (c : Dev nD) : ∀ b, b ∉ Finset.univ.image (Pipeline.arrRef spec5) → T12x m ρ c b = T11 m ρ c b :=
  fun b hb => W12_of_ne m ρ c b fun w e => hb (Finset.mem_image.mpr ⟨w, Finset.mem_univ _, e⟩)

/-- After the host stretch hostOps6. -/
abbrev W13 : Dev nD → Valuation τ sig (Elt F) := fun c => StableHlo.after hostOps6 (W12 m ρ c)

/-- After the host stretch hostOps6_1. -/
abbrev W14 : Dev nD → Valuation τ sig (Elt F) := fun c => StableHlo.after hostOps6_1 (W13 m ρ c)

/-- After the host stretch hostOps6_2. -/
abbrev W15 : Dev nD → Valuation τ sig (Elt F) := fun c => StableHlo.after hostOps6_2 (W14 m ρ c)

/-- The contents region 6 is entered from, read at the core's own references. -/
abbrev T15 : (c : Dev nD) → (b : Ref sig .tc) → Buf (Elt F) ((c : Thread nD τ).loc b) := fun c b => W15 m ρ c b
/-- After region 6: each of its windows' arrays at what the write-backs leave, every other buffer as entered. -/
def W16 (c : Dev nD) : Valuation τ sig (Elt F) :=
  Pipeline.withArrays spec6 c (W15 m ρ c) fun w => (dat6 (T15 m ρ) c).arrAt w cfg6.N
theorem W16_arr (c : Dev nD) (w : Fin cfg6.W) :
    W16 m ρ c (Proc.devRef .tc (Pipeline.arrRef spec6 w)) = (dat6 (T15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
abbrev T16x : (c : Dev nD) → (b : Ref sig .tc) → Buf (Elt F) ((c : Thread nD τ).loc b) := fun c b => W16 m ρ c b
theorem hF6 (c : Dev nD) (w : Fin cfg6.W) : (dat6 (T15 m ρ) c).arrAt w cfg6.N = T16x m ρ c (Pipeline.arrRef spec6 w) :=
  (W16_arr m ρ c w).symm
theorem hrest6 (c : Dev nD) : ∀ b, b ∉ Finset.univ.image (Pipeline.arrRef spec6) → T16x m ρ c b = T15 m ρ c b :=
  fun b hb => W16_of_ne m ρ c b fun w e => hb (Finset.mem_image.mpr ⟨w, Finset.mem_univ _, e⟩)

/-- After the host stretch hostOps7. -/
abbrev W17 : Dev nD → Valuation τ sig (Elt F) := fun c => StableHlo.after hostOps7 (W16 m ρ c)

/-- The contents region 7 is entered from, read at the core's own references. -/
abbrev T17 : (c : Dev nD) → (b : Ref sig .tc) → Buf (Elt F) ((c : Thread nD τ).loc b) := fun c b => W17 m ρ c b
/-- After region 7: each of its windows' arrays at what the write-backs leave, every other buffer as entered. -/
def W18 (c : Dev nD) : Valuation τ sig (Elt F) :=
  Pipeline.withArrays spec7 c (W17 m ρ c) fun w => (dat7 (T17 m ρ) c).arrAt w cfg7.N
theorem W18_arr (c : Dev nD) (w : Fin cfg7.W) :
    W18 m ρ c (Proc.devRef .tc (Pipeline.arrRef spec7 w)) = (dat7 (T17 m ρ) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb
abbrev T18x : (c : Dev nD) → (b : Ref sig .tc) → Buf (Elt F) ((c : Thread nD τ).loc b) := fun c b => W18 m ρ c b
theorem hF7 (c : Dev nD) (w : Fin cfg7.W) : (dat7 (T17 m ρ) c).arrAt w cfg7.N = T18x m ρ c (Pipeline.arrRef spec7 w) :=
  (W18_arr m ρ c w).symm
theorem hrest7 (c : Dev nD) : ∀ b, b ∉ Finset.univ.image (Pipeline.arrRef spec7) → T18x m ρ c b = T17 m ρ c b :=
  fun b hb => W18_of_ne m ρ c b fun w e => hb (Finset.mem_image.mpr ⟨w, Finset.mem_univ _, e⟩)

/-! ## No item changes an argument array: a host stretch writes none, a region reads one through an input window or not at all -/

theorem W18_main_arg0 (c : Dev nD) : W18 m ρ c (Proc.devRef .tc main_arg0) = m ((c : Thread nD τ).loc main_arg0) :=
  calc W18 m ρ c (Proc.devRef .tc main_arg0)
    _ = W17 m ρ c (Proc.devRef .tc main_arg0) := W18_of_ne m ρ c main_arg0 (by decide)
    _ = W16 m ρ c (Proc.devRef .tc main_arg0) := StableHlo.after_of_writes_sub hostOps7 _ hostOps7_writes (by decide)
    _ = W15 m ρ c (Proc.devRef .tc main_arg0) := W16_of_ne m ρ c main_arg0 (by decide)
    _ = W14 m ρ c (Proc.devRef .tc main_arg0) := StableHlo.after_of_writes_sub hostOps6_2 _ hostOps6_2_writes (by decide)
    _ = W13 m ρ c (Proc.devRef .tc main_arg0) := StableHlo.after_of_writes_sub hostOps6_1 _ hostOps6_1_writes (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := StableHlo.after_of_writes_sub hostOps2 _ hostOps2_writes (by decide)
    _ = W4 m ρ c (Proc.devRef .tc main_arg0) := W5_of_ne m ρ c main_arg0 (by decide)
    _ = W3 m ρ c (Proc.devRef .tc main_arg0) := (W4_arr m ρ c 0).trans (((dat0 (T3 m ρ) c).arrAt_in 0 rfl _).trans (A_eq0 (T3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W18_main_arg1 (c : Dev nD) : W18 m ρ c (Proc.devRef .tc main_arg1) = m ((c : Thread nD τ).loc main_arg1) :=
  calc W18 m ρ c (Proc.devRef .tc main_arg1)
    _ = W17 m ρ c (Proc.devRef .tc main_arg1) := W18_of_ne m ρ c main_arg1 (by decide)
    _ = W16 m ρ c (Proc.devRef .tc main_arg1) := StableHlo.after_of_writes_sub hostOps7 _ hostOps7_writes (by decide)
    _ = W15 m ρ c (Proc.devRef .tc main_arg1) := W16_of_ne m ρ c main_arg1 (by decide)
    _ = W14 m ρ c (Proc.devRef .tc main_arg1) := StableHlo.after_of_writes_sub hostOps6_2 _ hostOps6_2_writes (by decide)
    _ = W13 m ρ c (Proc.devRef .tc main_arg1) := StableHlo.after_of_writes_sub hostOps6_1 _ hostOps6_1_writes (by decide)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := StableHlo.after_of_writes_sub hostOps2 _ hostOps2_writes (by decide)
    _ = W4 m ρ c (Proc.devRef .tc main_arg1) := W5_of_ne m ρ c main_arg1 (by decide)
    _ = W3 m ρ c (Proc.devRef .tc main_arg1) := (W4_arr m ρ c 1).trans (((dat0 (T3 m ρ) c).arrAt_in 1 rfl _).trans (A_eq0 (T3 m ρ) c 1))
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W18_main_arg2 (c : Dev nD) : W18 m ρ c (Proc.devRef .tc main_arg2) = m ((c : Thread nD τ).loc main_arg2) :=
  calc W18 m ρ c (Proc.devRef .tc main_arg2)
    _ = W17 m ρ c (Proc.devRef .tc main_arg2) := W18_of_ne m ρ c main_arg2 (by decide)
    _ = W16 m ρ c (Proc.devRef .tc main_arg2) := StableHlo.after_of_writes_sub hostOps7 _ hostOps7_writes (by decide)
    _ = W15 m ρ c (Proc.devRef .tc main_arg2) := W16_of_ne m ρ c main_arg2 (by decide)
    _ = W14 m ρ c (Proc.devRef .tc main_arg2) := StableHlo.after_of_writes_sub hostOps6_2 _ hostOps6_2_writes (by decide)
    _ = W13 m ρ c (Proc.devRef .tc main_arg2) := StableHlo.after_of_writes_sub hostOps6_1 _ hostOps6_1_writes (by decide)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_writes_sub hostOps2 _ hostOps2_writes (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W18_main_arg3 (c : Dev nD) : W18 m ρ c (Proc.devRef .tc main_arg3) = m ((c : Thread nD τ).loc main_arg3) :=
  calc W18 m ρ c (Proc.devRef .tc main_arg3)
    _ = W17 m ρ c (Proc.devRef .tc main_arg3) := W18_of_ne m ρ c main_arg3 (by decide)
    _ = W16 m ρ c (Proc.devRef .tc main_arg3) := StableHlo.after_of_writes_sub hostOps7 _ hostOps7_writes (by decide)
    _ = W15 m ρ c (Proc.devRef .tc main_arg3) := W16_of_ne m ρ c main_arg3 (by decide)
    _ = W14 m ρ c (Proc.devRef .tc main_arg3) := StableHlo.after_of_writes_sub hostOps6_2 _ hostOps6_2_writes (by decide)
    _ = W13 m ρ c (Proc.devRef .tc main_arg3) := StableHlo.after_of_writes_sub hostOps6_1 _ hostOps6_1_writes (by decide)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := StableHlo.after_of_writes_sub hostOps2 _ hostOps2_writes (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W18_main_arg4 (c : Dev nD) : W18 m ρ c (Proc.devRef .tc main_arg4) = m ((c : Thread nD τ).loc main_arg4) :=
  calc W18 m ρ c (Proc.devRef .tc main_arg4)
    _ = W17 m ρ c (Proc.devRef .tc main_arg4) := W18_of_ne m ρ c main_arg4 (by decide)
    _ = W16 m ρ c (Proc.devRef .tc main_arg4) := StableHlo.after_of_writes_sub hostOps7 _ hostOps7_writes (by decide)
    _ = W15 m ρ c (Proc.devRef .tc main_arg4) := W16_of_ne m ρ c main_arg4 (by decide)
    _ = W14 m ρ c (Proc.devRef .tc main_arg4) := StableHlo.after_of_writes_sub hostOps6_2 _ hostOps6_2_writes (by decide)
    _ = W13 m ρ c (Proc.devRef .tc main_arg4) := StableHlo.after_of_writes_sub hostOps6_1 _ hostOps6_1_writes (by decide)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := StableHlo.after_of_writes_sub hostOps2 _ hostOps2_writes (by decide)
    _ = W4 m ρ c (Proc.devRef .tc main_arg4) := W5_of_ne m ρ c main_arg4 (by decide)
    _ = W3 m ρ c (Proc.devRef .tc main_arg4) := (W4_arr m ρ c 2).trans (((dat0 (T3 m ρ) c).arrAt_in 2 rfl _).trans (A_eq0 (T3 m ρ) c 2))
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W18_main_arg5 (c : Dev nD) : W18 m ρ c (Proc.devRef .tc main_arg5) = m ((c : Thread nD τ).loc main_arg5) :=
  calc W18 m ρ c (Proc.devRef .tc main_arg5)
    _ = W17 m ρ c (Proc.devRef .tc main_arg5) := W18_of_ne m ρ c main_arg5 (by decide)
    _ = W16 m ρ c (Proc.devRef .tc main_arg5) := StableHlo.after_of_writes_sub hostOps7 _ hostOps7_writes (by decide)
    _ = W15 m ρ c (Proc.devRef .tc main_arg5) := W16_of_ne m ρ c main_arg5 (by decide)
    _ = W14 m ρ c (Proc.devRef .tc main_arg5) := StableHlo.after_of_writes_sub hostOps6_2 _ hostOps6_2_writes (by decide)
    _ = W13 m ρ c (Proc.devRef .tc main_arg5) := StableHlo.after_of_writes_sub hostOps6_1 _ hostOps6_1_writes (by decide)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := StableHlo.after_of_writes_sub hostOps2 _ hostOps2_writes (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W18_main_arg6 (c : Dev nD) : W18 m ρ c (Proc.devRef .tc main_arg6) = m ((c : Thread nD τ).loc main_arg6) :=
  calc W18 m ρ c (Proc.devRef .tc main_arg6)
    _ = W17 m ρ c (Proc.devRef .tc main_arg6) := W18_of_ne m ρ c main_arg6 (by decide)
    _ = W16 m ρ c (Proc.devRef .tc main_arg6) := StableHlo.after_of_writes_sub hostOps7 _ hostOps7_writes (by decide)
    _ = W15 m ρ c (Proc.devRef .tc main_arg6) := W16_of_ne m ρ c main_arg6 (by decide)
    _ = W14 m ρ c (Proc.devRef .tc main_arg6) := StableHlo.after_of_writes_sub hostOps6_2 _ hostOps6_2_writes (by decide)
    _ = W13 m ρ c (Proc.devRef .tc main_arg6) := StableHlo.after_of_writes_sub hostOps6_1 _ hostOps6_1_writes (by decide)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := StableHlo.after_of_writes_sub hostOps2 _ hostOps2_writes (by decide)
    _ = W4 m ρ c (Proc.devRef .tc main_arg6) := (W5_arr m ρ c 1).trans (((dat1 (T4 m ρ) c).arrAt_in 1 rfl _).trans (A_eq1 (T4 m ρ) c 1))
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W18_main_arg7 (c : Dev nD) : W18 m ρ c (Proc.devRef .tc main_arg7) = m ((c : Thread nD τ).loc main_arg7) :=
  calc W18 m ρ c (Proc.devRef .tc main_arg7)
    _ = W17 m ρ c (Proc.devRef .tc main_arg7) := W18_of_ne m ρ c main_arg7 (by decide)
    _ = W16 m ρ c (Proc.devRef .tc main_arg7) := StableHlo.after_of_writes_sub hostOps7 _ hostOps7_writes (by decide)
    _ = W15 m ρ c (Proc.devRef .tc main_arg7) := W16_of_ne m ρ c main_arg7 (by decide)
    _ = W14 m ρ c (Proc.devRef .tc main_arg7) := StableHlo.after_of_writes_sub hostOps6_2 _ hostOps6_2_writes (by decide)
    _ = W13 m ρ c (Proc.devRef .tc main_arg7) := StableHlo.after_of_writes_sub hostOps6_1 _ hostOps6_1_writes (by decide)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := StableHlo.after_of_writes_sub hostOps2 _ hostOps2_writes (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W18_main_arg8 (c : Dev nD) : W18 m ρ c (Proc.devRef .tc main_arg8) = m ((c : Thread nD τ).loc main_arg8) :=
  calc W18 m ρ c (Proc.devRef .tc main_arg8)
    _ = W17 m ρ c (Proc.devRef .tc main_arg8) := W18_of_ne m ρ c main_arg8 (by decide)
    _ = W16 m ρ c (Proc.devRef .tc main_arg8) := StableHlo.after_of_writes_sub hostOps7 _ hostOps7_writes (by decide)
    _ = W15 m ρ c (Proc.devRef .tc main_arg8) := W16_of_ne m ρ c main_arg8 (by decide)
    _ = W14 m ρ c (Proc.devRef .tc main_arg8) := StableHlo.after_of_writes_sub hostOps6_2 _ hostOps6_2_writes (by decide)
    _ = W13 m ρ c (Proc.devRef .tc main_arg8) := StableHlo.after_of_writes_sub hostOps6_1 _ hostOps6_1_writes (by decide)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := (W8_arr m ρ c 1).trans (((dat3 (T7 m ρ) c).arrAt_in 1 rfl _).trans (A_eq3 (T7 m ρ) c 1))
    _ = W6 m ρ c (Proc.devRef .tc main_arg8) := W7_of_ne m ρ c main_arg8 (by decide)
    _ = W5 m ρ c (Proc.devRef .tc main_arg8) := StableHlo.after_of_writes_sub hostOps2 _ hostOps2_writes (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W18_main_arg9 (c : Dev nD) : W18 m ρ c (Proc.devRef .tc main_arg9) = m ((c : Thread nD τ).loc main_arg9) :=
  calc W18 m ρ c (Proc.devRef .tc main_arg9)
    _ = W17 m ρ c (Proc.devRef .tc main_arg9) := W18_of_ne m ρ c main_arg9 (by decide)
    _ = W16 m ρ c (Proc.devRef .tc main_arg9) := StableHlo.after_of_writes_sub hostOps7 _ hostOps7_writes (by decide)
    _ = W15 m ρ c (Proc.devRef .tc main_arg9) := W16_of_ne m ρ c main_arg9 (by decide)
    _ = W14 m ρ c (Proc.devRef .tc main_arg9) := StableHlo.after_of_writes_sub hostOps6_2 _ hostOps6_2_writes (by decide)
    _ = W13 m ρ c (Proc.devRef .tc main_arg9) := StableHlo.after_of_writes_sub hostOps6_1 _ hostOps6_1_writes (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := StableHlo.after_of_writes_sub hostOps2 _ hostOps2_writes (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W18_main_arg10 (c : Dev nD) : W18 m ρ c (Proc.devRef .tc main_arg10) = m ((c : Thread nD τ).loc main_arg10) :=
  calc W18 m ρ c (Proc.devRef .tc main_arg10)
    _ = W17 m ρ c (Proc.devRef .tc main_arg10) := W18_of_ne m ρ c main_arg10 (by decide)
    _ = W16 m ρ c (Proc.devRef .tc main_arg10) := StableHlo.after_of_writes_sub hostOps7 _ hostOps7_writes (by decide)
    _ = W15 m ρ c (Proc.devRef .tc main_arg10) := (W16_arr m ρ c 1).trans (((dat6 (T15 m ρ) c).arrAt_in 1 rfl _).trans (A_eq6 (T15 m ρ) c 1))
    _ = W14 m ρ c (Proc.devRef .tc main_arg10) := StableHlo.after_of_writes_sub hostOps6_2 _ hostOps6_2_writes (by decide)
    _ = W13 m ρ c (Proc.devRef .tc main_arg10) := StableHlo.after_of_writes_sub hostOps6_1 _ hostOps6_1_writes (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := StableHlo.after_of_writes_sub hostOps2 _ hostOps2_writes (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl
theorem W18_main_arg11 (c : Dev nD) : W18 m ρ c (Proc.devRef .tc main_arg11) = m ((c : Thread nD τ).loc main_arg11) :=
  calc W18 m ρ c (Proc.devRef .tc main_arg11)
    _ = W17 m ρ c (Proc.devRef .tc main_arg11) := W18_of_ne m ρ c main_arg11 (by decide)
    _ = W16 m ρ c (Proc.devRef .tc main_arg11) := StableHlo.after_of_writes_sub hostOps7 _ hostOps7_writes (by decide)
    _ = W15 m ρ c (Proc.devRef .tc main_arg11) := W16_of_ne m ρ c main_arg11 (by decide)
    _ = W14 m ρ c (Proc.devRef .tc main_arg11) := StableHlo.after_of_writes_sub hostOps6_2 _ hostOps6_2_writes (by decide)
    _ = W13 m ρ c (Proc.devRef .tc main_arg11) := StableHlo.after_of_writes_sub hostOps6_1 _ hostOps6_1_writes (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := StableHlo.after_of_writes_sub hostOps2 _ hostOps2_writes (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl
theorem W18_main_arg12 (c : Dev nD) : W18 m ρ c (Proc.devRef .tc main_arg12) = m ((c : Thread nD τ).loc main_arg12) :=
  calc W18 m ρ c (Proc.devRef .tc main_arg12)
    _ = W17 m ρ c (Proc.devRef .tc main_arg12) := (W18_arr m ρ c 1).trans (((dat7 (T17 m ρ) c).arrAt_in 1 rfl _).trans (A_eq7 (T17 m ρ) c 1))
    _ = W16 m ρ c (Proc.devRef .tc main_arg12) := StableHlo.after_of_writes_sub hostOps7 _ hostOps7_writes (by decide)
    _ = W15 m ρ c (Proc.devRef .tc main_arg12) := W16_of_ne m ρ c main_arg12 (by decide)
    _ = W14 m ρ c (Proc.devRef .tc main_arg12) := StableHlo.after_of_writes_sub hostOps6_2 _ hostOps6_2_writes (by decide)
    _ = W13 m ρ c (Proc.devRef .tc main_arg12) := StableHlo.after_of_writes_sub hostOps6_1 _ hostOps6_1_writes (by decide)
    _ = W12 m ρ c (Proc.devRef .tc main_arg12) := StableHlo.after_of_writes_sub hostOps6 _ hostOps6_writes (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := StableHlo.after_of_writes_sub hostOps2 _ hostOps2_writes (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := StableHlo.after_of_writes_sub hostOps0_2 _ hostOps0_2_writes (by decide)
    _ = W1 m ρ c (Proc.devRef .tc main_arg12) := StableHlo.after_of_writes_sub hostOps0_1 _ hostOps0_1_writes (by decide)
    _ = W0 m ρ c (Proc.devRef .tc main_arg12) := StableHlo.after_of_writes_sub hostOps0 _ hostOps0_writes (by decide)
    _ = m ((c : Thread nD τ).loc main_arg12) := rfl
theorem W18_main_arg13 (c : Dev nD) : W18 m ρ c (Proc.devRef .tc main_arg13) = m ((c : Thread nD τ).loc main_arg13) :=
  calc W18 m ρ c (Proc.devRef .tc main_arg13)
    _ = W17 m ρ c (Proc.devRef .tc main_arg13) := W18_of_ne m ρ c main_arg13 (by decide)
    _ = W16 m ρ c (Proc.devRef .tc main_arg13) := StableHlo.after_of_writes_sub hostOps7 _ hostOps7_writes (by decide)
    _ = W15 m ρ c (Proc.devRef .tc main_arg13) := W16_of_ne m ρ c main_arg13 (by decide)
    _ = W14 m ρ c (Proc.devRef .tc main_arg13) := StableHlo.after_of_writes_sub hostOps6_2 _ hostOps6_2_writes (by decide)
    _ = W13 m ρ c (Proc.devRef .tc main_arg13) := StableHlo.after_of_writes_sub hostOps6_1 _ hostOps6_1_writes (by decide)
    _ = W12 m ρ c (Proc.devRef .tc main_arg13) := StableHlo.after_of_writes_sub hostOps6 _ hostOps6_writes (by decide)
    _ = W11 m ρ c (Proc.devRef .tc main_arg13) := W12_of_ne m ρ c main_arg13 (by decide)
    _ = W10 m ρ c (Proc.devRef .tc main_arg13) := StableHlo.after_of_writes_sub hostOps5 _ hostOps5_writes (by decide)
    _ = W9 m ρ c (Proc.devRef .tc main_arg13) := W10_of_ne m ρ c main_arg13 (by decide)
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := StableHlo.after_of_writes_sub hostOps2 _ hostOps2_writes (by decide)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := StableHlo.after_of_writes_sub hostOps0_2 _ hostOps0_2_writes (by decide)
    _ = W1 m ρ c (Proc.devRef .tc main_arg13) := StableHlo.after_of_writes_sub hostOps0_1 _ hostOps0_1_writes (by decide)
    _ = W0 m ρ c (Proc.devRef .tc main_arg13) := StableHlo.after_of_writes_sub hostOps0 _ hostOps0_writes (by decide)
    _ = m ((c : Thread nD τ).loc main_arg13) := rfl

/-! ## The proof data family and what rides beside the buffers -/

abbrev adm : (p : Fin 8) → (pcfgs (F := F) p).Adm := fun p => (cfgs p).toPCfg_adm
/-- Every region's proof data at the contents it is entered from: a literal match on the region's number. -/
def pdats : (p : Fin 8) → (c : Dev nD) → Dat τ (Elt F) Unit ℕ (UR sig nD τ) ℕ (Pipeline.pin (pcfgs (F := F)) adm p) c
  | ⟨0, _⟩ => fun c => dat0 (T3 m ρ) c
  | ⟨1, _⟩ => fun c => dat1 (T4 m ρ) c
  | ⟨2, _⟩ => fun c => dat2 (T6 m ρ) c
  | ⟨3, _⟩ => fun c => dat3 (T7 m ρ) c
  | ⟨4, _⟩ => fun c => dat4 (T9 m ρ) c
  | ⟨5, _⟩ => fun c => dat5 (T11 m ρ) c
  | ⟨6, _⟩ => fun c => dat6 (T15 m ρ) c
  | ⟨7, _⟩ => fun c => dat7 (T17 m ρ) c
abbrev 𝒱₀ : Variants := Variants.none
abbrev L : GSem nD τ sig → Finset Unit := fun _ => ∅
abbrev lv : GSem nD τ sig → Unit → ℕ := fun _ _ => 0
/-- Beside the buffers: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m ρ c) ∗ ∃ r, prngReg c r)

/-! ## The regions as segments -/

set_option backward.isDefEq.respectTransparency.types false in
/-- Region 0 between the contents W3 and W4: its arrays split out of the unscoped buffers at entry and put back at
    what the write-backs leave; the generator register into the region's invariant and out; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (T3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T3 m ρ c) (T4x m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents W4 and W5: its arrays split out of the unscoped buffers at entry and put back at
    what the write-backs leave; the generator register into the region's invariant and out; nothing owed; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (T4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T4 m ρ c) (T5x m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents W6 and W7: its arrays split out of the unscoped buffers at entry and put back at
    what the write-backs leave; the generator register into the region's invariant and out; nothing owed; no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (T6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (T6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (T6 m ρ c) (T7x m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the contents W7 and W8: its arrays split out of the unscoped buffers at entry and put back at
    what the write-backs leave; the generator register into the region's invariant and out; nothing owed; no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (T7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (T7 m ρ c) (T8x m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 between the contents W9 and W10: its arrays split out of the unscoped buffers at entry and put back at
    what the write-backs leave; the generator register into the region's invariant and out; nothing owed; no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (T9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (T9 m ρ c) (T10x m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 between the contents W11 and W12: its arrays split out of the unscoped buffers at entry and put back at
    what the write-backs leave; the generator register into the region's invariant and out; nothing owed; no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (T11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (T11 m ρ) c).Φ 0 from rfl]
    have h := hin5 (T11 m ρ) c
    unfold Pipeline.ΦA at h
    iintro ⟨Hp, -, Hr⟩
    iapply h
    isplitl [Hr]; · iexact Hr
    iexact Hp
  hout c := by
    rw [Pipeline.ownSems0_none, show (pdats m ρ 5 c).Φ (Fin.last _) = (dat5 (T11 m ρ) c).Φ (Fin.last cfg5.N) from rfl]
    have h := hout5 (T11 m ρ) c
    unfold Pipeline.ΦA at h
    iintro Hf
    ihave H := h $$ Hf
    icases H with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (T11 m ρ c) (T12x m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 between the contents W15 and W16: its arrays split out of the unscoped buffers at entry and put back at
    what the write-backs leave; the generator register into the region's invariant and out; nothing owed; no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T15 m ρ) c).loose
  hwaits := Pipeline.hwaits_of_owed_zero _ _ _ _ L lv 6 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec6 c (T15 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (T15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (T15 m ρ c) (T16x m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 between the contents W17 and W18: its arrays split out of the unscoped buffers at entry and put back at
    what the write-backs leave; the generator register into the region's invariant and out; nothing owed; no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T17 m ρ) c).loose
  hwaits := Pipeline.hwaits_of_owed_zero _ _ _ _ L lv 7 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec7 c (T17 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (T17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (T17 m ρ c) (T18x m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the run of its segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .region (reg2 m ρ),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .host (hseg hostOps6_1 hostOps6_1_sub hostOps6_1_fresh (W13 m ρ)),
    .host (hseg hostOps6_2 hostOps6_2_sub hostOps6_2_fresh (W14 m ρ)),
    .region (reg6 m ρ),
    .host (hseg hostOps7 hostOps7_sub hostOps7_fresh (W16 m ρ)),
    .region (reg7 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting; the result
    array then holds the last contents W18 read at it and every argument array what it held at launch. -/
theorem run_all : θ_run defs (onTc (τ := τ) (main (F := F))) ⟨m, fun _ => 0, ρ⟩ (fun r => ∀ c : Dev nD,
      r.2.mem ((c.tc : Thread nD τ).loc main_v85) = W18 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W18 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v85 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c)⟩)

end Cert.Kernel.Hand

end
-- ==== Proof.IdealRegion0.lean ====
import proofs.«151719_j66898410602732_1_alg».proof.Proof.Gen.KernelIdeal.Launch
import proofs.«151719_j66898410602732_1_alg».proof.Proof.Gen.KernelIdeal.Skeleton
import proofs.«151719_j66898410602732_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- deciding that an index lies in a rectangle of 5000 rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds at the moment the region starts
variable (V : (c : Dev nD) → (b : Ref sig .tc) → Buf (Elt F) ((c : Thread nD τ).loc b))

/-! # Region 0: the sum of two blocks of 5000 rows times the 64×128 weight matrix, plus the bias row, clamped below at zero, rounded to bf16 -/

/-! ## The block each window shows at a grid point -/

/-- The part of window `w`'s array that grid point `t` addresses, taken from the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first row window moves to a new block at every point and is fetched there, so before the body its buffer
    holds that block. Stated for any proof data over the entry contents whose body returns the block unchanged. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second row window, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The weight window has a constant block index: it is fetched at the first point only, and at every later point
    the buffer still holds what the previous body left, which is the same block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The bias window, likewise constant. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer as a whole -/

abbrev r0_in : Rect S5000x64 := Rect.unit (s := S5000x64) ![0, 0] S5000x64.size inb_S5000x64_S5000x64_0_0
abbrev r0_wts : Rect S64x128 := Rect.unit (s := S64x128) ![0, 0] S64x128.size inb_S64x128_S64x128_0_0
abbrev r0_bias : Rect S1x128 := Rect.unit (s := S1x128) ![0, 0] S1x128.size inb_S1x128_S1x128_0_0
abbrev r0_rows : Rect S5000x128 := Rect.unit (s := S5000x128) ![0, 0] S5000x128.size inb_S5000x128_S5000x128_0_0

/-! ## The output buffer after the body -/

/-- The single store writes the whole output buffer with the payload `k0_pay1` of the four values read: the two
    row blocks added and rounded to bf16, multiplied by the weights rounded to bf16, the bias repeated down the
    rows added, the maximum with zero taken, the result rounded to bf16. -/
def out0_4 (x0 : Vec F S5000x64 .f32) (x1 : Vec F S5000x64 .f32) (x2 : Vec F S64x128 .f32) (x3 : Vec F S1x128 .f32) :
    Vec F S5000x128 .bf16 :=
  View.canon [⟨r0_rows, k0_pay1 (View.ld x0 r0_in) (View.ld x1 r0_in) (View.ld x2 r0_wts) (View.ld x3 r0_bias)⟩]

/-- One piece spanning the full extents covers every index; only the sizes are compared. -/
theorem cover0_4 (p0 : Vec F S5000x128 .bf16) (y : S5000x128.Idx) :
    ∃ pc ∈ ([⟨r0_rows, p0⟩] : List (View.Piece (Elt F) S5000x128 .bf16)), y ∈ pc.1.set :=
  View.cover_of_tiled [⟨r0_rows, p0⟩] S5000x128.size (by rfl) y

/-! ## The body's triple -/

set_option maxHeartbeats 1000000 in
/-- Given the four input buffers at read contents `x0 … x3` and the output buffer at anything, the body returns
    the inputs untouched and the output at `out0_4 x0 x1 x2 x3`. The load of the output buffer ahead of the store
    reads a value nothing uses. -/
theorem sound_kernel0 (c : Dev nD) (E : Set ℕ) (i : grid0.Coords)
    (arg1 : Memref sig .tc .vmem S5000x64 .f32) (harg1 : arg1.IsWhole)
    (arg2 : Memref sig .tc .vmem S5000x64 .f32) (harg2 : arg2.IsWhole)
    (arg3 : Memref sig .tc .vmem S64x128 .f32) (harg3 : arg3.IsWhole)
    (arg4 : Memref sig .tc .vmem S1x128 .f32) (harg4 : arg4.IsWhole)
    (arg5 : Memref sig .tc .vmem S5000x128 .bf16) (harg5 : arg5.IsWhole)
    (x0 : Vec F S5000x64 .f32) (x1 : Vec F S5000x64 .f32) (x2 : Vec F S64x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data of the pipeline -/

/-- Arrays as the region finds them; after the body an input buffer still shows its block and the output buffer
    shows `out0_4` of the four input blocks; the invariant is the untouched rest of the memory; full shares,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at an arbitrary point -/

/-- What holds when the body is entered at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what holds when it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The input buffers hold their blocks, so the body's triple applies; the invariant and the debt are carried across. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
import proofs.«151719_j66898410602732_1_alg».proof.Proof.Gen.KernelIdeal.Launch
import proofs.«151719_j66898410602732_1_alg».proof.Proof.Gen.KernelIdeal.Skeleton
import proofs.«151719_j66898410602732_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- deciding that an index lies in a rectangle of 5000 rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds at the moment the region starts
variable (V : (c : Dev nD) → (b : Ref sig .tc) → Buf (Elt F) ((c : Thread nD τ).loc b))

/-! # Region 1: the product of a block of 5000 rows with the 128×128 weight matrix -/

/-! ## The block each window shows at a grid point -/

/-- The part of window `w`'s array that grid point `t` addresses, taken from the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window (window 0) moves to a new block at every point and is fetched there, so before the body
    its buffer holds that block. Stated for any proof data over the entry contents whose body returns the
    block unchanged. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window (window 1) has a constant block index: it is fetched at the first point only, and at
    every later point the buffer still holds what the previous body left, which is the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: each buffer as a whole -/

abbrev r1_rows : Rect S5000x128 := Rect.unit (s := S5000x128) ![0, 0] S5000x128.size inb_S5000x128_S5000x128_0_0
abbrev r1_wts : Rect S128x128 := Rect.unit (s := S128x128) ![0, 0] S128x128.size inb_S128x128_S128x128_0_0

/-! ## The output buffer after the body -/

/-- The single store writes the whole output buffer with the product of the rows read from window 0 and the
    weights read from window 1 (the payload `k1_pay1`). -/
def out1_2 (x0 : Vec F S5000x128 .bf16) (x1 : Vec F S128x128 .f32) : Vec F S5000x128 .f32 :=
  View.canon [⟨r1_rows, k1_pay1 (View.ld x0 r1_rows) (View.ld x1 r1_wts)⟩]

/-- One piece spanning the full extents covers every index; only the sizes are compared. -/
theorem cover1_2 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

/-! ## The body's triple -/

set_option maxHeartbeats 1000000 in
/-- Given the two input buffers at read contents `x0`, `x1` and the output buffer at anything, the body returns
    the inputs untouched and the output at `out1_2 x0 x1`. The load of the output buffer ahead of the store
    reads a value nothing uses. -/
theorem sound_kernel1 (c : Dev nD) (E : Set ℕ) (i : grid1.Coords)
    (arg1 : Memref sig .tc .vmem S5000x128 .bf16) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .bf16) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data of the pipeline -/

/-- Arrays as the region finds them; after the body an input buffer still shows its block and the output buffer
    shows `out1_2` of the two input blocks; the invariant is the untouched rest of the memory; full shares,
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at an arbitrary point -/

/-- What holds when the body is entered at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what holds when it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The input buffers hold their blocks, so the body's triple applies; the invariant and the debt are carried across. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
import proofs.«151719_j66898410602732_1_alg».proof.Proof.Gen.KernelIdeal.Launch
import proofs.«151719_j66898410602732_1_alg».proof.Proof.Gen.KernelIdeal.Skeleton
import proofs.«151719_j66898410602732_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- deciding that an index lies in a rectangle of 5000 rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds at the moment the region starts
variable (V : (c : Dev nD) → (b : Ref sig .tc) → Buf (Elt F) ((c : Thread nD τ).loc b))

/-! # Region 2: a block of 5000 rows plus the bias row, clamped below at zero, rounded to bf16 -/

/-! ## The block each window shows at a grid point -/

/-- The part of window `w`'s array that grid point `t` addresses, taken from the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row window (window 0) moves to a new block at every point and is fetched there, so before the body
    its buffer holds that block. Stated for any proof data over the entry contents whose body returns the
    block unchanged. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias window (window 1) has a constant block index: it is fetched at the first point only, and at
    every later point the buffer still holds what the previous body left, which is the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each buffer as a whole -/

abbrev r2_rows : Rect S5000x128 := Rect.unit (s := S5000x128) ![0, 0] S5000x128.size inb_S5000x128_S5000x128_0_0
abbrev r2_bias : Rect S1x128 := Rect.unit (s := S1x128) ![0, 0] S1x128.size inb_S1x128_S1x128_0_0

/-! ## The output buffer after the body -/

/-- The single store writes the whole output buffer with the payload `k2_pay1` of the rows read from window 0
    and the bias read from window 1: their sum with the bias repeated down the rows, its maximum with zero,
    rounded to bf16. -/
def out2_2 (x0 : Vec F S5000x128 .f32) (x1 : Vec F S1x128 .f32) : Vec F S5000x128 .bf16 :=
  View.canon [⟨r2_rows, k2_pay1 (View.ld x0 r2_rows) (View.ld x1 r2_bias)⟩]

/-- One piece spanning the full extents covers every index; only the sizes are compared. -/
theorem cover2_2 (p0 : Vec F S5000x128 .bf16) (y : S5000x128.Idx) :
    ∃ pc ∈ ([⟨r2_rows, p0⟩] : List (View.Piece (Elt F) S5000x128 .bf16)), y ∈ pc.1.set :=
  View.cover_of_tiled [⟨r2_rows, p0⟩] S5000x128.size (by rfl) y

/-! ## The body's triple -/

set_option maxHeartbeats 1000000 in
/-- Given the two input buffers at read contents `x0`, `x1` and the output buffer at anything, the body returns
    the inputs untouched and the output at `out2_2 x0 x1`. The load of the output buffer ahead of the store
    reads a value nothing uses. -/
theorem sound_kernel2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S5000x128 .bf16) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- Arrays as the region finds them; after the body an input buffer still shows its block and the output buffer
    shows `out2_2` of the two input blocks; the invariant is the untouched rest of the memory; full shares,
    nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at an arbitrary point -/

/-- What holds when the body is entered at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what holds when it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The input buffers hold their blocks, so the body's triple applies; the invariant and the debt are carried across. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRegion3.lean ====
import proofs.«151719_j66898410602732_1_alg».proof.Proof.Gen.KernelIdeal.Launch
import proofs.«151719_j66898410602732_1_alg».proof.Proof.Gen.KernelIdeal.Skeleton
import proofs.«151719_j66898410602732_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- deciding that an index lies in a rectangle of 5000 rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds at the moment the region starts
variable (V : (c : Dev nD) → (b : Ref sig .tc) → Buf (Elt F) ((c : Thread nD τ).loc b))

/-! # Region 3: the product of a block of 5000 rows with the 128×128 weight matrix -/

/-! ## The block each window shows at a grid point -/

/-- The part of window `w`'s array that grid point `t` addresses, taken from the entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row window (window 0) moves to a new block at every point and is fetched there, so before the body
    its buffer holds that block. Stated for any proof data over the entry contents whose body returns the
    block unchanged. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window (window 1) has a constant block index: it is fetched at the first point only, and at
    every later point the buffer still holds what the previous body left, which is the same block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body touches: each buffer as a whole -/

abbrev r3_rows : Rect S5000x128 := Rect.unit (s := S5000x128) ![0, 0] S5000x128.size inb_S5000x128_S5000x128_0_0
abbrev r3_wts : Rect S128x128 := Rect.unit (s := S128x128) ![0, 0] S128x128.size inb_S128x128_S128x128_0_0

/-! ## The output buffer after the body -/

/-- The single store writes the whole output buffer with the product of the rows read from window 0 and the
    weights read from window 1 (the payload `k3_pay1`). -/
def out3_2 (x0 : Vec F S5000x128 .bf16) (x1 : Vec F S128x128 .f32) : Vec F S5000x128 .f32 :=
  View.canon [⟨r3_rows, k3_pay1 (View.ld x0 r3_rows) (View.ld x1 r3_wts)⟩]

/-- One piece spanning the full extents covers every index; only the sizes are compared. -/
theorem cover3_2 (p0 : Vec F S5000x128 .f32) (y : S5000x128.Idx) :
    ∃ pc ∈ ([⟨r3_rows, p0⟩] : List (View.Piece (Elt F) S5000x128 .f32)), y ∈ pc.1.set :=
  View.cover_of_tiled [⟨r3_rows, p0⟩] S5000x128.size (by rfl) y

/-! ## The body's triple -/

set_option maxHeartbeats 1000000 in
/-- Given the two input buffers at read contents `x0`, `x1` and the output buffer at anything, the body returns
    the inputs untouched and the output at `out3_2 x0 x1`. The load of the output buffer ahead of the store
    reads a value nothing uses. -/
theorem sound_kernel3 (c : Dev nD) (E : Set ℕ) (i : grid3.Coords)
    (arg1 : Memref sig .tc .vmem S5000x128 .bf16) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .bf16) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data of the pipeline -/

/-- Arrays as the region finds them; after the body an input buffer still shows its block and the output buffer
    shows `out3_2` of the two input blocks; the invariant is the untouched rest of the memory; full shares,
    nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation at an arbitrary point -/

/-- What holds when the body is entered at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what holds when it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The input buffers hold their blocks, so the body's triple applies; the invariant and the debt are carried across. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealRegion4.lean ====
import proofs.«151719_j66898410602732_1_alg».proof.Proof.Gen.KernelIdeal.Launch
import proofs.«151719_j66898410602732_1_alg».proof.Proof.Gen.KernelIdeal.Skeleton
import proofs.«151719_j66898410602732_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- deciding that an index lies in a rectangle of 5000 rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds at the moment the region starts
variable (V : (c : Dev nD) → (b : Ref sig .tc) → Buf (Elt F) ((c : Thread nD τ).loc b))

/-! # Region 4: a block of 5000 rows plus the bias row, clamped below at zero, rounded to bf16 -/

/-! ## The block each window shows at a grid point -/

/-- The part of window `w`'s array that grid point `t` addresses, taken from the entry contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row window (window 0) moves to a new block at every point and is fetched there, so before the body
    its buffer holds that block. Stated for any proof data over the entry contents whose body returns the
    block unchanged. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias window (window 1) has a constant block index: it is fetched at the first point only, and at
    every later point the buffer still holds what the previous body left, which is the same block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body touches: each buffer as a whole -/

abbrev r4_rows : Rect S5000x128 := Rect.unit (s := S5000x128) ![0, 0] S5000x128.size inb_S5000x128_S5000x128_0_0
abbrev r4_bias : Rect S1x128 := Rect.unit (s := S1x128) ![0, 0] S1x128.size inb_S1x128_S1x128_0_0

/-! ## The output buffer after the body -/

/-- The single store writes the whole output buffer with the payload `k4_pay1` of the rows read from window 0
    and the bias read from window 1: their sum with the bias repeated down the rows, its maximum with zero,
    rounded to bf16. -/
def out4_2 (x0 : Vec F S5000x128 .f32) (x1 : Vec F S1x128 .f32) : Vec F S5000x128 .bf16 :=
  View.canon [⟨r4_rows, k4_pay1 (View.ld x0 r4_rows) (View.ld x1 r4_bias)⟩]

/-- One piece spanning the full extents covers every index; only the sizes are compared. -/
theorem cover4_2 (p0 : Vec F S5000x128 .bf16) (y : S5000x128.Idx) :
    ∃ pc ∈ ([⟨r4_rows, p0⟩] : List (View.Piece (Elt F) S5000x128 .bf16)), y ∈ pc.1.set :=
  View.cover_of_tiled [⟨r4_rows, p0⟩] S5000x128.size (by rfl) y

/-! ## The body's triple -/

set_option maxHeartbeats 1000000 in
/-- Given the two input buffers at read contents `x0`, `x1` and the output buffer at anything, the body returns
    the inputs untouched and the output at `out4_2 x0 x1`. The load of the output buffer ahead of the store
    reads a value nothing uses. -/
theorem sound_kernel4 (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S5000x128 .bf16) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4_kernel i arg1 harg1 arg2 harg2 arg3 harg3) K := by
  simp only [cc4_kernel_eq_skeleton]; unfold cc4_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The proof data of the pipeline -/

/-- Arrays as the region finds them; after the body an input buffer still shows its block and the output buffer
    shows `out4_2` of the two input blocks; the invariant is the untouched rest of the memory; full shares,
    nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation at an arbitrary point -/

/-- What holds when the body is entered at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what holds when it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The input buffers hold their blocks, so the body's triple applies; the invariant and the debt are carried across. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.IdealRegion5Runs.lean ====
import proofs.«151719_j66898410602732_1_alg».proof.Proof.Gen.KernelIdeal.Launch
import proofs.«151719_j66898410602732_1_alg».proof.Proof.Gen.KernelIdeal.Skeleton
import proofs.«151719_j66898410602732_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # Region 5: the body's runs, one per control case

The body of this region keeps a running sum in a scratch buffer: at the first grid point it zeroes the scratch,
at every point it replaces the scratch by `k5_pay2 labels x scratch` (the scratch plus the one-hot pooling of the
point's rows), and at the last point it copies the scratch into the output window's buffer. Every access goes
through the whole-buffer rectangle, so each buffer's final contents are the payload of the last store into it, and
each load reads the buffer's contents (or the payload of the store before it). -/

/-! ## The two conditionals of the body, from the grid coordinate -/

/-- The first conditional's test (the point is the first one), the scalar chain substituted. -/
abbrev cond5_0 (i : grid5.Coords) : Prop := (Scalar.cmpi .ne (Scalar.extui (Scalar.cmpi .eq (BitVec.ofNat 32 (i 0).val) 0#32)) 0#32) = 1#1
/-- The second conditional's test (the point is the last one). -/
abbrev cond5_1 (i : grid5.Coords) : Prop := k5_cond2 i = 1#1

/-- The first test holds exactly at point 0: decided over the ten points. -/
theorem hcond5_0 : ∀ t : Fin cfg5.N, cond5_0 (grid5.coords t) ↔ t.val = 0 :=
  (by decide +kernel : ∀ t : Fin grid5.N, cond5_0 (grid5.coords t) ↔ t.val = 0)
/-- The second test holds exactly at point 9. -/
theorem hcond5_1 : ∀ t : Fin cfg5.N, cond5_1 (grid5.coords t) ↔ t.val = 9 :=
  (by decide +kernel : ∀ t : Fin grid5.N, cond5_1 (grid5.coords t) ↔ t.val = 9)

/-- The offsets of every access of the body are zero on both axes. -/
theorem off2_zero : (![0, 0] : Fin 2 → Nat) = fun _ => 0 := by
  funext a; fin_cases a <;> rfl

/-- A buffer whose last store went through the whole-buffer rectangle reads as that store's payload, whatever
    was stored before and whatever it held. -/
theorem read_writes_cons_whole {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-! ## The three runs -/

set_option maxHeartbeats 1000000 in
/-- THE FIRST POINT (first test true, second false). From the two input blocks `x0` (rows) and `x1` (labels), the
    output buffer at `xo` and the scratch at anything, the body ends with the inputs and the output buffer as they
    were and the scratch at `k5_pay2 x1 x0 k5_pay1`: the zero fill `k5_pay1` is stored whole, read back whole, and the
    sum over this point's rows added to it. -/
theorem run5_first (c : Dev nD) (i : grid5.Coords)
    (arg1 : Memref sig .tc .vmem S5000x128 .bf16) (harg1 : arg1.IsWhole)
    (arg2 : Memref sig .tc .vmem S5000x1 .i32) (harg2 : arg2.IsWhole)
    (arg3 : Memref sig .tc .vmem S128x128 .f32) (harg3 : arg3.IsWhole)
    (arg4 : Memref sig .tc .vmem S128x128 .f32) (harg4 : arg4.IsWhole)
    (hc0 : cond5_0 i) (hc1 : ¬cond5_1 i)
    (x0 : Vec F S5000x128 .bf16) (x1 : Vec F S5000x1 .i32) (xo : Vec F S128x128 .f32)
    (E : Set ℕ) (K : PUnit → sProp 𝕄) :
    iprop(owns (c : Thread nD τ) arg1 fullShare x0 ∗ owns (c : Thread nD τ) arg2 fullShare x1
        ∗ owns (c : Thread nD τ) arg3 fullShare xo ∗ (∃ d, owns (c : Thread nD τ) arg4 fullShare d)
        ∗ (iprop(owns (c : Thread nD τ) arg1 fullShare x0 ∗ owns (c : Thread nD τ) arg2 fullShare x1
            ∗ owns (c : Thread nD τ) arg3 fullShare xo
            ∗ owns (c : Thread nD τ) arg4 fullShare (k5_pay2 x1 x0 (k5_pay1 (F := F)))) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1
  obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  rw [read_writes_cons_whole _ _ off2_zero, View.readCov_cons_toLoadRect]
  simp only [View.readAt_eq_ld, harg1.read_unread, harg2.read_unread]
  rw [View.ld_unit_zero (S := S5000x1) off2_zero, View.ld_unit_zero (S := S5000x128) off2_zero]

set_option maxHeartbeats 1000000 in
/-- A MIDDLE POINT (both tests false). From the input blocks, the output buffer at `xo` and the scratch at `xs`
    (what the point before left), the body ends with the inputs and the output buffer as they were and the scratch
    at `k5_pay2 x1 x0 xs`. -/
theorem run5_mid (c : Dev nD) (i : grid5.Coords)
    (arg1 : Memref sig .tc .vmem S5000x128 .bf16) (harg1 : arg1.IsWhole)
    (arg2 : Memref sig .tc .vmem S5000x1 .i32) (harg2 : arg2.IsWhole)
    (arg3 : Memref sig .tc .vmem S128x128 .f32) (harg3 : arg3.IsWhole)
    (arg4 : Memref sig .tc .vmem S128x128 .f32) (harg4 : arg4.IsWhole)
    (hc0 : ¬cond5_0 i) (hc1 : ¬cond5_1 i)
    (x0 : Vec F S5000x128 .bf16) (x1 : Vec F S5000x1 .i32) (xo : Vec F S128x128 .f32) (xs : Vec F S128x128 .f32)
    (E : Set ℕ) (K : PUnit → sProp 𝕄) :
    iprop(owns (c : Thread nD τ) arg1 fullShare x0 ∗ owns (c : Thread nD τ) arg2 fullShare x1
        ∗ owns (c : Thread nD τ) arg3 fullShare xo ∗ owns (c : Thread nD τ) arg4 fullShare xs
        ∗ (iprop(owns (c : Thread nD τ) arg1 fullShare x0 ∗ owns (c : Thread nD τ) arg2 fullShare x1
            ∗ owns (c : Thread nD τ) arg3 fullShare xo
            ∗ owns (c : Thread nD τ) arg4 fullShare (k5_pay2 x1 x0 xs)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1
  obtain rfl := harg3.eq_unread hf2; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  rw [read_writes_cons_whole _ _ off2_zero]
  simp only [View.readAt_eq_ld, harg1.read_unread, harg2.read_unread, harg4.read_unread]
  rw [View.ld_unit_zero (S := S5000x1) off2_zero, View.ld_unit_zero (S := S5000x128) off2_zero,
    View.ld_unit_zero (S := S128x128) off2_zero]

set_option maxHeartbeats 1000000 in
/-- THE LAST POINT (first test false, second true). From the input blocks, the output buffer at anything and the
    scratch at `xs`, the body ends with the inputs as they were and BOTH the scratch and the output buffer at
    `k5_pay2 x1 x0 xs`: the scratch is updated as at a middle point, then read back whole and stored whole into the
    output buffer. -/
theorem run5_last (c : Dev nD) (i : grid5.Coords)
    (arg1 : Memref sig .tc .vmem S5000x128 .bf16) (harg1 : arg1.IsWhole)
    (arg2 : Memref sig .tc .vmem S5000x1 .i32) (harg2 : arg2.IsWhole)
    (arg3 : Memref sig .tc .vmem S128x128 .f32) (harg3 : arg3.IsWhole)
    (arg4 : Memref sig .tc .vmem S128x128 .f32) (harg4 : arg4.IsWhole)
    (hc0 : ¬cond5_0 i) (hc1 : cond5_1 i)
    (x0 : Vec F S5000x128 .bf16) (x1 : Vec F S5000x1 .i32) (xs : Vec F S128x128 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k5_pay2 x1 x0 xs)
            ∗ owns (c : Thread nD τ) arg4 fullShare (k5_pay2 x1 x0 xs)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1
  obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [read_writes_cons_whole _ _ off2_zero, View.readCov_cons_toLoadRect]
    simp only [View.readAt_eq_ld, harg1.read_unread, harg2.read_unread, harg4.read_unread]
    rw [View.ld_unit_zero (S := S5000x1) off2_zero, View.ld_unit_zero (S := S5000x128) off2_zero,
      View.ld_unit_zero (S := S128x128) off2_zero]
  iexists _; isplitr
  swap; · iexact HS
  ipureintro
  sl_unfold_run_names
  rw [read_writes_cons_whole _ _ off2_zero]
  simp only [View.readAt_eq_ld, harg1.read_unread, harg2.read_unread, harg4.read_unread]
  rw [View.ld_unit_zero (S := S5000x1) off2_zero, View.ld_unit_zero (S := S5000x128) off2_zero,
    View.ld_unit_zero (S := S128x128) off2_zero]

end Cert.KernelIdeal.Hand

end
-- ==== Proof.IdealRegion5.lean ====
import proofs.«151719_j66898410602732_1_alg».proof.Proof.Gen.KernelIdeal.Launch
import proofs.«151719_j66898410602732_1_alg».proof.Proof.Gen.KernelIdeal.Skeleton
import proofs.«151719_j66898410602732_1_alg».proof.Proof.Gen.KernelIdeal.Points
import proofs.«151719_j66898410602732_1_alg».proof.Proof.IdealRegion5Runs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! # Region 5: a pooling sum over ten blocks of rows, kept in a carried scratch

Windows 0 and 1 are the rows (blocks of 5000 × 128) and their labels (blocks of 5000 × 1); window 2 is the pooled
result [128,128], one block whose index never moves, written back once after the last point. A scratch [128,128] holds
the running sum: zeroed at the first point, increased at every point by that point's one-hot pooling
(`k5_pay2 labels rows scratch`), copied to the result's buffer at the last point. At the other nine points the result's
buffer is neither stored into nor written back. -/

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not: the body leaves the block
    in place, and where nothing is fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## Where the windows are idle -/

/-- The inputs are never idle. -/
theorem liveAt5_0 : ∀ t : Fin cfg5.N, cfg5.idle 0 (grid5.coords t) = false := by decide +kernel
theorem liveAt5_1 : ∀ t : Fin cfg5.N, cfg5.idle 1 (grid5.coords t) = false := by decide +kernel
/-- Before the last point the result's window is idle and not written back; at the last point it is live. -/
theorem idleAt5_2 : ∀ t : Fin cfg5.N, ¬t.val = 9 → cfg5.idle 2 (grid5.coords t) = true :=
  (by decide +kernel : ∀ t : Fin grid5.N, ¬t.val = 9 → cfg5.idle 2 (grid5.coords t) = true)
theorem noFlush5_2 : ∀ t : Fin cfg5.N, ¬t.val = 9 → (cfg5.win 2).flush t = false :=
  (by decide +kernel : ∀ t : Fin grid5.N, ¬t.val = 9 → win5_2.flush t = false)
theorem liveAt5_2 : ∀ t : Fin cfg5.N, t.val = 9 → cfg5.idle 2 (grid5.coords t) = false :=
  (by decide +kernel : ∀ t : Fin grid5.N, t.val = 9 → cfg5.idle 2 (grid5.coords t) = false)

/-! ## The staging memrefs, the scratch, and the rest of the scoped memory -/

/-- Each window's current staging memref at point `t`, as the pipeline passes it to the body. -/
abbrev ms5_0 (t : Fin cfg5.N) : Memref sig .tc .vmem S5000x128 .bf16 := win5_0.stage (cfg5.slots t 0)
abbrev ms5_1 (t : Fin cfg5.N) : Memref sig .tc .vmem S5000x1 .i32 := win5_1.stage (cfg5.slots t 1)
abbrev ms5_2 (t : Fin cfg5.N) : Memref sig .tc .vmem S128x128 .f32 := win5_2.stage (cfg5.slots t 2)
/-- The scratch the body carries between points: a whole scoped buffer of the region's own. -/
abbrev scM5 : Memref sig .tc .vmem S128x128 .f32 := Memref.whole cc5_scratch0

/-- Every scoped buffer of the core that is neither a staging buffer of this region nor its scratch (the other
    regions' staging buffers): the body never touches it, and it is carried through every point unopened. -/
def rest5 (c : Dev nD) : sProp 𝕄 :=
  Pipeline.scopedRestBut (Ix := Unit) (Name := ℕ) (U := UR sig nD τ) (Lvl := ℕ) (Val := Elt F) spec5 c [cc5_scratch0]

/-- What the launch hands the region, with the scratch taken out of the scoped rest and owned as a memref at some
    contents. -/
theorem PhiA5_eq (c : Dev nD) :
    (Pipeline.ΦA spec5 c : sProp 𝕄)
      = iprop(iprop(iprop(∃ d, owns (c : Thread nD τ) scM5 fullShare d) ∗ rest5 (F := F) c) ∗ (∃ r, prngReg c r)) := by
  unfold Pipeline.ΦA rest5; rw [scopedRest5_split]; simp only [scM5, owns_whole]; try rfl

/-! ## The running sum -/

/-- The scratch after point `n`: the zero fill plus the poolings of points `0 … n`, accumulated in the body's order. -/
def acc5 (c : Dev nD) : (n : ℕ) → n < cfg5.N → Vec F S128x128 .f32
  | 0, hn => k5_pay2 (iblk5 V c 1 ⟨0, hn⟩) (iblk5 V c 0 ⟨0, hn⟩) (k5_pay1 (F := F))
  | n + 1, hn => k5_pay2 (iblk5 V c 1 ⟨n + 1, hn⟩) (iblk5 V c 0 ⟨n + 1, hn⟩) (acc5 c n (Nat.lt_of_succ_lt hn))

theorem acc5_zero (c : Dev nD) (hn : 0 < cfg5.N) :
    acc5 V c 0 hn = k5_pay2 (iblk5 V c 1 ⟨0, hn⟩) (iblk5 V c 0 ⟨0, hn⟩) (k5_pay1 (F := F)) := rfl
theorem acc5_succ (c : Dev nD) (n : ℕ) (hn : n + 1 < cfg5.N) :
    acc5 V c (n + 1) hn = k5_pay2 (iblk5 V c 1 ⟨n + 1, hn⟩) (iblk5 V c 0 ⟨n + 1, hn⟩) (acc5 V c n (Nat.lt_of_succ_lt hn)) := rfl

/-- The running sum at the first point, stated at a point of the grid. -/
theorem acc5_first (c : Dev nD) (t : Fin cfg5.N) (h0 : t.val = 0) :
    acc5 V c t.val t.isLt = k5_pay2 (iblk5 V c 1 t) (iblk5 V c 0 t) (k5_pay1 (F := F)) := by
  obtain ⟨n, hn⟩ := t
  cases n with
  | zero => rfl
  | succ n => exact absurd h0 (Nat.succ_ne_zero n)

/-- The running sum at a later point: this point's pooling added to what the point before left. -/
theorem acc5_pos (c : Dev nD) (t : Fin cfg5.N) (h0 : ¬t.val = 0) :
    acc5 V c t.val t.isLt = k5_pay2 (iblk5 V c 1 t) (iblk5 V c 0 t)
      (acc5 V c (t.val - 1) (Nat.lt_of_le_of_lt (Nat.sub_le _ _) t.isLt)) := by
  obtain ⟨n, hn⟩ := t
  cases n with
  | zero => exact absurd rfl h0
  | succ n => rfl

/-! ## The region invariant -/

/-- Before the first point: what the launch hands over. Before point `n + 1`: the scratch owned at the running sum
    after point `n`, the untouched rest, and the generator register at some state. -/
def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn) ∗ rest5 (F := F) c) ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega)) ∗ rest5 (F := F) c) ∗ (∃ r, prngReg c r)) := by
  cases n with
  | zero => exact absurd rfl hz
  | succ n => rfl

/-! ## The proof data -/

/-- The arrays as the region finds them; after the body at point `t` each input's buffer at its block and the result's
    buffer at the running sum (which only the last point's value is ever read of: before it the window is idle); the
    invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]

/-- After the last point the result's buffer holds the running sum over all ten points. -/
theorem after5_2_last (c : Dev nD) :
    (dat5 V c).after 2 ⟨9, by decide⟩ = acc5 V c 9 (by decide) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point. The inputs' buffers hold their blocks; the point is the first, a middle or the last one,
    and that case's run applies. The invariant hands the body the scratch — at anything at the first point, at the
    running sum of the point before afterwards — and takes it back at this point's running sum; the rest of the scoped
    memory, the generator register and what the core owes pass through. Before the last point the result's buffer
    comes back as it was found; at the last point it comes back at the running sum. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h0 : t.val = 0
  · have h9 : ¬t.val = 9 := by omega
    rw [Dat.leavesExact_idle (dat5 V c) 2 t (idleAt5_2 t h9) (noFlush5_2 t h9)]
    rw [acc5_first V c t h0]
    rw [PhiS5_castSucc V c t, PhiS5_zero V c _ _ h0, PhiA5_eq]
    iintro ⟨⟨⟨HS, HR⟩, Hg⟩, Ho, ⟨%d0, H0⟩, ⟨%d1, H1⟩, ⟨%d2, H2⟩⟩
    iapply (run5_first c (grid5.coords t) _ _ _ _ _ _ _ _ ((hcond5_0 t).mpr h0) (fun h => h9 ((hcond5_1 t).mp h))
      (iblk5 V c 0 t) (iblk5 V c 1 t) _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h9 : t.val = 9
    · rw [show (dat5 V c).leavesExact 2 t = owns (c : Thread nD τ) (ms5_2 t) fullShare ((dat5 V c).after 2 t) from by
        unfold Dat.leavesExact; rw [liveAt5_2 t h9], after5_2]
      rw [acc5_pos V c t h0]
      rw [PhiS5_castSucc V c t, PhiS5_pos V c _ _ h0]
      iintro ⟨⟨⟨HS, HR⟩, Hg⟩, Ho, ⟨%d0, H0⟩, ⟨%d1, H1⟩, ⟨%d2, H2⟩⟩
      iapply (run5_last c (grid5.coords t) _ _ _ _ _ _ _ _ (fun h => h0 ((hcond5_0 t).mp h)) ((hcond5_1 t).mpr h9)
        (iblk5 V c 0 t) (iblk5 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat5 V c) 2 t (idleAt5_2 t h9) (noFlush5_2 t h9)]
      rw [acc5_pos V c t h0]
      rw [PhiS5_castSucc V c t, PhiS5_pos V c _ _ h0]
      iintro ⟨⟨⟨HS, HR⟩, Hg⟩, Ho, ⟨%d0, H0⟩, ⟨%d1, H1⟩, ⟨%d2, H2⟩⟩
      iapply (run5_mid c (grid5.coords t) _ _ _ _ _ _ _ _ (fun h => h0 ((hcond5_0 t).mp h)) (fun h => h9 ((hcond5_1 t).mp h))
        (iblk5 V c 0 t) (iblk5 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into and out of the invariant -/

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point the invariant gives back what the launch handed over: the scratch's contents are forgotten and it
    goes back into the scoped rest beside the part never opened. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]
    · iexists _; iexact HS
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 10 := N_5; omega)

end Cert.KernelIdeal.Hand

end
-- ==== Proof.IdealRegion6.lean ====
import proofs.«151719_j66898410602732_1_alg».proof.Proof.Gen.KernelIdeal.Launch
import proofs.«151719_j66898410602732_1_alg».proof.Proof.Gen.KernelIdeal.Skeleton
import proofs.«151719_j66898410602732_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle's membership at these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! # The first layer of the prediction head: `max (pooled · W + b, 0)` on 128 rows, one grid point

Windows 0, 1, 2 are the pooled features [128,128], the weights [128,64] and the bias row [1,64], each one whole block;
window 3 is the result [128,64]. The body loads the three inputs whole, forms one value from them and stores it whole. -/

/-- A window's block at a grid point, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, whether or not the point fetches it: the body
    leaves the block in place and an unfetched point has the block index of the point before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev r6_x : Rect S128x128 := Rect.unit (s := S128x128) ![0, 0] S128x128.size inb_S128x128_S128x128_0_0
abbrev r6_w : Rect S128x64 := Rect.unit (s := S128x64) ![0, 0] S128x64.size inb_S128x64_S128x64_0_0
abbrev r6_b : Rect S1x64 := Rect.unit (s := S1x64) ![0, 0] S1x64.size inb_S1x64_S1x64_0_0

/-- What the result window's buffer holds after the body: its one store, of the layer's value of the three input blocks. -/
def out6_3 (x0 : Vec F S128x128 .f32) (x1 : Vec F S128x64 .f32) (x2 : Vec F S1x64 .f32) : Vec F S128x64 .f32 :=
  View.canon [⟨r6_w, k6_pay1 (View.ld x0 r6_x) (View.ld x1 r6_w) (View.ld x2 r6_b)⟩]

/-- The one store is of the whole buffer, so it covers it. -/
theorem cover6_3 (p0 : Vec F S128x64 .f32) (y : S128x64.Idx) :
    ∃ pc ∈ ([⟨r6_w, p0⟩] : List (View.Piece (Elt F) S128x64 .f32)), y ∈ pc.1.set :=
  View.cover_of_tiled [⟨r6_w, p0⟩] S128x64.size (by rfl) y

set_option maxHeartbeats 1000000 in
/-- The body on whole staging buffers, the inputs' at contents `x0 x1 x2` and the result's at anything: it runs to the
    continuation with the inputs' as they were and the result's at `out6_3 x0 x1 x2`. -/
theorem sound_kernel6 (c : Dev nD) (E : Set ℕ) (i : grid6.Coords)
    (arg1 : Memref sig .tc .vmem S128x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S128x64 .f32) (harg4 : arg4.IsWhole)
    (x0 : Vec F S128x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6_kernel i arg1 harg1 arg2 harg2 arg3 harg3 arg4 harg4) K := by
  simp only [cc6_kernel_eq_skeleton]; unfold cc6_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The region's proof data on a core: the arrays as the region finds them; after the body each input's buffer at its
    block and the result's at the layer's value of the input blocks; the invariant is the scoped buffers no window
    stages and the generator register, untouched; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at a point: the invariant, the core's dues, and each window's current buffer. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and the
    dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.IdealRegion7.lean ====
import proofs.«151719_j66898410602732_1_alg».proof.Proof.Gen.KernelIdeal.Launch
import proofs.«151719_j66898410602732_1_alg».proof.Proof.Gen.KernelIdeal.Skeleton
import proofs.«151719_j66898410602732_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle's membership at these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! # The second layer of the prediction head: `max (h · W + b, 0)` on 128 rows, one grid point

Windows 0, 1, 2 are the hidden features [128,64], the weights [64,32] and the bias row [1,32], each one whole block;
window 3 is the result [128,32]. The body loads the three inputs whole, forms one value from them and stores it whole. -/

/-- A window's block at a grid point, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, whether or not the point fetches it: the body
    leaves the block in place and an unfetched point has the block index of the point before. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev r7_x : Rect S128x64 := Rect.unit (s := S128x64) ![0, 0] S128x64.size inb_S128x64_S128x64_0_0
abbrev r7_w : Rect S64x32 := Rect.unit (s := S64x32) ![0, 0] S64x32.size inb_S64x32_S64x32_0_0
abbrev r7_b : Rect S1x32 := Rect.unit (s := S1x32) ![0, 0] S1x32.size inb_S1x32_S1x32_0_0
abbrev r7_o : Rect S128x32 := Rect.unit (s := S128x32) ![0, 0] S128x32.size inb_S128x32_S128x32_0_0

/-- What the result window's buffer holds after the body: its one store, of the layer's value of the three input blocks. -/
def out7_3 (x0 : Vec F S128x64 .f32) (x1 : Vec F S64x32 .f32) (x2 : Vec F S1x32 .f32) : Vec F S128x32 .f32 :=
  View.canon [⟨r7_o, k7_pay1 (View.ld x0 r7_x) (View.ld x1 r7_w) (View.ld x2 r7_b)⟩]

/-- The one store is of the whole buffer, so it covers it. -/
theorem cover7_3 (p0 : Vec F S128x32 .f32) (y : S128x32.Idx) :
    ∃ pc ∈ ([⟨r7_o, p0⟩] : List (View.Piece (Elt F) S128x32 .f32)), y ∈ pc.1.set :=
  View.cover_of_tiled [⟨r7_o, p0⟩] S128x32.size (by rfl) y

set_option maxHeartbeats 1000000 in
/-- The body on whole staging buffers, the inputs' at contents `x0 x1 x2` and the result's at anything: it runs to the
    continuation with the inputs' as they were and the result's at `out7_3 x0 x1 x2`. -/
theorem sound_kernel7 (c : Dev nD) (E : Set ℕ) (i : grid7.Coords)
    (arg1 : Memref sig .tc .vmem S128x64 .f32) (harg1 : arg1.IsWhole) (arg2 : Memref sig .tc .vmem S64x32 .f32) (harg2 : arg2.IsWhole)
    (arg3 : Memref sig .tc .vmem S1x32 .f32) (harg3 : arg3.IsWhole) (arg4 : Memref sig .tc .vmem S128x32 .f32) (harg4 : arg4.IsWhole)
    (x0 : Vec F S128x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The region's proof data on a core: the arrays as the region finds them; after the body each input's buffer at its
    block and the result's at the layer's value of the input blocks; the invariant is the scoped buffers no window
    stages and the generator register, untouched; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at a point: the invariant, the core's dues, and each window's current buffer. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and the
    dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.IdealRun.lean ====
/- The run of the whole program KernelIdeal: what every buffer holds between two items of @main, a fold from the launch
   memory (a host stretch applies its operations; a kernel region leaves in each of its windows' arrays what its
   write-backs leave and every other buffer alone), the eight regions as segments between those contents, and the run:
   every weakly fair execution terminates, nothing faulting, with the result array at the last contents read at it and
   every argument array as launched. -/
import proofs.«151719_j66898410602732_1_alg».proof.Proof.IdealRegion0
import proofs.«151719_j66898410602732_1_alg».proof.Proof.IdealRegion1
import proofs.«151719_j66898410602732_1_alg».proof.Proof.IdealRegion2
import proofs.«151719_j66898410602732_1_alg».proof.Proof.IdealRegion3
import proofs.«151719_j66898410602732_1_alg».proof.Proof.IdealRegion4
import proofs.«151719_j66898410602732_1_alg».proof.Proof.IdealRegion5
import proofs.«151719_j66898410602732_1_alg».proof.Proof.IdealRegion6
import proofs.«151719_j66898410602732_1_alg».proof.Proof.IdealRegion7
import proofs.«151719_j66898410602732_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between two items -/

/-- At launch. -/
abbrev W0 : Dev nD → Valuation τ sig (Elt F) := fun c b => (s₀ m ρ).mem ((c : Dev nD), b)
/-- After the host stretch hostOps0. -/
abbrev W1 : Dev nD → Valuation τ sig (Elt F) := fun c => StableHlo.after hostOps0 (W0 m ρ c)

/-- After the host stretch hostOps0_1. -/
abbrev W2 : Dev nD → Valuation τ sig (Elt F) := fun c => StableHlo.after hostOps0_1 (W1 m ρ c)

/-- After the host stretch hostOps0_2. -/
abbrev W3 : Dev nD → Valuation τ sig (Elt F) := fun c => StableHlo.after hostOps0_2 (W2 m ρ c)

/-- The contents region 0 is entered from, read at the core's own references. -/
abbrev T3 : (c : Dev nD) → (b : Ref sig .tc) → Buf (Elt F) ((c : Thread nD τ).loc b) := fun c b => W3 m ρ c b
/-- After region 0: each of its windows' arrays at what the write-backs leave, every other buffer as entered. -/
def W4 (c : Dev nD) : Valuation τ sig (Elt F) :=
  Pipeline.withArrays spec0 c (W3 m ρ c) fun w => (dat0 (T3 m ρ) c).arrAt w cfg0.N
theorem W4_arr (c : Dev nD) (w : Fin cfg0.W) :
    W4 m ρ c (Proc.devRef .tc (Pipeline.arrRef spec0 w)) = (dat0 (T3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev T4x : (c : Dev nD) → (b : Ref sig .tc) → Buf (Elt F) ((c : Thread nD τ).loc b) := fun c b => W4 m ρ c b
theorem hF0 (c : Dev nD) (w : Fin cfg0.W) : (dat0 (T3 m ρ) c).arrAt w cfg0.N = T4x m ρ c (Pipeline.arrRef spec0 w) :=
  (W4_arr m ρ c w).symm
theorem hrest0 (c : Dev nD) : ∀ b, b ∉ Finset.univ.image (Pipeline.arrRef spec0) → T4x m ρ c b = T3 m ρ c b :=
  fun b hb => W4_of_ne m ρ c b fun w e => hb (Finset.mem_image.mpr ⟨w, Finset.mem_univ _, e⟩)

/-- The contents region 1 is entered from, read at the core's own references. -/
abbrev T4 : (c : Dev nD) → (b : Ref sig .tc) → Buf (Elt F) ((c : Thread nD τ).loc b) := fun c b => W4 m ρ c b
/-- After region 1: each of its windows' arrays at what the write-backs leave, every other buffer as entered. -/
def W5 (c : Dev nD) : Valuation τ sig (Elt F) :=
  Pipeline.withArrays spec1 c (W4 m ρ c) fun w => (dat1 (T4 m ρ) c).arrAt w cfg1.N
theorem W5_arr (c : Dev nD) (w : Fin cfg1.W) :
    W5 m ρ c (Proc.devRef .tc (Pipeline.arrRef spec1 w)) = (dat1 (T4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev T5x : (c : Dev nD) → (b : Ref sig .tc) → Buf (Elt F) ((c : Thread nD τ).loc b) := fun c b => W5 m ρ c b
theorem hF1 (c : Dev nD) (w : Fin cfg1.W) : (dat1 (T4 m ρ) c).arrAt w cfg1.N = T5x m ρ c (Pipeline.arrRef spec1 w) :=
  (W5_arr m ρ c w).symm
theorem hrest1 (c : Dev nD) : ∀ b, b ∉ Finset.univ.image (Pipeline.arrRef spec1) → T5x m ρ c b = T4 m ρ c b :=
  fun b hb => W5_of_ne m ρ c b fun w e => hb (Finset.mem_image.mpr ⟨w, Finset.mem_univ _, e⟩)

/-- After the host stretch hostOps2. -/
abbrev W6 : Dev nD → Valuation τ sig (Elt F) := fun c => StableHlo.after hostOps2 (W5 m ρ c)

/-- The contents region 2 is entered from, read at the core's own references. -/
abbrev T6 : (c : Dev nD) → (b : Ref sig .tc) → Buf (Elt F) ((c : Thread nD τ).loc b) := fun c b => W6 m ρ c b
/-- After region 2: each of its windows' arrays at what the write-backs leave, every other buffer as entered. -/
def W7 (c : Dev nD) : Valuation τ sig (Elt F) :=
  Pipeline.withArrays spec2 c (W6 m ρ c) fun w => (dat2 (T6 m ρ) c).arrAt w cfg2.N
theorem W7_arr (c : Dev nD) (w : Fin cfg2.W) :
    W7 m ρ c (Proc.devRef .tc (Pipeline.arrRef spec2 w)) = (dat2 (T6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev T7x : (c : Dev nD) → (b : Ref sig .tc) → Buf (Elt F) ((c : Thread nD τ).loc b) := fun c b => W7 m ρ c b
theorem hF2 (c : Dev nD) (w : Fin cfg2.W) : (dat2 (T6 m ρ) c).arrAt w cfg2.N = T7x m ρ c (Pipeline.arrRef spec2 w) :=
  (W7_arr m ρ c w).symm
theorem hrest2 (c : Dev nD) : ∀ b, b ∉ Finset.univ.image (Pipeline.arrRef spec2) → T7x m ρ c b = T6 m ρ c b :=
  fun b hb => W7_of_ne m ρ c b fun w e => hb (Finset.mem_image.mpr ⟨w, Finset.mem_univ _, e⟩)

/-- The contents region 3 is entered from, read at the core's own references. -/
abbrev T7 : (c : Dev nD) → (b : Ref sig .tc) → Buf (Elt F) ((c : Thread nD τ).loc b) := fun c b => W7 m ρ c b
/-- After region 3: each of its windows' arrays at what the write-backs leave, every other buffer as entered. -/
def W8 (c : Dev nD) : Valuation τ sig (Elt F) :=
  Pipeline.withArrays spec3 c (W7 m ρ c) fun w => (dat3 (T7 m ρ) c).arrAt w cfg3.N
theorem W8_arr (c : Dev nD) (w : Fin cfg3.W) :
    W8 m ρ c (Proc.devRef .tc (Pipeline.arrRef spec3 w)) = (dat3 (T7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev T8x : (c : Dev nD) → (b : Ref sig .tc) → Buf (Elt F) ((c : Thread nD τ).loc b) := fun c b => W8 m ρ c b
theorem hF3 (c : Dev nD) (w : Fin cfg3.W) : (dat3 (T7 m ρ) c).arrAt w cfg3.N = T8x m ρ c (Pipeline.arrRef spec3 w) :=
  (W8_arr m ρ c w).symm
theorem hrest3 (c : Dev nD) : ∀ b, b ∉ Finset.univ.image (Pipeline.arrRef spec3) → T8x m ρ c b = T7 m ρ c b :=
  fun b hb => W8_of_ne m ρ c b fun w e => hb (Finset.mem_image.mpr ⟨w, Finset.mem_univ _, e⟩)

/-- After the host stretch hostOps4. -/
abbrev W9 : Dev nD → Valuation τ sig (Elt F) := fun c => StableHlo.after hostOps4 (W8 m ρ c)

/-- The contents region 4 is entered from, read at the core's own references. -/
abbrev T9 : (c : Dev nD) → (b : Ref sig .tc) → Buf (Elt F) ((c : Thread nD τ).loc b) := fun c b => W9 m ρ c b
/-- After region 4: each of its windows' arrays at what the write-backs leave, every other buffer as entered. -/
def W10 (c : Dev nD) : Valuation τ sig (Elt F) :=
  Pipeline.withArrays spec4 c (W9 m ρ c) fun w => (dat4 (T9 m ρ) c).arrAt w cfg4.N
theorem W10_arr (c : Dev nD) (w : Fin cfg4.W) :
    W10 m ρ c (Proc.devRef .tc (Pipeline.arrRef spec4 w)) = (dat4 (T9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev T10x : (c : Dev nD) → (b : Ref sig .tc) → Buf (Elt F) ((c : Thread nD τ).loc b) := fun c b => W10 m ρ c b
theorem hF4 (c : Dev nD) (w : Fin cfg4.W) : (dat4 (T9 m ρ) c).arrAt w cfg4.N = T10x m ρ c (Pipeline.arrRef spec4 w) :=
  (W10_arr m ρ c w).symm
theorem hrest4 (c : Dev nD) : ∀ b, b ∉ Finset.univ.image (Pipeline.arrRef spec4) → T10x m ρ c b = T9 m ρ c b :=
  fun b hb => W10_of_ne m ρ c b fun w e => hb (Finset.mem_image.mpr ⟨w, Finset.mem_univ _, e⟩)

/-- After the host stretch hostOps5. -/
abbrev W11 : Dev nD → Valuation τ sig (Elt F) := fun c => StableHlo.after hostOps5 (W10 m ρ c)

/-- The contents region 5 is entered from, read at the core's own references. -/
abbrev T11 : (c : Dev nD) → (b : Ref sig .tc) → Buf (Elt F) ((c : Thread nD τ).loc b) := fun c b => W11 m ρ c b
/-- After region 5: each of its windows' arrays at what the write-backs leave, every other buffer as entered. -/
def W12 (c : Dev nD) : Valuation τ sig (Elt F) :=
  Pipeline.withArrays spec5 c (W11 m ρ c) fun w => (dat5 (T11 m ρ) c).arrAt w cfg5.N
theorem W12_arr (c : Dev nD) (w : Fin cfg5.W) :
    W12 m ρ c (Proc.devRef .tc (Pipeline.arrRef spec5 w)) = (dat5 (T11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev T12x : (c : Dev nD) → (b : Ref sig .tc) → Buf (Elt F) ((c : Thread nD τ).loc b) := fun c b => W12 m ρ c b
theorem hF5 (c : Dev nD) (w : Fin cfg5.W) : (dat5 (T11 m ρ) c).arrAt w cfg5.N = T12x m ρ c (Pipeline.arrRef spec5 w) :=
  (W12_arr m ρ c w).symm
theorem hrest5 (c : Dev nD) : ∀ b, b ∉ Finset.univ.image (Pipeline.arrRef spec5) → T12x m ρ c b = T11 m ρ c b :=
  fun b hb => W12_of_ne m ρ c b fun w e => hb (Finset.mem_image.mpr ⟨w, Finset.mem_univ _, e⟩)

/-- After the host stretch hostOps6. -/
abbrev W13 : Dev nD → Valuation τ sig (Elt F) := fun c => StableHlo.after hostOps6 (W12 m ρ c)

/-- After the host stretch hostOps6_1. -/
abbrev W14 : Dev nD → Valuation τ sig (Elt F) := fun c => StableHlo.after hostOps6_1 (W13 m ρ c)

/-- After the host stretch hostOps6_2. -/
abbrev W15 : Dev nD → Valuation τ sig (Elt F) := fun c => StableHlo.after hostOps6_2 (W14 m ρ c)

/-- The contents region 6 is entered from, read at the core's own references. -/
abbrev T15 : (c : Dev nD) → (b : Ref sig .tc) → Buf (Elt F) ((c : Thread nD τ).loc b) := fun c b => W15 m ρ c b
/-- After region 6: each of its windows' arrays at what the write-backs leave, every other buffer as entered. -/
def W16 (c : Dev nD) : Valuation τ sig (Elt F) :=
  Pipeline.withArrays spec6 c (W15 m ρ c) fun w => (dat6 (T15 m ρ) c).arrAt w cfg6.N
theorem W16_arr (c : Dev nD) (w : Fin cfg6.W) :
    W16 m ρ c (Proc.devRef .tc (Pipeline.arrRef spec6 w)) = (dat6 (T15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
abbrev T16x : (c : Dev nD) → (b : Ref sig .tc) → Buf (Elt F) ((c : Thread nD τ).loc b) := fun c b => W16 m ρ c b
theorem hF6 (c : Dev nD) (w : Fin cfg6.W) : (dat6 (T15 m ρ) c).arrAt w cfg6.N = T16x m ρ c (Pipeline.arrRef spec6 w) :=
  (W16_arr m ρ c w).symm
theorem hrest6 (c : Dev nD) : ∀ b, b ∉ Finset.univ.image (Pipeline.arrRef spec6) → T16x m ρ c b = T15 m ρ c b :=
  fun b hb => W16_of_ne m ρ c b fun w e => hb (Finset.mem_image.mpr ⟨w, Finset.mem_univ _, e⟩)

/-- After the host stretch hostOps7. -/
abbrev W17 : Dev nD → Valuation τ sig (Elt F) := fun c => StableHlo.after hostOps7 (W16 m ρ c)

/-- The contents region 7 is entered from, read at the core's own references. -/
abbrev T17 : (c : Dev nD) → (b : Ref sig .tc) → Buf (Elt F) ((c : Thread nD τ).loc b) := fun c b => W17 m ρ c b
/-- After region 7: each of its windows' arrays at what the write-backs leave, every other buffer as entered. -/
def W18 (c : Dev nD) : Valuation τ sig (Elt F) :=
  Pipeline.withArrays spec7 c (W17 m ρ c) fun w => (dat7 (T17 m ρ) c).arrAt w cfg7.N
theorem W18_arr (c : Dev nD) (w : Fin cfg7.W) :
    W18 m ρ c (Proc.devRef .tc (Pipeline.arrRef spec7 w)) = (dat7 (T17 m ρ) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb
abbrev T18x : (c : Dev nD) → (b : Ref sig .tc) → Buf (Elt F) ((c : Thread nD τ).loc b) := fun c b => W18 m ρ c b
theorem hF7 (c : Dev nD) (w : Fin cfg7.W) : (dat7 (T17 m ρ) c).arrAt w cfg7.N = T18x m ρ c (Pipeline.arrRef spec7 w) :=
  (W18_arr m ρ c w).symm
theorem hrest7 (c : Dev nD) : ∀ b, b ∉ Finset.univ.image (Pipeline.arrRef spec7) → T18x m ρ c b = T17 m ρ c b :=
  fun b hb => W18_of_ne m ρ c b fun w e => hb (Finset.mem_image.mpr ⟨w, Finset.mem_univ _, e⟩)

/-! ## No item changes an argument array: a host stretch writes none, a region reads one through an input window or not at all -/

theorem W18_main_arg0 (c : Dev nD) : W18 m ρ c (Proc.devRef .tc main_arg0) = m ((c : Thread nD τ).loc main_arg0) :=
  calc W18 m ρ c (Proc.devRef .tc main_arg0)
    _ = W17 m ρ c (Proc.devRef .tc main_arg0) := W18_of_ne m ρ c main_arg0 (by decide)
    _ = W16 m ρ c (Proc.devRef .tc main_arg0) := StableHlo.after_of_writes_sub hostOps7 _ hostOps7_writes (by decide)
    _ = W15 m ρ c (Proc.devRef .tc main_arg0) := W16_of_ne m ρ c main_arg0 (by decide)
    _ = W14 m ρ c (Proc.devRef .tc main_arg0) := StableHlo.after_of_writes_sub hostOps6_2 _ hostOps6_2_writes (by decide)
    _ = W13 m ρ c (Proc.devRef .tc main_arg0) := StableHlo.after_of_writes_sub hostOps6_1 _ hostOps6_1_writes (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := StableHlo.after_of_writes_sub hostOps2 _ hostOps2_writes (by decide)
    _ = W4 m ρ c (Proc.devRef .tc main_arg0) := W5_of_ne m ρ c main_arg0 (by decide)
    _ = W3 m ρ c (Proc.devRef .tc main_arg0) := (W4_arr m ρ c 0).trans (((dat0 (T3 m ρ) c).arrAt_in 0 rfl _).trans (A_eq0 (T3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W18_main_arg1 (c : Dev nD) : W18 m ρ c (Proc.devRef .tc main_arg1) = m ((c : Thread nD τ).loc main_arg1) :=
  calc W18 m ρ c (Proc.devRef .tc main_arg1)
    _ = W17 m ρ c (Proc.devRef .tc main_arg1) := W18_of_ne m ρ c main_arg1 (by decide)
    _ = W16 m ρ c (Proc.devRef .tc main_arg1) := StableHlo.after_of_writes_sub hostOps7 _ hostOps7_writes (by decide)
    _ = W15 m ρ c (Proc.devRef .tc main_arg1) := W16_of_ne m ρ c main_arg1 (by decide)
    _ = W14 m ρ c (Proc.devRef .tc main_arg1) := StableHlo.after_of_writes_sub hostOps6_2 _ hostOps6_2_writes (by decide)
    _ = W13 m ρ c (Proc.devRef .tc main_arg1) := StableHlo.after_of_writes_sub hostOps6_1 _ hostOps6_1_writes (by decide)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := StableHlo.after_of_writes_sub hostOps2 _ hostOps2_writes (by decide)
    _ = W4 m ρ c (Proc.devRef .tc main_arg1) := W5_of_ne m ρ c main_arg1 (by decide)
    _ = W3 m ρ c (Proc.devRef .tc main_arg1) := (W4_arr m ρ c 1).trans (((dat0 (T3 m ρ) c).arrAt_in 1 rfl _).trans (A_eq0 (T3 m ρ) c 1))
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W18_main_arg2 (c : Dev nD) : W18 m ρ c (Proc.devRef .tc main_arg2) = m ((c : Thread nD τ).loc main_arg2) :=
  calc W18 m ρ c (Proc.devRef .tc main_arg2)
    _ = W17 m ρ c (Proc.devRef .tc main_arg2) := W18_of_ne m ρ c main_arg2 (by decide)
    _ = W16 m ρ c (Proc.devRef .tc main_arg2) := StableHlo.after_of_writes_sub hostOps7 _ hostOps7_writes (by decide)
    _ = W15 m ρ c (Proc.devRef .tc main_arg2) := W16_of_ne m ρ c main_arg2 (by decide)
    _ = W14 m ρ c (Proc.devRef .tc main_arg2) := StableHlo.after_of_writes_sub hostOps6_2 _ hostOps6_2_writes (by decide)
    _ = W13 m ρ c (Proc.devRef .tc main_arg2) := StableHlo.after_of_writes_sub hostOps6_1 _ hostOps6_1_writes (by decide)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_writes_sub hostOps2 _ hostOps2_writes (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W18_main_arg3 (c : Dev nD) : W18 m ρ c (Proc.devRef .tc main_arg3) = m ((c : Thread nD τ).loc main_arg3) :=
  calc W18 m ρ c (Proc.devRef .tc main_arg3)
    _ = W17 m ρ c (Proc.devRef .tc main_arg3) := W18_of_ne m ρ c main_arg3 (by decide)
    _ = W16 m ρ c (Proc.devRef .tc main_arg3) := StableHlo.after_of_writes_sub hostOps7 _ hostOps7_writes (by decide)
    _ = W15 m ρ c (Proc.devRef .tc main_arg3) := W16_of_ne m ρ c main_arg3 (by decide)
    _ = W14 m ρ c (Proc.devRef .tc main_arg3) := StableHlo.after_of_writes_sub hostOps6_2 _ hostOps6_2_writes (by decide)
    _ = W13 m ρ c (Proc.devRef .tc main_arg3) := StableHlo.after_of_writes_sub hostOps6_1 _ hostOps6_1_writes (by decide)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := StableHlo.after_of_writes_sub hostOps2 _ hostOps2_writes (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W18_main_arg4 (c : Dev nD) : W18 m ρ c (Proc.devRef .tc main_arg4) = m ((c : Thread nD τ).loc main_arg4) :=
  calc W18 m ρ c (Proc.devRef .tc main_arg4)
    _ = W17 m ρ c (Proc.devRef .tc main_arg4) := W18_of_ne m ρ c main_arg4 (by decide)
    _ = W16 m ρ c (Proc.devRef .tc main_arg4) := StableHlo.after_of_writes_sub hostOps7 _ hostOps7_writes (by decide)
    _ = W15 m ρ c (Proc.devRef .tc main_arg4) := W16_of_ne m ρ c main_arg4 (by decide)
    _ = W14 m ρ c (Proc.devRef .tc main_arg4) := StableHlo.after_of_writes_sub hostOps6_2 _ hostOps6_2_writes (by decide)
    _ = W13 m ρ c (Proc.devRef .tc main_arg4) := StableHlo.after_of_writes_sub hostOps6_1 _ hostOps6_1_writes (by decide)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := StableHlo.after_of_writes_sub hostOps2 _ hostOps2_writes (by decide)
    _ = W4 m ρ c (Proc.devRef .tc main_arg4) := W5_of_ne m ρ c main_arg4 (by decide)
    _ = W3 m ρ c (Proc.devRef .tc main_arg4) := (W4_arr m ρ c 2).trans (((dat0 (T3 m ρ) c).arrAt_in 2 rfl _).trans (A_eq0 (T3 m ρ) c 2))
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W18_main_arg5 (c : Dev nD) : W18 m ρ c (Proc.devRef .tc main_arg5) = m ((c : Thread nD τ).loc main_arg5) :=
  calc W18 m ρ c (Proc.devRef .tc main_arg5)
    _ = W17 m ρ c (Proc.devRef .tc main_arg5) := W18_of_ne m ρ c main_arg5 (by decide)
    _ = W16 m ρ c (Proc.devRef .tc main_arg5) := StableHlo.after_of_writes_sub hostOps7 _ hostOps7_writes (by decide)
    _ = W15 m ρ c (Proc.devRef .tc main_arg5) := W16_of_ne m ρ c main_arg5 (by decide)
    _ = W14 m ρ c (Proc.devRef .tc main_arg5) := StableHlo.after_of_writes_sub hostOps6_2 _ hostOps6_2_writes (by decide)
    _ = W13 m ρ c (Proc.devRef .tc main_arg5) := StableHlo.after_of_writes_sub hostOps6_1 _ hostOps6_1_writes (by decide)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := StableHlo.after_of_writes_sub hostOps2 _ hostOps2_writes (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W18_main_arg6 (c : Dev nD) : W18 m ρ c (Proc.devRef .tc main_arg6) = m ((c : Thread nD τ).loc main_arg6) :=
  calc W18 m ρ c (Proc.devRef .tc main_arg6)
    _ = W17 m ρ c (Proc.devRef .tc main_arg6) := W18_of_ne m ρ c main_arg6 (by decide)
    _ = W16 m ρ c (Proc.devRef .tc main_arg6) := StableHlo.after_of_writes_sub hostOps7 _ hostOps7_writes (by decide)
    _ = W15 m ρ c (Proc.devRef .tc main_arg6) := W16_of_ne m ρ c main_arg6 (by decide)
    _ = W14 m ρ c (Proc.devRef .tc main_arg6) := StableHlo.after_of_writes_sub hostOps6_2 _ hostOps6_2_writes (by decide)
    _ = W13 m ρ c (Proc.devRef .tc main_arg6) := StableHlo.after_of_writes_sub hostOps6_1 _ hostOps6_1_writes (by decide)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := StableHlo.after_of_writes_sub hostOps2 _ hostOps2_writes (by decide)
    _ = W4 m ρ c (Proc.devRef .tc main_arg6) := (W5_arr m ρ c 1).trans (((dat1 (T4 m ρ) c).arrAt_in 1 rfl _).trans (A_eq1 (T4 m ρ) c 1))
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W18_main_arg7 (c : Dev nD) : W18 m ρ c (Proc.devRef .tc main_arg7) = m ((c : Thread nD τ).loc main_arg7) :=
  calc W18 m ρ c (Proc.devRef .tc main_arg7)
    _ = W17 m ρ c (Proc.devRef .tc main_arg7) := W18_of_ne m ρ c main_arg7 (by decide)
    _ = W16 m ρ c (Proc.devRef .tc main_arg7) := StableHlo.after_of_writes_sub hostOps7 _ hostOps7_writes (by decide)
    _ = W15 m ρ c (Proc.devRef .tc main_arg7) := W16_of_ne m ρ c main_arg7 (by decide)
    _ = W14 m ρ c (Proc.devRef .tc main_arg7) := StableHlo.after_of_writes_sub hostOps6_2 _ hostOps6_2_writes (by decide)
    _ = W13 m ρ c (Proc.devRef .tc main_arg7) := StableHlo.after_of_writes_sub hostOps6_1 _ hostOps6_1_writes (by decide)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := StableHlo.after_of_writes_sub hostOps2 _ hostOps2_writes (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W18_main_arg8 (c : Dev nD) : W18 m ρ c (Proc.devRef .tc main_arg8) = m ((c : Thread nD τ).loc main_arg8) :=
  calc W18 m ρ c (Proc.devRef .tc main_arg8)
    _ = W17 m ρ c (Proc.devRef .tc main_arg8) := W18_of_ne m ρ c main_arg8 (by decide)
    _ = W16 m ρ c (Proc.devRef .tc main_arg8) := StableHlo.after_of_writes_sub hostOps7 _ hostOps7_writes (by decide)
    _ = W15 m ρ c (Proc.devRef .tc main_arg8) := W16_of_ne m ρ c main_arg8 (by decide)
    _ = W14 m ρ c (Proc.devRef .tc main_arg8) := StableHlo.after_of_writes_sub hostOps6_2 _ hostOps6_2_writes (by decide)
    _ = W13 m ρ c (Proc.devRef .tc main_arg8) := StableHlo.after_of_writes_sub hostOps6_1 _ hostOps6_1_writes (by decide)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := (W8_arr m ρ c 1).trans (((dat3 (T7 m ρ) c).arrAt_in 1 rfl _).trans (A_eq3 (T7 m ρ) c 1))
    _ = W6 m ρ c (Proc.devRef .tc main_arg8) := W7_of_ne m ρ c main_arg8 (by decide)
    _ = W5 m ρ c (Proc.devRef .tc main_arg8) := StableHlo.after_of_writes_sub hostOps2 _ hostOps2_writes (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W18_main_arg9 (c : Dev nD) : W18 m ρ c (Proc.devRef .tc main_arg9) = m ((c : Thread nD τ).loc main_arg9) :=
  calc W18 m ρ c (Proc.devRef .tc main_arg9)
    _ = W17 m ρ c (Proc.devRef .tc main_arg9) := W18_of_ne m ρ c main_arg9 (by decide)
    _ = W16 m ρ c (Proc.devRef .tc main_arg9) := StableHlo.after_of_writes_sub hostOps7 _ hostOps7_writes (by decide)
    _ = W15 m ρ c (Proc.devRef .tc main_arg9) := W16_of_ne m ρ c main_arg9 (by decide)
    _ = W14 m ρ c (Proc.devRef .tc main_arg9) := StableHlo.after_of_writes_sub hostOps6_2 _ hostOps6_2_writes (by decide)
    _ = W13 m ρ c (Proc.devRef .tc main_arg9) := StableHlo.after_of_writes_sub hostOps6_1 _ hostOps6_1_writes (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := StableHlo.after_of_writes_sub hostOps2 _ hostOps2_writes (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W18_main_arg10 (c : Dev nD) : W18 m ρ c (Proc.devRef .tc main_arg10) = m ((c : Thread nD τ).loc main_arg10) :=
  calc W18 m ρ c (Proc.devRef .tc main_arg10)
    _ = W17 m ρ c (Proc.devRef .tc main_arg10) := W18_of_ne m ρ c main_arg10 (by decide)
    _ = W16 m ρ c (Proc.devRef .tc main_arg10) := StableHlo.after_of_writes_sub hostOps7 _ hostOps7_writes (by decide)
    _ = W15 m ρ c (Proc.devRef .tc main_arg10) := (W16_arr m ρ c 1).trans (((dat6 (T15 m ρ) c).arrAt_in 1 rfl _).trans (A_eq6 (T15 m ρ) c 1))
    _ = W14 m ρ c (Proc.devRef .tc main_arg10) := StableHlo.after_of_writes_sub hostOps6_2 _ hostOps6_2_writes (by decide)
    _ = W13 m ρ c (Proc.devRef .tc main_arg10) := StableHlo.after_of_writes_sub hostOps6_1 _ hostOps6_1_writes (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := StableHlo.after_of_writes_sub hostOps2 _ hostOps2_writes (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl
theorem W18_main_arg11 (c : Dev nD) : W18 m ρ c (Proc.devRef .tc main_arg11) = m ((c : Thread nD τ).loc main_arg11) :=
  calc W18 m ρ c (Proc.devRef .tc main_arg11)
    _ = W17 m ρ c (Proc.devRef .tc main_arg11) := W18_of_ne m ρ c main_arg11 (by decide)
    _ = W16 m ρ c (Proc.devRef .tc main_arg11) := StableHlo.after_of_writes_sub hostOps7 _ hostOps7_writes (by decide)
    _ = W15 m ρ c (Proc.devRef .tc main_arg11) := W16_of_ne m ρ c main_arg11 (by decide)
    _ = W14 m ρ c (Proc.devRef .tc main_arg11) := StableHlo.after_of_writes_sub hostOps6_2 _ hostOps6_2_writes (by decide)
    _ = W13 m ρ c (Proc.devRef .tc main_arg11) := StableHlo.after_of_writes_sub hostOps6_1 _ hostOps6_1_writes (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := StableHlo.after_of_writes_sub hostOps2 _ hostOps2_writes (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl
theorem W18_main_arg12 (c : Dev nD) : W18 m ρ c (Proc.devRef .tc main_arg12) = m ((c : Thread nD τ).loc main_arg12) :=
  calc W18 m ρ c (Proc.devRef .tc main_arg12)
    _ = W17 m ρ c (Proc.devRef .tc main_arg12) := (W18_arr m ρ c 1).trans (((dat7 (T17 m ρ) c).arrAt_in 1 rfl _).trans (A_eq7 (T17 m ρ) c 1))
    _ = W16 m ρ c (Proc.devRef .tc main_arg12) := StableHlo.after_of_writes_sub hostOps7 _ hostOps7_writes (by decide)
    _ = W15 m ρ c (Proc.devRef .tc main_arg12) := W16_of_ne m ρ c main_arg12 (by decide)
    _ = W14 m ρ c (Proc.devRef .tc main_arg12) := StableHlo.after_of_writes_sub hostOps6_2 _ hostOps6_2_writes (by decide)
    _ = W13 m ρ c (Proc.devRef .tc main_arg12) := StableHlo.after_of_writes_sub hostOps6_1 _ hostOps6_1_writes (by decide)
    _ = W12 m ρ c (Proc.devRef .tc main_arg12) := StableHlo.after_of_writes_sub hostOps6 _ hostOps6_writes (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := StableHlo.after_of_writes_sub hostOps2 _ hostOps2_writes (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := StableHlo.after_of_writes_sub hostOps0_2 _ hostOps0_2_writes (by decide)
    _ = W1 m ρ c (Proc.devRef .tc main_arg12) := StableHlo.after_of_writes_sub hostOps0_1 _ hostOps0_1_writes (by decide)
    _ = W0 m ρ c (Proc.devRef .tc main_arg12) := StableHlo.after_of_writes_sub hostOps0 _ hostOps0_writes (by decide)
    _ = m ((c : Thread nD τ).loc main_arg12) := rfl
theorem W18_main_arg13 (c : Dev nD) : W18 m ρ c (Proc.devRef .tc main_arg13) = m ((c : Thread nD τ).loc main_arg13) :=
  calc W18 m ρ c (Proc.devRef .tc main_arg13)
    _ = W17 m ρ c (Proc.devRef .tc main_arg13) := W18_of_ne m ρ c main_arg13 (by decide)
    _ = W16 m ρ c (Proc.devRef .tc main_arg13) := StableHlo.after_of_writes_sub hostOps7 _ hostOps7_writes (by decide)
    _ = W15 m ρ c (Proc.devRef .tc main_arg13) := W16_of_ne m ρ c main_arg13 (by decide)
    _ = W14 m ρ c (Proc.devRef .tc main_arg13) := StableHlo.after_of_writes_sub hostOps6_2 _ hostOps6_2_writes (by decide)
    _ = W13 m ρ c (Proc.devRef .tc main_arg13) := StableHlo.after_of_writes_sub hostOps6_1 _ hostOps6_1_writes (by decide)
    _ = W12 m ρ c (Proc.devRef .tc main_arg13) := StableHlo.after_of_writes_sub hostOps6 _ hostOps6_writes (by decide)
    _ = W11 m ρ c (Proc.devRef .tc main_arg13) := W12_of_ne m ρ c main_arg13 (by decide)
    _ = W10 m ρ c (Proc.devRef .tc main_arg13) := StableHlo.after_of_writes_sub hostOps5 _ hostOps5_writes (by decide)
    _ = W9 m ρ c (Proc.devRef .tc main_arg13) := W10_of_ne m ρ c main_arg13 (by decide)
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := StableHlo.after_of_writes_sub hostOps2 _ hostOps2_writes (by decide)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := StableHlo.after_of_writes_sub hostOps0_2 _ hostOps0_2_writes (by decide)
    _ = W1 m ρ c (Proc.devRef .tc main_arg13) := StableHlo.after_of_writes_sub hostOps0_1 _ hostOps0_1_writes (by decide)
    _ = W0 m ρ c (Proc.devRef .tc main_arg13) := StableHlo.after_of_writes_sub hostOps0 _ hostOps0_writes (by decide)
    _ = m ((c : Thread nD τ).loc main_arg13) := rfl

/-! ## The proof data family and what rides beside the buffers -/

abbrev adm : (p : Fin 8) → (pcfgs (F := F) p).Adm := fun p => (cfgs p).toPCfg_adm
/-- Every region's proof data at the contents it is entered from: a literal match on the region's number. -/
def pdats : (p : Fin 8) → (c : Dev nD) → Dat τ (Elt F) Unit ℕ (UR sig nD τ) ℕ (Pipeline.pin (pcfgs (F := F)) adm p) c
  | ⟨0, _⟩ => fun c => dat0 (T3 m ρ) c
  | ⟨1, _⟩ => fun c => dat1 (T4 m ρ) c
  | ⟨2, _⟩ => fun c => dat2 (T6 m ρ) c
  | ⟨3, _⟩ => fun c => dat3 (T7 m ρ) c
  | ⟨4, _⟩ => fun c => dat4 (T9 m ρ) c
  | ⟨5, _⟩ => fun c => dat5 (T11 m ρ) c
  | ⟨6, _⟩ => fun c => dat6 (T15 m ρ) c
  | ⟨7, _⟩ => fun c => dat7 (T17 m ρ) c
abbrev 𝒱₀ : Variants := Variants.none
abbrev L : GSem nD τ sig → Finset Unit := fun _ => ∅
abbrev lv : GSem nD τ sig → Unit → ℕ := fun _ _ => 0
/-- Beside the buffers: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m ρ c) ∗ ∃ r, prngReg c r)

/-! ## The regions as segments -/

set_option backward.isDefEq.respectTransparency.types false in
/-- Region 0 between the contents W3 and W4: its arrays split out of the unscoped buffers at entry and put back at
    what the write-backs leave; the generator register into the region's invariant and out; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (T3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T3 m ρ c) (T4x m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents W4 and W5: its arrays split out of the unscoped buffers at entry and put back at
    what the write-backs leave; the generator register into the region's invariant and out; nothing owed; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (T4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T4 m ρ c) (T5x m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents W6 and W7: its arrays split out of the unscoped buffers at entry and put back at
    what the write-backs leave; the generator register into the region's invariant and out; nothing owed; no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (T6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (T6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (T6 m ρ c) (T7x m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the contents W7 and W8: its arrays split out of the unscoped buffers at entry and put back at
    what the write-backs leave; the generator register into the region's invariant and out; nothing owed; no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (T7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (T7 m ρ c) (T8x m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 between the contents W9 and W10: its arrays split out of the unscoped buffers at entry and put back at
    what the write-backs leave; the generator register into the region's invariant and out; nothing owed; no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (T9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (T9 m ρ c) (T10x m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 between the contents W11 and W12: its arrays split out of the unscoped buffers at entry and put back at
    what the write-backs leave; the generator register into the region's invariant and out; nothing owed; no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (T11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (T11 m ρ) c).Φ 0 from rfl]
    have h := hin5 (T11 m ρ) c
    unfold Pipeline.ΦA at h
    iintro ⟨Hp, -, Hr⟩
    iapply h
    isplitl [Hr]; · iexact Hr
    iexact Hp
  hout c := by
    rw [Pipeline.ownSems0_none, show (pdats m ρ 5 c).Φ (Fin.last _) = (dat5 (T11 m ρ) c).Φ (Fin.last cfg5.N) from rfl]
    have h := hout5 (T11 m ρ) c
    unfold Pipeline.ΦA at h
    iintro Hf
    ihave H := h $$ Hf
    icases H with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (T11 m ρ c) (T12x m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 between the contents W15 and W16: its arrays split out of the unscoped buffers at entry and put back at
    what the write-backs leave; the generator register into the region's invariant and out; nothing owed; no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T15 m ρ) c).loose
  hwaits := Pipeline.hwaits_of_owed_zero _ _ _ _ L lv 6 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec6 c (T15 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (T15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (T15 m ρ c) (T16x m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 between the contents W17 and W18: its arrays split out of the unscoped buffers at entry and put back at
    what the write-backs leave; the generator register into the region's invariant and out; nothing owed; no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T17 m ρ) c).loose
  hwaits := Pipeline.hwaits_of_owed_zero _ _ _ _ L lv 7 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec7 c (T17 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (T17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (T17 m ρ c) (T18x m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the run of its segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .region (reg2 m ρ),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .host (hseg hostOps6_1 hostOps6_1_sub hostOps6_1_fresh (W13 m ρ)),
    .host (hseg hostOps6_2 hostOps6_2_sub hostOps6_2_fresh (W14 m ρ)),
    .region (reg6 m ρ),
    .host (hseg hostOps7 hostOps7_sub hostOps7_fresh (W16 m ρ)),
    .region (reg7 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting; the result
    array then holds the last contents W18 read at it and every argument array what it held at launch. -/
theorem run_all : θ_run defs (onTc (τ := τ) (main (F := F))) ⟨m, fun _ => 0, ρ⟩ (fun r => ∀ c : Dev nD,
      r.2.mem ((c.tc : Thread nD τ).loc main_v85) = W18 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W18 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v85 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c)⟩)

end Cert.KernelIdeal.Hand

end
-- ==== Proof.IdealKeep.lean ====
/- What an item of @main leaves alone. A host stretch changes only the buffers its operations write; a kernel region changes only
   its result array. So a buffer outside those is read after the item as before it, and every argument array, which no item
   writes, holds its launch contents at every stage. -/
import proofs.«151719_j66898410602732_1_alg».proof.Proof.IdealRun

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## A host stretch leaves alone what it does not write; a region, what is none of its windows' arrays -/

theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h
theorem W2_keep (c : Dev nD) (b : Ref sig .tc) (h : b ∉ hostOps0_1_W) :
    W2 m ρ c (Proc.devRef .tc b) = W1 m ρ c (Proc.devRef .tc b) :=
  StableHlo.after_of_writes_sub hostOps0_1 _ hostOps0_1_writes h
theorem W3_keep (c : Dev nD) (b : Ref sig .tc) (h : b ∉ hostOps0_2_W) :
    W3 m ρ c (Proc.devRef .tc b) = W2 m ρ c (Proc.devRef .tc b) :=
  StableHlo.after_of_writes_sub hostOps0_2 _ hostOps0_2_writes h
theorem W4_keep (c : Dev nD) (b : Ref sig .tc) (h : ∀ w, Pipeline.arrRef spec0 w ≠ b) :
    W4 m ρ c (Proc.devRef .tc b) = W3 m ρ c (Proc.devRef .tc b) := W4_of_ne m ρ c b h
theorem W5_keep (c : Dev nD) (b : Ref sig .tc) (h : ∀ w, Pipeline.arrRef spec1 w ≠ b) :
    W5 m ρ c (Proc.devRef .tc b) = W4 m ρ c (Proc.devRef .tc b) := W5_of_ne m ρ c b h
theorem W6_keep (c : Dev nD) (b : Ref sig .tc) (h : b ∉ hostOps2_W) :
    W6 m ρ c (Proc.devRef .tc b) = W5 m ρ c (Proc.devRef .tc b) :=
  StableHlo.after_of_writes_sub hostOps2 _ hostOps2_writes h
theorem W7_keep (c : Dev nD) (b : Ref sig .tc) (h : ∀ w, Pipeline.arrRef spec2 w ≠ b) :
    W7 m ρ c (Proc.devRef .tc b) = W6 m ρ c (Proc.devRef .tc b) := W7_of_ne m ρ c b h
theorem W8_keep (c : Dev nD) (b : Ref sig .tc) (h : ∀ w, Pipeline.arrRef spec3 w ≠ b) :
    W8 m ρ c (Proc.devRef .tc b) = W7 m ρ c (Proc.devRef .tc b) := W8_of_ne m ρ c b h
theorem W9_keep (c : Dev nD) (b : Ref sig .tc) (h : b ∉ hostOps4_W) :
    W9 m ρ c (Proc.devRef .tc b) = W8 m ρ c (Proc.devRef .tc b) :=
  StableHlo.after_of_writes_sub hostOps4 _ hostOps4_writes h
theorem W10_keep (c : Dev nD) (b : Ref sig .tc) (h : ∀ w, Pipeline.arrRef spec4 w ≠ b) :
    W10 m ρ c (Proc.devRef .tc b) = W9 m ρ c (Proc.devRef .tc b) := W10_of_ne m ρ c b h
theorem W11_keep (c : Dev nD) (b : Ref sig .tc) (h : b ∉ hostOps5_W) :
    W11 m ρ c (Proc.devRef .tc b) = W10 m ρ c (Proc.devRef .tc b) :=
  StableHlo.after_of_writes_sub hostOps5 _ hostOps5_writes h
theorem W12_keep (c : Dev nD) (b : Ref sig .tc) (h : ∀ w, Pipeline.arrRef spec5 w ≠ b) :
    W12 m ρ c (Proc.devRef .tc b) = W11 m ρ c (Proc.devRef .tc b) := W12_of_ne m ρ c b h
theorem W13_keep (c : Dev nD) (b : Ref sig .tc) (h : b ∉ hostOps6_W) :
    W13 m ρ c (Proc.devRef .tc b) = W12 m ρ c (Proc.devRef .tc b) :=
  StableHlo.after_of_writes_sub hostOps6 _ hostOps6_writes h
theorem W14_keep (c : Dev nD) (b : Ref sig .tc) (h : b ∉ hostOps6_1_W) :
    W14 m ρ c (Proc.devRef .tc b) = W13 m ρ c (Proc.devRef .tc b) :=
  StableHlo.after_of_writes_sub hostOps6_1 _ hostOps6_1_writes h
theorem W15_keep (c : Dev nD) (b : Ref sig .tc) (h : b ∉ hostOps6_2_W) :
    W15 m ρ c (Proc.devRef .tc b) = W14 m ρ c (Proc.devRef .tc b) :=
  StableHlo.after_of_writes_sub hostOps6_2 _ hostOps6_2_writes h
theorem W16_keep (c : Dev nD) (b : Ref sig .tc) (h : ∀ w, Pipeline.arrRef spec6 w ≠ b) :
    W16 m ρ c (Proc.devRef .tc b) = W15 m ρ c (Proc.devRef .tc b) := W16_of_ne m ρ c b h
theorem W17_keep (c : Dev nD) (b : Ref sig .tc) (h : b ∉ hostOps7_W) :
    W17 m ρ c (Proc.devRef .tc b) = W16 m ρ c (Proc.devRef .tc b) :=
  StableHlo.after_of_writes_sub hostOps7 _ hostOps7_writes h
theorem W18_keep (c : Dev nD) (b : Ref sig .tc) (h : ∀ w, Pipeline.arrRef spec7 w ≠ b) :
    W18 m ρ c (Proc.devRef .tc b) = W17 m ρ c (Proc.devRef .tc b) := W18_of_ne m ρ c b h

/-! ## Every argument array at every stage -/

theorem W0_main_arg0 (c : Dev nD) : W0 m ρ c (Proc.devRef .tc main_arg0) = m ((c : Thread nD τ).loc main_arg0) := rfl
theorem W1_main_arg0' (c : Dev nD) : W1 m ρ c (Proc.devRef .tc main_arg0) = m ((c : Thread nD τ).loc main_arg0) :=
  (W1_keep m ρ c main_arg0 (by decide)).trans (W0_main_arg0 m ρ c)
theorem W2_main_arg0' (c : Dev nD) : W2 m ρ c (Proc.devRef .tc main_arg0) = m ((c : Thread nD τ).loc main_arg0) :=
  (W2_keep m ρ c main_arg0 (by decide)).trans (W1_main_arg0' m ρ c)
theorem W3_main_arg0' (c : Dev nD) : W3 m ρ c (Proc.devRef .tc main_arg0) = m ((c : Thread nD τ).loc main_arg0) :=
  (W3_keep m ρ c main_arg0 (by decide)).trans (W2_main_arg0' m ρ c)
theorem W4_main_arg0' (c : Dev nD) : W4 m ρ c (Proc.devRef .tc main_arg0) = m ((c : Thread nD τ).loc main_arg0) :=
  ((W4_arr m ρ c 0).trans (((dat0 (T3 m ρ) c).arrAt_in 0 rfl _).trans (A_eq0 (T3 m ρ) c 0))).trans (W3_main_arg0' m ρ c)
theorem W5_main_arg0' (c : Dev nD) : W5 m ρ c (Proc.devRef .tc main_arg0) = m ((c : Thread nD τ).loc main_arg0) :=
  (W5_keep m ρ c main_arg0 (by decide)).trans (W4_main_arg0' m ρ c)
theorem W6_main_arg0' (c : Dev nD) : W6 m ρ c (Proc.devRef .tc main_arg0) = m ((c : Thread nD τ).loc main_arg0) :=
  (W6_keep m ρ c main_arg0 (by decide)).trans (W5_main_arg0' m ρ c)
theorem W7_main_arg0' (c : Dev nD) : W7 m ρ c (Proc.devRef .tc main_arg0) = m ((c : Thread nD τ).loc main_arg0) :=
  (W7_keep m ρ c main_arg0 (by decide)).trans (W6_main_arg0' m ρ c)
theorem W8_main_arg0' (c : Dev nD) : W8 m ρ c (Proc.devRef .tc main_arg0) = m ((c : Thread nD τ).loc main_arg0) :=
  (W8_keep m ρ c main_arg0 (by decide)).trans (W7_main_arg0' m ρ c)
theorem W9_main_arg0' (c : Dev nD) : W9 m ρ c (Proc.devRef .tc main_arg0) = m ((c : Thread nD τ).loc main_arg0) :=
  (W9_keep m ρ c main_arg0 (by decide)).trans (W8_main_arg0' m ρ c)
theorem W10_main_arg0' (c : Dev nD) : W10 m ρ c (Proc.devRef .tc main_arg0) = m ((c : Thread nD τ).loc main_arg0) :=
  (W10_keep m ρ c main_arg0 (by decide)).trans (W9_main_arg0' m ρ c)
theorem W11_main_arg0' (c : Dev nD) : W11 m ρ c (Proc.devRef .tc main_arg0) = m ((c : Thread nD τ).loc main_arg0) :=
  (W11_keep m ρ c main_arg0 (by decide)).trans (W10_main_arg0' m ρ c)
theorem W12_main_arg0' (c : Dev nD) : W12 m ρ c (Proc.devRef .tc main_arg0) = m ((c : Thread nD τ).loc main_arg0) :=
  (W12_keep m ρ c main_arg0 (by decide)).trans (W11_main_arg0' m ρ c)
theorem W13_main_arg0' (c : Dev nD) : W13 m ρ c (Proc.devRef .tc main_arg0) = m ((c : Thread nD τ).loc main_arg0) :=
  (W13_keep m ρ c main_arg0 (by decide)).trans (W12_main_arg0' m ρ c)
theorem W14_main_arg0' (c : Dev nD) : W14 m ρ c (Proc.devRef .tc main_arg0) = m ((c : Thread nD τ).loc main_arg0) :=
  (W14_keep m ρ c main_arg0 (by decide)).trans (W13_main_arg0' m ρ c)
theorem W15_main_arg0' (c : Dev nD) : W15 m ρ c (Proc.devRef .tc main_arg0) = m ((c : Thread nD τ).loc main_arg0) :=
  (W15_keep m ρ c main_arg0 (by decide)).trans (W14_main_arg0' m ρ c)
theorem W16_main_arg0' (c : Dev nD) : W16 m ρ c (Proc.devRef .tc main_arg0) = m ((c : Thread nD τ).loc main_arg0) :=
  (W16_keep m ρ c main_arg0 (by decide)).trans (W15_main_arg0' m ρ c)
theorem W17_main_arg0' (c : Dev nD) : W17 m ρ c (Proc.devRef .tc main_arg0) = m ((c : Thread nD τ).loc main_arg0) :=
  (W17_keep m ρ c main_arg0 (by decide)).trans (W16_main_arg0' m ρ c)
theorem W18_main_arg0' (c : Dev nD) : W18 m ρ c (Proc.devRef .tc main_arg0) = m ((c : Thread nD τ).loc main_arg0) :=
  (W18_keep m ρ c main_arg0 (by decide)).trans (W17_main_arg0' m ρ c)
theorem W0_main_arg1 (c : Dev nD) : W0 m ρ c (Proc.devRef .tc main_arg1) = m ((c : Thread nD τ).loc main_arg1) := rfl
theorem W1_main_arg1' (c : Dev nD) : W1 m ρ c (Proc.devRef .tc main_arg1) = m ((c : Thread nD τ).loc main_arg1) :=
  (W1_keep m ρ c main_arg1 (by decide)).trans (W0_main_arg1 m ρ c)
theorem W2_main_arg1' (c : Dev nD) : W2 m ρ c (Proc.devRef .tc main_arg1) = m ((c : Thread nD τ).loc main_arg1) :=
  (W2_keep m ρ c main_arg1 (by decide)).trans (W1_main_arg1' m ρ c)
theorem W3_main_arg1' (c : Dev nD) : W3 m ρ c (Proc.devRef .tc main_arg1) = m ((c : Thread nD τ).loc main_arg1) :=
  (W3_keep m ρ c main_arg1 (by decide)).trans (W2_main_arg1' m ρ c)
theorem W4_main_arg1' (c : Dev nD) : W4 m ρ c (Proc.devRef .tc main_arg1) = m ((c : Thread nD τ).loc main_arg1) :=
  ((W4_arr m ρ c 1).trans (((dat0 (T3 m ρ) c).arrAt_in 1 rfl _).trans (A_eq0 (T3 m ρ) c 1))).trans (W3_main_arg1' m ρ c)
theorem W5_main_arg1' (c : Dev nD) : W5 m ρ c (Proc.devRef .tc main_arg1) = m ((c : Thread nD τ).loc main_arg1) :=
  (W5_keep m ρ c main_arg1 (by decide)).trans (W4_main_arg1' m ρ c)
theorem W6_main_arg1' (c : Dev nD) : W6 m ρ c (Proc.devRef .tc main_arg1) = m ((c : Thread nD τ).loc main_arg1) :=
  (W6_keep m ρ c main_arg1 (by decide)).trans (W5_main_arg1' m ρ c)
theorem W7_main_arg1' (c : Dev nD) : W7 m ρ c (Proc.devRef .tc main_arg1) = m ((c : Thread nD τ).loc main_arg1) :=
  (W7_keep m ρ c main_arg1 (by decide)).trans (W6_main_arg1' m ρ c)
theorem W8_main_arg1' (c : Dev nD) : W8 m ρ c (Proc.devRef .tc main_arg1) = m ((c : Thread nD τ).loc main_arg1) :=
  (W8_keep m ρ c main_arg1 (by decide)).trans (W7_main_arg1' m ρ c)
theorem W9_main_arg1' (c : Dev nD) : W9 m ρ c (Proc.devRef .tc main_arg1) = m ((c : Thread nD τ).loc main_arg1) :=
  (W9_keep m ρ c main_arg1 (by decide)).trans (W8_main_arg1' m ρ c)
theorem W10_main_arg1' (c : Dev nD) : W10 m ρ c (Proc.devRef .tc main_arg1) = m ((c : Thread nD τ).loc main_arg1) :=
  (W10_keep m ρ c main_arg1 (by decide)).trans (W9_main_arg1' m ρ c)
theorem W11_main_arg1' (c : Dev nD) : W11 m ρ c (Proc.devRef .tc main_arg1) = m ((c : Thread nD τ).loc main_arg1) :=
  (W11_keep m ρ c main_arg1 (by decide)).trans (W10_main_arg1' m ρ c)
theorem W12_main_arg1' (c : Dev nD) : W12 m ρ c (Proc.devRef .tc main_arg1) = m ((c : Thread nD τ).loc main_arg1) :=
  (W12_keep m ρ c main_arg1 (by decide)).trans (W11_main_arg1' m ρ c)
theorem W13_main_arg1' (c : Dev nD) : W13 m ρ c (Proc.devRef .tc main_arg1) = m ((c : Thread nD τ).loc main_arg1) :=
  (W13_keep m ρ c main_arg1 (by decide)).trans (W12_main_arg1' m ρ c)
theorem W14_main_arg1' (c : Dev nD) : W14 m ρ c (Proc.devRef .tc main_arg1) = m ((c : Thread nD τ).loc main_arg1) :=
  (W14_keep m ρ c main_arg1 (by decide)).trans (W13_main_arg1' m ρ c)
theorem W15_main_arg1' (c : Dev nD) : W15 m ρ c (Proc.devRef .tc main_arg1) = m ((c : Thread nD τ).loc main_arg1) :=
  (W15_keep m ρ c main_arg1 (by decide)).trans (W14_main_arg1' m ρ c)
theorem W16_main_arg1' (c : Dev nD) : W16 m ρ c (Proc.devRef .tc main_arg1) = m ((c : Thread nD τ).loc main_arg1) :=
  (W16_keep m ρ c main_arg1 (by decide)).trans (W15_main_arg1' m ρ c)
theorem W17_main_arg1' (c : Dev nD) : W17 m ρ c (Proc.devRef .tc main_arg1) = m ((c : Thread nD τ).loc main_arg1) :=
  (W17_keep m ρ c main_arg1 (by decide)).trans (W16_main_arg1' m ρ c)
theorem W18_main_arg1' (c : Dev nD) : W18 m ρ c (Proc.devRef .tc main_arg1) = m ((c : Thread nD τ).loc main_arg1) :=
  (W18_keep m ρ c main_arg1 (by decide)).trans (W17_main_arg1' m ρ c)
theorem W0_main_arg2 (c : Dev nD) : W0 m ρ c (Proc.devRef .tc main_arg2) = m ((c : Thread nD τ).loc main_arg2) := rfl
theorem W1_main_arg2' (c : Dev nD) : W1 m ρ c (Proc.devRef .tc main_arg2) = m ((c : Thread nD τ).loc main_arg2) :=
  (W1_keep m ρ c main_arg2 (by decide)).trans (W0_main_arg2 m ρ c)
theorem W2_main_arg2' (c : Dev nD) : W2 m ρ c (Proc.devRef .tc main_arg2) = m ((c : Thread nD τ).loc main_arg2) :=
  (W2_keep m ρ c main_arg2 (by decide)).trans (W1_main_arg2' m ρ c)
theorem W3_main_arg2' (c : Dev nD) : W3 m ρ c (Proc.devRef .tc main_arg2) = m ((c : Thread nD τ).loc main_arg2) :=
  (W3_keep m ρ c main_arg2 (by decide)).trans (W2_main_arg2' m ρ c)
theorem W4_main_arg2' (c : Dev nD) : W4 m ρ c (Proc.devRef .tc main_arg2) = m ((c : Thread nD τ).loc main_arg2) :=
  (W4_keep m ρ c main_arg2 (by decide)).trans (W3_main_arg2' m ρ c)
theorem W5_main_arg2' (c : Dev nD) : W5 m ρ c (Proc.devRef .tc main_arg2) = m ((c : Thread nD τ).loc main_arg2) :=
  (W5_keep m ρ c main_arg2 (by decide)).trans (W4_main_arg2' m ρ c)
theorem W6_main_arg2' (c : Dev nD) : W6 m ρ c (Proc.devRef .tc main_arg2) = m ((c : Thread nD τ).loc main_arg2) :=
  (W6_keep m ρ c main_arg2 (by decide)).trans (W5_main_arg2' m ρ c)
theorem W7_main_arg2' (c : Dev nD) : W7 m ρ c (Proc.devRef .tc main_arg2) = m ((c : Thread nD τ).loc main_arg2) :=
  (W7_keep m ρ c main_arg2 (by decide)).trans (W6_main_arg2' m ρ c)
theorem W8_main_arg2' (c : Dev nD) : W8 m ρ c (Proc.devRef .tc main_arg2) = m ((c : Thread nD τ).loc main_arg2) :=
  (W8_keep m ρ c main_arg2 (by decide)).trans (W7_main_arg2' m ρ c)
theorem W9_main_arg2' (c : Dev nD) : W9 m ρ c (Proc.devRef .tc main_arg2) = m ((c : Thread nD τ).loc main_arg2) :=
  (W9_keep m ρ c main_arg2 (by decide)).trans (W8_main_arg2' m ρ c)
theorem W10_main_arg2' (c : Dev nD) : W10 m ρ c (Proc.devRef .tc main_arg2) = m ((c : Thread nD τ).loc main_arg2) :=
  (W10_keep m ρ c main_arg2 (by decide)).trans (W9_main_arg2' m ρ c)
theorem W11_main_arg2' (c : Dev nD) : W11 m ρ c (Proc.devRef .tc main_arg2) = m ((c : Thread nD τ).loc main_arg2) :=
  (W11_keep m ρ c main_arg2 (by decide)).trans (W10_main_arg2' m ρ c)
theorem W12_main_arg2' (c : Dev nD) : W12 m ρ c (Proc.devRef .tc main_arg2) = m ((c : Thread nD τ).loc main_arg2) :=
  (W12_keep m ρ c main_arg2 (by decide)).trans (W11_main_arg2' m ρ c)
theorem W13_main_arg2' (c : Dev nD) : W13 m ρ c (Proc.devRef .tc main_arg2) = m ((c : Thread nD τ).loc main_arg2) :=
  (W13_keep m ρ c main_arg2 (by decide)).trans (W12_main_arg2' m ρ c)
theorem W14_main_arg2' (c : Dev nD) : W14 m ρ c (Proc.devRef .tc main_arg2) = m ((c : Thread nD τ).loc main_arg2) :=
  (W14_keep m ρ c main_arg2 (by decide)).trans (W13_main_arg2' m ρ c)
theorem W15_main_arg2' (c : Dev nD) : W15 m ρ c (Proc.devRef .tc main_arg2) = m ((c : Thread nD τ).loc main_arg2) :=
  (W15_keep m ρ c main_arg2 (by decide)).trans (W14_main_arg2' m ρ c)
theorem W16_main_arg2' (c : Dev nD) : W16 m ρ c (Proc.devRef .tc main_arg2) = m ((c : Thread nD τ).loc main_arg2) :=
  (W16_keep m ρ c main_arg2 (by decide)).trans (W15_main_arg2' m ρ c)
theorem W17_main_arg2' (c : Dev nD) : W17 m ρ c (Proc.devRef .tc main_arg2) = m ((c : Thread nD τ).loc main_arg2) :=
  (W17_keep m ρ c main_arg2 (by decide)).trans (W16_main_arg2' m ρ c)
theorem W18_main_arg2' (c : Dev nD) : W18 m ρ c (Proc.devRef .tc main_arg2) = m ((c : Thread nD τ).loc main_arg2) :=
  (W18_keep m ρ c main_arg2 (by decide)).trans (W17_main_arg2' m ρ c)
theorem W0_main_arg3 (c : Dev nD) : W0 m ρ c (Proc.devRef .tc main_arg3) = m ((c : Thread nD τ).loc main_arg3) := rfl
theorem W1_main_arg3' (c : Dev nD) : W1 m ρ c (Proc.devRef .tc main_arg3) = m ((c : Thread nD τ).loc main_arg3) :=
  (W1_keep m ρ c main_arg3 (by decide)).trans (W0_main_arg3 m ρ c)
theorem W2_main_arg3' (c : Dev nD) : W2 m ρ c (Proc.devRef .tc main_arg3) = m ((c : Thread nD τ).loc main_arg3) :=
  (W2_keep m ρ c main_arg3 (by decide)).trans (W1_main_arg3' m ρ c)
theorem W3_main_arg3' (c : Dev nD) : W3 m ρ c (Proc.devRef .tc main_arg3) = m ((c : Thread nD τ).loc main_arg3) :=
  (W3_keep m ρ c main_arg3 (by decide)).trans (W2_main_arg3' m ρ c)
theorem W4_main_arg3' (c : Dev nD) : W4 m ρ c (Proc.devRef .tc main_arg3) = m ((c : Thread nD τ).loc main_arg3) :=
  (W4_keep m ρ c main_arg3 (by decide)).trans (W3_main_arg3' m ρ c)
theorem W5_main_arg3' (c : Dev nD) : W5 m ρ c (Proc.devRef .tc main_arg3) = m ((c : Thread nD τ).loc main_arg3) :=
  (W5_keep m ρ c main_arg3 (by decide)).trans (W4_main_arg3' m ρ c)
theorem W6_main_arg3' (c : Dev nD) : W6 m ρ c (Proc.devRef .tc main_arg3) = m ((c : Thread nD τ).loc main_arg3) :=
  (W6_keep m ρ c main_arg3 (by decide)).trans (W5_main_arg3' m ρ c)
theorem W7_main_arg3' (c : Dev nD) : W7 m ρ c (Proc.devRef .tc main_arg3) = m ((c : Thread nD τ).loc main_arg3) :=
  (W7_keep m ρ c main_arg3 (by decide)).trans (W6_main_arg3' m ρ c)
theorem W8_main_arg3' (c : Dev nD) : W8 m ρ c (Proc.devRef .tc main_arg3) = m ((c : Thread nD τ).loc main_arg3) :=
  (W8_keep m ρ c main_arg3 (by decide)).trans (W7_main_arg3' m ρ c)
theorem W9_main_arg3' (c : Dev nD) : W9 m ρ c (Proc.devRef .tc main_arg3) = m ((c : Thread nD τ).loc main_arg3) :=
  (W9_keep m ρ c main_arg3 (by decide)).trans (W8_main_arg3' m ρ c)
theorem W10_main_arg3' (c : Dev nD) : W10 m ρ c (Proc.devRef .tc main_arg3) = m ((c : Thread nD τ).loc main_arg3) :=
  (W10_keep m ρ c main_arg3 (by decide)).trans (W9_main_arg3' m ρ c)
theorem W11_main_arg3' (c : Dev nD) : W11 m ρ c (Proc.devRef .tc main_arg3) = m ((c : Thread nD τ).loc main_arg3) :=
  (W11_keep m ρ c main_arg3 (by decide)).trans (W10_main_arg3' m ρ c)
theorem W12_main_arg3' (c : Dev nD) : W12 m ρ c (Proc.devRef .tc main_arg3) = m ((c : Thread nD τ).loc main_arg3) :=
  (W12_keep m ρ c main_arg3 (by decide)).trans (W11_main_arg3' m ρ c)
theorem W13_main_arg3' (c : Dev nD) : W13 m ρ c (Proc.devRef .tc main_arg3) = m ((c : Thread nD τ).loc main_arg3) :=
  (W13_keep m ρ c main_arg3 (by decide)).trans (W12_main_arg3' m ρ c)
theorem W14_main_arg3' (c : Dev nD) : W14 m ρ c (Proc.devRef .tc main_arg3) = m ((c : Thread nD τ).loc main_arg3) :=
  (W14_keep m ρ c main_arg3 (by decide)).trans (W13_main_arg3' m ρ c)
theorem W15_main_arg3' (c : Dev nD) : W15 m ρ c (Proc.devRef .tc main_arg3) = m ((c : Thread nD τ).loc main_arg3) :=
  (W15_keep m ρ c main_arg3 (by decide)).trans (W14_main_arg3' m ρ c)
theorem W16_main_arg3' (c : Dev nD) : W16 m ρ c (Proc.devRef .tc main_arg3) = m ((c : Thread nD τ).loc main_arg3) :=
  (W16_keep m ρ c main_arg3 (by decide)).trans (W15_main_arg3' m ρ c)
theorem W17_main_arg3' (c : Dev nD) : W17 m ρ c (Proc.devRef .tc main_arg3) = m ((c : Thread nD τ).loc main_arg3) :=
  (W17_keep m ρ c main_arg3 (by decide)).trans (W16_main_arg3' m ρ c)
theorem W18_main_arg3' (c : Dev nD) : W18 m ρ c (Proc.devRef .tc main_arg3) = m ((c : Thread nD τ).loc main_arg3) :=
  (W18_keep m ρ c main_arg3 (by decide)).trans (W17_main_arg3' m ρ c)
theorem W0_main_arg4 (c : Dev nD) : W0 m ρ c (Proc.devRef .tc main_arg4) = m ((c : Thread nD τ).loc main_arg4) := rfl
theorem W1_main_arg4' (c : Dev nD) : W1 m ρ c (Proc.devRef .tc main_arg4) = m ((c : Thread nD τ).loc main_arg4) :=
  (W1_keep m ρ c main_arg4 (by decide)).trans (W0_main_arg4 m ρ c)
theorem W2_main_arg4' (c : Dev nD) : W2 m ρ c (Proc.devRef .tc main_arg4) = m ((c : Thread nD τ).loc main_arg4) :=
  (W2_keep m ρ c main_arg4 (by decide)).trans (W1_main_arg4' m ρ c)
theorem W3_main_arg4' (c : Dev nD) : W3 m ρ c (Proc.devRef .tc main_arg4) = m ((c : Thread nD τ).loc main_arg4) :=
  (W3_keep m ρ c main_arg4 (by decide)).trans (W2_main_arg4' m ρ c)
theorem W4_main_arg4' (c : Dev nD) : W4 m ρ c (Proc.devRef .tc main_arg4) = m ((c : Thread nD τ).loc main_arg4) :=
  ((W4_arr m ρ c 2).trans (((dat0 (T3 m ρ) c).arrAt_in 2 rfl _).trans (A_eq0 (T3 m ρ) c 2))).trans (W3_main_arg4' m ρ c)
theorem W5_main_arg4' (c : Dev nD) : W5 m ρ c (Proc.devRef .tc main_arg4) = m ((c : Thread nD τ).loc main_arg4) :=
  (W5_keep m ρ c main_arg4 (by decide)).trans (W4_main_arg4' m ρ c)
theorem W6_main_arg4' (c : Dev nD) : W6 m ρ c (Proc.devRef .tc main_arg4) = m ((c : Thread nD τ).loc main_arg4) :=
  (W6_keep m ρ c main_arg4 (by decide)).trans (W5_main_arg4' m ρ c)
theorem W7_main_arg4' (c : Dev nD) : W7 m ρ c (Proc.devRef .tc main_arg4) = m ((c : Thread nD τ).loc main_arg4) :=
  (W7_keep m ρ c main_arg4 (by decide)).trans (W6_main_arg4' m ρ c)
theorem W8_main_arg4' (c : Dev nD) : W8 m ρ c (Proc.devRef .tc main_arg4) = m ((c : Thread nD τ).loc main_arg4) :=
  (W8_keep m ρ c main_arg4 (by decide)).trans (W7_main_arg4' m ρ c)
theorem W9_main_arg4' (c : Dev nD) : W9 m ρ c (Proc.devRef .tc main_arg4) = m ((c : Thread nD τ).loc main_arg4) :=
  (W9_keep m ρ c main_arg4 (by decide)).trans (W8_main_arg4' m ρ c)
theorem W10_main_arg4' (c : Dev nD) : W10 m ρ c (Proc.devRef .tc main_arg4) = m ((c : Thread nD τ).loc main_arg4) :=
  (W10_keep m ρ c main_arg4 (by decide)).trans (W9_main_arg4' m ρ c)
theorem W11_main_arg4' (c : Dev nD) : W11 m ρ c (Proc.devRef .tc main_arg4) = m ((c : Thread nD τ).loc main_arg4) :=
  (W11_keep m ρ c main_arg4 (by decide)).trans (W10_main_arg4' m ρ c)
theorem W12_main_arg4' (c : Dev nD) : W12 m ρ c (Proc.devRef .tc main_arg4) = m ((c : Thread nD τ).loc main_arg4) :=
  (W12_keep m ρ c main_arg4 (by decide)).trans (W11_main_arg4' m ρ c)
theorem W13_main_arg4' (c : Dev nD) : W13 m ρ c (Proc.devRef .tc main_arg4) = m ((c : Thread nD τ).loc main_arg4) :=
  (W13_keep m ρ c main_arg4 (by decide)).trans (W12_main_arg4' m ρ c)
theorem W14_main_arg4' (c : Dev nD) : W14 m ρ c (Proc.devRef .tc main_arg4) = m ((c : Thread nD τ).loc main_arg4) :=
  (W14_keep m ρ c main_arg4 (by decide)).trans (W13_main_arg4' m ρ c)
theorem W15_main_arg4' (c : Dev nD) : W15 m ρ c (Proc.devRef .tc main_arg4) = m ((c : Thread nD τ).loc main_arg4) :=
  (W15_keep m ρ c main_arg4 (by decide)).trans (W14_main_arg4' m ρ c)
theorem W16_main_arg4' (c : Dev nD) : W16 m ρ c (Proc.devRef .tc main_arg4) = m ((c : Thread nD τ).loc main_arg4) :=
  (W16_keep m ρ c main_arg4 (by decide)).trans (W15_main_arg4' m ρ c)
theorem W17_main_arg4' (c : Dev nD) : W17 m ρ c (Proc.devRef .tc main_arg4) = m ((c : Thread nD τ).loc main_arg4) :=
  (W17_keep m ρ c main_arg4 (by decide)).trans (W16_main_arg4' m ρ c)
theorem W18_main_arg4' (c : Dev nD) : W18 m ρ c (Proc.devRef .tc main_arg4) = m ((c : Thread nD τ).loc main_arg4) :=
  (W18_keep m ρ c main_arg4 (by decide)).trans (W17_main_arg4' m ρ c)
theorem W0_main_arg5 (c : Dev nD) : W0 m ρ c (Proc.devRef .tc main_arg5) = m ((c : Thread nD τ).loc main_arg5) := rfl
theorem W1_main_arg5' (c : Dev nD) : W1 m ρ c (Proc.devRef .tc main_arg5) = m ((c : Thread nD τ).loc main_arg5) :=
  (W1_keep m ρ c main_arg5 (by decide)).trans (W0_main_arg5 m ρ c)
theorem W2_main_arg5' (c : Dev nD) : W2 m ρ c (Proc.devRef .tc main_arg5) = m ((c : Thread nD τ).loc main_arg5) :=
  (W2_keep m ρ c main_arg5 (by decide)).trans (W1_main_arg5' m ρ c)
theorem W3_main_arg5' (c : Dev nD) : W3 m ρ c (Proc.devRef .tc main_arg5) = m ((c : Thread nD τ).loc main_arg5) :=
  (W3_keep m ρ c main_arg5 (by decide)).trans (W2_main_arg5' m ρ c)
theorem W4_main_arg5' (c : Dev nD) : W4 m ρ c (Proc.devRef .tc main_arg5) = m ((c : Thread nD τ).loc main_arg5) :=
  (W4_keep m ρ c main_arg5 (by decide)).trans (W3_main_arg5' m ρ c)
theorem W5_main_arg5' (c : Dev nD) : W5 m ρ c (Proc.devRef .tc main_arg5) = m ((c : Thread nD τ).loc main_arg5) :=
  (W5_keep m ρ c main_arg5 (by decide)).trans (W4_main_arg5' m ρ c)
theorem W6_main_arg5' (c : Dev nD) : W6 m ρ c (Proc.devRef .tc main_arg5) = m ((c : Thread nD τ).loc main_arg5) :=
  (W6_keep m ρ c main_arg5 (by decide)).trans (W5_main_arg5' m ρ c)
theorem W7_main_arg5' (c : Dev nD) : W7 m ρ c (Proc.devRef .tc main_arg5) = m ((c : Thread nD τ).loc main_arg5) :=
  (W7_keep m ρ c main_arg5 (by decide)).trans (W6_main_arg5' m ρ c)
theorem W8_main_arg5' (c : Dev nD) : W8 m ρ c (Proc.devRef .tc main_arg5) = m ((c : Thread nD τ).loc main_arg5) :=
  (W8_keep m ρ c main_arg5 (by decide)).trans (W7_main_arg5' m ρ c)
theorem W9_main_arg5' (c : Dev nD) : W9 m ρ c (Proc.devRef .tc main_arg5) = m ((c : Thread nD τ).loc main_arg5) :=
  (W9_keep m ρ c main_arg5 (by decide)).trans (W8_main_arg5' m ρ c)
theorem W10_main_arg5' (c : Dev nD) : W10 m ρ c (Proc.devRef .tc main_arg5) = m ((c : Thread nD τ).loc main_arg5) :=
  (W10_keep m ρ c main_arg5 (by decide)).trans (W9_main_arg5' m ρ c)
theorem W11_main_arg5' (c : Dev nD) : W11 m ρ c (Proc.devRef .tc main_arg5) = m ((c : Thread nD τ).loc main_arg5) :=
  (W11_keep m ρ c main_arg5 (by decide)).trans (W10_main_arg5' m ρ c)
theorem W12_main_arg5' (c : Dev nD) : W12 m ρ c (Proc.devRef .tc main_arg5) = m ((c : Thread nD τ).loc main_arg5) :=
  (W12_keep m ρ c main_arg5 (by decide)).trans (W11_main_arg5' m ρ c)
theorem W13_main_arg5' (c : Dev nD) : W13 m ρ c (Proc.devRef .tc main_arg5) = m ((c : Thread nD τ).loc main_arg5) :=
  (W13_keep m ρ c main_arg5 (by decide)).trans (W12_main_arg5' m ρ c)
theorem W14_main_arg5' (c : Dev nD) : W14 m ρ c (Proc.devRef .tc main_arg5) = m ((c : Thread nD τ).loc main_arg5) :=
  (W14_keep m ρ c main_arg5 (by decide)).trans (W13_main_arg5' m ρ c)
theorem W15_main_arg5' (c : Dev nD) : W15 m ρ c (Proc.devRef .tc main_arg5) = m ((c : Thread nD τ).loc main_arg5) :=
  (W15_keep m ρ c main_arg5 (by decide)).trans (W14_main_arg5' m ρ c)
theorem W16_main_arg5' (c : Dev nD) : W16 m ρ c (Proc.devRef .tc main_arg5) = m ((c : Thread nD τ).loc main_arg5) :=
  (W16_keep m ρ c main_arg5 (by decide)).trans (W15_main_arg5' m ρ c)
theorem W17_main_arg5' (c : Dev nD) : W17 m ρ c (Proc.devRef .tc main_arg5) = m ((c : Thread nD τ).loc main_arg5) :=
  (W17_keep m ρ c main_arg5 (by decide)).trans (W16_main_arg5' m ρ c)
theorem W18_main_arg5' (c : Dev nD) : W18 m ρ c (Proc.devRef .tc main_arg5) = m ((c : Thread nD τ).loc main_arg5) :=
  (W18_keep m ρ c main_arg5 (by decide)).trans (W17_main_arg5' m ρ c)
theorem W0_main_arg6 (c : Dev nD) : W0 m ρ c (Proc.devRef .tc main_arg6) = m ((c : Thread nD τ).loc main_arg6) := rfl
theorem W1_main_arg6' (c : Dev nD) : W1 m ρ c (Proc.devRef .tc main_arg6) = m ((c : Thread nD τ).loc main_arg6) :=
  (W1_keep m ρ c main_arg6 (by decide)).trans (W0_main_arg6 m ρ c)
theorem W2_main_arg6' (c : Dev nD) : W2 m ρ c (Proc.devRef .tc main_arg6) = m ((c : Thread nD τ).loc main_arg6) :=
  (W2_keep m ρ c main_arg6 (by decide)).trans (W1_main_arg6' m ρ c)
theorem W3_main_arg6' (c : Dev nD) : W3 m ρ c (Proc.devRef .tc main_arg6) = m ((c : Thread nD τ).loc main_arg6) :=
  (W3_keep m ρ c main_arg6 (by decide)).trans (W2_main_arg6' m ρ c)
theorem W4_main_arg6' (c : Dev nD) : W4 m ρ c (Proc.devRef .tc main_arg6) = m ((c : Thread nD τ).loc main_arg6) :=
  (W4_keep m ρ c main_arg6 (by decide)).trans (W3_main_arg6' m ρ c)
theorem W5_main_arg6' (c : Dev nD) : W5 m ρ c (Proc.devRef .tc main_arg6) = m ((c : Thread nD τ).loc main_arg6) :=
  ((W5_arr m ρ c 1).trans (((dat1 (T4 m ρ) c).arrAt_in 1 rfl _).trans (A_eq1 (T4 m ρ) c 1))).trans (W4_main_arg6' m ρ c)
theorem W6_main_arg6' (c : Dev nD) : W6 m ρ c (Proc.devRef .tc main_arg6) = m ((c : Thread nD τ).loc main_arg6) :=
  (W6_keep m ρ c main_arg6 (by decide)).trans (W5_main_arg6' m ρ c)
theorem W7_main_arg6' (c : Dev nD) : W7 m ρ c (Proc.devRef .tc main_arg6) = m ((c : Thread nD τ).loc main_arg6) :=
  (W7_keep m ρ c main_arg6 (by decide)).trans (W6_main_arg6' m ρ c)
theorem W8_main_arg6' (c : Dev nD) : W8 m ρ c (Proc.devRef .tc main_arg6) = m ((c : Thread nD τ).loc main_arg6) :=
  (W8_keep m ρ c main_arg6 (by decide)).trans (W7_main_arg6' m ρ c)
theorem W9_main_arg6' (c : Dev nD) : W9 m ρ c (Proc.devRef .tc main_arg6) = m ((c : Thread nD τ).loc main_arg6) :=
  (W9_keep m ρ c main_arg6 (by decide)).trans (W8_main_arg6' m ρ c)
theorem W10_main_arg6' (c : Dev nD) : W10 m ρ c (Proc.devRef .tc main_arg6) = m ((c : Thread nD τ).loc main_arg6) :=
  (W10_keep m ρ c main_arg6 (by decide)).trans (W9_main_arg6' m ρ c)
theorem W11_main_arg6' (c : Dev nD) : W11 m ρ c (Proc.devRef .tc main_arg6) = m ((c : Thread nD τ).loc main_arg6) :=
  (W11_keep m ρ c main_arg6 (by decide)).trans (W10_main_arg6' m ρ c)
theorem W12_main_arg6' (c : Dev nD) : W12 m ρ c (Proc.devRef .tc main_arg6) = m ((c : Thread nD τ).loc main_arg6) :=
  (W12_keep m ρ c main_arg6 (by decide)).trans (W11_main_arg6' m ρ c)
theorem W13_main_arg6' (c : Dev nD) : W13 m ρ c (Proc.devRef .tc main_arg6) = m ((c : Thread nD τ).loc main_arg6) :=
  (W13_keep m ρ c main_arg6 (by decide)).trans (W12_main_arg6' m ρ c)
theorem W14_main_arg6' (c : Dev nD) : W14 m ρ c (Proc.devRef .tc main_arg6) = m ((c : Thread nD τ).loc main_arg6) :=
  (W14_keep m ρ c main_arg6 (by decide)).trans (W13_main_arg6' m ρ c)
theorem W15_main_arg6' (c : Dev nD) : W15 m ρ c (Proc.devRef .tc main_arg6) = m ((c : Thread nD τ).loc main_arg6) :=
  (W15_keep m ρ c main_arg6 (by decide)).trans (W14_main_arg6' m ρ c)
theorem W16_main_arg6' (c : Dev nD) : W16 m ρ c (Proc.devRef .tc main_arg6) = m ((c : Thread nD τ).loc main_arg6) :=
  (W16_keep m ρ c main_arg6 (by decide)).trans (W15_main_arg6' m ρ c)
theorem W17_main_arg6' (c : Dev nD) : W17 m ρ c (Proc.devRef .tc main_arg6) = m ((c : Thread nD τ).loc main_arg6) :=
  (W17_keep m ρ c main_arg6 (by decide)).trans (W16_main_arg6' m ρ c)
theorem W18_main_arg6' (c : Dev nD) : W18 m ρ c (Proc.devRef .tc main_arg6) = m ((c : Thread nD τ).loc main_arg6) :=
  (W18_keep m ρ c main_arg6 (by decide)).trans (W17_main_arg6' m ρ c)
theorem W0_main_arg7 (c : Dev nD) : W0 m ρ c (Proc.devRef .tc main_arg7) = m ((c : Thread nD τ).loc main_arg7) := rfl
theorem W1_main_arg7' (c : Dev nD) : W1 m ρ c (Proc.devRef .tc main_arg7) = m ((c : Thread nD τ).loc main_arg7) :=
  (W1_keep m ρ c main_arg7 (by decide)).trans (W0_main_arg7 m ρ c)
theorem W2_main_arg7' (c : Dev nD) : W2 m ρ c (Proc.devRef .tc main_arg7) = m ((c : Thread nD τ).loc main_arg7) :=
  (W2_keep m ρ c main_arg7 (by decide)).trans (W1_main_arg7' m ρ c)
theorem W3_main_arg7' (c : Dev nD) : W3 m ρ c (Proc.devRef .tc main_arg7) = m ((c : Thread nD τ).loc main_arg7) :=
  (W3_keep m ρ c main_arg7 (by decide)).trans (W2_main_arg7' m ρ c)
theorem W4_main_arg7' (c : Dev nD) : W4 m ρ c (Proc.devRef .tc main_arg7) = m ((c : Thread nD τ).loc main_arg7) :=
  (W4_keep m ρ c main_arg7 (by decide)).trans (W3_main_arg7' m ρ c)
theorem W5_main_arg7' (c : Dev nD) : W5 m ρ c (Proc.devRef .tc main_arg7) = m ((c : Thread nD τ).loc main_arg7) :=
  (W5_keep m ρ c main_arg7 (by decide)).trans (W4_main_arg7' m ρ c)
theorem W6_main_arg7' (c : Dev nD) : W6 m ρ c (Proc.devRef .tc main_arg7) = m ((c : Thread nD τ).loc main_arg7) :=
  (W6_keep m ρ c main_arg7 (by decide)).trans (W5_main_arg7' m ρ c)
theorem W7_main_arg7' (c : Dev nD) : W7 m ρ c (Proc.devRef .tc main_arg7) = m ((c : Thread nD τ).loc main_arg7) :=
  (W7_keep m ρ c main_arg7 (by decide)).trans (W6_main_arg7' m ρ c)
theorem W8_main_arg7' (c : Dev nD) : W8 m ρ c (Proc.devRef .tc main_arg7) = m ((c : Thread nD τ).loc main_arg7) :=
  (W8_keep m ρ c main_arg7 (by decide)).trans (W7_main_arg7' m ρ c)
theorem W9_main_arg7' (c : Dev nD) : W9 m ρ c (Proc.devRef .tc main_arg7) = m ((c : Thread nD τ).loc main_arg7) :=
  (W9_keep m ρ c main_arg7 (by decide)).trans (W8_main_arg7' m ρ c)
theorem W10_main_arg7' (c : Dev nD) : W10 m ρ c (Proc.devRef .tc main_arg7) = m ((c : Thread nD τ).loc main_arg7) :=
  (W10_keep m ρ c main_arg7 (by decide)).trans (W9_main_arg7' m ρ c)
theorem W11_main_arg7' (c : Dev nD) : W11 m ρ c (Proc.devRef .tc main_arg7) = m ((c : Thread nD τ).loc main_arg7) :=
  (W11_keep m ρ c main_arg7 (by decide)).trans (W10_main_arg7' m ρ c)
theorem W12_main_arg7' (c : Dev nD) : W12 m ρ c (Proc.devRef .tc main_arg7) = m ((c : Thread nD τ).loc main_arg7) :=
  (W12_keep m ρ c main_arg7 (by decide)).trans (W11_main_arg7' m ρ c)
theorem W13_main_arg7' (c : Dev nD) : W13 m ρ c (Proc.devRef .tc main_arg7) = m ((c : Thread nD τ).loc main_arg7) :=
  (W13_keep m ρ c main_arg7 (by decide)).trans (W12_main_arg7' m ρ c)
theorem W14_main_arg7' (c : Dev nD) : W14 m ρ c (Proc.devRef .tc main_arg7) = m ((c : Thread nD τ).loc main_arg7) :=
  (W14_keep m ρ c main_arg7 (by decide)).trans (W13_main_arg7' m ρ c)
theorem W15_main_arg7' (c : Dev nD) : W15 m ρ c (Proc.devRef .tc main_arg7) = m ((c : Thread nD τ).loc main_arg7) :=
  (W15_keep m ρ c main_arg7 (by decide)).trans (W14_main_arg7' m ρ c)
theorem W16_main_arg7' (c : Dev nD) : W16 m ρ c (Proc.devRef .tc main_arg7) = m ((c : Thread nD τ).loc main_arg7) :=
  (W16_keep m ρ c main_arg7 (by decide)).trans (W15_main_arg7' m ρ c)
theorem W17_main_arg7' (c : Dev nD) : W17 m ρ c (Proc.devRef .tc main_arg7) = m ((c : Thread nD τ).loc main_arg7) :=
  (W17_keep m ρ c main_arg7 (by decide)).trans (W16_main_arg7' m ρ c)
theorem W18_main_arg7' (c : Dev nD) : W18 m ρ c (Proc.devRef .tc main_arg7) = m ((c : Thread nD τ).loc main_arg7) :=
  (W18_keep m ρ c main_arg7 (by decide)).trans (W17_main_arg7' m ρ c)
theorem W0_main_arg8 (c : Dev nD) : W0 m ρ c (Proc.devRef .tc main_arg8) = m ((c : Thread nD τ).loc main_arg8) := rfl
theorem W1_main_arg8' (c : Dev nD) : W1 m ρ c (Proc.devRef .tc main_arg8) = m ((c : Thread nD τ).loc main_arg8) :=
  (W1_keep m ρ c main_arg8 (by decide)).trans (W0_main_arg8 m ρ c)
theorem W2_main_arg8' (c : Dev nD) : W2 m ρ c (Proc.devRef .tc main_arg8) = m ((c : Thread nD τ).loc main_arg8) :=
  (W2_keep m ρ c main_arg8 (by decide)).trans (W1_main_arg8' m ρ c)
theorem W3_main_arg8' (c : Dev nD) : W3 m ρ c (Proc.devRef .tc main_arg8) = m ((c : Thread nD τ).loc main_arg8) :=
  (W3_keep m ρ c main_arg8 (by decide)).trans (W2_main_arg8' m ρ c)
theorem W4_main_arg8' (c : Dev nD) : W4 m ρ c (Proc.devRef .tc main_arg8) = m ((c : Thread nD τ).loc main_arg8) :=
  (W4_keep m ρ c main_arg8 (by decide)).trans (W3_main_arg8' m ρ c)
theorem W5_main_arg8' (c : Dev nD) : W5 m ρ c (Proc.devRef .tc main_arg8) = m ((c : Thread nD τ).loc main_arg8) :=
  (W5_keep m ρ c main_arg8 (by decide)).trans (W4_main_arg8' m ρ c)
theorem W6_main_arg8' (c : Dev nD) : W6 m ρ c (Proc.devRef .tc main_arg8) = m ((c : Thread nD τ).loc main_arg8) :=
  (W6_keep m ρ c main_arg8 (by decide)).trans (W5_main_arg8' m ρ c)
theorem W7_main_arg8' (c : Dev nD) : W7 m ρ c (Proc.devRef .tc main_arg8) = m ((c : Thread nD τ).loc main_arg8) :=
  (W7_keep m ρ c main_arg8 (by decide)).trans (W6_main_arg8' m ρ c)
theorem W8_main_arg8' (c : Dev nD) : W8 m ρ c (Proc.devRef .tc main_arg8) = m ((c : Thread nD τ).loc main_arg8) :=
  ((W8_arr m ρ c 1).trans (((dat3 (T7 m ρ) c).arrAt_in 1 rfl _).trans (A_eq3 (T7 m ρ) c 1))).trans (W7_main_arg8' m ρ c)
theorem W9_main_arg8' (c : Dev nD) : W9 m ρ c (Proc.devRef .tc main_arg8) = m ((c : Thread nD τ).loc main_arg8) :=
  (W9_keep m ρ c main_arg8 (by decide)).trans (W8_main_arg8' m ρ c)
theorem W10_main_arg8' (c : Dev nD) : W10 m ρ c (Proc.devRef .tc main_arg8) = m ((c : Thread nD τ).loc main_arg8) :=
  (W10_keep m ρ c main_arg8 (by decide)).trans (W9_main_arg8' m ρ c)
theorem W11_main_arg8' (c : Dev nD) : W11 m ρ c (Proc.devRef .tc main_arg8) = m ((c : Thread nD τ).loc main_arg8) :=
  (W11_keep m ρ c main_arg8 (by decide)).trans (W10_main_arg8' m ρ c)
theorem W12_main_arg8' (c : Dev nD) : W12 m ρ c (Proc.devRef .tc main_arg8) = m ((c : Thread nD τ).loc main_arg8) :=
  (W12_keep m ρ c main_arg8 (by decide)).trans (W11_main_arg8' m ρ c)
theorem W13_main_arg8' (c : Dev nD) : W13 m ρ c (Proc.devRef .tc main_arg8) = m ((c : Thread nD τ).loc main_arg8) :=
  (W13_keep m ρ c main_arg8 (by decide)).trans (W12_main_arg8' m ρ c)
theorem W14_main_arg8' (c : Dev nD) : W14 m ρ c (Proc.devRef .tc main_arg8) = m ((c : Thread nD τ).loc main_arg8) :=
  (W14_keep m ρ c main_arg8 (by decide)).trans (W13_main_arg8' m ρ c)
theorem W15_main_arg8' (c : Dev nD) : W15 m ρ c (Proc.devRef .tc main_arg8) = m ((c : Thread nD τ).loc main_arg8) :=
  (W15_keep m ρ c main_arg8 (by decide)).trans (W14_main_arg8' m ρ c)
theorem W16_main_arg8' (c : Dev nD) : W16 m ρ c (Proc.devRef .tc main_arg8) = m ((c : Thread nD τ).loc main_arg8) :=
  (W16_keep m ρ c main_arg8 (by decide)).trans (W15_main_arg8' m ρ c)
theorem W17_main_arg8' (c : Dev nD) : W17 m ρ c (Proc.devRef .tc main_arg8) = m ((c : Thread nD τ).loc main_arg8) :=
  (W17_keep m ρ c main_arg8 (by decide)).trans (W16_main_arg8' m ρ c)
theorem W18_main_arg8' (c : Dev nD) : W18 m ρ c (Proc.devRef .tc main_arg8) = m ((c : Thread nD τ).loc main_arg8) :=
  (W18_keep m ρ c main_arg8 (by decide)).trans (W17_main_arg8' m ρ c)
theorem W0_main_arg9 (c : Dev nD) : W0 m ρ c (Proc.devRef .tc main_arg9) = m ((c : Thread nD τ).loc main_arg9) := rfl
theorem W1_main_arg9' (c : Dev nD) : W1 m ρ c (Proc.devRef .tc main_arg9) = m ((c : Thread nD τ).loc main_arg9) :=
  (W1_keep m ρ c main_arg9 (by decide)).trans (W0_main_arg9 m ρ c)
theorem W2_main_arg9' (c : Dev nD) : W2 m ρ c (Proc.devRef .tc main_arg9) = m ((c : Thread nD τ).loc main_arg9) :=
  (W2_keep m ρ c main_arg9 (by decide)).trans (W1_main_arg9' m ρ c)
theorem W3_main_arg9' (c : Dev nD) : W3 m ρ c (Proc.devRef .tc main_arg9) = m ((c : Thread nD τ).loc main_arg9) :=
  (W3_keep m ρ c main_arg9 (by decide)).trans (W2_main_arg9' m ρ c)
theorem W4_main_arg9' (c : Dev nD) : W4 m ρ c (Proc.devRef .tc main_arg9) = m ((c : Thread nD τ).loc main_arg9) :=
  (W4_keep m ρ c main_arg9 (by decide)).trans (W3_main_arg9' m ρ c)
theorem W5_main_arg9' (c : Dev nD) : W5 m ρ c (Proc.devRef .tc main_arg9) = m ((c : Thread nD τ).loc main_arg9) :=
  (W5_keep m ρ c main_arg9 (by decide)).trans (W4_main_arg9' m ρ c)
theorem W6_main_arg9' (c : Dev nD) : W6 m ρ c (Proc.devRef .tc main_arg9) = m ((c : Thread nD τ).loc main_arg9) :=
  (W6_keep m ρ c main_arg9 (by decide)).trans (W5_main_arg9' m ρ c)
theorem W7_main_arg9' (c : Dev nD) : W7 m ρ c (Proc.devRef .tc main_arg9) = m ((c : Thread nD τ).loc main_arg9) :=
  (W7_keep m ρ c main_arg9 (by decide)).trans (W6_main_arg9' m ρ c)
theorem W8_main_arg9' (c : Dev nD) : W8 m ρ c (Proc.devRef .tc main_arg9) = m ((c : Thread nD τ).loc main_arg9) :=
  (W8_keep m ρ c main_arg9 (by decide)).trans (W7_main_arg9' m ρ c)
theorem W9_main_arg9' (c : Dev nD) : W9 m ρ c (Proc.devRef .tc main_arg9) = m ((c : Thread nD τ).loc main_arg9) :=
  (W9_keep m ρ c main_arg9 (by decide)).trans (W8_main_arg9' m ρ c)
theorem W10_main_arg9' (c : Dev nD) : W10 m ρ c (Proc.devRef .tc main_arg9) = m ((c : Thread nD τ).loc main_arg9) :=
  (W10_keep m ρ c main_arg9 (by decide)).trans (W9_main_arg9' m ρ c)
theorem W11_main_arg9' (c : Dev nD) : W11 m ρ c (Proc.devRef .tc main_arg9) = m ((c : Thread nD τ).loc main_arg9) :=
  (W11_keep m ρ c main_arg9 (by decide)).trans (W10_main_arg9' m ρ c)
theorem W12_main_arg9' (c : Dev nD) : W12 m ρ c (Proc.devRef .tc main_arg9) = m ((c : Thread nD τ).loc main_arg9) :=
  (W12_keep m ρ c main_arg9 (by decide)).trans (W11_main_arg9' m ρ c)
theorem W13_main_arg9' (c : Dev nD) : W13 m ρ c (Proc.devRef .tc main_arg9) = m ((c : Thread nD τ).loc main_arg9) :=
  (W13_keep m ρ c main_arg9 (by decide)).trans (W12_main_arg9' m ρ c)
theorem W14_main_arg9' (c : Dev nD) : W14 m ρ c (Proc.devRef .tc main_arg9) = m ((c : Thread nD τ).loc main_arg9) :=
  (W14_keep m ρ c main_arg9 (by decide)).trans (W13_main_arg9' m ρ c)
theorem W15_main_arg9' (c : Dev nD) : W15 m ρ c (Proc.devRef .tc main_arg9) = m ((c : Thread nD τ).loc main_arg9) :=
  (W15_keep m ρ c main_arg9 (by decide)).trans (W14_main_arg9' m ρ c)
theorem W16_main_arg9' (c : Dev nD) : W16 m ρ c (Proc.devRef .tc main_arg9) = m ((c : Thread nD τ).loc main_arg9) :=
  (W16_keep m ρ c main_arg9 (by decide)).trans (W15_main_arg9' m ρ c)
theorem W17_main_arg9' (c : Dev nD) : W17 m ρ c (Proc.devRef .tc main_arg9) = m ((c : Thread nD τ).loc main_arg9) :=
  (W17_keep m ρ c main_arg9 (by decide)).trans (W16_main_arg9' m ρ c)
theorem W18_main_arg9' (c : Dev nD) : W18 m ρ c (Proc.devRef .tc main_arg9) = m ((c : Thread nD τ).loc main_arg9) :=
  (W18_keep m ρ c main_arg9 (by decide)).trans (W17_main_arg9' m ρ c)
theorem W0_main_arg10 (c : Dev nD) : W0 m ρ c (Proc.devRef .tc main_arg10) = m ((c : Thread nD τ).loc main_arg10) := rfl
theorem W1_main_arg10' (c : Dev nD) : W1 m ρ c (Proc.devRef .tc main_arg10) = m ((c : Thread nD τ).loc main_arg10) :=
  (W1_keep m ρ c main_arg10 (by decide)).trans (W0_main_arg10 m ρ c)
theorem W2_main_arg10' (c : Dev nD) : W2 m ρ c (Proc.devRef .tc main_arg10) = m ((c : Thread nD τ).loc main_arg10) :=
  (W2_keep m ρ c main_arg10 (by decide)).trans (W1_main_arg10' m ρ c)
theorem W3_main_arg10' (c : Dev nD) : W3 m ρ c (Proc.devRef .tc main_arg10) = m ((c : Thread nD τ).loc main_arg10) :=
  (W3_keep m ρ c main_arg10 (by decide)).trans (W2_main_arg10' m ρ c)
theorem W4_main_arg10' (c : Dev nD) : W4 m ρ c (Proc.devRef .tc main_arg10) = m ((c : Thread nD τ).loc main_arg10) :=
  (W4_keep m ρ c main_arg10 (by decide)).trans (W3_main_arg10' m ρ c)
theorem W5_main_arg10' (c : Dev nD) : W5 m ρ c (Proc.devRef .tc main_arg10) = m ((c : Thread nD τ).loc main_arg10) :=
  (W5_keep m ρ c main_arg10 (by decide)).trans (W4_main_arg10' m ρ c)
theorem W6_main_arg10' (c : Dev nD) : W6 m ρ c (Proc.devRef .tc main_arg10) = m ((c : Thread nD τ).loc main_arg10) :=
  (W6_keep m ρ c main_arg10 (by decide)).trans (W5_main_arg10' m ρ c)
theorem W7_main_arg10' (c : Dev nD) : W7 m ρ c (Proc.devRef .tc main_arg10) = m ((c : Thread nD τ).loc main_arg10) :=
  (W7_keep m ρ c main_arg10 (by decide)).trans (W6_main_arg10' m ρ c)
theorem W8_main_arg10' (c : Dev nD) : W8 m ρ c (Proc.devRef .tc main_arg10) = m ((c : Thread nD τ).loc main_arg10) :=
  (W8_keep m ρ c main_arg10 (by decide)).trans (W7_main_arg10' m ρ c)
theorem W9_main_arg10' (c : Dev nD) : W9 m ρ c (Proc.devRef .tc main_arg10) = m ((c : Thread nD τ).loc main_arg10) :=
  (W9_keep m ρ c main_arg10 (by decide)).trans (W8_main_arg10' m ρ c)
theorem W10_main_arg10' (c : Dev nD) : W10 m ρ c (Proc.devRef .tc main_arg10) = m ((c : Thread nD τ).loc main_arg10) :=
  (W10_keep m ρ c main_arg10 (by decide)).trans (W9_main_arg10' m ρ c)
theorem W11_main_arg10' (c : Dev nD) : W11 m ρ c (Proc.devRef .tc main_arg10) = m ((c : Thread nD τ).loc main_arg10) :=
  (W11_keep m ρ c main_arg10 (by decide)).trans (W10_main_arg10' m ρ c)
theorem W12_main_arg10' (c : Dev nD) : W12 m ρ c (Proc.devRef .tc main_arg10) = m ((c : Thread nD τ).loc main_arg10) :=
  (W12_keep m ρ c main_arg10 (by decide)).trans (W11_main_arg10' m ρ c)
theorem W13_main_arg10' (c : Dev nD) : W13 m ρ c (Proc.devRef .tc main_arg10) = m ((c : Thread nD τ).loc main_arg10) :=
  (W13_keep m ρ c main_arg10 (by decide)).trans (W12_main_arg10' m ρ c)
theorem W14_main_arg10' (c : Dev nD) : W14 m ρ c (Proc.devRef .tc main_arg10) = m ((c : Thread nD τ).loc main_arg10) :=
  (W14_keep m ρ c main_arg10 (by decide)).trans (W13_main_arg10' m ρ c)
theorem W15_main_arg10' (c : Dev nD) : W15 m ρ c (Proc.devRef .tc main_arg10) = m ((c : Thread nD τ).loc main_arg10) :=
  (W15_keep m ρ c main_arg10 (by decide)).trans (W14_main_arg10' m ρ c)
theorem W16_main_arg10' (c : Dev nD) : W16 m ρ c (Proc.devRef .tc main_arg10) = m ((c : Thread nD τ).loc main_arg10) :=
  ((W16_arr m ρ c 1).trans (((dat6 (T15 m ρ) c).arrAt_in 1 rfl _).trans (A_eq6 (T15 m ρ) c 1))).trans (W15_main_arg10' m ρ c)
theorem W17_main_arg10' (c : Dev nD) : W17 m ρ c (Proc.devRef .tc main_arg10) = m ((c : Thread nD τ).loc main_arg10) :=
  (W17_keep m ρ c main_arg10 (by decide)).trans (W16_main_arg10' m ρ c)
theorem W18_main_arg10' (c : Dev nD) : W18 m ρ c (Proc.devRef .tc main_arg10) = m ((c : Thread nD τ).loc main_arg10) :=
  (W18_keep m ρ c main_arg10 (by decide)).trans (W17_main_arg10' m ρ c)
theorem W0_main_arg11 (c : Dev nD) : W0 m ρ c (Proc.devRef .tc main_arg11) = m ((c : Thread nD τ).loc main_arg11) := rfl
theorem W1_main_arg11' (c : Dev nD) : W1 m ρ c (Proc.devRef .tc main_arg11) = m ((c : Thread nD τ).loc main_arg11) :=
  (W1_keep m ρ c main_arg11 (by decide)).trans (W0_main_arg11 m ρ c)
theorem W2_main_arg11' (c : Dev nD) : W2 m ρ c (Proc.devRef .tc main_arg11) = m ((c : Thread nD τ).loc main_arg11) :=
  (W2_keep m ρ c main_arg11 (by decide)).trans (W1_main_arg11' m ρ c)
theorem W3_main_arg11' (c : Dev nD) : W3 m ρ c (Proc.devRef .tc main_arg11) = m ((c : Thread nD τ).loc main_arg11) :=
  (W3_keep m ρ c main_arg11 (by decide)).trans (W2_main_arg11' m ρ c)
theorem W4_main_arg11' (c : Dev nD) : W4 m ρ c (Proc.devRef .tc main_arg11) = m ((c : Thread nD τ).loc main_arg11) :=
  (W4_keep m ρ c main_arg11 (by decide)).trans (W3_main_arg11' m ρ c)
theorem W5_main_arg11' (c : Dev nD) : W5 m ρ c (Proc.devRef .tc main_arg11) = m ((c : Thread nD τ).loc main_arg11) :=
  (W5_keep m ρ c main_arg11 (by decide)).trans (W4_main_arg11' m ρ c)
theorem W6_main_arg11' (c : Dev nD) : W6 m ρ c (Proc.devRef .tc main_arg11) = m ((c : Thread nD τ).loc main_arg11) :=
  (W6_keep m ρ c main_arg11 (by decide)).trans (W5_main_arg11' m ρ c)
theorem W7_main_arg11' (c : Dev nD) : W7 m ρ c (Proc.devRef .tc main_arg11) = m ((c : Thread nD τ).loc main_arg11) :=
  (W7_keep m ρ c main_arg11 (by decide)).trans (W6_main_arg11' m ρ c)
theorem W8_main_arg11' (c : Dev nD) : W8 m ρ c (Proc.devRef .tc main_arg11) = m ((c : Thread nD τ).loc main_arg11) :=
  (W8_keep m ρ c main_arg11 (by decide)).trans (W7_main_arg11' m ρ c)
theorem W9_main_arg11' (c : Dev nD) : W9 m ρ c (Proc.devRef .tc main_arg11) = m ((c : Thread nD τ).loc main_arg11) :=
  (W9_keep m ρ c main_arg11 (by decide)).trans (W8_main_arg11' m ρ c)
theorem W10_main_arg11' (c : Dev nD) : W10 m ρ c (Proc.devRef .tc main_arg11) = m ((c : Thread nD τ).loc main_arg11) :=
  (W10_keep m ρ c main_arg11 (by decide)).trans (W9_main_arg11' m ρ c)
theorem W11_main_arg11' (c : Dev nD) : W11 m ρ c (Proc.devRef .tc main_arg11) = m ((c : Thread nD τ).loc main_arg11) :=
  (W11_keep m ρ c main_arg11 (by decide)).trans (W10_main_arg11' m ρ c)
theorem W12_main_arg11' (c : Dev nD) : W12 m ρ c (Proc.devRef .tc main_arg11) = m ((c : Thread nD τ).loc main_arg11) :=
  (W12_keep m ρ c main_arg11 (by decide)).trans (W11_main_arg11' m ρ c)
theorem W13_main_arg11' (c : Dev nD) : W13 m ρ c (Proc.devRef .tc main_arg11) = m ((c : Thread nD τ).loc main_arg11) :=
  (W13_keep m ρ c main_arg11 (by decide)).trans (W12_main_arg11' m ρ c)
theorem W14_main_arg11' (c : Dev nD) : W14 m ρ c (Proc.devRef .tc main_arg11) = m ((c : Thread nD τ).loc main_arg11) :=
  (W14_keep m ρ c main_arg11 (by decide)).trans (W13_main_arg11' m ρ c)
theorem W15_main_arg11' (c : Dev nD) : W15 m ρ c (Proc.devRef .tc main_arg11) = m ((c : Thread nD τ).loc main_arg11) :=
  (W15_keep m ρ c main_arg11 (by decide)).trans (W14_main_arg11' m ρ c)
theorem W16_main_arg11' (c : Dev nD) : W16 m ρ c (Proc.devRef .tc main_arg11) = m ((c : Thread nD τ).loc main_arg11) :=
  (W16_keep m ρ c main_arg11 (by decide)).trans (W15_main_arg11' m ρ c)
theorem W17_main_arg11' (c : Dev nD) : W17 m ρ c (Proc.devRef .tc main_arg11) = m ((c : Thread nD τ).loc main_arg11) :=
  (W17_keep m ρ c main_arg11 (by decide)).trans (W16_main_arg11' m ρ c)
theorem W18_main_arg11' (c : Dev nD) : W18 m ρ c (Proc.devRef .tc main_arg11) = m ((c : Thread nD τ).loc main_arg11) :=
  (W18_keep m ρ c main_arg11 (by decide)).trans (W17_main_arg11' m ρ c)
theorem W0_main_arg12 (c : Dev nD) : W0 m ρ c (Proc.devRef .tc main_arg12) = m ((c : Thread nD τ).loc main_arg12) := rfl
theorem W1_main_arg12' (c : Dev nD) : W1 m ρ c (Proc.devRef .tc main_arg12) = m ((c : Thread nD τ).loc main_arg12) :=
  (W1_keep m ρ c main_arg12 (by decide)).trans (W0_main_arg12 m ρ c)
theorem W2_main_arg12' (c : Dev nD) : W2 m ρ c (Proc.devRef .tc main_arg12) = m ((c : Thread nD τ).loc main_arg12) :=
  (W2_keep m ρ c main_arg12 (by decide)).trans (W1_main_arg12' m ρ c)
theorem W3_main_arg12' (c : Dev nD) : W3 m ρ c (Proc.devRef .tc main_arg12) = m ((c : Thread nD τ).loc main_arg12) :=
  (W3_keep m ρ c main_arg12 (by decide)).trans (W2_main_arg12' m ρ c)
theorem W4_main_arg12' (c : Dev nD) : W4 m ρ c (Proc.devRef .tc main_arg12) = m ((c : Thread nD τ).loc main_arg12) :=
  (W4_keep m ρ c main_arg12 (by decide)).trans (W3_main_arg12' m ρ c)
theorem W5_main_arg12' (c : Dev nD) : W5 m ρ c (Proc.devRef .tc main_arg12) = m ((c : Thread nD τ).loc main_arg12) :=
  (W5_keep m ρ c main_arg12 (by decide)).trans (W4_main_arg12' m ρ c)
theorem W6_main_arg12' (c : Dev nD) : W6 m ρ c (Proc.devRef .tc main_arg12) = m ((c : Thread nD τ).loc main_arg12) :=
  (W6_keep m ρ c main_arg12 (by decide)).trans (W5_main_arg12' m ρ c)
theorem W7_main_arg12' (c : Dev nD) : W7 m ρ c (Proc.devRef .tc main_arg12) = m ((c : Thread nD τ).loc main_arg12) :=
  (W7_keep m ρ c main_arg12 (by decide)).trans (W6_main_arg12' m ρ c)
theorem W8_main_arg12' (c : Dev nD) : W8 m ρ c (Proc.devRef .tc main_arg12) = m ((c : Thread nD τ).loc main_arg12) :=
  (W8_keep m ρ c main_arg12 (by decide)).trans (W7_main_arg12' m ρ c)
theorem W9_main_arg12' (c : Dev nD) : W9 m ρ c (Proc.devRef .tc main_arg12) = m ((c : Thread nD τ).loc main_arg12) :=
  (W9_keep m ρ c main_arg12 (by decide)).trans (W8_main_arg12' m ρ c)
theorem W10_main_arg12' (c : Dev nD) : W10 m ρ c (Proc.devRef .tc main_arg12) = m ((c : Thread nD τ).loc main_arg12) :=
  (W10_keep m ρ c main_arg12 (by decide)).trans (W9_main_arg12' m ρ c)
theorem W11_main_arg12' (c : Dev nD) : W11 m ρ c (Proc.devRef .tc main_arg12) = m ((c : Thread nD τ).loc main_arg12) :=
  (W11_keep m ρ c main_arg12 (by decide)).trans (W10_main_arg12' m ρ c)
theorem W12_main_arg12' (c : Dev nD) : W12 m ρ c (Proc.devRef .tc main_arg12) = m ((c : Thread nD τ).loc main_arg12) :=
  (W12_keep m ρ c main_arg12 (by decide)).trans (W11_main_arg12' m ρ c)
theorem W13_main_arg12' (c : Dev nD) : W13 m ρ c (Proc.devRef .tc main_arg12) = m ((c : Thread nD τ).loc main_arg12) :=
  (W13_keep m ρ c main_arg12 (by decide)).trans (W12_main_arg12' m ρ c)
theorem W14_main_arg12' (c : Dev nD) : W14 m ρ c (Proc.devRef .tc main_arg12) = m ((c : Thread nD τ).loc main_arg12) :=
  (W14_keep m ρ c main_arg12 (by decide)).trans (W13_main_arg12' m ρ c)
theorem W15_main_arg12' (c : Dev nD) : W15 m ρ c (Proc.devRef .tc main_arg12) = m ((c : Thread nD τ).loc main_arg12) :=
  (W15_keep m ρ c main_arg12 (by decide)).trans (W14_main_arg12' m ρ c)
theorem W16_main_arg12' (c : Dev nD) : W16 m ρ c (Proc.devRef .tc main_arg12) = m ((c : Thread nD τ).loc main_arg12) :=
  (W16_keep m ρ c main_arg12 (by decide)).trans (W15_main_arg12' m ρ c)
theorem W17_main_arg12' (c : Dev nD) : W17 m ρ c (Proc.devRef .tc main_arg12) = m ((c : Thread nD τ).loc main_arg12) :=
  (W17_keep m ρ c main_arg12 (by decide)).trans (W16_main_arg12' m ρ c)
theorem W18_main_arg12' (c : Dev nD) : W18 m ρ c (Proc.devRef .tc main_arg12) = m ((c : Thread nD τ).loc main_arg12) :=
  ((W18_arr m ρ c 1).trans (((dat7 (T17 m ρ) c).arrAt_in 1 rfl _).trans (A_eq7 (T17 m ρ) c 1))).trans (W17_main_arg12' m ρ c)
theorem W0_main_arg13 (c : Dev nD) : W0 m ρ c (Proc.devRef .tc main_arg13) = m ((c : Thread nD τ).loc main_arg13) := rfl
theorem W1_main_arg13' (c : Dev nD) : W1 m ρ c (Proc.devRef .tc main_arg13) = m ((c : Thread nD τ).loc main_arg13) :=
  (W1_keep m ρ c main_arg13 (by decide)).trans (W0_main_arg13 m ρ c)
theorem W2_main_arg13' (c : Dev nD) : W2 m ρ c (Proc.devRef .tc main_arg13) = m ((c : Thread nD τ).loc main_arg13) :=
  (W2_keep m ρ c main_arg13 (by decide)).trans (W1_main_arg13' m ρ c)
theorem W3_main_arg13' (c : Dev nD) : W3 m ρ c (Proc.devRef .tc main_arg13) = m ((c : Thread nD τ).loc main_arg13) :=
  (W3_keep m ρ c main_arg13 (by decide)).trans (W2_main_arg13' m ρ c)
theorem W4_main_arg13' (c : Dev nD) : W4 m ρ c (Proc.devRef .tc main_arg13) = m ((c : Thread nD τ).loc main_arg13) :=
  (W4_keep m ρ c main_arg13 (by decide)).trans (W3_main_arg13' m ρ c)
theorem W5_main_arg13' (c : Dev nD) : W5 m ρ c (Proc.devRef .tc main_arg13) = m ((c : Thread nD τ).loc main_arg13) :=
  (W5_keep m ρ c main_arg13 (by decide)).trans (W4_main_arg13' m ρ c)
theorem W6_main_arg13' (c : Dev nD) : W6 m ρ c (Proc.devRef .tc main_arg13) = m ((c : Thread nD τ).loc main_arg13) :=
  (W6_keep m ρ c main_arg13 (by decide)).trans (W5_main_arg13' m ρ c)
theorem W7_main_arg13' (c : Dev nD) : W7 m ρ c (Proc.devRef .tc main_arg13) = m ((c : Thread nD τ).loc main_arg13) :=
  (W7_keep m ρ c main_arg13 (by decide)).trans (W6_main_arg13' m ρ c)
theorem W8_main_arg13' (c : Dev nD) : W8 m ρ c (Proc.devRef .tc main_arg13) = m ((c : Thread nD τ).loc main_arg13) :=
  (W8_keep m ρ c main_arg13 (by decide)).trans (W7_main_arg13' m ρ c)
theorem W9_main_arg13' (c : Dev nD) : W9 m ρ c (Proc.devRef .tc main_arg13) = m ((c : Thread nD τ).loc main_arg13) :=
  (W9_keep m ρ c main_arg13 (by decide)).trans (W8_main_arg13' m ρ c)
theorem W10_main_arg13' (c : Dev nD) : W10 m ρ c (Proc.devRef .tc main_arg13) = m ((c : Thread nD τ).loc main_arg13) :=
  (W10_keep m ρ c main_arg13 (by decide)).trans (W9_main_arg13' m ρ c)
theorem W11_main_arg13' (c : Dev nD) : W11 m ρ c (Proc.devRef .tc main_arg13) = m ((c : Thread nD τ).loc main_arg13) :=
  (W11_keep m ρ c main_arg13 (by decide)).trans (W10_main_arg13' m ρ c)
theorem W12_main_arg13' (c : Dev nD) : W12 m ρ c (Proc.devRef .tc main_arg13) = m ((c : Thread nD τ).loc main_arg13) :=
  (W12_keep m ρ c main_arg13 (by decide)).trans (W11_main_arg13' m ρ c)
theorem W13_main_arg13' (c : Dev nD) : W13 m ρ c (Proc.devRef .tc main_arg13) = m ((c : Thread nD τ).loc main_arg13) :=
  (W13_keep m ρ c main_arg13 (by decide)).trans (W12_main_arg13' m ρ c)
theorem W14_main_arg13' (c : Dev nD) : W14 m ρ c (Proc.devRef .tc main_arg13) = m ((c : Thread nD τ).loc main_arg13) :=
  (W14_keep m ρ c main_arg13 (by decide)).trans (W13_main_arg13' m ρ c)
theorem W15_main_arg13' (c : Dev nD) : W15 m ρ c (Proc.devRef .tc main_arg13) = m ((c : Thread nD τ).loc main_arg13) :=
  (W15_keep m ρ c main_arg13 (by decide)).trans (W14_main_arg13' m ρ c)
theorem W16_main_arg13' (c : Dev nD) : W16 m ρ c (Proc.devRef .tc main_arg13) = m ((c : Thread nD τ).loc main_arg13) :=
  (W16_keep m ρ c main_arg13 (by decide)).trans (W15_main_arg13' m ρ c)
theorem W17_main_arg13' (c : Dev nD) : W17 m ρ c (Proc.devRef .tc main_arg13) = m ((c : Thread nD τ).loc main_arg13) :=
  (W17_keep m ρ c main_arg13 (by decide)).trans (W16_main_arg13' m ρ c)
theorem W18_main_arg13' (c : Dev nD) : W18 m ρ c (Proc.devRef .tc main_arg13) = m ((c : Thread nD τ).loc main_arg13) :=
  (W18_keep m ρ c main_arg13 (by decide)).trans (W17_main_arg13' m ρ c)

end Cert.KernelIdeal.Hand

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«151719_j66898410602732_1_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.IdealValue0.lean ====
import proofs.«151719_j66898410602732_1_alg».proof.Proof.IdealRegion0
import proofs.«151719_j66898410602732_1_alg».proof.Proof.LibLinearLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Idealize.ShloMosaic.ValueIdx
open Idealize.ShloMosaic Idealize.ShloMosaic.TcCoe Idealize.SL.Sem
open Idealize.ShloMosaic.Pipeline (Dat)

-- what each TensorCore buffer holds at the moment the region starts, at the ideal values
variable (V : (c : Dev nD) → (b : Ref sig .tc) → Buf (Elt Ideal) ((c : Thread nD τ).loc b))

/-! # Region 0, read as one array: a linear layer of the sum of two input arrays, clamped below at zero -/

/-- The offset of a rectangle that starts at the origin. -/
theorem origin0 : (![0, 0] : Fin 2 → Nat) = fun _ => 0 := funext fun a => by fin_cases a <;> rfl

/-! ## The payload at an index -/

/-- The block's value at row `a`, column `q`: the sum over the 64 contracted coordinates of (first entry + second
    entry) times weight entry, plus the bias of column `q`, then the maximum with zero. The roundings to bf16 and the
    cast of the bias row to its own shape change nothing at the ideal values, the accumulator starts at zero, and the
    zero word is the extended real 0. -/
theorem pay0_apply (x0 x1 : Vec Ideal S5000x64 .f32) (x2 : Vec Ideal S64x128 .f32) (x3 : Vec Ideal S1x128 .f32)
    (a : Fin 5000) (q : Fin 128) :
    k0_pay1 x0 x1 x2 x3 (ix2 a q)
      = max ((∑ k : Fin 64, (x0 (ix2 a k) + x1 (ix2 a k)) * x2 (ix2 k q)) + x3 (ix2 (0 : Fin 1) q)) 0 := by
  unfold k0_pay1
  have hlin := Cert.LibLinearLayer.body_eq_lin (m := 5000) (k := 64) (n := 128)
    dot_S5000x64_S64x128_S5000x128_1_0_0_1_n_n rfl bitsLt_bf16_f32 broadcasts_S1x128_S5000x128
    (addf x0 x1) x2 (shapeCast S1x128 x3 shapeCasts_S1x128_S1x128)
  refine (congrArg (fun v : FVec Ideal S5000x128 .f32 => max (v (ix2 a q)) (Ideal.ofBits .f32 0x00000000#32)) hlin).trans ?_
  rw [Cert.LibLinearLayer.lin_apply, shapeCast_self, Ideal.ofBits_zero_f32]
  rfl

/-- The same at an index not yet split into its coordinates. -/
theorem pay0_at (x0 x1 : Vec Ideal S5000x64 .f32) (x2 : Vec Ideal S64x128 .f32) (x3 : Vec Ideal S1x128 .f32)
    (j : S5000x128.Idx) :
    k0_pay1 x0 x1 x2 x3 j
      = max ((∑ k : Fin 64, (x0 (ix2 (show Fin 5000 from j 0) k) + x1 (ix2 (show Fin 5000 from j 0) k))
          * x2 (ix2 k (show Fin 128 from j 1))) + x3 (ix2 (0 : Fin 1) (show Fin 128 from j 1))) 0 := by
  obtain ⟨a, q, rfl⟩ : ∃ (a : Fin 5000) (q : Fin 128), j = ix2 a q := ⟨j 0, j 1, eq_ix2 j⟩
  exact pay0_apply x0 x1 x2 x3 a q

/-! ## The result array as one function of the four input arrays -/

/-- Entry `i` of the result: row i₀ of the sum of the two input arrays against column i₁ of the weights, plus the bias
    of column i₁, clamped below at zero. -/
def G0 (X0 X1 : S50000x64.Idx → EReal) (W : S64x128.Idx → EReal) (B : S1x128.Idx → EReal) : S50000x128.Idx → EReal :=
  fun i => max ((∑ k : Fin 64, (X0 (ix2 (show Fin 50000 from i 0) k) + X1 (ix2 (show Fin 50000 from i 0) k))
      * W (ix2 k (show Fin 128 from i 1))) + B (ix2 (0 : Fin 1) (show Fin 128 from i 1))) 0

/-- Where the windows sit at grid point `t`: the two row windows and the output window at block row `t`, the weight
    and bias windows at the origin. Decided over the ten points. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `G0` of the four input arrays: rows 5000·t … 5000·t + 4999. An element
    of a block sits in its array at block index × block size + its coordinate in the block, on each axis. -/
theorem flushed0_eq (c : Dev nD) (t : Fin cfg0.N) :
    (dat0 (F := Ideal) V c).flushed 4 t
      = ((cfg0.win 4).blk t).view.read (Elt Ideal) (G0 (V c main_arg0) (V c main_arg1) (V c main_arg4) (V c main_v30)) := by
  show (cfg0.win 4).cut (grid0.coords t) ((dat0 (F := Ideal) V c).after 4 t) = _
  rw [after0_4]
  unfold out0_4
  rw [View.canon_unit_zero origin0]
  simp only [View.ld_unit_zero (S := S5000x64) origin0, View.ld_unit_zero (S := S64x128) origin0,
    View.ld_unit_zero (S := S1x128) origin0]
  obtain ⟨e0, e1, e2, e3, e4, e5, e6, e7, e8, e9⟩ := idx_facts0 t
  funext j
  show k0_pay1 (iblk0 V c 0 t) (iblk0 V c 1 t) (iblk0 V c 2 t) (iblk0 V c 3 t) j
    = G0 (V c main_arg0) (V c main_arg1) (V c main_arg4) (V c main_v30) (((cfg0.win 4).blk t).view.emb j)
  refine (pay0_at (iblk0 V c 0 t) (iblk0 V c 1 t) (iblk0 V c 2 t) (iblk0 V c 3 t) j).trans ?_
  unfold G0
  have h0 : ∀ k : Fin 64, ((cfg0.win 0).blk t).view.emb (ix2 (show Fin 5000 from j 0) k)
      = ix2 (show Fin 50000 from (((cfg0.win 4).blk t).view.emb j) 0) k := fun k => by
    funext ax; apply Fin.ext
    match ax with
    | ⟨0, _⟩ => show win0_0.index t (0 : Fin 2) * 5000 + 1 * (j 0).val = win0_4.index t (0 : Fin 2) * 5000 + 1 * (j 0).val; omega
    | ⟨1, _⟩ => show win0_0.index t (1 : Fin 2) * 64 + 1 * k.val = k.val; omega
  have h1 : ∀ k : Fin 64, ((cfg0.win 1).blk t).view.emb (ix2 (show Fin 5000 from j 0) k)
      = ix2 (show Fin 50000 from (((cfg0.win 4).blk t).view.emb j) 0) k := fun k => by
    funext ax; apply Fin.ext
    match ax with
    | ⟨0, _⟩ => show win0_1.index t (0 : Fin 2) * 5000 + 1 * (j 0).val = win0_4.index t (0 : Fin 2) * 5000 + 1 * (j 0).val; omega
    | ⟨1, _⟩ => show win0_1.index t (1 : Fin 2) * 64 + 1 * k.val = k.val; omega
  have h2 : ∀ k : Fin 64, ((cfg0.win 2).blk t).view.emb (ix2 k (show Fin 128 from j 1))
      = ix2 k (show Fin 128 from (((cfg0.win 4).blk t).view.emb j) 1) := fun k => by
    funext ax; apply Fin.ext
    match ax with
    | ⟨0, _⟩ => show win0_2.index t (0 : Fin 2) * 64 + 1 * k.val = k.val; omega
    | ⟨1, _⟩ => show win0_2.index t (1 : Fin 2) * 128 + 1 * (j 1).val = win0_4.index t (1 : Fin 2) * 128 + 1 * (j 1).val; omega
  have h3 : ((cfg0.win 3).blk t).view.emb (ix2 (0 : Fin 1) (show Fin 128 from j 1))
      = ix2 (0 : Fin 1) (show Fin 128 from (((cfg0.win 4).blk t).view.emb j) 1) := by
    funext ax; apply Fin.ext
    match ax with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega
  exact congrArg₂ (fun s b : EReal => max (s + b) 0)
    (Finset.sum_congr rfl fun k _ => congrArg₂ (fun u w : EReal => u * w)
      (congrArg₂ (fun u v : EReal => u + v) (congrArg (V c main_arg0) (h0 k)) (congrArg (V c main_arg1) (h1 k)))
      (congrArg (V c main_arg4) (h2 k)))
    (congrArg (V c main_v30) h3)

/-! ## The ten blocks cover the array -/

/-- An index lies in point `t`'s block exactly when each coordinate lies in the block's range on its axis. -/
theorem mem_blk0 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v31).slice (win0_4.rect t)).set ↔ _
  rw [View.set_slice_whole, Rect.mem_set_unit]
  exact Iff.rfl

/-- Row `r` lies in the block of point `r / 5000`. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5, e6, e7, e8, e9⟩ := idx_facts0 t
  have ht : t.val = (i 0).val / 5000 := rfl
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-! ## The array after the region -/

/-- After the region the result array holds, at (p, q), the maximum of zero and the sum over k of (first input (p, k) +
    second input (p, k)) times weight (k, q), plus bias (0, q). The four input arrays are named so that their entries
    are extended reals in the statement. -/
theorem final0 (c : Dev nD) (X0 X1 : S50000x64.Idx → EReal) (W : S64x128.Idx → EReal) (B : S1x128.Idx → EReal)
    (hX0 : (V c main_arg0 : S50000x64.Idx → EReal) = X0) (hX1 : (V c main_arg1 : S50000x64.Idx → EReal) = X1)
    (hW : (V c main_arg4 : S64x128.Idx → EReal) = W) (hB : (V c main_v30 : S1x128.Idx → EReal) = B)
    (p : Fin 50000) (q : Fin 128) :
    (dat0 (F := Ideal) V c).arrAt 4 cfg0.N (ix2 p q)
      = max ((∑ k : Fin 64, (X0 (ix2 p k) + X1 (ix2 p k)) * W (ix2 k q)) + B (ix2 (0 : Fin 1) q)) 0 := by
  subst hX0; subst hX1; subst hW; subst hB
  rw [(dat0 (F := Ideal) V c).arrAt_eq_of_cover 4
    (G0 (V c main_arg0) (V c main_arg1) (V c main_arg4) (V c main_v30)) (fun t _ => flushed0_eq V c t) cover0]
  rfl

end Cert.KernelIdeal.HandValue

end
-- ==== Proof.IdealValue1.lean ====
import proofs.«151719_j66898410602732_1_alg».proof.Proof.IdealRegion1
import proofs.«151719_j66898410602732_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Idealize.ShloMosaic.ValueIdx
open Idealize.ShloMosaic Idealize.ShloMosaic.TcCoe Idealize.SL.Sem
open Idealize.ShloMosaic.Pipeline (Dat)

-- what each TensorCore buffer holds at the moment the region starts, at the ideal values
variable (V : (c : Dev nD) → (b : Ref sig .tc) → Buf (Elt Ideal) ((c : Thread nD τ).loc b))

/-! # Region 1, read as one array: every row of the result is that row of the input times the weight matrix -/

/-- The offset of a rectangle that starts at the origin. -/
theorem origin1 : (![0, 0] : Fin 2 → Nat) = fun _ => 0 := funext fun a => by fin_cases a <;> rfl

/-! ## The payload at an index -/

/-- The block's product at row `a`, column `q`: the sum over the contracted coordinate of row entry times weight
    entry. Rounding the weights to bf16 and recasting the rows to their own shape change nothing at the ideal values,
    and the accumulator starts at zero. -/
theorem pay1_apply (x0 : Vec Ideal S5000x128 .bf16) (x1 : Vec Ideal S128x128 .f32) (a : Fin 5000) (q : Fin 128) :
    k1_pay1 x0 x1 (ix2 a q) = ∑ k : Fin 128, x0 (ix2 a k) * x1 (ix2 k q) := by
  unfold k1_pay1
  refine (Cert.LibMatmulPlain.matmul_plain_zero_apply (m := 5000) (k := 128) (n := 128) none
    (shapeCast S5000x128 x0 shapeCasts_S5000x128_S5000x128) (truncf .bf16 x1 bitsLt_bf16_f32) a q).trans ?_
  rw [shapeCast_self]
  rfl

/-- The same at an index not yet split into its coordinates. -/
theorem pay1_at (x0 : Vec Ideal S5000x128 .bf16) (x1 : Vec Ideal S128x128 .f32) (j : S5000x128.Idx) :
    k1_pay1 x0 x1 j = ∑ k : Fin 128, x0 (ix2 (show Fin 5000 from j 0) k) * x1 (ix2 k (show Fin 128 from j 1)) := by
  obtain ⟨a, q, rfl⟩ : ∃ (a : Fin 5000) (q : Fin 128), j = ix2 a q := ⟨j 0, j 1, eq_ix2 j⟩
  exact pay1_apply x0 x1 a q

/-! ## The result array as one function of the two input arrays -/

/-- Entry (p, q) of the product of an array of rows `X` with a weight matrix `W`: row p against column q. -/
def G1 (X : S50000x128.Idx → EReal) (W : S128x128.Idx → EReal) : S50000x128.Idx → EReal := fun i =>
  ∑ k : Fin 128, X (ix2 (show Fin 50000 from i 0) k) * W (ix2 k (show Fin 128 from i 1))

/-- Where the windows sit at grid point `t`: the row window and the output window at block row `t`, the weight
    window at the origin. Decided over the ten points. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `G1` of the two input arrays: rows 5000·t … 5000·t + 4999 of the
    product. An element of a block sits in its array at block index × block size + its coordinate in the block, on
    each axis. -/
theorem flushed1_eq (c : Dev nD) (t : Fin cfg1.N) :
    (dat1 (F := Ideal) V c).flushed 2 t
      = ((cfg1.win 2).blk t).view.read (Elt Ideal) (G1 (V c main_v31) (V c main_arg6)) := by
  show (cfg1.win 2).cut (grid1.coords t) ((dat1 (F := Ideal) V c).after 2 t) = _
  rw [after1_2]
  unfold out1_2
  rw [View.canon_unit_zero origin1]
  simp only [View.ld_unit_zero (S := S5000x128) origin1, View.ld_unit_zero (S := S128x128) origin1]
  obtain ⟨e0, e1, e2, e3, e4, e5⟩ := idx_facts1 t
  funext j
  show k1_pay1 (iblk1 V c 0 t) (iblk1 V c 1 t) j
    = G1 (V c main_v31) (V c main_arg6) (((cfg1.win 2).blk t).view.emb j)
  refine (pay1_at (iblk1 V c 0 t) (iblk1 V c 1 t) j).trans ?_
  unfold G1
  refine Finset.sum_congr rfl fun k _ => ?_
  have h0 : ((cfg1.win 0).blk t).view.emb (ix2 (show Fin 5000 from j 0) k)
      = ix2 (show Fin 50000 from (((cfg1.win 2).blk t).view.emb j) 0) k := by
    funext ax; apply Fin.ext
    match ax with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (ix2 k (show Fin 128 from j 1))
      = ix2 k (show Fin 128 from (((cfg1.win 2).blk t).view.emb j) 1) := by
    funext ax; apply Fin.ext
    match ax with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  exact congrArg₂ (· * ·) (congrArg (V c main_v31) h0) (congrArg (V c main_arg6) h1)

/-! ## The ten blocks cover the array -/

/-- An index lies in point `t`'s block exactly when each coordinate lies in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v32).slice (win1_2.rect t)).set ↔ _
  rw [View.set_slice_whole, Rect.mem_set_unit]
  exact Iff.rfl

/-- Row `r` lies in the block of point `r / 5000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-! ## The array after the region -/

/-- After the region the result array holds, at (p, q), the sum over k of input (p, k) times weight (k, q). The two
    input arrays are named `X` and `W` so that their entries are extended reals in the statement. -/
theorem final1 (c : Dev nD) (X : S50000x128.Idx → EReal) (W : S128x128.Idx → EReal)
    (hX : (V c main_v31 : S50000x128.Idx → EReal) = X) (hW : (V c main_arg6 : S128x128.Idx → EReal) = W)
    (p : Fin 50000) (q : Fin 128) :
    (dat1 (F := Ideal) V c).arrAt 2 cfg1.N (ix2 p q) = ∑ k : Fin 128, X (ix2 p k) * W (ix2 k q) := by
  subst hX; subst hW
  rw [(dat1 (F := Ideal) V c).arrAt_eq_of_cover 2 (G1 (V c main_v31) (V c main_arg6))
    (fun t _ => flushed1_eq V c t) cover1]
  rfl

end Cert.KernelIdeal.HandValue

end
-- ==== Proof.IdealValue2.lean ====
import proofs.«151719_j66898410602732_1_alg».proof.Proof.IdealRegion2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Idealize.ShloMosaic.ValueIdx
open Idealize.ShloMosaic Idealize.ShloMosaic.TcCoe Idealize.SL.Sem
open Idealize.ShloMosaic.Pipeline (Dat)

-- what each TensorCore buffer holds at the moment the region starts, at the ideal values
variable (V : (c : Dev nD) → (b : Ref sig .tc) → Buf (Elt Ideal) ((c : Thread nD τ).loc b))

/-! # Region 2, read as one array: every entry of the result is the input entry plus the bias of its column, clamped below at zero -/

/-- The offset of a rectangle that starts at the origin. -/
theorem origin2 : (![0, 0] : Fin 2 → Nat) = fun _ => 0 := funext fun a => by fin_cases a <;> rfl

/-! ## The payload at an index -/

/-- The block's value at row `a`, column `q`: the entry plus the bias of column `q` (the one bias row repeated down
    the rows), then the maximum with zero. The casts of an array to its own shape and the final rounding to bf16 change
    nothing at the ideal values, and the zero word is the extended real 0. -/
theorem pay2_apply (x0 : Vec Ideal S5000x128 .f32) (x1 : Vec Ideal S1x128 .f32) (a : Fin 5000) (q : Fin 128) :
    k2_pay1 x0 x1 (ix2 a q) = max (x0 (ix2 a q) + x1 (ix2 (0 : Fin 1) q)) 0 := by
  unfold k2_pay1
  show max (shapeCast S5000x128 x0 shapeCasts_S5000x128_S5000x128 (ix2 a q)
      + broadcastTo S5000x128 (shapeCast S1x128 x1 shapeCasts_S1x128_S1x128) broadcasts_S1x128_S5000x128 (ix2 a q))
      (Ideal.ofBits .f32 0x00000000#32) = _
  rw [shapeCast_self, shapeCast_self, broadcastTo_1b_ab_apply, Ideal.ofBits_zero_f32]

/-- The same at an index not yet split into its coordinates. -/
theorem pay2_at (x0 : Vec Ideal S5000x128 .f32) (x1 : Vec Ideal S1x128 .f32) (j : S5000x128.Idx) :
    k2_pay1 x0 x1 j = max (x0 j + x1 (ix2 (0 : Fin 1) (show Fin 128 from j 1))) 0 := by
  obtain ⟨a, q, rfl⟩ : ∃ (a : Fin 5000) (q : Fin 128), j = ix2 a q := ⟨j 0, j 1, eq_ix2 j⟩
  exact pay2_apply x0 x1 a q

/-! ## The result array as one function of the input array and the bias row -/

/-- Entry `i` of the result: the input entry plus the bias of its column, clamped below at zero. -/
def G2 (X : S50000x128.Idx → EReal) (B : S1x128.Idx → EReal) : S50000x128.Idx → EReal := fun i =>
  max (X i + B (ix2 (0 : Fin 1) (show Fin 128 from i 1))) 0

/-- Where the windows sit at grid point `t`: the input window and the output window at block row `t`, the bias
    window at the origin. Decided over the ten points. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `G2` of the input array and the bias row: rows 5000·t … 5000·t + 4999.
    An element of a block sits in its array at block index × block size + its coordinate in the block, on each axis. -/
theorem flushed2_eq (c : Dev nD) (t : Fin cfg2.N) :
    (dat2 (F := Ideal) V c).flushed 2 t
      = ((cfg2.win 2).blk t).view.read (Elt Ideal) (G2 (V c main_v45) (V c main_v46)) := by
  show (cfg2.win 2).cut (grid2.coords t) ((dat2 (F := Ideal) V c).after 2 t) = _
  rw [after2_2]
  unfold out2_2
  rw [View.canon_unit_zero origin2]
  simp only [View.ld_unit_zero (S := S5000x128) origin2, View.ld_unit_zero (S := S1x128) origin2]
  obtain ⟨e0, e1, e2, e3, e4, e5⟩ := idx_facts2 t
  funext j
  show k2_pay1 (iblk2 V c 0 t) (iblk2 V c 1 t) j
    = G2 (V c main_v45) (V c main_v46) (((cfg2.win 2).blk t).view.emb j)
  refine (pay2_at (iblk2 V c 0 t) (iblk2 V c 1 t) j).trans ?_
  unfold G2
  have h0 : ((cfg2.win 0).blk t).view.emb j = ((cfg2.win 2).blk t).view.emb j := by
    funext ax; apply Fin.ext
    match ax with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb (ix2 (0 : Fin 1) (show Fin 128 from j 1))
      = ix2 (0 : Fin 1) (show Fin 128 from (((cfg2.win 2).blk t).view.emb j) 1) := by
    funext ax; apply Fin.ext
    match ax with
    | ⟨0, _⟩ => show win2_1.index t (0 : Fin 2) * 1 + 1 * 0 = 0; omega
    | ⟨1, _⟩ => show win2_1.index t (1 : Fin 2) * 128 + 1 * (j 1).val = win2_2.index t (1 : Fin 2) * 128 + 1 * (j 1).val; omega
  exact congrArg₂ (fun u v => max (u + v) 0) (congrArg (V c main_v45) h0) (congrArg (V c main_v46) h1)

/-! ## The ten blocks cover the array -/

/-- An index lies in point `t`'s block exactly when each coordinate lies in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v47).slice (win2_2.rect t)).set ↔ _
  rw [View.set_slice_whole, Rect.mem_set_unit]
  exact Iff.rfl

/-- Row `r` lies in the block of point `r / 5000`. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, e4, e5⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-! ## The array after the region -/

/-- After the region the result array holds, at (p, q), the maximum of zero and input (p, q) plus bias (0, q). The
    input array and the bias row are named `X` and `B` so that their entries are extended reals in the statement. -/
theorem final2 (c : Dev nD) (X : S50000x128.Idx → EReal) (B : S1x128.Idx → EReal)
    (hX : (V c main_v45 : S50000x128.Idx → EReal) = X) (hB : (V c main_v46 : S1x128.Idx → EReal) = B)
    (p : Fin 50000) (q : Fin 128) :
    (dat2 (F := Ideal) V c).arrAt 2 cfg2.N (ix2 p q) = max (X (ix2 p q) + B (ix2 (0 : Fin 1) q)) 0 := by
  subst hX; subst hB
  rw [(dat2 (F := Ideal) V c).arrAt_eq_of_cover 2 (G2 (V c main_v45) (V c main_v46))
    (fun t _ => flushed2_eq V c t) cover2]
  rfl

end Cert.KernelIdeal.HandValue

end
-- ==== Proof.IdealValue3.lean ====
import proofs.«151719_j66898410602732_1_alg».proof.Proof.IdealRegion3
import proofs.«151719_j66898410602732_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Idealize.ShloMosaic.ValueIdx
open Idealize.ShloMosaic Idealize.ShloMosaic.TcCoe Idealize.SL.Sem
open Idealize.ShloMosaic.Pipeline (Dat)

-- what each TensorCore buffer holds at the moment the region starts, at the ideal values
variable (V : (c : Dev nD) → (b : Ref sig .tc) → Buf (Elt Ideal) ((c : Thread nD τ).loc b))

/-! # Region 3, read as one array: every row of the result is that row of the input times the weight matrix -/

/-- The offset of a rectangle that starts at the origin. -/
theorem origin3 : (![0, 0] : Fin 2 → Nat) = fun _ => 0 := funext fun a => by fin_cases a <;> rfl

/-! ## The payload at an index -/

/-- The block's product at row `a`, column `q`: the sum over the contracted coordinate of row entry times weight
    entry. Rounding the weights to bf16 and recasting the rows to their own shape change nothing at the ideal values,
    and the accumulator starts at zero. -/
theorem pay3_apply (x0 : Vec Ideal S5000x128 .bf16) (x1 : Vec Ideal S128x128 .f32) (a : Fin 5000) (q : Fin 128) :
    k3_pay1 x0 x1 (ix2 a q) = ∑ k : Fin 128, x0 (ix2 a k) * x1 (ix2 k q) := by
  unfold k3_pay1
  refine (Cert.LibMatmulPlain.matmul_plain_zero_apply (m := 5000) (k := 128) (n := 128) none
    (shapeCast S5000x128 x0 shapeCasts_S5000x128_S5000x128) (truncf .bf16 x1 bitsLt_bf16_f32) a q).trans ?_
  rw [shapeCast_self]
  rfl

/-- The same at an index not yet split into its coordinates. -/
theorem pay3_at (x0 : Vec Ideal S5000x128 .bf16) (x1 : Vec Ideal S128x128 .f32) (j : S5000x128.Idx) :
    k3_pay1 x0 x1 j = ∑ k : Fin 128, x0 (ix2 (show Fin 5000 from j 0) k) * x1 (ix2 k (show Fin 128 from j 1)) := by
  obtain ⟨a, q, rfl⟩ : ∃ (a : Fin 5000) (q : Fin 128), j = ix2 a q := ⟨j 0, j 1, eq_ix2 j⟩
  exact pay3_apply x0 x1 a q

/-! ## The result array as one function of the two input arrays -/

/-- Entry (p, q) of the product of an array of rows `X` with a weight matrix `W`: row p against column q. -/
def G3 (X : S50000x128.Idx → EReal) (W : S128x128.Idx → EReal) : S50000x128.Idx → EReal := fun i =>
  ∑ k : Fin 128, X (ix2 (show Fin 50000 from i 0) k) * W (ix2 k (show Fin 128 from i 1))

/-- Where the windows sit at grid point `t`: the row window and the output window at block row `t`, the weight
    window at the origin. Decided over the ten points. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `G3` of the two input arrays: rows 5000·t … 5000·t + 4999 of the
    product. An element of a block sits in its array at block index × block size + its coordinate in the block, on
    each axis. -/
theorem flushed3_eq (c : Dev nD) (t : Fin cfg3.N) :
    (dat3 (F := Ideal) V c).flushed 2 t
      = ((cfg3.win 2).blk t).view.read (Elt Ideal) (G3 (V c main_v47) (V c main_arg8)) := by
  show (cfg3.win 2).cut (grid3.coords t) ((dat3 (F := Ideal) V c).after 2 t) = _
  rw [after3_2]
  unfold out3_2
  rw [View.canon_unit_zero origin3]
  simp only [View.ld_unit_zero (S := S5000x128) origin3, View.ld_unit_zero (S := S128x128) origin3]
  obtain ⟨e0, e1, e2, e3, e4, e5⟩ := idx_facts3 t
  funext j
  show k3_pay1 (iblk3 V c 0 t) (iblk3 V c 1 t) j
    = G3 (V c main_v47) (V c main_arg8) (((cfg3.win 2).blk t).view.emb j)
  refine (pay3_at (iblk3 V c 0 t) (iblk3 V c 1 t) j).trans ?_
  unfold G3
  refine Finset.sum_congr rfl fun k _ => ?_
  have h0 : ((cfg3.win 0).blk t).view.emb (ix2 (show Fin 5000 from j 0) k)
      = ix2 (show Fin 50000 from (((cfg3.win 2).blk t).view.emb j) 0) k := by
    funext ax; apply Fin.ext
    match ax with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have h1 : ((cfg3.win 1).blk t).view.emb (ix2 k (show Fin 128 from j 1))
      = ix2 k (show Fin 128 from (((cfg3.win 2).blk t).view.emb j) 1) := by
    funext ax; apply Fin.ext
    match ax with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  exact congrArg₂ (· * ·) (congrArg (V c main_v47) h0) (congrArg (V c main_arg8) h1)

/-! ## The ten blocks cover the array -/

/-- An index lies in point `t`'s block exactly when each coordinate lies in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v48).slice (win3_2.rect t)).set ↔ _
  rw [View.set_slice_whole, Rect.mem_set_unit]
  exact Iff.rfl

/-- Row `r` lies in the block of point `r / 5000`. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4, e5⟩ := idx_facts3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-! ## The array after the region -/

/-- After the region the result array holds, at (p, q), the sum over k of input (p, k) times weight (k, q). The two
    input arrays are named `X` and `W` so that their entries are extended reals in the statement. -/
theorem final3 (c : Dev nD) (X : S50000x128.Idx → EReal) (W : S128x128.Idx → EReal)
    (hX : (V c main_v47 : S50000x128.Idx → EReal) = X) (hW : (V c main_arg8 : S128x128.Idx → EReal) = W)
    (p : Fin 50000) (q : Fin 128) :
    (dat3 (F := Ideal) V c).arrAt 2 cfg3.N (ix2 p q) = ∑ k : Fin 128, X (ix2 p k) * W (ix2 k q) := by
  subst hX; subst hW
  rw [(dat3 (F := Ideal) V c).arrAt_eq_of_cover 2 (G3 (V c main_v47) (V c main_arg8))
    (fun t _ => flushed3_eq V c t) cover3]
  rfl

end Cert.KernelIdeal.HandValue

end
-- ==== Proof.IdealValue4.lean ====
import proofs.«151719_j66898410602732_1_alg».proof.Proof.IdealRegion4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Idealize.ShloMosaic.ValueIdx
open Idealize.ShloMosaic Idealize.ShloMosaic.TcCoe Idealize.SL.Sem
open Idealize.ShloMosaic.Pipeline (Dat)

-- what each TensorCore buffer holds at the moment the region starts, at the ideal values
variable (V : (c : Dev nD) → (b : Ref sig .tc) → Buf (Elt Ideal) ((c : Thread nD τ).loc b))

/-! # Region 4, read as one array: every entry of the result is the input entry plus the bias of its column, clamped below at zero -/

/-- The offset of a rectangle that starts at the origin. -/
theorem origin4 : (![0, 0] : Fin 2 → Nat) = fun _ => 0 := funext fun a => by fin_cases a <;> rfl

/-! ## The payload at an index -/

/-- The block's value at row `a`, column `q`: the entry plus the bias of column `q` (the one bias row repeated down
    the rows), then the maximum with zero. The casts of an array to its own shape and the final rounding to bf16 change
    nothing at the ideal values, and the zero word is the extended real 0. -/
theorem pay4_apply (x0 : Vec Ideal S5000x128 .f32) (x1 : Vec Ideal S1x128 .f32) (a : Fin 5000) (q : Fin 128) :
    k4_pay1 x0 x1 (ix2 a q) = max (x0 (ix2 a q) + x1 (ix2 (0 : Fin 1) q)) 0 := by
  unfold k4_pay1
  show max (shapeCast S5000x128 x0 shapeCasts_S5000x128_S5000x128 (ix2 a q)
      + broadcastTo S5000x128 (shapeCast S1x128 x1 shapeCasts_S1x128_S1x128) broadcasts_S1x128_S5000x128 (ix2 a q))
      (Ideal.ofBits .f32 0x00000000#32) = _
  rw [shapeCast_self, shapeCast_self, broadcastTo_1b_ab_apply, Ideal.ofBits_zero_f32]

/-- The same at an index not yet split into its coordinates. -/
theorem pay4_at (x0 : Vec Ideal S5000x128 .f32) (x1 : Vec Ideal S1x128 .f32) (j : S5000x128.Idx) :
    k4_pay1 x0 x1 j = max (x0 j + x1 (ix2 (0 : Fin 1) (show Fin 128 from j 1))) 0 := by
  obtain ⟨a, q, rfl⟩ : ∃ (a : Fin 5000) (q : Fin 128), j = ix2 a q := ⟨j 0, j 1, eq_ix2 j⟩
  exact pay4_apply x0 x1 a q

/-! ## The result array as one function of the input array and the bias row -/

/-- Entry `i` of the result: the input entry plus the bias of its column, clamped below at zero. -/
def G4 (X : S50000x128.Idx → EReal) (B : S1x128.Idx → EReal) : S50000x128.Idx → EReal := fun i =>
  max (X i + B (ix2 (0 : Fin 1) (show Fin 128 from i 1))) 0

/-- Where the windows sit at grid point `t`: the input window and the output window at block row `t`, the bias
    window at the origin. Decided over the ten points. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of `G4` of the input array and the bias row: rows 5000·t … 5000·t + 4999.
    An element of a block sits in its array at block index × block size + its coordinate in the block, on each axis. -/
theorem flushed4_eq (c : Dev nD) (t : Fin cfg4.N) :
    (dat4 (F := Ideal) V c).flushed 2 t
      = ((cfg4.win 2).blk t).view.read (Elt Ideal) (G4 (V c main_v61) (V c main_v62)) := by
  show (cfg4.win 2).cut (grid4.coords t) ((dat4 (F := Ideal) V c).after 2 t) = _
  rw [after4_2]
  unfold out4_2
  rw [View.canon_unit_zero origin4]
  simp only [View.ld_unit_zero (S := S5000x128) origin4, View.ld_unit_zero (S := S1x128) origin4]
  obtain ⟨e0, e1, e2, e3, e4, e5⟩ := idx_facts4 t
  funext j
  show k4_pay1 (iblk4 V c 0 t) (iblk4 V c 1 t) j
    = G4 (V c main_v61) (V c main_v62) (((cfg4.win 2).blk t).view.emb j)
  refine (pay4_at (iblk4 V c 0 t) (iblk4 V c 1 t) j).trans ?_
  unfold G4
  have h0 : ((cfg4.win 0).blk t).view.emb j = ((cfg4.win 2).blk t).view.emb j := by
    funext ax; apply Fin.ext
    match ax with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb (ix2 (0 : Fin 1) (show Fin 128 from j 1))
      = ix2 (0 : Fin 1) (show Fin 128 from (((cfg4.win 2).blk t).view.emb j) 1) := by
    funext ax; apply Fin.ext
    match ax with
    | ⟨0, _⟩ => show win4_1.index t (0 : Fin 2) * 1 + 1 * 0 = 0; omega
    | ⟨1, _⟩ => show win4_1.index t (1 : Fin 2) * 128 + 1 * (j 1).val = win4_2.index t (1 : Fin 2) * 128 + 1 * (j 1).val; omega
  exact congrArg₂ (fun u v => max (u + v) 0) (congrArg (V c main_v61) h0) (congrArg (V c main_v62) h1)

/-! ## The ten blocks cover the array -/

/-- An index lies in point `t`'s block exactly when each coordinate lies in the block's range on its axis. -/
theorem mem_blk4 (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v63).slice (win4_2.rect t)).set ↔ _
  rw [View.set_slice_whole, Rect.mem_set_unit]
  exact Iff.rfl

/-- Row `r` lies in the block of point `r / 5000`. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨e0, e1, e2, e3, e4, e5⟩ := idx_facts4 t
  have ht : t.val = (i 0).val / 5000 := rfl
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-! ## The array after the region -/

/-- After the region the result array holds, at (p, q), the maximum of zero and input (p, q) plus bias (0, q). The
    input array and the bias row are named `X` and `B` so that their entries are extended reals in the statement. -/
theorem final4 (c : Dev nD) (X : S50000x128.Idx → EReal) (B : S1x128.Idx → EReal)
    (hX : (V c main_v61 : S50000x128.Idx → EReal) = X) (hB : (V c main_v62 : S1x128.Idx → EReal) = B)
    (p : Fin 50000) (q : Fin 128) :
    (dat4 (F := Ideal) V c).arrAt 2 cfg4.N (ix2 p q) = max (X (ix2 p q) + B (ix2 (0 : Fin 1) q)) 0 := by
  subst hX; subst hB
  rw [(dat4 (F := Ideal) V c).arrAt_eq_of_cover 2 (G4 (V c main_v61) (V c main_v62))
    (fun t _ => flushed4_eq V c t) cover4]
  rfl

end Cert.KernelIdeal.HandValue

end
-- ==== Proof.LibOneHotPool.lean ====
/-
  Pooling rows by label with one-hot blocks: a blockwise one-hot matrix product accumulates the segment sum.

  A kernel sums the rows of an [R, C] array x by a vector of R labels, K rows at a time. For a block of K labels it builds the
  one-hot matrix E (E i g = 1 if label i is g, else 0), multiplies its transpose by the block of K rows of x — entry (g, c) of
  the product is ∑ i, E i g · x i c — and adds the product to an accumulator that starts at zero. Over the extended reals
  0 · a = 0 and 1 · a = a for every a, infinite ones included, so the product's entry is the sum of the rows of the block
  whose label is g, with no finiteness assumption; addition is commutative and associative, so accumulating the T blocks in
  order gives the sum over all R = T · K rows n = K t + i of "x n c if label n is g, else 0".
-/
import Idealize.ShloMosaic.PureOps.Ideal
import Idealize.ShloMosaic.PureOps.Ideal.Laws
import Idealize.ShloMosaic.Lib.ValueIdx
import Idealize.ShloMosaic.Lib.Pipeline.Value

namespace Cert.LibOneHotPool

open Idealize.ShloMosaic Idealize.ShloMosaic.ValueIdx
open scoped BigOperators

/-! ## A sum over T · K terms, in T blocks of K -/

/-- Term `i` of block `t`, of `T` blocks of `K` terms, is term `K t + i` of the `T · K` terms. -/
theorem blk_lt {T K R : ℕ} (h : T * K = R) (t : Fin T) (i : Fin K) : K * t.val + i.val < R := by
  have ht := t.isLt
  have hi := i.isLt
  calc K * t.val + i.val < K * t.val + K := by omega
    _ = K * (t.val + 1) := by ring
    _ ≤ K * T := Nat.mul_le_mul_left K ht
    _ = R := by rw [Nat.mul_comm, h]

/-- A sum over `R = T · K` terms is the sum over the `T` blocks of the sums of each block's `K` terms, term `n = K t + i`. -/
theorem sum_blocks {M : Type*} [AddCommMonoid M] {R : ℕ} (T K : ℕ) (h : T * K = R) (f : Fin R → M) :
    ∑ n : Fin R, f n = ∑ t : Fin T, ∑ i : Fin K, f ⟨K * t.val + i.val, blk_lt h t i⟩ := by
  subst h
  rw [← Equiv.sum_comp finProdFinEquiv f, Fintype.sum_prod_type]
  refine Finset.sum_congr rfl (fun t _ => Finset.sum_congr rfl (fun i _ => ?_))
  refine congrArg f (Fin.ext ?_)
  show i.val + K * t.val = K * t.val + i.val
  exact Nat.add_comm _ _

/-- An accumulator that starts at zero and adds `y t` at step `t` holds, after `T` steps, the sum of `y 0, …, y (T − 1)`. -/
theorem acc_eq_sum {M : Type*} [AddCommMonoid M] (y a : ℕ → M) (h0 : a 0 = 0) (T : ℕ)
    (hs : ∀ t, t < T → a (t + 1) = a t + y t) : a T = ∑ t ∈ Finset.range T, y t := by
  induction T with
  | zero => simpa using h0
  | succ n ih =>
    rw [Finset.sum_range_succ, hs n (Nat.lt_succ_self n), ih (fun t ht => hs t (Nat.lt_succ_of_lt ht))]

/-- An accumulator that starts at zero and at step `t` adds the sum of block `t` holds, after the `T` blocks, the sum of all
    `R = T · K` terms. -/
theorem acc_blocks {M : Type*} [AddCommMonoid M] {R : ℕ} (T K : ℕ) (h : T * K = R) (f : Fin R → M) (a : ℕ → M)
    (h0 : a 0 = 0)
    (hs : ∀ t : Fin T, a (t.val + 1) = a t.val + ∑ i : Fin K, f ⟨K * t.val + i.val, blk_lt h t i⟩) :
    a T = ∑ n : Fin R, f n := by
  rw [sum_blocks T K h f]
  have key := acc_eq_sum (fun t => if ht : t < T then ∑ i : Fin K, f ⟨K * t + i.val, blk_lt h ⟨t, ht⟩ i⟩ else 0) a h0 T
    (fun t ht => by rw [dif_pos ht]; exact hs ⟨t, ht⟩)
  rw [key, Finset.sum_range]
  refine Finset.sum_congr rfl (fun t _ => ?_)
  rw [dif_pos t.isLt]

/-- Ten accumulations from zero, written out, are the sum of the ten terms. -/
theorem acc_ten {M : Type*} [AddCommMonoid M] (y : ℕ → M) :
    ((((((((((0 + y 0) + y 1) + y 2) + y 3) + y 4) + y 5) + y 6) + y 7) + y 8) + y 9) = ∑ t ∈ Finset.range 10, y t := by
  simp only [Finset.sum_range_succ, Finset.sum_range_zero]

/-! ## One entry of the one-hot matrix -/

/-- A 32-bit word, read signed, is the number `g < 2³¹` exactly when it is the word of `g`. -/
theorem toInt_eq_iff_eq_ofNat (v : BitVec 32) (g : ℕ) (hg : g < 2 ^ 31) : v.toInt = (g : ℤ) ↔ v = BitVec.ofNat 32 g := by
  constructor
  · intro h
    have h1 : BitVec.ofInt 32 v.toInt = v := BitVec.ofInt_toInt
    rw [← h1, h]
    exact BitVec.ofInt_natCast 32 g
  · rintro rfl
    rw [BitVec.toInt_eq_toNat_cond, BitVec.toNat_ofNat]
    have hm : g % 2 ^ 32 = g := Nat.mod_eq_of_lt (by omega)
    rw [hm]
    split <;> omega

/-- The comparison "equal", widened to 32 bits and converted to a float at the ideal reading, is one on equal words and zero
    on different ones. -/
theorem onehot_word (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · subst h
    have h1 : IntOp.cmpi .eq a a = 1#1 := by simp [IntOp.cmpi]
    have h2 : ((1#1 : BitVec 1).setWidth 32).toInt = 1 := by decide
    rw [h1, h2, if_pos rfl]
    simp
  · have hb : (a == b) = false := beq_eq_false_iff_ne.mpr h
    have h1 : IntOp.cmpi .eq a b = 0#1 := by simp [IntOp.cmpi, hb]
    have h2 : ((0#1 : BitVec 1).setWidth 32).toInt = 0 := by decide
    rw [h1, h2, if_neg h]
    simp

/-! ## The transposed-left matrix product at an index -/

section Dot

variable {K G C : ℕ}

/-- The dimension numbers of the product of the transpose of a `[K, G]` matrix with a `[K, C]` matrix: both operands are
    contracted on their row axis. -/
abbrev tnDims (K G C : ℕ) (wf : DotDims.WF ⟨2, ![K, G]⟩ ⟨2, ![K, C]⟩ ⟨2, ![G, C]⟩ [0] [0] [1] [1] [] []) :
    DotDims ⟨2, ![K, G]⟩ ⟨2, ![K, C]⟩ ⟨2, ![G, C]⟩ where
  lhsContracting := [0]
  rhsContracting := [0]
  lhsNonContracting := [1]
  rhsNonContracting := [1]
  lhsBatch := []
  rhsBatch := []
  wf := wf

/-- The matrix product of the transpose of `A : [K, G]` with `B : [K, C]` added to `acc`, at the ideal reading and read at `(g, c)`:
    the accumulator there plus the sum over the rows `i` of `A i g · B i c`. -/
theorem matmul_tn_apply {φ₁ φ₂ : FTy} (wf : DotDims.WF ⟨2, ![K, G]⟩ ⟨2, ![K, C]⟩ ⟨2, ![G, C]⟩ [0] [0] [1] [1] [] [])
    (prec : Option ContractPrecision) (A : FVec Ideal ⟨2, ![K, G]⟩ φ₁) (B : FVec Ideal ⟨2, ![K, C]⟩ φ₂)
    (acc : FVec Ideal ⟨2, ![G, C]⟩ .f32) (g : Fin G) (c : Fin C) :
    FloatOps.matmul (tnDims K G C wf) prec A B acc (ix2 g c) = acc (ix2 g c) + ∑ i : Fin K, A (ix2 i g) * B (ix2 i c) := by
  rw [Ideal.matmul_apply, ← Equiv.sum_comp (contrEquiv1 (tnDims K G C wf) K rfl rfl).symm]
  refine congrArg (acc (ix2 g c) + ·) (Finset.sum_congr rfl fun i _ => ?_)
  have ck := contrEquiv1_symm_val (tnDims K G C wf) K rfl rfl i
  have l2 : (tnDims K G C wf).lhsIdx (ix2 g c) ((contrEquiv1 _ K rfl rfl).symm i) = ix2 i g := by
    funext ax; apply Fin.ext
    match ax with
    | ⟨0, _⟩ => simp [DotDims.lhsIdx]; exact ck
    | ⟨1, _⟩ => simp [DotDims.lhsIdx]; rfl
  have r2 : (tnDims K G C wf).rhsIdx (ix2 g c) ((contrEquiv1 _ K rfl rfl).symm i) = ix2 i c := by
    funext ax; apply Fin.ext
    match ax with
    | ⟨0, _⟩ => simp [DotDims.rhsIdx]; exact ck
    | ⟨1, _⟩ => simp [DotDims.rhsIdx]; rfl
  rw [l2, r2]

end Dot

/-! ## One block: the one-hot matrix and its product with the block of rows -/

section Block

variable {K G C : ℕ}

/-- One entry of a block's one-hot matrix — the block's column of labels broadcast along the lanes, compared for equality
    with the lane number, widened, converted to a float and narrowed, at the ideal reading: one if the label of row `i`, read
    signed, is the lane `g`, else zero. (`G ≤ 2³¹`: a lane number is a non-negative signed 32-bit number.) -/
theorem onehot_entry (hG : G ≤ 2 ^ 31) (hio : (⟨2, ![K, G]⟩ : Shape).Iotas .tc 32 [1])
    (hbc : (⟨2, ![K, 1]⟩ : Shape).Broadcasts ⟨2, ![K, G]⟩) (h132 : 1 < 32) (hbits : FTy.bf16.bits < FTy.f32.bits)
    (v4 : IVec ⟨2, ![K, 1]⟩ 32) (i : Fin K) (g : Fin G) :
    truncf (F := Ideal) .bf16 (sitofp (F := Ideal) .f32 (extui 32 (cmpi .eq (broadcastTo (⟨2, ![K, G]⟩ : Shape) v4 hbc)
        (iota .tc (⟨2, ![K, G]⟩ : Shape) 32 [1] hio)) h132)) hbits (ix2 i g)
      = if (v4 (ix2 i (0 : Fin 1))).toInt = (g.val : ℤ) then (1 : EReal) else 0 := by
  show FloatOps.sitofp (F := Ideal) .f32 ((IntOp.cmpi .eq (broadcastTo (⟨2, ![K, G]⟩ : Shape) v4 hbc (ix2 i g))
    (iota .tc (⟨2, ![K, G]⟩ : Shape) 32 [1] hio (ix2 i g))).setWidth 32) = _
  have hb : broadcastTo (⟨2, ![K, G]⟩ : Shape) v4 hbc (ix2 i g) = v4 (ix2 i (0 : Fin 1)) :=
    broadcastTo_apply v4 hbc (ix2 i g) (ix2 i (0 : Fin 1)) (fun a => by
      match a with
      | ⟨0, _⟩ =>
        show i.val = if K = 1 then 0 else i.val
        split
        · have := i.isLt; omega
        · rfl
      | ⟨1, _⟩ => rfl)
  have hi : iota .tc (⟨2, ![K, G]⟩ : Shape) 32 [1] hio (ix2 i g) = BitVec.ofNat 32 g.val :=
    iota_single_apply .tc (⟨2, ![K, G]⟩ : Shape) 32 1 hio (ix2 i g)
  rw [onehot_word, hb, hi]
  exact if_congr (toInt_eq_iff_eq_ofNat (v4 (ix2 i (0 : Fin 1))) g.val (by have := g.isLt; omega)).symm rfl rfl

/-- One step of the pooling kernel: from a block `v3` of `K` labels (an `[K, 1]` column), the block `v11` of `K` rows and the
    accumulator `v14`, the accumulator plus the product of the transposed one-hot matrix of the labels with the rows. -/
noncomputable def oneHotStep (hc1 : (⟨2, ![K, 1]⟩ : Shape).ShapeCasts ⟨2, ![K, 1]⟩) (hio : (⟨2, ![K, G]⟩ : Shape).Iotas .tc 32 [1])
    (hbc : (⟨2, ![K, 1]⟩ : Shape).Broadcasts ⟨2, ![K, G]⟩) (h132 : 1 < 32) (hbits : FTy.bf16.bits < FTy.f32.bits)
    (hc2 : (⟨2, ![K, C]⟩ : Shape).ShapeCasts ⟨2, ![K, C]⟩) (hc3 : (⟨2, ![G, C]⟩ : Shape).ShapeCasts ⟨2, ![G, C]⟩)
    (D : DotDims ⟨2, ![K, G]⟩ ⟨2, ![K, C]⟩ ⟨2, ![G, C]⟩)
    (v3 : IVec ⟨2, ![K, 1]⟩ 32) (v11 : FVec Ideal ⟨2, ![K, C]⟩ .bf16) (v14 : FVec Ideal ⟨2, ![G, C]⟩ .f32) :
    FVec Ideal ⟨2, ![G, C]⟩ .f32 :=
  shapeCast (⟨2, ![G, C]⟩ : Shape)
    (addf v14 (matmul D none
      (truncf .bf16 (sitofp (F := Ideal) .f32 (extui 32 (cmpi .eq
        (broadcastTo (⟨2, ![K, G]⟩ : Shape) (shapeCast (⟨2, ![K, 1]⟩ : Shape) v3 hc1) hbc)
        (iota .tc (⟨2, ![K, G]⟩ : Shape) 32 [1] hio)) h132)) hbits)
      (shapeCast (⟨2, ![K, C]⟩ : Shape) v11 hc2)
      (constant (F := Ideal) (⟨2, ![G, C]⟩ : Shape) .f32 0x00000000#32))) hc3

/-- One step read at `(g, c)`: the accumulator there plus the sum, over the block's rows `i`, of lane `c` of row `i` if the label
    of `i`, read signed, is `g`, and of zero otherwise. No entry is asked to be finite: `0 · a = 0` and `1 · a = a` at every
    extended real. -/
theorem oneHotStep_apply (hG : G ≤ 2 ^ 31)
    (hc1 : (⟨2, ![K, 1]⟩ : Shape).ShapeCasts ⟨2, ![K, 1]⟩) (hio : (⟨2, ![K, G]⟩ : Shape).Iotas .tc 32 [1])
    (hbc : (⟨2, ![K, 1]⟩ : Shape).Broadcasts ⟨2, ![K, G]⟩) (h132 : 1 < 32) (hbits : FTy.bf16.bits < FTy.f32.bits)
    (hc2 : (⟨2, ![K, C]⟩ : Shape).ShapeCasts ⟨2, ![K, C]⟩) (hc3 : (⟨2, ![G, C]⟩ : Shape).ShapeCasts ⟨2, ![G, C]⟩)
    (D : DotDims ⟨2, ![K, G]⟩ ⟨2, ![K, C]⟩ ⟨2, ![G, C]⟩)
    (d1 : D.lhsContracting = [0]) (d2 : D.rhsContracting = [0]) (d3 : D.lhsNonContracting = [1])
    (d4 : D.rhsNonContracting = [1]) (d5 : D.lhsBatch = []) (d6 : D.rhsBatch = [])
    (v3 : IVec ⟨2, ![K, 1]⟩ 32) (v11 : FVec Ideal ⟨2, ![K, C]⟩ .bf16) (v14 : FVec Ideal ⟨2, ![G, C]⟩ .f32)
    (g : Fin G) (c : Fin C) :
    oneHotStep hc1 hio hbc h132 hbits hc2 hc3 D v3 v11 v14 (ix2 g c)
      = v14 (ix2 g c) + ∑ i : Fin K, if (v3 (ix2 i (0 : Fin 1))).toInt = (g.val : ℤ) then v11 (ix2 i c) else 0 := by
  obtain ⟨lc, rc, ln, rn, lb, rb, wf⟩ := D
  simp only at d1 d2 d3 d4 d5 d6
  subst d1 d2 d3 d4 d5 d6
  unfold oneHotStep
  simp only [shapeCast_self, matmul]
  rw [addf_apply, matmul_tn_apply wf, constant_apply, Ideal.ofBits_zero_f32, zero_add]
  refine congrArg (v14 (ix2 g c) + ·) (Finset.sum_congr rfl fun i _ => ?_)
  rw [onehot_entry hG hio hbc h132 hbits v3 i g, ite_mul, one_mul, zero_mul]

end Block

/-! ## All blocks: the pooled sum -/

section Pool

variable {K G C R : ℕ}

/-- The pooled sum from per-entry steps. An accumulator entry that starts at zero and at step `t` adds the rows of block `t`
    (rows `K t + i`) whose label is `g` holds, after the `T` blocks, the sum over all `R = T · K` rows `n` of `x n c` if the label
    of `n` is `g`, else zero. -/
theorem pool_of_entry_steps (T K : ℕ) (h : T * K = R) (b : IVec ⟨1, ![R]⟩ 32) (x : (⟨2, ![R, C]⟩ : Shape).Idx → EReal)
    (g : Fin G) (c : Fin C) (a : ℕ → EReal) (h0 : a 0 = 0)
    (hs : ∀ t : Fin T, a (t.val + 1) = a t.val + ∑ i : Fin K,
      if (b (ix1 ⟨K * t.val + i.val, blk_lt h t i⟩)).toInt = (g.val : ℤ) then x (ix2 ⟨K * t.val + i.val, blk_lt h t i⟩ c) else 0) :
    a T = ∑ n : Fin R, if (b (ix1 n)).toInt = (g.val : ℤ) then x (ix2 n c) else 0 :=
  acc_blocks T K h (fun n => if (b (ix1 n)).toInt = (g.val : ℤ) then x (ix2 n c) else 0) a h0 hs

/-- The kernel's pooled sum. The accumulator starts as a table of zeros; at step `t` it becomes one step (`oneHotStep`) of the
    block `vb t` of labels and the block `vx t` of rows, which are rows `K t + i` of the label vector `b` and of `x`. After the `T`
    blocks its entry `(g, c)` is the sum over all `R = T · K` rows `n` of `x n c` if the label of `n`, read signed, is `g`, else
    zero. -/
theorem onehot_pool (T K : ℕ) (h : T * K = R) (hG : G ≤ 2 ^ 31)
    (hc1 : (⟨2, ![K, 1]⟩ : Shape).ShapeCasts ⟨2, ![K, 1]⟩) (hio : (⟨2, ![K, G]⟩ : Shape).Iotas .tc 32 [1])
    (hbc : (⟨2, ![K, 1]⟩ : Shape).Broadcasts ⟨2, ![K, G]⟩) (h132 : 1 < 32) (hbits : FTy.bf16.bits < FTy.f32.bits)
    (hc2 : (⟨2, ![K, C]⟩ : Shape).ShapeCasts ⟨2, ![K, C]⟩) (hc3 : (⟨2, ![G, C]⟩ : Shape).ShapeCasts ⟨2, ![G, C]⟩)
    (D : DotDims ⟨2, ![K, G]⟩ ⟨2, ![K, C]⟩ ⟨2, ![G, C]⟩)
    (d1 : D.lhsContracting = [0]) (d2 : D.rhsContracting = [0]) (d3 : D.lhsNonContracting = [1])
    (d4 : D.rhsNonContracting = [1]) (d5 : D.lhsBatch = []) (d6 : D.rhsBatch = [])
    (b : IVec ⟨1, ![R]⟩ 32) (x : (⟨2, ![R, C]⟩ : Shape).Idx → EReal)
    (vb : Fin T → IVec ⟨2, ![K, 1]⟩ 32) (vx : Fin T → FVec Ideal ⟨2, ![K, C]⟩ .bf16)
    (hvb : ∀ (t : Fin T) (i : Fin K), vb t (ix2 i (0 : Fin 1)) = b (ix1 ⟨K * t.val + i.val, blk_lt h t i⟩))
    (hvx : ∀ (t : Fin T) (i : Fin K) (c : Fin C), vx t (ix2 i c) = x (ix2 ⟨K * t.val + i.val, blk_lt h t i⟩ c))
    (A : ℕ → FVec Ideal ⟨2, ![G, C]⟩ .f32) (hA0 : ∀ j, A 0 j = 0)
    (hAs : ∀ t : Fin T, A (t.val + 1) = oneHotStep hc1 hio hbc h132 hbits hc2 hc3 D (vb t) (vx t) (A t.val))
    (g : Fin G) (c : Fin C) :
    A T (ix2 g c) = ∑ n : Fin R, if (b (ix1 n)).toInt = (g.val : ℤ) then x (ix2 n c) else 0 := by
  refine pool_of_entry_steps T K h b x g c (fun t => A t (ix2 g c)) (hA0 _) (fun t => ?_)
  show A (t.val + 1) (ix2 g c) = _
  rw [hAs t, oneHotStep_apply hG hc1 hio hbc h132 hbits hc2 hc3 D d1 d2 d3 d4 d5 d6]
  refine congrArg (A t.val (ix2 g c) + ·) (Finset.sum_congr rfl fun i _ => ?_)
  rw [hvb t i, hvx t i c]

end Pool

end Cert.LibOneHotPool
-- ==== Proof.IdealValue5.lean ====
import proofs.«151719_j66898410602732_1_alg».proof.Proof.IdealRegion5
import proofs.«151719_j66898410602732_1_alg».proof.Proof.LibOneHotPool
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.HandValue

open Cert.KernelIdeal Cert.KernelIdeal.Gen Cert.KernelIdeal.Hand Idealize.ShloMosaic.ValueIdx
open Idealize.ShloMosaic Idealize.ShloMosaic.TcCoe
open Idealize.SL Idealize.SL.Sem
open Idealize.ShloMosaic.Pipeline (Dat Cfg Window)
open scoped BigOperators

-- what the core's buffers hold when the region is entered, at the ideal reading
variable (V : (c : Dev nD) → (b : Ref sig .tc) → Buf (Elt Ideal) ((c : Thread nD τ).loc b))

/-! # Region 5 read: the pooled result as one function of the rows and the labels

After the ten points the result array holds, at `(g, q)`, the sum over all 50000 rows `n` of lane `q` of row `n` if the
label of `n` is `g`, and of zero otherwise: the running sum of the region's scratch (one step of one-hot pooling per
block of 5000 rows, from a table of zeros) is written back once, after the last point, through a window whose one
block is the whole array. -/

/-- The printed index maps over the ten points: the inputs' block index on the row axis is the point, on the
    other axis zero; the result's block index is zero on both axes. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

/-- Row `i` of the labels' block at point `t` is row `5000 t + i` of the labels. -/
theorem labels_blk (c : Dev nD) (Lb : S50000x1.Idx → BitVec 32) (hL : (V c main_v64 : S50000x1.Idx → BitVec 32) = Lb)
    (t : Fin cfg5.N) (i : Fin 5000) (h : 5000 * t.val + i.val < 50000) :
    (iblk5 V c 1 t : S5000x1.Idx → BitVec 32) (ix2 i (0 : Fin 1)) = Lb (ix2 (⟨5000 * t.val + i.val, h⟩ : Fin 50000) (0 : Fin 1)) := by
  subst hL
  obtain ⟨e0, e1, e2, e3, e4, e5⟩ := idx_facts5 t
  show V c main_v64 (((cfg5.win 1).blk t).view.emb (ix2 i (0 : Fin 1))) = V c main_v64 (ix2 (⟨5000 * t.val + i.val, h⟩ : Fin 50000) (0 : Fin 1))
  refine congrArg (V c main_v64) ?_
  funext a; apply Fin.ext
  match a with
  | ⟨0, _⟩ => show win5_1.index t (0 : Fin 2) * 5000 + 1 * i.val = 5000 * t.val + i.val; omega
  | ⟨1, _⟩ => show win5_1.index t (1 : Fin 2) * 1 + 1 * 0 = 0; omega

/-- Entry `(i, q)` of the rows' block at point `t` is entry `(5000 t + i, q)` of the rows. -/
theorem rows_blk (c : Dev nD) (X : S50000x128.Idx → EReal) (hX : (V c main_v63 : S50000x128.Idx → EReal) = X)
    (t : Fin cfg5.N) (i : Fin 5000) (q : Fin 128) (h : 5000 * t.val + i.val < 50000) :
    (iblk5 V c 0 t : S5000x128.Idx → EReal) (ix2 i q) = X (ix2 (⟨5000 * t.val + i.val, h⟩ : Fin 50000) q) := by
  subst hX
  obtain ⟨e0, e1, e2, e3, e4, e5⟩ := idx_facts5 t
  show V c main_v63 (((cfg5.win 0).blk t).view.emb (ix2 i q)) = V c main_v63 (ix2 (⟨5000 * t.val + i.val, h⟩ : Fin 50000) q)
  refine congrArg (V c main_v63) ?_
  funext a; apply Fin.ext
  match a with
  | ⟨0, _⟩ => show win5_0.index t (0 : Fin 2) * 5000 + 1 * i.val = 5000 * t.val + i.val; omega
  | ⟨1, _⟩ => show win5_0.index t (1 : Fin 2) * 128 + 1 * q.val = q.val; omega

/-- The result's one block is the whole array: reading it off any contents gives the contents. -/
theorem result_blk (t : Fin cfg5.N) (G : S128x128.Idx → EReal) :
    ((cfg5.win 2).blk t).view.read (Elt Ideal) G = G := by
  obtain ⟨e0, e1, e2, e3, e4, e5⟩ := idx_facts5 t
  funext j
  show G (((cfg5.win 2).blk t).view.emb j) = G j
  refine congrArg G ?_
  funext a; apply Fin.ext
  match a with
  | ⟨0, _⟩ => show win5_2.index t (0 : Fin 2) * 128 + 1 * (j 0).val = (j 0).val; omega
  | ⟨1, _⟩ => show win5_2.index t (1 : Fin 2) * 128 + 1 * (j 1).val = (j 1).val; omega

/-- The body's update of the running sum is one step of the one-hot pooling. -/
theorem pay2_eq_step (v3 : Vec Ideal S5000x1 .i32) (v11 : Vec Ideal S5000x128 .bf16) (v14 : Vec Ideal S128x128 .f32) :
    k5_pay2 (F := Ideal) v3 v11 v14
      = Cert.LibOneHotPool.oneHotStep shapeCasts_S5000x1_S5000x1 iota_S5000x128_d1_w32 broadcasts_S5000x1_S5000x128 natLt_1_32
          bitsLt_bf16_f32 shapeCasts_S5000x128_S5000x128 shapeCasts_S128x128_S128x128
          dot_S5000x128_S5000x128_S128x128_0_0_1_1_n_n v3 v11 v14 := rfl

/-- The zero fill is zero everywhere. -/
theorem pay1_zero (j : S128x128.Idx) : k5_pay1 (F := Ideal) j = 0 := by
  unfold k5_pay1
  rw [shapeCast_self]
  exact Ideal.ofBits_zero_f32

/-! ## The array after the region -/

/-- Only the last point writes the result back, and what it writes is the running sum over all ten points, as the
    result window's block of it. -/
theorem flushed5_eq (c : Dev nD) (t : Fin cfg5.N) (hf : (cfg5.win 2).flush t = true) :
    (dat5 V c).flushed 2 t = ((cfg5.win 2).blk t).view.read (Elt Ideal) (acc5 V c 9 (by decide)) := by
  have h9 : t.val = 9 := by
    have h := (flush5_2 t).mp hf
    have hN : t.val < 10 := lt_of_lt_of_eq t.isLt (show cfg5.N = 10 from N_5)
    omega
  show (cfg5.win 2).cut (grid5.coords t) ((dat5 V c).after 2 t) = _
  rw [after5_2, result_blk]
  obtain ⟨n, hn⟩ := t
  dsimp only at h9
  subst h9
  rfl

/-- An index is in the result window's block at point `t` iff each coordinate is in the block's range. -/
theorem mem_blk5 (t : Fin cfg5.N) (i : S128x128.Idx) :
    i ∈ ((cfg5.win 2).blk t).view.set ↔ ∀ a : Fin 2, win5_2.index t a * S128x128.size a ≤ (i a).val ∧ (i a).val < win5_2.index t a * S128x128.size a + S128x128.size a := by
  show i ∈ ((View.whole main_v65).slice (win5_2.rect t)).set ↔ _
  rw [View.set_slice_whole, Rect.mem_set_unit]
  exact Iff.rfl

/-- Every index of the result is in the block the last point writes back. -/
theorem cover5 (i : S128x128.Idx) :
    ∃ t : Fin cfg5.N, (cfg5.win 2).flush t = true ∧ i ∈ ((cfg5.win 2).blk t).view.set := by
  refine ⟨⟨9, by decide⟩, (flush5_2 _).mpr rfl, ?_⟩
  obtain ⟨e0, e1, e2, e3, e4, e5⟩ := idx_facts5 ⟨9, by decide⟩
  rw [mem_blk5]
  intro a
  match a with
  | ⟨0, _⟩ =>
    show win5_2.index ⟨9, by decide⟩ (0 : Fin 2) * 128 ≤ (i 0).val ∧ (i 0).val < win5_2.index ⟨9, by decide⟩ (0 : Fin 2) * 128 + 128
    have hi : (i 0).val < 128 := (i 0).isLt
    omega
  | ⟨1, _⟩ =>
    show win5_2.index ⟨9, by decide⟩ (1 : Fin 2) * 128 ≤ (i 1).val ∧ (i 1).val < win5_2.index ⟨9, by decide⟩ (1 : Fin 2) * 128 + 128
    have hi : (i 1).val < 128 := (i 1).isLt
    omega

/-- The result array after the region is the running sum after the last point. -/
theorem arr5_eq (c : Dev nD) : (dat5 V c).arrAt 2 cfg5.N = acc5 V c 9 (by decide) :=
  (dat5 V c).arrAt_eq_of_cover 2 (acc5 V c 9 (by decide)) (fun t hf => flushed5_eq V c t hf) cover5

/-! ## The running sum as a sequence from the zero fill -/

/-- A point of the grid from its number. -/
def pt5 (t : Fin 10) : Fin cfg5.N := ⟨t.val, lt_of_lt_of_eq t.isLt N_5.symm⟩

/-- The scratch before point `n`: the zero fill, then the running sums. -/
def accSeq5 (c : Dev nD) : ℕ → FVec Ideal (⟨2, ![128, 128]⟩ : Shape) .f32
  | 0 => k5_pay1 (F := Ideal)
  | n + 1 => if h : n < cfg5.N then acc5 V c n h else k5_pay1 (F := Ideal)

theorem accSeq5_succ (c : Dev nD) (n : ℕ) (h : n < cfg5.N) : accSeq5 V c (n + 1) = acc5 V c n h := by
  rw [accSeq5, dif_pos h]

/-- Each term of the sequence is one pooling step of the point's blocks on the term before. -/
theorem accSeq5_step (c : Dev nD) (t : Fin 10) :
    accSeq5 V c (t.val + 1)
      = Cert.LibOneHotPool.oneHotStep shapeCasts_S5000x1_S5000x1 iota_S5000x128_d1_w32 broadcasts_S5000x1_S5000x128 natLt_1_32
          bitsLt_bf16_f32 shapeCasts_S5000x128_S5000x128 shapeCasts_S128x128_S128x128
          dot_S5000x128_S5000x128_S128x128_0_0_1_1_n_n (iblk5 V c 1 (pt5 t)) (iblk5 V c 0 (pt5 t)) (accSeq5 V c t.val) := by
  have ht : t.val < cfg5.N := (pt5 t).isLt
  rw [accSeq5_succ V c t.val ht, ← pay2_eq_step]
  obtain ⟨n, hn⟩ := t
  cases n with
  | zero => rfl
  | succ n =>
    rw [accSeq5_succ V c n (Nat.lt_of_succ_lt ht)]
    rfl

/-! ## The pooled sum -/

/-- THE RESULT after the region: entry `(g, q)` is the sum, over the 50000 rows, of lane `q` of the rows whose label
    is `g` — `X` the rows and `Lb` the labels as the region finds them. -/
theorem final5 (c : Dev nD) (X : S50000x128.Idx → EReal) (Lb : S50000x1.Idx → BitVec 32)
    (hX : (V c main_v63 : S50000x128.Idx → EReal) = X) (hL : (V c main_v64 : S50000x1.Idx → BitVec 32) = Lb)
    (g : Fin 128) (q : Fin 128) :
    (dat5 (F := Ideal) V c).arrAt 2 cfg5.N (ix2 g q)
      = ∑ n : Fin 50000, if (Lb (ix2 n (0 : Fin 1))).toInt = (g.val : ℤ) then X (ix2 n q) else 0 := by
  rw [arr5_eq V c, ← accSeq5_succ V c 9 (by decide)]
  exact Cert.LibOneHotPool.onehot_pool (R := 50000) (G := 128) (C := 128) 10 5000 (by norm_num) (by norm_num)
    shapeCasts_S5000x1_S5000x1 iota_S5000x128_d1_w32 broadcasts_S5000x1_S5000x128 natLt_1_32 bitsLt_bf16_f32
    shapeCasts_S5000x128_S5000x128 shapeCasts_S128x128_S128x128 dot_S5000x128_S5000x128_S128x128_0_0_1_1_n_n
    rfl rfl rfl rfl rfl rfl
    (fun j => Lb (ix2 (j 0) (0 : Fin 1)))
    X
    (fun t => iblk5 V c 1 (pt5 t)) (fun t => iblk5 V c 0 (pt5 t))
    (fun t i => labels_blk V c Lb hL (pt5 t) i _)
    (fun t i q => rows_blk V c X hX (pt5 t) i q _)
    (accSeq5 V c) pay1_zero (accSeq5_step V c) g q

end Cert.KernelIdeal.HandValue

end
-- ==== Proof.IdealValue6.lean ====
/-
  The first layer of the prediction head, as one function of the arrays the region is entered with.

  The region has one grid point, and each of its four windows is one block that is the whole array: the pooled features
  x [128, 128], the weights w [128, 64], the bias row b [1, 64] and the result [128, 64]. The body loads the three inputs
  whole, narrows x and w to a 16-bit format (the identity at the ideal reading), multiplies them into a zero accumulator,
  adds the bias row broadcast over the rows and takes the maximum with zero. So the result array ends holding, at (p, q),
  max ((∑ k, x (p, k) · w (k, q)) + b (0, q), 0): every block index is zero, so a block read through its window is the array
  itself and the one write-back covers the whole result.
-/
import proofs.«151719_j66898410602732_1_alg».proof.Proof.IdealRegion6
import Idealize.ShloMosaic.Lib.Pipeline.Value
import Idealize.ShloMosaic.Lib.ValueIdx
import Idealize.ShloMosaic.Lib.ValueLayout
import Idealize.ShloMosaic.PureOps.Ideal.Laws
import proofs.«151719_j66898410602732_1_alg».proof.Proof.LibMatmulPlain
import proofs.«151719_j66898410602732_1_alg».proof.Proof.LibLinearLayer

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-array rectangle. -/
theorem hz6 : (![0, 0] : Fin 2 → Nat) = fun _ => 0 := funext fun a => by fin_cases a <;> rfl

/-- The layer's value: at (p, q), the maximum with zero of the product of row p of `x` with column q of `w` plus the bias
    at column q. -/
def G6 (x : S128x128.Idx → EReal) (w : S128x64.Idx → EReal) (b : S1x64.Idx → EReal) : S128x64.Idx → EReal :=
  fun i => max ((∑ k : Fin 128, x (ix2 (show Fin 128 from i 0) k) * w (ix2 k (show Fin 64 from i 1)))
    + b (ix2 (0 : Fin 1) (show Fin 64 from i 1))) 0

theorem G6_apply (x : S128x128.Idx → EReal) (w : S128x64.Idx → EReal) (b : S1x64.Idx → EReal) (p : Fin 128) (q : Fin 64) :
    G6 x w b (ix2 p q) = max ((∑ k : Fin 128, x (ix2 p k) * w (ix2 k q)) + b (ix2 (0 : Fin 1) q)) 0 := rfl

/-- The body's value of its three loaded blocks is the layer's value of them. -/
theorem pay6_eq (x0 : Vec Ideal S128x128 .f32) (x1 : Vec Ideal S128x64 .f32) (x2 : Vec Ideal S1x64 .f32) :
    k6_pay1 (F := Ideal) x0 x1 x2 = G6 x0 x1 x2 := by
  have hterm : k6_pay1 (F := Ideal) x0 x1 x2
      = maximumf (addf (matmul dot_S128x128_S128x64_S128x64_1_0_0_1_n_n none
            (truncf .bf16 (shapeCast S128x128 x0 shapeCasts_S128x128_S128x128) bitsLt_bf16_f32)
            (truncf .bf16 x1 bitsLt_bf16_f32) (constant (F := Ideal) S128x64 .f32 0x00000000#32))
          (broadcastTo S128x64 (shapeCast S1x64 x2 shapeCasts_S1x64_S1x64) broadcasts_S1x64_S128x64))
        (broadcast S128x64 (Scalar.ofBits (F := Ideal) .f32 0x00000000#32)) := rfl
  rw [hterm, shapeCast_self, shapeCast_self,
    Cert.LibLinearLayer.body_eq_lin dot_S128x128_S128x64_S128x64_1_0_0_1_n_n rfl bitsLt_bf16_f32 broadcasts_S1x64_S128x64 x0 x1 x2]
  funext j
  obtain ⟨p, q, rfl⟩ : ∃ (p : Fin 128) (q : Fin 64), j = ix2 p q := ⟨j 0, j 1, eq_ix2 j⟩
  rw [maximumf_apply, broadcast_apply, Cert.LibLinearLayer.lin_apply, G6_apply]
  show max _ (Ideal.ofBits .f32 0x00000000#32) = max _ 0
  rw [Ideal.ofBits_zero_f32]

/-- Every block index of the region is zero: one grid point, each block the whole array. -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The features' block at the point is the features' array. -/
theorem iblk6_0_eq (c : Dev nD) (t : Fin cfg6.N) : (iblk6 V c 0 t : S128x128.Idx → EReal) = V c main_v81 := by
  obtain ⟨e0, e1, -⟩ := idx_facts6 t
  funext y
  unfold iblk6
  rw [View.read_apply]
  show V c main_v81 (((cfg6.win 0).blk t).view.emb y) = V c main_v81 y
  refine congrArg (V c main_v81) (funext fun a => Fin.ext ?_)
  match a with
  | ⟨0, _⟩ => show win6_0.index t (0 : Fin 2) * 128 + 1 * (y 0).val = (y 0).val; omega
  | ⟨1, _⟩ => show win6_0.index t (1 : Fin 2) * 128 + 1 * (y 1).val = (y 1).val; omega

/-- The weights' block at the point is the weights' array. -/
theorem iblk6_1_eq (c : Dev nD) (t : Fin cfg6.N) : (iblk6 V c 1 t : S128x64.Idx → EReal) = V c main_arg10 := by
  obtain ⟨-, -, e0, e1, -⟩ := idx_facts6 t
  funext y
  unfold iblk6
  rw [View.read_apply]
  show V c main_arg10 (((cfg6.win 1).blk t).view.emb y) = V c main_arg10 y
  refine congrArg (V c main_arg10) (funext fun a => Fin.ext ?_)
  match a with
  | ⟨0, _⟩ => show win6_1.index t (0 : Fin 2) * 128 + 1 * (y 0).val = (y 0).val; omega
  | ⟨1, _⟩ => show win6_1.index t (1 : Fin 2) * 64 + 1 * (y 1).val = (y 1).val; omega

/-- The bias row's block at the point is the bias row. -/
theorem iblk6_2_eq (c : Dev nD) (t : Fin cfg6.N) : (iblk6 V c 2 t : S1x64.Idx → EReal) = V c main_v82 := by
  obtain ⟨-, -, -, -, e0, e1, -⟩ := idx_facts6 t
  funext y
  unfold iblk6
  rw [View.read_apply]
  show V c main_v82 (((cfg6.win 2).blk t).view.emb y) = V c main_v82 y
  refine congrArg (V c main_v82) (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- What the point writes back is the block, through the result's window, of the layer's value of the three arrays. -/
theorem flushed6_eq (c : Dev nD) (t : Fin cfg6.N) :
    (dat6 (F := Ideal) V c).flushed 3 t
      = ((cfg6.win 3).blk t).view.read (Elt Ideal) (G6 (V c main_v81) (V c main_arg10) (V c main_v82)) := by
  show (cfg6.win 3).cut (grid6.coords t) ((dat6 (F := Ideal) V c).after 3 t) = _
  rw [after6_3]
  unfold out6_3
  rw [View.canon_unit_zero hz6]
  simp only [View.ld_unit_zero (S := S128x128) hz6, View.ld_unit_zero (S := S128x64) hz6, View.ld_unit_zero (S := S1x64) hz6]
  rw [pay6_eq, iblk6_0_eq, iblk6_1_eq, iblk6_2_eq]
  obtain ⟨-, -, -, -, -, -, e0, e1⟩ := idx_facts6 t
  funext j
  show G6 (V c main_v81) (V c main_arg10) (V c main_v82) j
    = G6 (V c main_v81) (V c main_arg10) (V c main_v82) (((cfg6.win 3).blk t).view.emb j)
  refine congrArg (G6 (V c main_v81) (V c main_arg10) (V c main_v82)) (funext fun a => Fin.ext ?_)
  match a with
  | ⟨0, _⟩ => show (j 0).val = win6_3.index t (0 : Fin 2) * 128 + 1 * (j 0).val; omega
  | ⟨1, _⟩ => show (j 1).val = win6_3.index t (1 : Fin 2) * 64 + 1 * (j 1).val; omega

/-- An index of the result is in the point's block iff each coordinate is in the block's range on its axis. -/
theorem mem_blk6 (t : Fin cfg6.N) (i : S128x64.Idx) :
    i ∈ ((cfg6.win 3).blk t).view.set ↔ ∀ a : Fin 2, win6_3.index t a * S128x64.size a ≤ (i a).val
      ∧ (i a).val < win6_3.index t a * S128x64.size a + S128x64.size a := by
  show i ∈ ((View.whole main_v83).slice (win6_3.rect t)).set ↔ _
  rw [View.set_slice_whole, Rect.mem_set_unit]
  exact Iff.rfl

/-- The result array after the region, as a function: the layer's value of the three arrays the region was entered with. -/
theorem final6_fun (c : Dev nD) :
    (dat6 (F := Ideal) V c).arrAt 3 cfg6.N = G6 (V c main_v81) (V c main_arg10) (V c main_v82) :=
  (dat6 (F := Ideal) V c).arrAt_eq_of_cover 3 (G6 (V c main_v81) (V c main_arg10) (V c main_v82))
    (fun t _ => flushed6_eq V c t) (fun i => ⟨t6_0, flush6_3 t6_0, by
      obtain ⟨-, -, -, -, -, -, e0, e1⟩ := idx_facts6 t6_0
      rw [mem_blk6]
      intro a
      have h0 : (i 0).val < 128 := (i 0).isLt
      have h1 : (i 1).val < 64 := (i 1).isLt
      match a with
      | ⟨0, _⟩ => show win6_3.index t6_0 (0 : Fin 2) * 128 ≤ (i 0).val ∧ (i 0).val < win6_3.index t6_0 (0 : Fin 2) * 128 + 128; omega
      | ⟨1, _⟩ => show win6_3.index t6_0 (1 : Fin 2) * 64 ≤ (i 1).val ∧ (i 1).val < win6_3.index t6_0 (1 : Fin 2) * 64 + 64; omega⟩)

/-- The result array after the region, read at (p, q): the maximum with zero of the product of row p of the pooled features
    with column q of the weights plus the bias at column q. -/
theorem final6 (c : Dev nD) (X : S128x128.Idx → EReal) (W : S128x64.Idx → EReal) (B : S1x64.Idx → EReal)
    (hX : (V c main_v81 : S128x128.Idx → EReal) = X) (hW : (V c main_arg10 : S128x64.Idx → EReal) = W)
    (hB : (V c main_v82 : S1x64.Idx → EReal) = B) (p : Fin 128) (q : Fin 64) :
    (dat6 (F := Ideal) V c).arrAt 3 cfg6.N (ix2 p q)
      = max ((∑ k : Fin 128, X (ix2 p k) * W (ix2 k q)) + B (ix2 (0 : Fin 1) q)) 0 := by
  subst hX hW hB
  rw [final6_fun]
  rfl

end Cert.KernelIdeal.HandValue

end
-- ==== Proof.IdealValue7.lean ====
/-
  The second layer of the prediction head, as one function of the arrays the region is entered with.

  The region has one grid point, and each of its four windows is one block that is the whole array: the first layer's
  output x [128, 64], the weights w [64, 32], the bias row b [1, 32] and the result [128, 32]. The body loads the three inputs
  whole, narrows x and w to a 16-bit format (the identity at the ideal reading), multiplies them into a zero accumulator,
  adds the bias row broadcast over the rows and takes the maximum with zero. So the result array ends holding, at (p, q),
  max ((∑ k, x (p, k) · w (k, q)) + b (0, q), 0): every block index is zero, so a block read through its window is the array
  itself and the one write-back covers the whole result.
-/
import proofs.«151719_j66898410602732_1_alg».proof.Proof.IdealRegion7
import Idealize.ShloMosaic.Lib.Pipeline.Value
import Idealize.ShloMosaic.Lib.ValueIdx
import Idealize.ShloMosaic.Lib.ValueLayout
import Idealize.ShloMosaic.PureOps.Ideal.Laws
import proofs.«151719_j66898410602732_1_alg».proof.Proof.LibMatmulPlain
import proofs.«151719_j66898410602732_1_alg».proof.Proof.LibLinearLayer

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-array rectangle. -/
theorem hz7 : (![0, 0] : Fin 2 → Nat) = fun _ => 0 := funext fun a => by fin_cases a <;> rfl

/-- The layer's value: at (p, q), the maximum with zero of the product of row p of `x` with column q of `w` plus the bias
    at column q. -/
def G7 (x : S128x64.Idx → EReal) (w : S64x32.Idx → EReal) (b : S1x32.Idx → EReal) : S128x32.Idx → EReal :=
  fun i => max ((∑ k : Fin 64, x (ix2 (show Fin 128 from i 0) k) * w (ix2 k (show Fin 32 from i 1)))
    + b (ix2 (0 : Fin 1) (show Fin 32 from i 1))) 0

theorem G7_apply (x : S128x64.Idx → EReal) (w : S64x32.Idx → EReal) (b : S1x32.Idx → EReal) (p : Fin 128) (q : Fin 32) :
    G7 x w b (ix2 p q) = max ((∑ k : Fin 64, x (ix2 p k) * w (ix2 k q)) + b (ix2 (0 : Fin 1) q)) 0 := rfl

/-- The body's value of its three loaded blocks is the layer's value of them. -/
theorem pay7_eq (x0 : Vec Ideal S128x64 .f32) (x1 : Vec Ideal S64x32 .f32) (x2 : Vec Ideal S1x32 .f32) :
    k7_pay1 (F := Ideal) x0 x1 x2 = G7 x0 x1 x2 := by
  have hterm : k7_pay1 (F := Ideal) x0 x1 x2
      = maximumf (addf (matmul dot_S128x64_S64x32_S128x32_1_0_0_1_n_n none
            (truncf .bf16 (shapeCast S128x64 x0 shapeCasts_S128x64_S128x64) bitsLt_bf16_f32)
            (truncf .bf16 x1 bitsLt_bf16_f32) (constant (F := Ideal) S128x32 .f32 0x00000000#32))
          (broadcastTo S128x32 (shapeCast S1x32 x2 shapeCasts_S1x32_S1x32) broadcasts_S1x32_S128x32))
        (broadcast S128x32 (Scalar.ofBits (F := Ideal) .f32 0x00000000#32)) := rfl
  rw [hterm, shapeCast_self, shapeCast_self,
    Cert.LibLinearLayer.body_eq_lin dot_S128x64_S64x32_S128x32_1_0_0_1_n_n rfl bitsLt_bf16_f32 broadcasts_S1x32_S128x32 x0 x1 x2]
  funext j
  obtain ⟨p, q, rfl⟩ : ∃ (p : Fin 128) (q : Fin 32), j = ix2 p q := ⟨j 0, j 1, eq_ix2 j⟩
  rw [maximumf_apply, broadcast_apply, Cert.LibLinearLayer.lin_apply, G7_apply]
  show max _ (Ideal.ofBits .f32 0x00000000#32) = max _ 0
  rw [Ideal.ofBits_zero_f32]

/-- Every block index of the region is zero: one grid point, each block the whole array. -/
theorem idx_facts7 : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- The first layer's output's block at the point is that array. -/
theorem iblk7_0_eq (c : Dev nD) (t : Fin cfg7.N) : (iblk7 V c 0 t : S128x64.Idx → EReal) = V c main_v83 := by
  obtain ⟨e0, e1, -⟩ := idx_facts7 t
  funext y
  unfold iblk7
  rw [View.read_apply]
  show V c main_v83 (((cfg7.win 0).blk t).view.emb y) = V c main_v83 y
  refine congrArg (V c main_v83) (funext fun a => Fin.ext ?_)
  match a with
  | ⟨0, _⟩ => show win7_0.index t (0 : Fin 2) * 128 + 1 * (y 0).val = (y 0).val; omega
  | ⟨1, _⟩ => show win7_0.index t (1 : Fin 2) * 64 + 1 * (y 1).val = (y 1).val; omega

/-- The weights' block at the point is the weights' array. -/
theorem iblk7_1_eq (c : Dev nD) (t : Fin cfg7.N) : (iblk7 V c 1 t : S64x32.Idx → EReal) = V c main_arg12 := by
  obtain ⟨-, -, e0, e1, -⟩ := idx_facts7 t
  funext y
  unfold iblk7
  rw [View.read_apply]
  show V c main_arg12 (((cfg7.win 1).blk t).view.emb y) = V c main_arg12 y
  refine congrArg (V c main_arg12) (funext fun a => Fin.ext ?_)
  match a with
  | ⟨0, _⟩ => show win7_1.index t (0 : Fin 2) * 64 + 1 * (y 0).val = (y 0).val; omega
  | ⟨1, _⟩ => show win7_1.index t (1 : Fin 2) * 32 + 1 * (y 1).val = (y 1).val; omega

/-- The bias row's block at the point is the bias row. -/
theorem iblk7_2_eq (c : Dev nD) (t : Fin cfg7.N) : (iblk7 V c 2 t : S1x32.Idx → EReal) = V c main_v84 := by
  obtain ⟨-, -, -, -, e0, e1, -⟩ := idx_facts7 t
  funext y
  unfold iblk7
  rw [View.read_apply]
  show V c main_v84 (((cfg7.win 2).blk t).view.emb y) = V c main_v84 y
  refine congrArg (V c main_v84) (funext fun a => Fin.ext ?_)
  match a with
  | ⟨0, _⟩ => show win7_2.index t (0 : Fin 2) * 1 + 1 * (y 0).val = (y 0).val; omega
  | ⟨1, _⟩ => show win7_2.index t (1 : Fin 2) * 32 + 1 * (y 1).val = (y 1).val; omega

/-- What the point writes back is the block, through the result's window, of the layer's value of the three arrays. -/
theorem flushed7_eq (c : Dev nD) (t : Fin cfg7.N) :
    (dat7 (F := Ideal) V c).flushed 3 t
      = ((cfg7.win 3).blk t).view.read (Elt Ideal) (G7 (V c main_v83) (V c main_arg12) (V c main_v84)) := by
  show (cfg7.win 3).cut (grid7.coords t) ((dat7 (F := Ideal) V c).after 3 t) = _
  rw [after7_3]
  unfold out7_3
  rw [View.canon_unit_zero hz7]
  simp only [View.ld_unit_zero (S := S128x64) hz7, View.ld_unit_zero (S := S64x32) hz7, View.ld_unit_zero (S := S1x32) hz7]
  rw [pay7_eq, iblk7_0_eq, iblk7_1_eq, iblk7_2_eq]
  obtain ⟨-, -, -, -, -, -, e0, e1⟩ := idx_facts7 t
  funext j
  show G7 (V c main_v83) (V c main_arg12) (V c main_v84) j
    = G7 (V c main_v83) (V c main_arg12) (V c main_v84) (((cfg7.win 3).blk t).view.emb j)
  refine congrArg (G7 (V c main_v83) (V c main_arg12) (V c main_v84)) (funext fun a => Fin.ext ?_)
  match a with
  | ⟨0, _⟩ => show (j 0).val = win7_3.index t (0 : Fin 2) * 128 + 1 * (j 0).val; omega
  | ⟨1, _⟩ => show (j 1).val = win7_3.index t (1 : Fin 2) * 32 + 1 * (j 1).val; omega

/-- An index of the result is in the point's block iff each coordinate is in the block's range on its axis. -/
theorem mem_blk7 (t : Fin cfg7.N) (i : S128x32.Idx) :
    i ∈ ((cfg7.win 3).blk t).view.set ↔ ∀ a : Fin 2, win7_3.index t a * S128x32.size a ≤ (i a).val
      ∧ (i a).val < win7_3.index t a * S128x32.size a + S128x32.size a := by
  show i ∈ ((View.whole main_v85).slice (win7_3.rect t)).set ↔ _
  rw [View.set_slice_whole, Rect.mem_set_unit]
  exact Iff.rfl

/-- The result array after the region, as a function: the layer's value of the three arrays the region was entered with. -/
theorem final7_fun (c : Dev nD) :
    (dat7 (F := Ideal) V c).arrAt 3 cfg7.N = G7 (V c main_v83) (V c main_arg12) (V c main_v84) :=
  (dat7 (F := Ideal) V c).arrAt_eq_of_cover 3 (G7 (V c main_v83) (V c main_arg12) (V c main_v84))
    (fun t _ => flushed7_eq V c t) (fun i => ⟨t7_0, flush7_3 t7_0, by
      obtain ⟨-, -, -, -, -, -, e0, e1⟩ := idx_facts7 t7_0
      rw [mem_blk7]
      intro a
      have h0 : (i 0).val < 128 := (i 0).isLt
      have h1 : (i 1).val < 32 := (i 1).isLt
      match a with
      | ⟨0, _⟩ => show win7_3.index t7_0 (0 : Fin 2) * 128 ≤ (i 0).val ∧ (i 0).val < win7_3.index t7_0 (0 : Fin 2) * 128 + 128; omega
      | ⟨1, _⟩ => show win7_3.index t7_0 (1 : Fin 2) * 32 ≤ (i 1).val ∧ (i 1).val < win7_3.index t7_0 (1 : Fin 2) * 32 + 32; omega⟩)

/-- The result array after the region, read at (p, q): the maximum with zero of the product of row p of the first layer's
    output with column q of the weights plus the bias at column q. -/
theorem final7 (c : Dev nD) (X : S128x64.Idx → EReal) (W : S64x32.Idx → EReal) (B : S1x32.Idx → EReal)
    (hX : (V c main_v83 : S128x64.Idx → EReal) = X) (hW : (V c main_arg12 : S64x32.Idx → EReal) = W)
    (hB : (V c main_v84 : S1x32.Idx → EReal) = B) (p : Fin 128) (q : Fin 32) :
    (dat7 (F := Ideal) V c).arrAt 3 cfg7.N (ix2 p q)
      = max ((∑ k : Fin 64, X (ix2 p k) * W (ix2 k q)) + B (ix2 (0 : Fin 1) q)) 0 := by
  subst hX hW hB
  rw [final7_fun]
  rfl

end Cert.KernelIdeal.HandValue

end
-- ==== Proof.RefLayers.lean ====
/-
  The reference's dense layers, read at an index.

  The network's dense stages are matrix products with a bias and a rectifier: at row p and column q a layer's value is
  max ((∑ k, a (p, k) · w (k, q)) + β q, 0), where a is the stage's input, w its weights and β its bias vector (broadcast first
  to one row and then over all rows); a feature stage is the bare product ∑ k, a (p, k) · w (k, q). Each statement unfolds only
  the operations of its own stage and keeps the stage before it — an earlier layer, an aggregation, the pooled means — as
  one folded function. At the ideal reading the float addition, maximum and product are the extended reals', and the
  rectifier's zero word is the extended real zero.
-/
import proofs.«151719_j66898410602732_1_alg».proof.Proof.RefRead
import Idealize.ShloMosaic.Lib.ValueIdx
import Idealize.ShloMosaic.PureOps.Ideal.Laws

noncomputable section

namespace Cert.ReferenceIdeal.Layers

open Cert.ReferenceIdeal Cert.ReferenceIdeal.ReadP Idealize.ShloMosaic Idealize.ShloMosaic.ValueIdx
open scoped BigOperators

/-- The first dense layer: the sum of the two node-feature arrays times the first weights, plus the bias, rectified. -/
theorem layer0 (x0 x1 : (⟨S50000x64, .f32⟩ : BufTy).Contents (Elt Ideal)) (x4 : (⟨S64x128, .f32⟩ : BufTy).Contents (Elt Ideal)) (x5 : (⟨S128, .f32⟩ : BufTy).Contents (Elt Ideal)) (p : Fin 50000) (q : Fin 128) :
    val_main_v12 (F := Ideal) x0 x1 x4 x5 (ix2 p q)
      = max ((∑ k : Fin 64, (x0 (ix2 p k) + x1 (ix2 p k)) * x4 (ix2 k q)) + x5 (ix1 q)) 0 := by
  have hl : ∀ k : Fin 64, lidx_main_v8 (ix2 p q) k = ix2 p k := fun k =>
    funext fun a => Fin.ext (by match a with | ⟨0, _⟩ => rfl | ⟨1, _⟩ => rfl)
  have hr : ∀ k : Fin 64, ridx_main_v8 (ix2 p q) k = ix2 k q := fun k =>
    funext fun a => Fin.ext (by match a with | ⟨0, _⟩ => rfl | ⟨1, _⟩ => rfl)
  have hb : idx_main_v9 (idx_main_v10 (ix2 p q)) = ix1 q :=
    funext fun a => Fin.ext (by match a with | ⟨0, _⟩ => rfl)
  rw [val_main_v12_apply, val_main_v11_apply, val_main_v8_apply, val_main_v10_apply, val_main_v9_apply,
    val_main_call0_v0_apply, val_main_call0_cst_apply, hb]
  simp only [hl, hr, val_main_v7_apply]
  show max ((∑ k : Fin 64, (x0 (ix2 p k) + x1 (ix2 p k)) * x4 (ix2 k q)) + x5 (ix1 q)) (Ideal.ofBits .f32 0x00000000#32) = _
  rw [Ideal.ofBits_zero_f32]

/-- The layer-1 features: the first dense layer's output times the second weights. -/
theorem feat1 (x0 x1 : (⟨S50000x64, .f32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (p : Fin 50000) (q : Fin 128) :
    val_main_v13 (F := Ideal) x0 x1 x4 x5 x6 (ix2 p q)
      = ∑ k : Fin 128, val_main_v12 (F := Ideal) x0 x1 x4 x5 (ix2 p k) * x6 (ix2 k q) := by
  have hl : ∀ k : Fin 128, lidx_main_v13 (ix2 p q) k = ix2 p k := fun k =>
    funext fun a => Fin.ext (by match a with | ⟨0, _⟩ => rfl | ⟨1, _⟩ => rfl)
  have hr : ∀ k : Fin 128, ridx_main_v13 (ix2 p q) k = ix2 k q := fun k =>
    funext fun a => Fin.ext (by match a with | ⟨0, _⟩ => rfl | ⟨1, _⟩ => rfl)
  rw [val_main_v13_apply]
  exact Finset.sum_congr rfl fun k _ => by rw [hl k, hr k]

/-- The first graph layer's output: the first aggregation plus the bias, rectified. -/
theorem layer1 (x0 x1 : (⟨S50000x64, .f32⟩ : BufTy).Contents (Elt Ideal)) (x2 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (p : Fin 50000) (q : Fin 128) :
    val_main_v53 (F := Ideal) x0 x1 x2 x4 x5 x6 x7 (ix2 p q)
      = max (val_main_v49 (F := Ideal) x0 x1 x2 x4 x5 x6 (ix2 p q) + x7 (ix1 q)) 0 := by
  have hb : idx_main_v50 (idx_main_v51 (ix2 p q)) = ix1 q :=
    funext fun a => Fin.ext (by match a with | ⟨0, _⟩ => rfl)
  rw [val_main_v53_apply, val_main_v52_apply, val_main_v51_apply, val_main_v50_apply,
    val_main_call2_v0_apply, val_main_call2_cst_apply, hb]
  show max (val_main_v49 (F := Ideal) x0 x1 x2 x4 x5 x6 (ix2 p q) + x7 (ix1 q)) (Ideal.ofBits .f32 0x00000000#32) = _
  rw [Ideal.ofBits_zero_f32]

/-- The layer-2 features: the first graph layer's output times the third weights. -/
theorem feat2 (x0 x1 : (⟨S50000x64, .f32⟩ : BufTy).Contents (Elt Ideal)) (x2 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (p : Fin 50000) (q : Fin 128) :
    val_main_v54 (F := Ideal) x0 x1 x2 x4 x5 x6 x7 x8 (ix2 p q)
      = ∑ k : Fin 128, val_main_v53 (F := Ideal) x0 x1 x2 x4 x5 x6 x7 (ix2 p k) * x8 (ix2 k q) := by
  have hl : ∀ k : Fin 128, lidx_main_v54 (ix2 p q) k = ix2 p k := fun k =>
    funext fun a => Fin.ext (by match a with | ⟨0, _⟩ => rfl | ⟨1, _⟩ => rfl)
  have hr : ∀ k : Fin 128, ridx_main_v54 (ix2 p q) k = ix2 k q := fun k =>
    funext fun a => Fin.ext (by match a with | ⟨0, _⟩ => rfl | ⟨1, _⟩ => rfl)
  rw [val_main_v54_apply]
  exact Finset.sum_congr rfl fun k _ => by rw [hl k, hr k]

/-- The second graph layer's output: the second aggregation plus the bias, rectified. -/
theorem layer2 (x0 x1 : (⟨S50000x64, .f32⟩ : BufTy).Contents (Elt Ideal)) (x2 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (p : Fin 50000) (q : Fin 128) :
    val_main_v94 (F := Ideal) x0 x1 x2 x4 x5 x6 x7 x8 x9 (ix2 p q)
      = max (val_main_v90 (F := Ideal) x0 x1 x2 x4 x5 x6 x7 x8 (ix2 p q) + x9 (ix1 q)) 0 := by
  have hb : idx_main_v91 (idx_main_v92 (ix2 p q)) = ix1 q :=
    funext fun a => Fin.ext (by match a with | ⟨0, _⟩ => rfl)
  rw [val_main_v94_apply, val_main_v93_apply, val_main_v92_apply, val_main_v91_apply,
    val_main_call4_v0_apply, val_main_call4_cst_apply, hb]
  show max (val_main_v90 (F := Ideal) x0 x1 x2 x4 x5 x6 x7 x8 (ix2 p q) + x9 (ix1 q)) (Ideal.ofBits .f32 0x00000000#32) = _
  rw [Ideal.ofBits_zero_f32]

/-- The first layer of the prediction head: the pooled means times the fourth weights, plus the bias, rectified. -/
theorem head1 (x0 x1 : (⟨S50000x64, .f32⟩ : BufTy).Contents (Elt Ideal)) (x2 : (⟨S2x800000, .i32⟩ : BufTy).Contents (Elt Ideal)) (x3 : (⟨S50000, .i32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (p : Fin 128) (q : Fin 64) :
    val_main_v111 (F := Ideal) x0 x1 x2 x3 x4 x5 x6 x7 x8 x9 x10 x11 (ix2 p q)
      = max ((∑ k : Fin 128, val_main_v106 (F := Ideal) x0 x1 x2 x3 x4 x5 x6 x7 x8 x9 (ix2 p k) * x10 (ix2 k q)) + x11 (ix1 q)) 0 := by
  have hl : ∀ k : Fin 128, lidx_main_v107 (ix2 p q) k = ix2 p k := fun k =>
    funext fun a => Fin.ext (by match a with | ⟨0, _⟩ => rfl | ⟨1, _⟩ => rfl)
  have hr : ∀ k : Fin 128, ridx_main_v107 (ix2 p q) k = ix2 k q := fun k =>
    funext fun a => Fin.ext (by match a with | ⟨0, _⟩ => rfl | ⟨1, _⟩ => rfl)
  have hb : idx_main_v108 (idx_main_v109 (ix2 p q)) = ix1 q :=
    funext fun a => Fin.ext (by match a with | ⟨0, _⟩ => rfl)
  rw [val_main_v111_apply, val_main_v110_apply, val_main_v107_apply, val_main_v109_apply, val_main_v108_apply,
    val_main_call5_v0_apply, val_main_call5_cst_apply, hb]
  simp only [hl, hr]
  show max ((∑ k : Fin 128, val_main_v106 (F := Ideal) x0 x1 x2 x3 x4 x5 x6 x7 x8 x9 (ix2 p k) * x10 (ix2 k q)) + x11 (ix1 q))
    (Ideal.ofBits .f32 0x00000000#32) = _
  rw [Ideal.ofBits_zero_f32]

/-- The second layer of the prediction head, the network's result: the first head layer's output times the fifth weights,
    plus the bias, rectified. -/
theorem head2 (x0 x1 : (⟨S50000x64, .f32⟩ : BufTy).Contents (Elt Ideal)) (x2 : (⟨S2x800000, .i32⟩ : BufTy).Contents (Elt Ideal)) (x3 : (⟨S50000, .i32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x32, .f32⟩ : BufTy).Contents (Elt Ideal)) (x13 : (⟨S32, .f32⟩ : BufTy).Contents (Elt Ideal)) (p : Fin 128) (q : Fin 32) :
    val_main_v116 (F := Ideal) x0 x1 x2 x3 x4 x5 x6 x7 x8 x9 x10 x11 x12 x13 (ix2 p q)
      = max ((∑ k : Fin 64, val_main_v111 (F := Ideal) x0 x1 x2 x3 x4 x5 x6 x7 x8 x9 x10 x11 (ix2 p k) * x12 (ix2 k q)) + x13 (ix1 q)) 0 := by
  have hl : ∀ k : Fin 64, lidx_main_v112 (ix2 p q) k = ix2 p k := fun k =>
    funext fun a => Fin.ext (by match a with | ⟨0, _⟩ => rfl | ⟨1, _⟩ => rfl)
  have hr : ∀ k : Fin 64, ridx_main_v112 (ix2 p q) k = ix2 k q := fun k =>
    funext fun a => Fin.ext (by match a with | ⟨0, _⟩ => rfl | ⟨1, _⟩ => rfl)
  have hb : idx_main_v113 (idx_main_v114 (ix2 p q)) = ix1 q :=
    funext fun a => Fin.ext (by match a with | ⟨0, _⟩ => rfl)
  rw [val_main_v116_apply, val_main_v115_apply, val_main_v112_apply, val_main_v114_apply, val_main_v113_apply,
    val_main_call6_v0_apply, val_main_call6_cst_apply, hb]
  simp only [hl, hr]
  show max ((∑ k : Fin 64, val_main_v111 (F := Ideal) x0 x1 x2 x3 x4 x5 x6 x7 x8 x9 x10 x11 (ix2 p k) * x12 (ix2 k q)) + x13 (ix1 q))
    (Ideal.ofBits .f32 0x00000000#32) = _
  rw [Ideal.ofBits_zero_f32]

end Cert.ReferenceIdeal.Layers

end
-- ==== Proof.Stages.lean ====
/-
  Each region of the kernel computes the reference's stage: the join, array by array.

  A region's result array is one function of the arrays the region is entered with (the region's value); the reference's
  stage is the same function of its own operands (the reference's layers, read at an index). So if the region is entered
  with the reference's operands — the features or the previous stage's output, the weights, and the bias as a [1, n] row
  holding the bias vector — its result array IS the reference's stage, as a whole array. The two programs declare their
  shapes separately; the declarations are equal, so an array of one is an array of the other. The pooling region is
  stated entry by entry: its result is the sum of the rows of the previous stage's output whose label is the row number.
-/
import proofs.«151719_j66898410602732_1_alg».proof.Proof.IdealValue0
import proofs.«151719_j66898410602732_1_alg».proof.Proof.IdealValue1
import proofs.«151719_j66898410602732_1_alg».proof.Proof.IdealValue2
import proofs.«151719_j66898410602732_1_alg».proof.Proof.IdealValue3
import proofs.«151719_j66898410602732_1_alg».proof.Proof.IdealValue4
import proofs.«151719_j66898410602732_1_alg».proof.Proof.IdealValue5
import proofs.«151719_j66898410602732_1_alg».proof.Proof.IdealValue6
import proofs.«151719_j66898410602732_1_alg».proof.Proof.IdealValue7
import proofs.«151719_j66898410602732_1_alg».proof.Proof.RefLayers

set_option maxRecDepth 16384

noncomputable section

namespace Cert.KernelIdeal.Stages

open Cert.KernelIdeal Cert.KernelIdeal.Gen Cert.KernelIdeal.Hand Cert.KernelIdeal.HandValue
open Cert.ReferenceIdeal.ReadP Cert.ReferenceIdeal.Layers
open Idealize.ShloMosaic Idealize.ShloMosaic.TcCoe Idealize.ShloMosaic.ValueIdx
open scoped BigOperators

variable (V : (c : Dev nD) → (b : Ref sig .tc) → Buf (Elt Ideal) ((c : Thread nD τ).loc b)) (c : Dev nD)

/-- Region 0 is the first dense layer. -/
theorem stage0 (x0 x1 : (⟨Cert.ReferenceIdeal.S50000x64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal))
    (h0 : (V c main_arg0 : S50000x64.Idx → EReal) = x0) (h1 : (V c main_arg1 : S50000x64.Idx → EReal) = x1)
    (h4 : (V c main_arg4 : S64x128.Idx → EReal) = x4)
    (hb : ∀ q : Fin 128, (V c main_v30 : S1x128.Idx → EReal) (ix2 (0 : Fin 1) q) = x5 (ix1 q)) :
    ((dat0 (F := Ideal) V c).arrAt 4 cfg0.N : S50000x128.Idx → EReal) = val_main_v12 (F := Ideal) x0 x1 x4 x5 := by
  funext i
  obtain ⟨p, q, rfl⟩ : ∃ (p : Fin 50000) (q : Fin 128), i = ix2 p q := ⟨i 0, i 1, eq_ix2 i⟩
  rw [layer0 x0 x1 x4 x5 p q, ← hb q]
  exact final0 V c x0 x1 x4 (V c main_v30) h0 h1 h4 rfl p q

/-- Region 1 is the layer-1 feature product. -/
theorem stage1 (x0 x1 : (⟨Cert.ReferenceIdeal.S50000x64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal))
    (hX : (V c main_v31 : S50000x128.Idx → EReal) = val_main_v12 (F := Ideal) x0 x1 x4 x5)
    (hW : (V c main_arg6 : S128x128.Idx → EReal) = x6) :
    ((dat1 (F := Ideal) V c).arrAt 2 cfg1.N : S50000x128.Idx → EReal) = val_main_v13 (F := Ideal) x0 x1 x4 x5 x6 := by
  funext i
  obtain ⟨p, q, rfl⟩ : ∃ (p : Fin 50000) (q : Fin 128), i = ix2 p q := ⟨i 0, i 1, eq_ix2 i⟩
  rw [feat1 x0 x1 x4 x5 x6 p q]
  exact final1 V c (val_main_v12 (F := Ideal) x0 x1 x4 x5) x6 hX hW p q

/-- Region 2 adds the bias to the first aggregation and rectifies. -/
theorem stage2 (x0 x1 : (⟨Cert.ReferenceIdeal.S50000x64, .f32⟩ : BufTy).Contents (Elt Ideal)) (x2 : (⟨Cert.ReferenceIdeal.S2x800000, .i32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal))
    (x6 : (⟨Cert.ReferenceIdeal.S128x128, .f32⟩ : BufTy).Contents (Elt Ideal)) (x7 : (⟨Cert.ReferenceIdeal.S128, .f32⟩ : BufTy).Contents (Elt Ideal))
    (hX : (V c main_v45 : S50000x128.Idx → EReal) = val_main_v49 (F := Ideal) x0 x1 x2 x4 x5 x6)
    (hb : ∀ q : Fin 128, (V c main_v46 : S1x128.Idx → EReal) (ix2 (0 : Fin 1) q) = x7 (ix1 q)) :
    ((dat2 (F := Ideal) V c).arrAt 2 cfg2.N : S50000x128.Idx → EReal) = val_main_v53 (F := Ideal) x0 x1 x2 x4 x5 x6 x7 := by
  funext i
  obtain ⟨p, q, rfl⟩ : ∃ (p : Fin 50000) (q : Fin 128), i = ix2 p q := ⟨i 0, i 1, eq_ix2 i⟩
  rw [layer1 x0 x1 x2 x4 x5 x6 x7 p q, ← hb q]
  exact final2 V c (val_main_v49 (F := Ideal) x0 x1 x2 x4 x5 x6) (V c main_v46) hX rfl p q

/-- Region 3 is the layer-2 feature product. -/
theorem stage3 (x0 x1 : (⟨Cert.ReferenceIdeal.S50000x64, .f32⟩ : BufTy).Contents (Elt Ideal)) (x2 : (⟨Cert.ReferenceIdeal.S2x800000, .i32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal))
    (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal))
    (hX : (V c main_v47 : S50000x128.Idx → EReal) = val_main_v53 (F := Ideal) x0 x1 x2 x4 x5 x6 x7)
    (hW : (V c main_arg8 : S128x128.Idx → EReal) = x8) :
    ((dat3 (F := Ideal) V c).arrAt 2 cfg3.N : S50000x128.Idx → EReal) = val_main_v54 (F := Ideal) x0 x1 x2 x4 x5 x6 x7 x8 := by
  funext i
  obtain ⟨p, q, rfl⟩ : ∃ (p : Fin 50000) (q : Fin 128), i = ix2 p q := ⟨i 0, i 1, eq_ix2 i⟩
  rw [feat2 x0 x1 x2 x4 x5 x6 x7 x8 p q]
  exact final3 V c (val_main_v53 (F := Ideal) x0 x1 x2 x4 x5 x6 x7) x8 hX hW p q

/-- Region 4 adds the bias to the second aggregation and rectifies. -/
theorem stage4 (x0 x1 : (⟨Cert.ReferenceIdeal.S50000x64, .f32⟩ : BufTy).Contents (Elt Ideal)) (x2 : (⟨Cert.ReferenceIdeal.S2x800000, .i32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal))
    (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal))
    (hX : (V c main_v61 : S50000x128.Idx → EReal) = val_main_v90 (F := Ideal) x0 x1 x2 x4 x5 x6 x7 x8)
    (hb : ∀ q : Fin 128, (V c main_v62 : S1x128.Idx → EReal) (ix2 (0 : Fin 1) q) = x9 (ix1 q)) :
    ((dat4 (F := Ideal) V c).arrAt 2 cfg4.N : S50000x128.Idx → EReal) = val_main_v94 (F := Ideal) x0 x1 x2 x4 x5 x6 x7 x8 x9 := by
  funext i
  obtain ⟨p, q, rfl⟩ : ∃ (p : Fin 50000) (q : Fin 128), i = ix2 p q := ⟨i 0, i 1, eq_ix2 i⟩
  rw [layer2 x0 x1 x2 x4 x5 x6 x7 x8 x9 p q, ← hb q]
  exact final4 V c (val_main_v90 (F := Ideal) x0 x1 x2 x4 x5 x6 x7 x8) (V c main_v62) hX rfl p q

/-- Region 5 pools: entry (g, q) is the sum of lane q of the rows of the second graph layer's output whose label is g. -/
theorem stage5 (x0 x1 : (⟨Cert.ReferenceIdeal.S50000x64, .f32⟩ : BufTy).Contents (Elt Ideal)) (x2 : (⟨Cert.ReferenceIdeal.S2x800000, .i32⟩ : BufTy).Contents (Elt Ideal)) (x3 : (⟨Cert.ReferenceIdeal.S50000, .i32⟩ : BufTy).Contents (Elt Ideal)) (x4 : (⟨Cert.ReferenceIdeal.S64x128, .f32⟩ : BufTy).Contents (Elt Ideal))
    (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal))
    (hX : (V c main_v63 : S50000x128.Idx → EReal) = val_main_v94 (F := Ideal) x0 x1 x2 x4 x5 x6 x7 x8 x9)
    (hL : ∀ n : Fin 50000, (V c main_v64 : S50000x1.Idx → BitVec 32) (ix2 n (0 : Fin 1)) = x3 (ix1 n)) (g q : Fin 128) :
    ((dat5 (F := Ideal) V c).arrAt 2 cfg5.N : S128x128.Idx → EReal) (ix2 g q)
      = (∑ n : Fin 50000, if (x3 (ix1 n)).toInt = (g.val : ℤ)
          then val_main_v94 (F := Ideal) x0 x1 x2 x4 x5 x6 x7 x8 x9 (ix2 n q) else 0 : EReal) := by
  exact Eq.trans (α := EReal)
    (final5 V c (val_main_v94 (F := Ideal) x0 x1 x2 x4 x5 x6 x7 x8 x9) (V c main_v64) hX rfl g q)
    (Finset.sum_congr rfl fun n _ => by rw [hL n])

/-- Region 6 is the first layer of the prediction head. -/
theorem stage6 (x0 x1 : (⟨Cert.ReferenceIdeal.S50000x64, .f32⟩ : BufTy).Contents (Elt Ideal)) (x2 : (⟨Cert.ReferenceIdeal.S2x800000, .i32⟩ : BufTy).Contents (Elt Ideal)) (x3 : (⟨Cert.ReferenceIdeal.S50000, .i32⟩ : BufTy).Contents (Elt Ideal)) (x4 : (⟨Cert.ReferenceIdeal.S64x128, .f32⟩ : BufTy).Contents (Elt Ideal))
    (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal))
    (x10 : (⟨Cert.ReferenceIdeal.S128x64, .f32⟩ : BufTy).Contents (Elt Ideal)) (x11 : (⟨Cert.ReferenceIdeal.S64, .f32⟩ : BufTy).Contents (Elt Ideal))
    (hX : (V c main_v81 : S128x128.Idx → EReal) = val_main_v106 (F := Ideal) x0 x1 x2 x3 x4 x5 x6 x7 x8 x9)
    (hW : (V c main_arg10 : S128x64.Idx → EReal) = x10)
    (hb : ∀ q : Fin 64, (V c main_v82 : S1x64.Idx → EReal) (ix2 (0 : Fin 1) q) = x11 (ix1 q)) :
    ((dat6 (F := Ideal) V c).arrAt 3 cfg6.N : S128x64.Idx → EReal)
      = val_main_v111 (F := Ideal) x0 x1 x2 x3 x4 x5 x6 x7 x8 x9 x10 x11 := by
  funext i
  obtain ⟨p, q, rfl⟩ : ∃ (p : Fin 128) (q : Fin 64), i = ix2 p q := ⟨i 0, i 1, eq_ix2 i⟩
  rw [head1 x0 x1 x2 x3 x4 x5 x6 x7 x8 x9 x10 x11 p q, ← hb q]
  exact final6 V c (val_main_v106 (F := Ideal) x0 x1 x2 x3 x4 x5 x6 x7 x8 x9) x10 (V c main_v82) hX hW rfl p q

/-- Region 7 is the second layer of the prediction head, the network's result. -/
theorem stage7 (x0 x1 : (⟨Cert.ReferenceIdeal.S50000x64, .f32⟩ : BufTy).Contents (Elt Ideal)) (x2 : (⟨Cert.ReferenceIdeal.S2x800000, .i32⟩ : BufTy).Contents (Elt Ideal)) (x3 : (⟨Cert.ReferenceIdeal.S50000, .i32⟩ : BufTy).Contents (Elt Ideal)) (x4 : (⟨Cert.ReferenceIdeal.S64x128, .f32⟩ : BufTy).Contents (Elt Ideal))
    (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal))
    (x10 : (⟨Cert.ReferenceIdeal.S128x64, .f32⟩ : BufTy).Contents (Elt Ideal)) (x11 : (⟨Cert.ReferenceIdeal.S64, .f32⟩ : BufTy).Contents (Elt Ideal)) (x12 : (⟨Cert.ReferenceIdeal.S64x32, .f32⟩ : BufTy).Contents (Elt Ideal)) (x13 : (⟨Cert.ReferenceIdeal.S32, .f32⟩ : BufTy).Contents (Elt Ideal))
    (hX : (V c main_v83 : S128x64.Idx → EReal) = val_main_v111 (F := Ideal) x0 x1 x2 x3 x4 x5 x6 x7 x8 x9 x10 x11)
    (hW : (V c main_arg12 : S64x32.Idx → EReal) = x12)
    (hb : ∀ q : Fin 32, (V c main_v84 : S1x32.Idx → EReal) (ix2 (0 : Fin 1) q) = x13 (ix1 q)) :
    ((dat7 (F := Ideal) V c).arrAt 3 cfg7.N : S128x32.Idx → EReal)
      = val_main_v116 (F := Ideal) x0 x1 x2 x3 x4 x5 x6 x7 x8 x9 x10 x11 x12 x13 := by
  funext i
  obtain ⟨p, q, rfl⟩ : ∃ (p : Fin 128) (q : Fin 32), i = ix2 p q := ⟨i 0, i 1, eq_ix2 i⟩
  rw [head2 x0 x1 x2 x3 x4 x5 x6 x7 x8 x9 x10 x11 x12 x13 p q, ← hb q]
  exact final7 V c (val_main_v111 (F := Ideal) x0 x1 x2 x3 x4 x5 x6 x7 x8 x9 x10 x11) x12 (V c main_v84) hX hW rfl p q

end Cert.KernelIdeal.Stages

end
-- ==== Proof.HostChains.lean ====
import proofs.«151719_j66898410602732_1_alg».proof.Proof.Gen.KernelIdeal.Launch
import proofs.«151719_j66898410602732_1_alg».proof.Proof.RefRead
import Idealize.ShloMosaic.Lib.StableHlo.Run
import Idealize.ShloMosaic.Lib.ValueIdx
import Idealize.ShloMosaic.Lib.ValueLayout
import Idealize.ShloMosaic.PureOps.Ideal

noncomputable section

namespace Cert.KernelIdeal.HostChains

open Cert.KernelIdeal Cert.KernelIdeal.Gen Idealize.ShloMosaic Idealize.ShloMosaic.TcCoe Idealize.ShloMosaic.StableHlo
open Idealize.ShloMosaic.ValueIdx

-- the buffer contents a stretch of host operations starts from
variable (Vin : Valuation τ sig (Elt Ideal))

/-! ## The dimension records of the two programs are the same records -/

theorem scatter_rows_rec :
    Cert.ReferenceIdeal.scatter_S50000x128_S850000x1_S850000x128_1_0_0_1 = scatter_S50000x128_S850000x1_S850000x128_1_0_0_1 := rfl

theorem gather_rows_rec :
    Cert.ReferenceIdeal.gather_S50000x128_S850000x1_S850000x128_1_0_n_n_0_1_1128 = gather_S50000x128_S850000x1_S850000x128_1_0_n_n_0_1_1128 := rfl

/-! ## The fourth stretch: the first aggregation, and the second bias as a row -/

set_option maxHeartbeats 8000000 in
theorem agg1 (x0 x1 : (⟨Cert.ReferenceIdeal.S50000x64, .f32⟩ : BufTy).Contents (Elt Ideal))
    (x2 : (⟨Cert.ReferenceIdeal.S2x800000, .i32⟩ : BufTy).Contents (Elt Ideal))
    (x4 : (⟨Cert.ReferenceIdeal.S64x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (hsrc : Vin (Proc.devRef .tc main_v3) = Cert.ReferenceIdeal.ReadP.val_main_v3 (F := Ideal) x2)
    (hdst : Vin (Proc.devRef .tc main_v6) = Cert.ReferenceIdeal.ReadP.val_main_v6 (F := Ideal) x2)
    (hnorm : Vin (Proc.devRef .tc main_v29) = Cert.ReferenceIdeal.ReadP.val_main_v36 (F := Ideal) x2)
    (hfeat : Vin (Proc.devRef .tc main_v32) = Cert.ReferenceIdeal.ReadP.val_main_v13 (F := Ideal) x0 x1 x4 x5 x6) :
    StableHlo.after (hostOps2 (F := Ideal)) Vin (Proc.devRef .tc main_v45)
      = Cert.ReferenceIdeal.ReadP.val_main_v49 (F := Ideal) x0 x1 x2 x4 x5 x6 := by
  dsimp only [hostOps2]
  after_results_simp
  rw [hsrc, hdst, hnorm, hfeat]
  unfold Cert.ReferenceIdeal.ReadP.val_main_v49 Cert.ReferenceIdeal.ReadP.val_main_v47 Cert.ReferenceIdeal.ReadP.val_main_v48 Cert.ReferenceIdeal.ReadP.val_main_v46 Cert.ReferenceIdeal.ReadP.val_main_v43
    Cert.ReferenceIdeal.ReadP.val_main_v45 Cert.ReferenceIdeal.ReadP.val_main_v44 Cert.ReferenceIdeal.ReadP.val_main_v42 Cert.ReferenceIdeal.ReadP.val_main_v41 Cert.ReferenceIdeal.ReadP.val_main_v38
    Cert.ReferenceIdeal.ReadP.val_main_v40 Cert.ReferenceIdeal.ReadP.val_main_v37 Cert.ReferenceIdeal.ReadP.val_main_v39 Cert.ReferenceIdeal.ReadP.val_main_cst_8 Cert.ReferenceIdeal.ReadP.val_main_c_6 Cert.ReferenceIdeal.ReadP.val_main_c_7
  rw [scatter_rows_rec, gather_rows_rec]

set_option maxHeartbeats 8000000 in
/-- The second bias vector recast as one row of 128 entries. -/
theorem bias1 (q : Fin 128) :
    StableHlo.after (hostOps2 (F := Ideal)) Vin (Proc.devRef .tc main_v46) (ix2 (0 : Fin 1) q) = Vin (Proc.devRef .tc main_arg7) (ix1 q) := by
  dsimp only [hostOps2]
  after_results_simp
  exact shapeCast_a_1a_apply _ _ 0 q

/-! ## The reference computes the edge weights twice -/

theorem norm_again (x2 : (⟨Cert.ReferenceIdeal.S2x800000, .i32⟩ : BufTy).Contents (Elt Ideal)) : Cert.ReferenceIdeal.ReadP.val_main_v77 (F := Ideal) x2 = Cert.ReferenceIdeal.ReadP.val_main_v36 (F := Ideal) x2 := by
  unfold Cert.ReferenceIdeal.ReadP.val_main_v77 Cert.ReferenceIdeal.ReadP.val_main_v76 Cert.ReferenceIdeal.ReadP.val_main_v75 Cert.ReferenceIdeal.ReadP.val_main_v74 Cert.ReferenceIdeal.ReadP.val_main_v73 Cert.ReferenceIdeal.ReadP.val_main_v72
    Cert.ReferenceIdeal.ReadP.val_main_c_16 Cert.ReferenceIdeal.ReadP.val_main_v71 Cert.ReferenceIdeal.ReadP.val_main_v70 Cert.ReferenceIdeal.ReadP.val_main_c_15 Cert.ReferenceIdeal.ReadP.val_main_v69 Cert.ReferenceIdeal.ReadP.val_main_v68 Cert.ReferenceIdeal.ReadP.val_main_v67
    Cert.ReferenceIdeal.ReadP.val_main_v66 Cert.ReferenceIdeal.ReadP.val_main_v65 Cert.ReferenceIdeal.ReadP.val_main_c_14 Cert.ReferenceIdeal.ReadP.val_main_v64 Cert.ReferenceIdeal.ReadP.val_main_v63 Cert.ReferenceIdeal.ReadP.val_main_c_13
    Cert.ReferenceIdeal.ReadP.val_main_v62 Cert.ReferenceIdeal.ReadP.val_main_call3_v1 Cert.ReferenceIdeal.ReadP.val_main_call3_v0 Cert.ReferenceIdeal.ReadP.val_main_cst_12 Cert.ReferenceIdeal.ReadP.val_main_v61 Cert.ReferenceIdeal.ReadP.val_main_v60
    Cert.ReferenceIdeal.ReadP.val_main_v59 Cert.ReferenceIdeal.ReadP.val_main_cst_11 Cert.ReferenceIdeal.ReadP.val_main_v58 Cert.ReferenceIdeal.ReadP.val_main_v57 Cert.ReferenceIdeal.ReadP.val_main_v56 Cert.ReferenceIdeal.ReadP.val_main_cst_10
    Cert.ReferenceIdeal.ReadP.val_main_v55 Cert.ReferenceIdeal.ReadP.val_main_cst_9
    Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32 Cert.ReferenceIdeal.ReadP.val_main_v31
    Cert.ReferenceIdeal.ReadP.val_main_c_5 Cert.ReferenceIdeal.ReadP.val_main_v30 Cert.ReferenceIdeal.ReadP.val_main_v29 Cert.ReferenceIdeal.ReadP.val_main_c_4 Cert.ReferenceIdeal.ReadP.val_main_v28 Cert.ReferenceIdeal.ReadP.val_main_v27 Cert.ReferenceIdeal.ReadP.val_main_v26
    Cert.ReferenceIdeal.ReadP.val_main_v25 Cert.ReferenceIdeal.ReadP.val_main_v24 Cert.ReferenceIdeal.ReadP.val_main_c_3 Cert.ReferenceIdeal.ReadP.val_main_v23 Cert.ReferenceIdeal.ReadP.val_main_v22 Cert.ReferenceIdeal.ReadP.val_main_c
    Cert.ReferenceIdeal.ReadP.val_main_v21 Cert.ReferenceIdeal.ReadP.val_main_call1_v1 Cert.ReferenceIdeal.ReadP.val_main_call1_v0 Cert.ReferenceIdeal.ReadP.val_main_cst_2 Cert.ReferenceIdeal.ReadP.val_main_v20 Cert.ReferenceIdeal.ReadP.val_main_v19
    Cert.ReferenceIdeal.ReadP.val_main_v18 Cert.ReferenceIdeal.ReadP.val_main_cst_1 Cert.ReferenceIdeal.ReadP.val_main_v17 Cert.ReferenceIdeal.ReadP.val_main_v16 Cert.ReferenceIdeal.ReadP.val_main_v15 Cert.ReferenceIdeal.ReadP.val_main_cst_0
    Cert.ReferenceIdeal.ReadP.val_main_v14 Cert.ReferenceIdeal.ReadP.val_main_cst
  with_reducible rfl

/-! ## The fifth stretch: the second aggregation, and the third bias as a row -/

set_option maxHeartbeats 8000000 in
/-- The second aggregation, as the first with the second layer's features. The reference multiplies by its second copy of
    the edge weights. -/
theorem agg2 (x0 x1 : (⟨Cert.ReferenceIdeal.S50000x64, .f32⟩ : BufTy).Contents (Elt Ideal)) (x2 : (⟨Cert.ReferenceIdeal.S2x800000, .i32⟩ : BufTy).Contents (Elt Ideal))
    (x4 : (⟨Cert.ReferenceIdeal.S64x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal))
    (x7 : (⟨Cert.ReferenceIdeal.S128, .f32⟩ : BufTy).Contents (Elt Ideal)) (x8 : (⟨Cert.ReferenceIdeal.S128x128, .f32⟩ : BufTy).Contents (Elt Ideal))
    (hsrc : Vin (Proc.devRef .tc main_v3) = Cert.ReferenceIdeal.ReadP.val_main_v3 (F := Ideal) x2)
    (hdst : Vin (Proc.devRef .tc main_v6) = Cert.ReferenceIdeal.ReadP.val_main_v6 (F := Ideal) x2)
    (hnorm : Vin (Proc.devRef .tc main_v29) = Cert.ReferenceIdeal.ReadP.val_main_v36 (F := Ideal) x2)
    (hfeat : Vin (Proc.devRef .tc main_v48) = Cert.ReferenceIdeal.ReadP.val_main_v54 (F := Ideal) x0 x1 x2 x4 x5 x6 x7 x8) :
    StableHlo.after (hostOps4 (F := Ideal)) Vin (Proc.devRef .tc main_v61)
      = Cert.ReferenceIdeal.ReadP.val_main_v90 (F := Ideal) x0 x1 x2 x4 x5 x6 x7 x8 := by
  dsimp only [hostOps4]
  after_results_simp
  rw [hsrc, hdst, hnorm, hfeat]
  unfold Cert.ReferenceIdeal.ReadP.val_main_v90 Cert.ReferenceIdeal.ReadP.val_main_v89 Cert.ReferenceIdeal.ReadP.val_main_v88 Cert.ReferenceIdeal.ReadP.val_main_cst_19 Cert.ReferenceIdeal.ReadP.val_main_v87 Cert.ReferenceIdeal.ReadP.val_main_v86
    Cert.ReferenceIdeal.ReadP.val_main_v85 Cert.ReferenceIdeal.ReadP.val_main_v84 Cert.ReferenceIdeal.ReadP.val_main_v83 Cert.ReferenceIdeal.ReadP.val_main_v82 Cert.ReferenceIdeal.ReadP.val_main_v81 Cert.ReferenceIdeal.ReadP.val_main_v80 Cert.ReferenceIdeal.ReadP.val_main_c_18
    Cert.ReferenceIdeal.ReadP.val_main_v79 Cert.ReferenceIdeal.ReadP.val_main_v78 Cert.ReferenceIdeal.ReadP.val_main_c_17
  rw [norm_again, scatter_rows_rec, gather_rows_rec]

set_option maxHeartbeats 8000000 in
/-- The third bias vector recast as one row of 128 entries. -/
theorem bias2 (q : Fin 128) :
    StableHlo.after (hostOps4 (F := Ideal)) Vin (Proc.devRef .tc main_v62) (ix2 (0 : Fin 1) q) = Vin (Proc.devRef .tc main_arg9) (ix1 q) := by
  dsimp only [hostOps4]
  after_results_simp
  exact shapeCast_a_1a_apply _ _ 0 q

/-! ## The single recasts -/

/-- A vector of `a` entries recast as a column reads, at row `i`, entry `i`: both sit at offset `i` in row-major order. -/
theorem shapeCast_col_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The node labels recast as a column. -/
theorem labels_col (n : Fin 50000) :
    StableHlo.after (hostOps5 (F := Ideal)) Vin (Proc.devRef .tc main_v64) (ix2 n (0 : Fin 1)) = Vin (Proc.devRef .tc main_arg3) (ix1 n) := by
  dsimp only [hostOps5]
  after_results_simp
  exact shapeCast_col_apply _ _ n 0

/-- The last bias vector recast as one row of 32 entries. -/
theorem bias4 (q : Fin 32) :
    StableHlo.after (hostOps7 (F := Ideal)) Vin (Proc.devRef .tc main_v84) (ix2 (0 : Fin 1) q) = Vin (Proc.devRef .tc main_arg13) (ix1 q) := by
  dsimp only [hostOps7]
  after_results_simp
  exact shapeCast_a_1a_apply _ _ 0 q

end Cert.KernelIdeal.HostChains

end
-- ==== Proof.HostPre.lean ====
import proofs.«151719_j66898410602732_1_alg».proof.Proof.Gen.KernelIdeal.Launch
import proofs.«151719_j66898410602732_1_alg».proof.Proof.RefRead
import Idealize.ShloMosaic.Lib.StableHlo.Run
import Idealize.ShloMosaic.Lib.ValueIdx
import Idealize.ShloMosaic.Lib.Pipeline.Value

set_option maxRecDepth 16384

noncomputable section

namespace Cert.KernelIdeal.HostChains

open Cert.KernelIdeal Cert.KernelIdeal.Gen
open Idealize.ShloMosaic Idealize.ShloMosaic.TcCoe Idealize.ShloMosaic.ValueIdx Idealize.ShloMosaic.StableHlo
open Idealize.SL.Sem
open Cert.ReferenceIdeal.ReadP

-- the buffer contents before the program's first host operations
variable (Vin : Valuation τ sig (Elt Ideal))

/-! # The kernel program's first host operations against the reference's

Before its first region the kernel's program prepares, on the host, the edge lists with a self loop appended for
every node (the sources and the targets: row 0 and row 1 of the edge array, each followed by 0 … 49999) and the first
layer's bias as a row. The reference prepares the same arrays by the same operations. -/

set_option maxHeartbeats 8000000 in
/-- The sources with the self loops appended: row 0 of the edge array, then every node. -/
theorem pre_src :
    StableHlo.after (hostOps0_2 (F := Ideal)) (StableHlo.after (hostOps0_1 (F := Ideal)) (StableHlo.after (hostOps0 (F := Ideal)) Vin)) (Proc.devRef .tc main_v3)
      = val_main_v3 (F := Ideal) (Vin (Proc.devRef .tc main_arg2)) := by
  dsimp only [hostOps0_2, hostOps0_1, hostOps0]
  after_results_simp
  unfold val_main_v3 val_main_v2 val_main_v1 val_main_v0
  rfl

set_option maxHeartbeats 8000000 in
/-- The targets with the self loops appended: row 1 of the edge array, then every node. -/
theorem pre_dst :
    StableHlo.after (hostOps0_2 (F := Ideal)) (StableHlo.after (hostOps0_1 (F := Ideal)) (StableHlo.after (hostOps0 (F := Ideal)) Vin)) (Proc.devRef .tc main_v6)
      = val_main_v6 (F := Ideal) (Vin (Proc.devRef .tc main_arg2)) := by
  dsimp only [hostOps0_2, hostOps0_1, hostOps0]
  after_results_simp
  unfold val_main_v6 val_main_v5 val_main_v4 val_main_v0
  rfl

set_option maxHeartbeats 8000000 in
/-- The first layer's bias as a `[1, 128]` row: entry `(0, q)` is entry `q` of argument 5. -/
theorem pre_bias (q : Fin 128) :
    (StableHlo.after (hostOps0_2 (F := Ideal)) (StableHlo.after (hostOps0_1 (F := Ideal)) (StableHlo.after (hostOps0 (F := Ideal)) Vin)) (Proc.devRef .tc main_v30) : S1x128.Idx → EReal) (ix2 (0 : Fin 1) q)
      = (Vin (Proc.devRef .tc main_arg5) : S128.Idx → EReal) (ix1 q) := by
  dsimp only [hostOps0_2, hostOps0_1, hostOps0]
  after_results_simp
  refine shapeCast_apply (s := S128) (t := S1x128) _ shapeCasts_S128_S1x128 (ix2 (0 : Fin 1) q) (ix1 q) ?_
  rw [Shape.rowMajor_val_one, Shape.rowMajor_val_two]
  show q.val = 0 * 128 + q.val
  omega

end Cert.KernelIdeal.HostChains

end
-- ==== Proof.HostNorm.lean ====
import proofs.«151719_j66898410602732_1_alg».proof.Proof.Gen.KernelIdeal.Launch
import proofs.«151719_j66898410602732_1_alg».proof.Proof.RefRead
import Idealize.ShloMosaic.Lib.StableHlo.Run
import Idealize.ShloMosaic.Lib.ValueIdx
import Idealize.ShloMosaic.Lib.ValueLayout
import Idealize.ShloMosaic.PureOps.Ideal

noncomputable section

namespace Cert.KernelIdeal.HostChains

open Cert.KernelIdeal Cert.KernelIdeal.Gen Idealize.ShloMosaic Idealize.ShloMosaic.TcCoe Idealize.ShloMosaic.StableHlo
open Idealize.ShloMosaic.ValueIdx

-- the buffer contents a stretch of host operations starts from
variable (Vin : Valuation τ sig (Elt Ideal))

/-! # The edge weights before the first region are the reference's

The three stretches of host operations that precede the first region compute, from the edge array alone, the weight of every
edge (self loops included): the product of the normalising factors of its two end points, a node's factor being the
inverse square root of its degree, or zero for a node of degree zero. The reference computes the same thing with the
same operations; this is shown stage by stage, each stage over arbitrary starting contents whose relevant buffers are
assumed to hold the reference's values. -/

/-! ## Reading a stretch of operations -/

/-- The contents after two stretches run one after the other are the second's from the first's. -/
theorem norm_after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, after_cons, ih]

/-- Reads of a buffer through single operations: the operation's result at its own buffer, the contents before it at
    any other. Used where a read sits under a concatenation's list of operands. -/
macro "norm_read_through" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The dimension records of the two programs are the same records -/

theorem degree_scatter_rec :
    Cert.ReferenceIdeal.scatter_S50000_S850000x1_S850000_n_0_0_1 = scatter_S50000_S850000x1_S850000_n_0_0_1 := rfl

theorem norm_gather_rec :
    Cert.ReferenceIdeal.gather_S50000_S850000x1_S850000_n_0_n_n_0_1_1 = gather_S50000_S850000x1_S850000_n_0_n_n_0_1_1 := rfl

/-! ## The first stretch in two parts: the edge lists, then the degrees -/

/-- The first seven operations: the two rows of the edge array, each followed by the node numbers (the self loops). -/
abbrev edge_ops : List (HloOp τ sig (Elt Ideal)) := (hostOps0 (F := Ideal)).take 7
/-- The remaining eleven: the degree of every node, whether it is positive, and its inverse square root. -/
abbrev degree_ops : List (HloOp τ sig (Elt Ideal)) := (hostOps0 (F := Ideal)).drop 7

theorem edge_degree_split : hostOps0 (F := Ideal) = edge_ops ++ degree_ops := (List.take_append_drop 7 _).symm

set_option maxHeartbeats 8000000 in
/-- The source list: row 0 of the edge array followed by the node numbers. -/
theorem edge_src : StableHlo.after edge_ops Vin (Proc.devRef .tc main_v3)
    = Cert.ReferenceIdeal.ReadP.val_main_v3 (F := Ideal) (Vin (Proc.devRef .tc main_arg2)) := by
  dsimp only [edge_ops, hostOps0, List.take]
  after_results_simp
  norm_read_through
  unfold Cert.ReferenceIdeal.ReadP.val_main_v3 Cert.ReferenceIdeal.ReadP.val_main_v2 Cert.ReferenceIdeal.ReadP.val_main_v1 Cert.ReferenceIdeal.ReadP.val_main_v0
  rfl

set_option maxHeartbeats 8000000 in
/-- The destination list: row 1 of the edge array followed by the node numbers. -/
theorem edge_dst : StableHlo.after edge_ops Vin (Proc.devRef .tc main_v6)
    = Cert.ReferenceIdeal.ReadP.val_main_v6 (F := Ideal) (Vin (Proc.devRef .tc main_arg2)) := by
  dsimp only [edge_ops, hostOps0, List.take]
  after_results_simp
  norm_read_through
  unfold Cert.ReferenceIdeal.ReadP.val_main_v6 Cert.ReferenceIdeal.ReadP.val_main_v5 Cert.ReferenceIdeal.ReadP.val_main_v4 Cert.ReferenceIdeal.ReadP.val_main_v0
  rfl

/-! ## The degrees -/

set_option maxHeartbeats 8000000 in
/-- Which nodes have positive degree: ones added up along the destination list, compared with zero. -/
theorem degree_pos (x2 : (⟨Cert.ReferenceIdeal.S2x800000, .i32⟩ : BufTy).Contents (Elt Ideal)) (hdst : Vin (Proc.devRef .tc main_v6) = Cert.ReferenceIdeal.ReadP.val_main_v6 (F := Ideal) x2) :
    StableHlo.after degree_ops Vin (Proc.devRef .tc main_v12) = Cert.ReferenceIdeal.ReadP.val_main_v19 (F := Ideal) x2 := by
  dsimp only [degree_ops, hostOps0, List.drop]
  after_results_simp
  rw [hdst]
  unfold Cert.ReferenceIdeal.ReadP.val_main_v19 Cert.ReferenceIdeal.ReadP.val_main_v18 Cert.ReferenceIdeal.ReadP.val_main_cst_1 Cert.ReferenceIdeal.ReadP.val_main_v17 Cert.ReferenceIdeal.ReadP.val_main_v16 Cert.ReferenceIdeal.ReadP.val_main_v15
    Cert.ReferenceIdeal.ReadP.val_main_cst_0 Cert.ReferenceIdeal.ReadP.val_main_v14 Cert.ReferenceIdeal.ReadP.val_main_cst
  rw [degree_scatter_rec]

set_option maxHeartbeats 8000000 in
/-- The inverse square root of every degree. -/
theorem degree_rsqrt (x2 : (⟨Cert.ReferenceIdeal.S2x800000, .i32⟩ : BufTy).Contents (Elt Ideal)) (hdst : Vin (Proc.devRef .tc main_v6) = Cert.ReferenceIdeal.ReadP.val_main_v6 (F := Ideal) x2) :
    StableHlo.after degree_ops Vin (Proc.devRef .tc main_v13) = Cert.ReferenceIdeal.ReadP.val_main_v20 (F := Ideal) x2 := by
  dsimp only [degree_ops, hostOps0, List.drop]
  after_results_simp
  rw [hdst]
  unfold Cert.ReferenceIdeal.ReadP.val_main_v20 Cert.ReferenceIdeal.ReadP.val_main_v17 Cert.ReferenceIdeal.ReadP.val_main_v16 Cert.ReferenceIdeal.ReadP.val_main_v15
    Cert.ReferenceIdeal.ReadP.val_main_cst_0 Cert.ReferenceIdeal.ReadP.val_main_v14 Cert.ReferenceIdeal.ReadP.val_main_cst
  rw [degree_scatter_rec]

/-- The zero that replaces the inverse square root where the degree is not positive. -/
theorem degree_zero : StableHlo.after degree_ops Vin (Proc.devRef .tc main_cst_2) = Cert.ReferenceIdeal.ReadP.val_main_cst_2 (F := Ideal) := by
  dsimp only [degree_ops, hostOps0, List.drop]
  after_results_simp
  rfl

/-- The degree operations leave the source list alone, -/
theorem degree_keep_src : StableHlo.after degree_ops Vin (Proc.devRef .tc main_v3) = Vin (Proc.devRef .tc main_v3) := by
  dsimp only [degree_ops, hostOps0, List.drop]
  after_results_simp

/-- and the destination list. -/
theorem degree_keep_dst : StableHlo.after degree_ops Vin (Proc.devRef .tc main_v6) = Vin (Proc.devRef .tc main_v6) := by
  dsimp only [degree_ops, hostOps0, List.drop]
  after_results_simp

/-- After the whole first stretch the source list is the reference's, -/
theorem edge_first_src : StableHlo.after (hostOps0 (F := Ideal)) Vin (Proc.devRef .tc main_v3)
    = Cert.ReferenceIdeal.ReadP.val_main_v3 (F := Ideal) (Vin (Proc.devRef .tc main_arg2)) := by
  rw [edge_degree_split, norm_after_append, degree_keep_src, edge_src]

/-- and so is the destination list. -/
theorem edge_first_dst : StableHlo.after (hostOps0 (F := Ideal)) Vin (Proc.devRef .tc main_v6)
    = Cert.ReferenceIdeal.ReadP.val_main_v6 (F := Ideal) (Vin (Proc.devRef .tc main_arg2)) := by
  rw [edge_degree_split, norm_after_append, degree_keep_dst, edge_dst]

/-! ## The second stretch: the inverse square root where the degree is positive, zero elsewhere -/

set_option maxRecDepth 8192 in
set_option maxHeartbeats 8000000 in
/-- A node's normalising factor. The stretch is a call of a small function whose operands are passed through
    identity recasts of their own types. -/
theorem norm_where_dinv (x2 : (⟨Cert.ReferenceIdeal.S2x800000, .i32⟩ : BufTy).Contents (Elt Ideal)) (hpos : Vin (Proc.devRef .tc main_v12) = Cert.ReferenceIdeal.ReadP.val_main_v19 (F := Ideal) x2)
    (hrs : Vin (Proc.devRef .tc main_v13) = Cert.ReferenceIdeal.ReadP.val_main_v20 (F := Ideal) x2)
    (hz : Vin (Proc.devRef .tc main_cst_2) = Cert.ReferenceIdeal.ReadP.val_main_cst_2 (F := Ideal)) :
    StableHlo.after (hostOps0_1 (F := Ideal)) Vin (Proc.devRef .tc main_v14) = Cert.ReferenceIdeal.ReadP.val_main_v21 (F := Ideal) x2 := by
  dsimp only [hostOps0_1]
  after_results_simp
  simp only [TRef.toBuf, TRef.ofBuf, cast_eq, id_eq]
  rw [hpos, hrs, hz]
  unfold Cert.ReferenceIdeal.ReadP.val_main_v21 Cert.ReferenceIdeal.ReadP.val_main_call1_v1 Cert.ReferenceIdeal.ReadP.val_main_call1_v0
  try simp only [id_eq]
  first | done | rfl

/-- It leaves the source list alone, -/
theorem norm_where_keep_src : StableHlo.after (hostOps0_1 (F := Ideal)) Vin (Proc.devRef .tc main_v3) = Vin (Proc.devRef .tc main_v3) := by
  dsimp only [hostOps0_1]
  after_results_simp

/-- and the destination list. -/
theorem norm_where_keep_dst : StableHlo.after (hostOps0_1 (F := Ideal)) Vin (Proc.devRef .tc main_v6) = Vin (Proc.devRef .tc main_v6) := by
  dsimp only [hostOps0_1]
  after_results_simp

/-! ## The third stretch: the edge weights -/

set_option maxHeartbeats 8000000 in
/-- The weight of an edge: the normalising factor of its source times that of its destination (each list wrapped into
    the node range before it indexes). -/
theorem norm_val (x2 : (⟨Cert.ReferenceIdeal.S2x800000, .i32⟩ : BufTy).Contents (Elt Ideal)) (hsrc : Vin (Proc.devRef .tc main_v3) = Cert.ReferenceIdeal.ReadP.val_main_v3 (F := Ideal) x2)
    (hdst : Vin (Proc.devRef .tc main_v6) = Cert.ReferenceIdeal.ReadP.val_main_v6 (F := Ideal) x2)
    (hdinv : Vin (Proc.devRef .tc main_v14) = Cert.ReferenceIdeal.ReadP.val_main_v21 (F := Ideal) x2) :
    StableHlo.after (hostOps0_2 (F := Ideal)) Vin (Proc.devRef .tc main_v29) = Cert.ReferenceIdeal.ReadP.val_main_v36 (F := Ideal) x2 := by
  dsimp only [hostOps0_2]
  after_results_simp
  rw [hsrc, hdst, hdinv]
  unfold Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32 Cert.ReferenceIdeal.ReadP.val_main_v31
    Cert.ReferenceIdeal.ReadP.val_main_c_5 Cert.ReferenceIdeal.ReadP.val_main_v30 Cert.ReferenceIdeal.ReadP.val_main_v29 Cert.ReferenceIdeal.ReadP.val_main_c_4 Cert.ReferenceIdeal.ReadP.val_main_v28 Cert.ReferenceIdeal.ReadP.val_main_v27 Cert.ReferenceIdeal.ReadP.val_main_v26
    Cert.ReferenceIdeal.ReadP.val_main_v25 Cert.ReferenceIdeal.ReadP.val_main_v24 Cert.ReferenceIdeal.ReadP.val_main_c_3 Cert.ReferenceIdeal.ReadP.val_main_v23 Cert.ReferenceIdeal.ReadP.val_main_v22 Cert.ReferenceIdeal.ReadP.val_main_c
  rw [norm_gather_rec]

/-! ## The three stretches together -/

/-- After the three stretches that precede the first region, the buffer of edge weights holds the reference's edge
    weights of the edge array the program was given. -/
theorem pre_norm :
    StableHlo.after (hostOps0_2 (F := Ideal)) (StableHlo.after (hostOps0_1 (F := Ideal)) (StableHlo.after (hostOps0 (F := Ideal)) Vin))
        (Proc.devRef .tc main_v29)
      = Cert.ReferenceIdeal.ReadP.val_main_v36 (F := Ideal) (Vin (Proc.devRef .tc main_arg2)) := by
  have hd : StableHlo.after edge_ops Vin (Proc.devRef .tc main_v6) = Cert.ReferenceIdeal.ReadP.val_main_v6 (F := Ideal) (Vin (Proc.devRef .tc main_arg2)) := edge_dst Vin
  have hpos : StableHlo.after (hostOps0 (F := Ideal)) Vin (Proc.devRef .tc main_v12) = Cert.ReferenceIdeal.ReadP.val_main_v19 (F := Ideal) (Vin (Proc.devRef .tc main_arg2)) := by
    rw [edge_degree_split, norm_after_append]; exact degree_pos _ _ hd
  have hrs : StableHlo.after (hostOps0 (F := Ideal)) Vin (Proc.devRef .tc main_v13) = Cert.ReferenceIdeal.ReadP.val_main_v20 (F := Ideal) (Vin (Proc.devRef .tc main_arg2)) := by
    rw [edge_degree_split, norm_after_append]; exact degree_rsqrt _ _ hd
  have hz : StableHlo.after (hostOps0 (F := Ideal)) Vin (Proc.devRef .tc main_cst_2) = Cert.ReferenceIdeal.ReadP.val_main_cst_2 (F := Ideal) := by
    rw [edge_degree_split, norm_after_append]; exact degree_zero _
  have hs1 : StableHlo.after (hostOps0_1 (F := Ideal)) (StableHlo.after (hostOps0 (F := Ideal)) Vin) (Proc.devRef .tc main_v3)
      = Cert.ReferenceIdeal.ReadP.val_main_v3 (F := Ideal) (Vin (Proc.devRef .tc main_arg2)) := by rw [norm_where_keep_src, edge_first_src]
  have hd1 : StableHlo.after (hostOps0_1 (F := Ideal)) (StableHlo.after (hostOps0 (F := Ideal)) Vin) (Proc.devRef .tc main_v6)
      = Cert.ReferenceIdeal.ReadP.val_main_v6 (F := Ideal) (Vin (Proc.devRef .tc main_arg2)) := by rw [norm_where_keep_dst, edge_first_dst]
  exact norm_val _ _ hs1 hd1 (norm_where_dinv _ _ hpos hrs hz)

end Cert.KernelIdeal.HostChains

end
-- ==== Proof.LibGatherRows.lean ====
/-
  A gather of whole rows, read at an index written by coordinates.

  Taking rows of an [N, C] table at an [R, 1] array of row numbers gives an [R, C] array. Its element (p, q) is the table's
  element (ρ p, q): the row ρ p is the row number stored for p, read as a signed integer and clamped into [0, N − 1]; the lane q
  is kept. The row ρ p depends on the row numbers alone — not on the table, nor on the lane — so taking rows commutes with
  anything done to each row of the table separately.
-/
import Idealize.ShloMosaic.Lib.ValueIdx
import Idealize.ShloMosaic.Lib.Pipeline.Value

namespace Cert.LibGatherRows

open Idealize.ShloMosaic Idealize.ShloMosaic.ValueIdx

variable {α : Type}

/-- The dimension numbers of taking rows: the table's row axis is collapsed and indexed by the one component of each start index,
    its lane axis is the result's second axis, taken whole. Their conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Of a table's two axes, the one that is not the collapsed row axis is the lane axis. -/
private theorem kept_lanes :
    (List.finRange 2).filter (fun a : Fin 2 => a ∉ ([0] ++ [] : List (Fin 2))) = [1] := by decide

/-- The row of an `N`-row table that result row `p` reads: the stored row number, signed, clamped into `[0, N − 1]`. -/
def rowOf {N R w : ℕ} (hN : 0 < N) (idx : IVec ⟨2, ![R, 1]⟩ w) (p : Fin R) : Fin N :=
  ⟨min (idx (ix2 p (0 : Fin 1))).toInt.toNat (N - 1), by omega⟩

/-- Rows of an `[N, C]` table taken at an `[R, 1]` array of row numbers: element `(p, q)` is the table's `(rowOf p, q)`. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q) = x (ix2 (rowOf hN idx p) q) := by
  unfold Host.gather
  congr 1
  funext a
  refine Fin.ext ?_
  show (rowDims N R C wf).start (ix2 p q) idx a + (rowDims N R C wf).batchCoord (ix2 p q) a
    + (rowDims N R C wf).offCoord (ix2 p q) a = _
  rw [GatherDims.batchCoord_eq_zero _ _ _ List.not_mem_nil]
  match a with
  | ⟨0, _⟩ =>
    show (rowDims N R C wf).start (ix2 p q) idx (0 : Fin 2) + 0 + (rowDims N R C wf).offCoord (ix2 p q) (0 : Fin 2)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p q) idx (1 : Fin 2) + 0 + (rowDims N R C wf).offCoord (ix2 p q) (1 : Fin 2) = q.val
    have hs : (rowDims N R C wf).start (ix2 p q) idx (1 : Fin 2) = 0 := by
      unfold GatherDims.start
      rw [dif_neg (show (1 : Fin 2) ∉ ([0] : List (Fin 2)) by decide)]
    have hkept : (rowDims N R C wf).sKept = [(1 : Fin 2)] := kept_lanes
    have hk : (1 : Fin 2) ∈ (rowDims N R C wf).sKept := by rw [hkept]; exact List.mem_singleton.mpr rfl
    rw [hs]
    unfold GatherDims.offCoord
    rw [dif_pos hk]
    simp only [List.getElem_singleton, Nat.add_zero, Nat.zero_add]
    rfl

end Cert.LibGatherRows
-- ==== Proof.LibRowIndex.lean ====
/-
  Rows named by an array of row numbers: a flat gather, and where an accumulating scatter of rows lands.

  Taking entries of a length-N vector at an [R, 1] array of row numbers gives a length-R vector whose entry p is the vector's
  entry ρ p, the SAME row ρ p (the stored number read signed and clamped into [0, N − 1]) that taking whole rows of an [N, C]
  table at those numbers reads. A scatter of the rows of an [R, C] array of updates into an [N, C] array at an [R, 1] array
  of row numbers lands update (e, f) — when it lands at all — on row "the stored number of e, read signed, not clamped", so an
  update that lands on row n has stored number exactly n. jnp's indexing first wraps a negative number by adding the extent:
  on a number that is already a valid row the wrap does nothing, so a scatter target n is also the row a gather at the wrapped
  numbers reads.
-/
import Idealize.ShloMosaic.Lib.ValueIdx
import Idealize.ShloMosaic.Lib.Pipeline.Value
import proofs.«151719_j66898410602732_1_alg».proof.Proof.LibGatherRows

namespace Cert.LibRowIndex

open Idealize.ShloMosaic Idealize.ShloMosaic.ValueIdx Cert.LibGatherRows

variable {α : Type}

/-- The dimension numbers of taking entries of a vector: its one axis is collapsed and indexed by the one component of each
    start index; the result has no offset axis. -/
abbrev vecDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries of a length-`N` vector taken at an `[R, 1]` array of row numbers: entry `p` is the vector's entry `rowOf p`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (vecDims N R wf) x idx (ix1 p) = x (ix1 (rowOf hN idx p)) := by
  unfold Host.gather
  congr 1
  funext a
  refine Fin.ext ?_
  show (vecDims N R wf).start (ix1 p) idx a + (vecDims N R wf).batchCoord (ix1 p) a
    + (vecDims N R wf).offCoord (ix1 p) a = _
  rw [GatherDims.batchCoord_eq_zero _ _ _ List.not_mem_nil]
  match a with
  | ⟨0, _⟩ =>
    show (vecDims N R wf).start (ix1 p) idx (0 : Fin 1) + 0 + (vecDims N R wf).offCoord (ix1 p) (0 : Fin 1)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 p) ⟨List.idxOf (0 : Fin 1) (vecDims N R wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

/-- The dimension numbers of scattering rows: the update's lane axis is its window axis, the operand's row axis is inserted
    and indexed by the one component of each scatter index. -/
abbrev rowScatterDims (N R C : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Of an operand's two axes, the inserted row axis is not a kept one. -/
private theorem row_not_kept : (0 : Fin 2) ∉ (List.finRange 2).filter (fun a : Fin 2 => a ∉ ([0] : List (Fin 2))) := by decide

/-- An update `(e, f)` of a scatter of rows that lands on element `i` has stored row number exactly `i`'s row. -/
theorem scatter_rows_target {N R C w : ℕ} (wf : ScatterDims.WF ⟨2, ![N, C]⟩ ⟨2, ![R, 1]⟩ ⟨2, ![R, C]⟩ [1] [0] [0] 1)
    (idx : IVec ⟨2, ![R, 1]⟩ w) (e : Fin R) (f : Fin C) (i : (⟨2, ![N, C]⟩ : Shape).Idx)
    (h : (rowScatterDims N R C wf).resultIdx? (ix2 e f) idx = some i) :
    (idx (ix2 e (0 : Fin 1))).toInt = ((i 0).val : ℤ) := by
  have hst : (rowScatterDims N R C wf).start (ix2 e f) idx (0 : Fin 2) = (idx (ix2 e (0 : Fin 1))).toInt := by
    unfold ScatterDims.start
    rw [dif_pos (show (0 : Fin 2) ∈ (rowScatterDims N R C wf).scatterDimsToOperandDims from List.mem_singleton.mpr rfl)]
    have hsi : (rowScatterDims N R C wf).siIdx (ix2 e f) ⟨List.idxOf (0 : Fin 2) (rowScatterDims N R C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N R C wf).window (ix2 e f) (0 : Fin 2) = 0 := by
    unfold ScatterDims.window
    rw [dif_neg (show (0 : Fin 2) ∉ (rowScatterDims N R C wf).sKept from row_not_kept)]
  unfold ScatterDims.resultIdx? at h
  split at h
  · rename_i hin
    have h0 := congrArg Fin.val (congrFun (Option.some.inj h) (0 : Fin 2))
    have hpos := (hin (0 : Fin 2)).1
    rw [hst, hw] at hpos
    simp only [hst, hw] at h0
    omega
  · exact absurd h (by simp)

/-- jnp's wrap of a negative row number, `select(v < 0, v + k, v)`, leaves a non-negative number alone. -/
theorem wrap_of_nonneg (v k : BitVec 32) (hv : 0 ≤ v.toInt) :
    Scalar.select (IntOp.cmpi .slt v 0#32) (IntOp.addi v k) v = v := by
  have : IntOp.cmpi .slt v 0#32 ≠ 1 := by
    simp only [IntOp.cmpi, BitVec.slt]
    have h0 : (0#32 : BitVec 32).toInt = 0 := by decide
    rw [h0, decide_eq_false (by omega)]
    decide
  rw [Scalar.select, if_neg this]

/-- The row a gather reads at a row number that is stored as a valid row `n`: that row. -/
theorem rowOf_of_toInt {N R : ℕ} (hN : 0 < N) (idx : IVec ⟨2, ![R, 1]⟩ 32) (p : Fin R) (n : Fin N)
    (h : (idx (ix2 p (0 : Fin 1))).toInt = (n.val : ℤ)) : rowOf hN idx p = n := by
  refine Fin.ext ?_
  show min (idx (ix2 p (0 : Fin 1))).toInt.toNat (N - 1) = n.val
  rw [h]
  have := n.isLt
  simp only [Int.toNat_natCast]
  omega

end Cert.LibRowIndex
-- ==== Proof.LibRowAggLinear.lean ====
/-
  Summing rows into rows, and a matrix product applied after the sum.

  A graph layer adds, into row p of an [N, C] table, every row of an [R, C] array of updates whose stored row number is p
  (an accumulating scatter of rows, started from the zero table); the updates are themselves rows of the table taken at
  another array of row numbers (a gather of rows). A matrix product with a [C, D] matrix acts on each row separately, so it
  commutes with taking rows and — being additive in the row — with the accumulation: multiplying the aggregated table is the
  same as aggregating the multiplied one. Over the extended reals the distributive law a·w + b·w = (a + b)·w fails at
  infinities, so the statements ask every entry to be a real number.
-/
import Idealize.ShloMosaic.PureOps.Ideal
import Idealize.ShloMosaic.Lib.ValueIdx
import Idealize.ShloMosaic.Lib.Pipeline.Value
import proofs.«151719_j66898410602732_1_alg».proof.Proof.LibGatherRows
import proofs.«151719_j66898410602732_1_alg».proof.Proof.LibRowIndex

namespace Cert.LibRowAggLinear

open Idealize.ShloMosaic Idealize.ShloMosaic.ValueIdx Cert.LibGatherRows Cert.LibRowIndex
open scoped BigOperators

/-! ## Real numbers inside the extended reals -/

/-- The inclusion of the reals in the extended reals carries a finite sum to the finite sum. -/
@[norm_cast]
theorem coe_sum {κ : Type} (S : Finset κ) (f : κ → ℝ) : ((∑ e ∈ S, f e : ℝ) : EReal) = ∑ e ∈ S, (f e : EReal) := by
  classical
  induction S using Finset.induction_on with
  | empty => simp
  | insert a s ha ih => rw [Finset.sum_insert ha, Finset.sum_insert ha, EReal.coe_add, ih]

/-- A sum of two real numbers is a real number. -/
theorem real_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

/-- A product of two real numbers is a real number. -/
theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- The larger of two real numbers is a real number. -/
theorem real_max {a b : EReal} (ha : ∃ r : ℝ, a = r) (hb : ∃ r : ℝ, b = r) : ∃ r : ℝ, max a b = r := by
  obtain ⟨x, rfl⟩ := ha
  obtain ⟨y, rfl⟩ := hb
  exact ⟨max x y, (EReal.coe_strictMono.monotone.map_max (a := x) (b := y)).symm⟩

/-- A finite sum of real numbers is a real number. -/
theorem real_sum {κ : Type} (S : Finset κ) (f : κ → EReal) (hf : ∀ e ∈ S, ∃ r : ℝ, f e = r) :
    ∃ r : ℝ, ∑ e ∈ S, f e = r := by
  classical
  induction S using Finset.induction_on with
  | empty => exact ⟨0, by simp⟩
  | insert a s ha ih =>
    obtain ⟨x, hx⟩ := hf a (Finset.mem_insert_self a s)
    obtain ⟨y, hy⟩ := ih (fun e he => hf e (Finset.mem_insert_of_mem he))
    exact ⟨x + y, by rw [Finset.sum_insert ha, hx, hy, EReal.coe_add]⟩

/-- A finite sum of products of real numbers — one entry of a matrix product — is a real number. -/
theorem real_sum_mul {ι : Type} [Fintype ι] (a b : ι → EReal) (ha : ∀ c, ∃ r : ℝ, a c = r) (hb : ∀ c, ∃ r : ℝ, b c = r) :
    ∃ r : ℝ, ∑ c, a c * b c = r :=
  real_sum Finset.univ _ (fun c _ => real_mul (ha c) (hb c))

/-- Multiplying after aggregating is aggregating after multiplying, for real entries: with a row `a`, a finite family of
    rows `g e` and a column `wt`, the product of the row `a + ∑ e, g e` with the column is the product of `a` with the column
    plus the sum over `e` of the products of the rows `g e` with the column. -/
theorem sum_add_sum_mul {ι κ : Type} [Fintype ι] (S : Finset κ) (a : ι → EReal) (g : κ → ι → EReal) (wt : ι → EReal)
    (ha : ∀ c, ∃ r : ℝ, a c = r) (hg : ∀ e c, ∃ r : ℝ, g e c = r) (hw : ∀ c, ∃ r : ℝ, wt c = r) :
    ∑ c, (a c + ∑ e ∈ S, g e c) * wt c = (∑ c, a c * wt c) + ∑ e ∈ S, ∑ c, g e c * wt c := by
  choose a' ha' using ha
  choose g' hg' using hg
  choose w' hw' using hw
  obtain rfl : a = fun c => (a' c : EReal) := funext ha'
  obtain rfl : g = fun e c => (g' e c : EReal) := funext fun e => funext (hg' e)
  obtain rfl : wt = fun c => (w' c : EReal) := funext hw'
  have key : ∑ c, (a' c + ∑ e ∈ S, g' e c) * w' c = (∑ c, a' c * w' c) + ∑ e ∈ S, ∑ c, g' e c * w' c := by
    simp only [add_mul, Finset.sum_add_distrib, Finset.sum_mul]
    rw [Finset.sum_comm]
  simp only [← coe_sum, ← EReal.coe_add, ← EReal.coe_mul]
  exact congrArg Real.toEReal key

/-! ## The accumulating scatter of rows, read at an index -/

section Scatter

variable {N R C w : ℕ}

/-- Of an operand's two axes, the one that is not the inserted row axis is the lane axis. -/
private theorem kept_lanes :
    (List.finRange 2).filter (fun a : Fin 2 => a ∉ ([0] : List (Fin 2))) = [1] := by decide

/-- Of an operand's two axes, the inserted row axis is not a kept one. -/
private theorem row_not_kept : (0 : Fin 2) ∉ (List.finRange 2).filter (fun a : Fin 2 => a ∉ ([0] : List (Fin 2))) := by decide

/-- On the row axis the window of update `(e, f)` starts at the stored row number of `e`, read signed. -/
private theorem start_row (wf : ScatterDims.WF ⟨2, ![N, C]⟩ ⟨2, ![R, 1]⟩ ⟨2, ![R, C]⟩ [1] [0] [0] 1)
    (idx : IVec ⟨2, ![R, 1]⟩ w) (e : Fin R) (f : Fin C) :
    (rowScatterDims N R C wf).start (ix2 e f) idx (0 : Fin 2) = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e f) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the row axis an update has no window coordinate. -/
private theorem window_row (wf : ScatterDims.WF ⟨2, ![N, C]⟩ ⟨2, ![R, 1]⟩ ⟨2, ![R, C]⟩ [1] [0] [0] 1)
    (e : Fin R) (f : Fin C) : (rowScatterDims N R C wf).window (ix2 e f) (0 : Fin 2) = 0 := by
  unfold ScatterDims.window
  rw [dif_neg (show (0 : Fin 2) ∉ (rowScatterDims N R C wf).sKept from row_not_kept)]

/-- On the lane axis the window starts at zero. -/
private theorem start_lane (wf : ScatterDims.WF ⟨2, ![N, C]⟩ ⟨2, ![R, 1]⟩ ⟨2, ![R, C]⟩ [1] [0] [0] 1)
    (idx : IVec ⟨2, ![R, 1]⟩ w) (e : Fin R) (f : Fin C) :
    (rowScatterDims N R C wf).start (ix2 e f) idx (1 : Fin 2) = 0 := by
  unfold ScatterDims.start
  rw [dif_neg (show (1 : Fin 2) ∉ ([0] : List (Fin 2)) by decide)]

/-- On the lane axis the window coordinate of update `(e, f)` is its lane `f`. -/
private theorem window_lane (wf : ScatterDims.WF ⟨2, ![N, C]⟩ ⟨2, ![R, 1]⟩ ⟨2, ![R, C]⟩ [1] [0] [0] 1)
    (e : Fin R) (f : Fin C) : (rowScatterDims N R C wf).window (ix2 e f) (1 : Fin 2) = f.val := by
  have hkept : (rowScatterDims N R C wf).sKept = [(1 : Fin 2)] := kept_lanes
  have hk : (1 : Fin 2) ∈ (rowScatterDims N R C wf).sKept := by rw [hkept]; exact List.mem_singleton.mpr rfl
  unfold ScatterDims.window
  rw [dif_pos hk]
  simp only [List.getElem_singleton]
  rfl

/-- Where an update of a scatter of rows lands: update `(e, f)` lands on element `(p, q)` exactly when the stored row number
    of `e`, read signed, is `p`, and the lane `f` is `q`. -/
theorem scatter_rows_lands_iff (wf : ScatterDims.WF ⟨2, ![N, C]⟩ ⟨2, ![R, 1]⟩ ⟨2, ![R, C]⟩ [1] [0] [0] 1)
    (idx : IVec ⟨2, ![R, 1]⟩ w) (e : Fin R) (f : Fin C) (p : Fin N) (q : Fin C) :
    (rowScatterDims N R C wf).resultIdx? (ix2 e f) idx = some (ix2 p q)
      ↔ (idx (ix2 e (0 : Fin 1))).toInt = (p.val : ℤ) ∧ f = q := by
  constructor
  · intro h
    refine ⟨scatter_rows_target wf idx e f (ix2 p q) h, ?_⟩
    unfold ScatterDims.resultIdx? at h
    split at h
    · have h1 := congrArg Fin.val (congrFun (Option.some.inj h) (1 : Fin 2))
      simp only [start_lane, window_lane] at h1
      have h2 : ((ix2 p q) (1 : Fin 2)).val = q.val := rfl
      refine Fin.ext ?_
      omega
    · exact absurd h (by simp)
  · rintro ⟨hp, rfl⟩
    have hin : ∀ a, 0 ≤ (rowScatterDims N R C wf).start (ix2 e f) idx a + (rowScatterDims N R C wf).window (ix2 e f) a
        ∧ (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx (0 : Fin 2) + (rowScatterDims N R C wf).window (ix2 e f) (0 : Fin 2)
          ∧ (rowScatterDims N R C wf).start (ix2 e f) idx (0 : Fin 2) + (rowScatterDims N R C wf).window (ix2 e f) (0 : Fin 2) < (N : ℤ)
        rw [start_row, window_row, hp]
        have := p.isLt
        omega
      | ⟨1, _⟩ =>
        show 0 ≤ (rowScatterDims N R C wf).start (ix2 e f) idx (1 : Fin 2) + (rowScatterDims N R C wf).window (ix2 e f) (1 : Fin 2)
          ∧ (rowScatterDims N R C wf).start (ix2 e f) idx (1 : Fin 2) + (rowScatterDims N R C wf).window (ix2 e f) (1 : Fin 2) < (C : ℤ)
        rw [start_lane, window_lane]
        have := f.isLt
        omega
    unfold ScatterDims.resultIdx?
    rw [dif_pos hin]
    refine congrArg some ?_
    funext a
    refine Fin.ext ?_
    match a with
    | ⟨0, _⟩ =>
      show ((rowScatterDims N R C wf).start (ix2 e f) idx (0 : Fin 2)
        + (rowScatterDims N R C wf).window (ix2 e f) (0 : Fin 2)).toNat = p.val
      rw [start_row, window_row, hp]
      omega
    | ⟨1, _⟩ =>
      show ((rowScatterDims N R C wf).start (ix2 e f) idx (1 : Fin 2)
        + (rowScatterDims N R C wf).window (ix2 e f) (1 : Fin 2)).toNat = f.val
      rw [start_lane, window_lane]
      omega

/-- The updates that land on row `p` of an `N`-row table: those whose stored row number, read signed, is `p`. -/
def landsOn (idx : IVec ⟨2, ![R, 1]⟩ w) (p : Fin N) : Finset (Fin R) :=
  Finset.univ.filter (fun e => (idx (ix2 e (0 : Fin 1))).toInt = (p.val : ℤ))

/-- An accumulating scatter of rows into the zero table, read at `(p, q)`: the sum, over the updates `e` whose stored row
    number is `p`, of lane `q` of update `e`. -/
theorem scatter_rows_zero_apply (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → EReal) (p : Fin N) (q : Fin C) :
    Ideal.hostScatterAdd (rowScatterDims N R C wf) (fun _ => 0) idx upd (ix2 p q) = ∑ e ∈ landsOn idx p, upd (ix2 e q) := by
  show (0 : EReal) + ∑ j ∈ Finset.univ.filter (fun j => (rowScatterDims N R C wf).resultIdx? j idx = some (ix2 p q)), upd j = _
  rw [zero_add, Finset.sum_filter, sum_idx2]
  unfold landsOn
  rw [Finset.sum_filter]
  refine Finset.sum_congr rfl (fun e _ => ?_)
  simp only [scatter_rows_lands_iff]
  by_cases h : (idx (ix2 e (0 : Fin 1))).toInt = (p.val : ℤ)
  · simp only [h, true_and, if_true]
    exact Finset.sum_ite_eq' Finset.univ q (fun f => upd (ix2 e f)) |>.trans (if_pos (Finset.mem_univ q))
  · simp only [h, false_and, if_false, Finset.sum_const_zero]

/-- The same for the host operation: an accumulating float scatter of rows into a table of zeros, at the ideal reading, read at
    `(p, q)`, is the sum of lane `q` of the updates whose stored row number is `p`. -/
theorem host_scatterAdd_rows_zero_apply {φ : FTy} (wf : ScatterDims.WF ⟨2, ![N, C]⟩ ⟨2, ![R, 1]⟩ ⟨2, ![R, C]⟩ [1] [0] [0] 1)
    (z : FVec Ideal ⟨2, ![N, C]⟩ φ) (hz : z = fun _ => 0) (idx : IVec ⟨2, ![R, 1]⟩ w) (upd : FVec Ideal ⟨2, ![R, C]⟩ φ)
    (p : Fin N) (q : Fin C) :
    Host.scatterAdd (F := Ideal) (φ := φ) (rowScatterDims N R C wf) z idx upd (ix2 p q)
      = ∑ e ∈ landsOn idx p, upd (ix2 e q) := by
  subst hz
  exact scatter_rows_zero_apply wf idx upd p q

end Scatter

/-- Membership in the set of updates that land on row `p`: the stored row number, read signed, is `p`. -/
theorem mem_landsOn {N R w : ℕ} (idx : IVec ⟨2, ![R, 1]⟩ w) (p : Fin N) (e : Fin R) :
    e ∈ landsOn idx p ↔ (idx (ix2 e (0 : Fin 1))).toInt = (p.val : ℤ) := by
  unfold landsOn
  rw [Finset.mem_filter]
  exact ⟨fun h => h.2, fun h => ⟨Finset.mem_univ e, h⟩⟩

/-! ## A matrix product after summing gathered rows into rows -/

/-- Aggregate, then multiply = multiply, then aggregate. `A` is an `[N, C]` table and `Wt` a `[C, D]` matrix, all entries real;
    `Y` is their product. Adding to row `p` of `A` the rows of `A` taken at the row numbers `idxG` and summed into the rows named
    by `idxS`, and then multiplying by `Wt`, gives at `(p, q)` what the same aggregation of the rows of `Y` gives: the matrix
    product acts on each row separately, so it commutes with taking rows, and it is additive in the row, so — all entries
    being real — it commutes with the sum. -/
theorem agg_matmul {N R C D w : ℕ} (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (wfG' : GatherDims.WF ⟨2, ![N, D]⟩ ⟨2, ![R, 1]⟩ ⟨2, ![R, D]⟩ [1] [0] [] [0] [] 1 ![1, D])
    (wfS' : ScatterDims.WF ⟨2, ![N, D]⟩ ⟨2, ![R, 1]⟩ ⟨2, ![R, D]⟩ [1] [0] [0] 1)
    (A : (⟨2, ![N, C]⟩ : Shape).Idx → EReal) (Wt : (⟨2, ![C, D]⟩ : Shape).Idx → EReal)
    (Y : (⟨2, ![N, D]⟩ : Shape).Idx → EReal)
    (hA : ∀ i, ∃ r : ℝ, A i = r) (hW : ∀ i, ∃ r : ℝ, Wt i = r)
    (hY : ∀ (p : Fin N) (q : Fin D), Y (ix2 p q) = ∑ c : Fin C, A (ix2 p c) * Wt (ix2 c q))
    (idxG idxS : IVec ⟨2, ![R, 1]⟩ w) (p : Fin N) (q : Fin D) :
    ∑ c : Fin C, (A (ix2 p c) + Ideal.hostScatterAdd (rowScatterDims N R C wfS) (fun _ => 0) idxS
        (Host.gather (rowDims N R C wfG) A idxG) (ix2 p c)) * Wt (ix2 c q)
      = Y (ix2 p q) + Ideal.hostScatterAdd (rowScatterDims N R D wfS') (fun _ => 0) idxS
        (Host.gather (rowDims N R D wfG') Y idxG) (ix2 p q) := by
  simp only [scatter_rows_zero_apply, gather_rows_apply hN, hY]
  exact sum_add_sum_mul (landsOn idxS p) (fun c => A (ix2 p c)) (fun e c => A (ix2 (rowOf hN idxG e) c))
    (fun c => Wt (ix2 c q)) (fun _ => hA _) (fun _ _ => hA _) (fun _ => hW _)

/-- The same with the product table written out: `Y` is the function taking an index `i` to the product of row `i 0` of `A`
    with column `i 1` of `Wt`. -/
theorem agg_matmul_fun {N R C D w : ℕ} (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (wfG' : GatherDims.WF ⟨2, ![N, D]⟩ ⟨2, ![R, 1]⟩ ⟨2, ![R, D]⟩ [1] [0] [] [0] [] 1 ![1, D])
    (wfS' : ScatterDims.WF ⟨2, ![N, D]⟩ ⟨2, ![R, 1]⟩ ⟨2, ![R, D]⟩ [1] [0] [0] 1)
    (A : (⟨2, ![N, C]⟩ : Shape).Idx → EReal) (Wt : (⟨2, ![C, D]⟩ : Shape).Idx → EReal)
    (hA : ∀ i, ∃ r : ℝ, A i = r) (hW : ∀ i, ∃ r : ℝ, Wt i = r)
    (idxG idxS : IVec ⟨2, ![R, 1]⟩ w) (p : Fin N) (q : Fin D) :
    ∑ c : Fin C, (A (ix2 p c) + Ideal.hostScatterAdd (rowScatterDims N R C wfS) (fun _ => 0) idxS
        (Host.gather (rowDims N R C wfG) A idxG) (ix2 p c)) * Wt (ix2 c q)
      = (∑ c : Fin C, A (ix2 p c) * Wt (ix2 c q)) + Ideal.hostScatterAdd (rowScatterDims N R D wfS') (fun _ => 0) idxS
        (Host.gather (rowDims N R D wfG')
          (fun i : (⟨2, ![N, D]⟩ : Shape).Idx => ∑ c : Fin C, A (ix2 (n0 := N) (i 0) c) * Wt (ix2 (n1 := D) c (i 1))) idxG) (ix2 p q) :=
  agg_matmul hN wfG wfS wfG' wfS' A Wt
    (fun i : (⟨2, ![N, D]⟩ : Shape).Idx => ∑ c : Fin C, A (ix2 (n0 := N) (i 0) c) * Wt (ix2 (n1 := D) c (i 1)))
    hA hW (fun _ _ => rfl) idxG idxS p q

end Cert.LibRowAggLinear
-- ==== Proof.LibSegmentRows.lean ====
/-
  Segment sums: an accumulating scatter from zero at a vector of labels, as a sum with an indicator.

  A pooling layer adds row n of an [R, C] array into row b n of an [N, C] table of zeros, where b is a vector of R labels, and
  counts the labels by adding a vector of ones into a length-N vector of zeros the same way. The scatter reads a label as a
  signed integer and does not clamp it; an update whose label is not a row of the table is dropped. So element (g, c) of the
  table is the sum over ALL n of "x (n, c) if the label of n is g, else 0", and entry g of the count is the sum over all n of
  "u n if the label of n is g, else 0": no bound on the labels is needed, since a label outside [0, N) equals no g.
  The scatter reads its labels from an [R, 1] column; the column is the label vector broadcast along a new unit axis.
-/
import Idealize.ShloMosaic.PureOps.Ideal
import Idealize.ShloMosaic.Lib.ValueIdx
import Idealize.ShloMosaic.Lib.Pipeline.Value
import proofs.«151719_j66898410602732_1_alg».proof.Proof.LibRowIndex
import proofs.«151719_j66898410602732_1_alg».proof.Proof.LibRowAggLinear

namespace Cert.LibSegmentRows

open Idealize.ShloMosaic Idealize.ShloMosaic.ValueIdx Cert.LibRowIndex Cert.LibRowAggLinear
open scoped BigOperators

/-! ## A label vector as a column of scatter indices -/

/-- A length-`R` vector broadcast to an `[R, 1]` column reads, at row `n`, the vector's entry `n`. -/
theorem bcast_col_apply {α : Type} {R : ℕ} (h : (⟨1, ![R]⟩ : Shape).BroadcastsInDim ⟨2, ![R, 1]⟩ ![0])
    (b : (⟨1, ![R]⟩ : Shape).Idx → α) (n : Fin R) (z : Fin 1) :
    broadcastInDim (⟨2, ![R, 1]⟩ : Shape) ![0] h b (ix2 n z) = b (ix1 n) := by
  refine broadcastInDim_apply ![0] h b (ix2 n z) (ix1 n) (fun a => ?_)
  match a with
  | ⟨0, _⟩ =>
    show n.val = if R = 1 then 0 else n.val
    split
    · have := n.isLt; omega
    · rfl

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Rows summed by label -/

section Rows

variable {N R C w : ℕ}

/-- An accumulating scatter of the rows of `x` into the zero table at a column of labels, read at `(g, c)`: the sum over all rows
    `n` of lane `c` of row `n` if the label stored for `n`, read signed, is `g`, and of zero otherwise. -/
theorem segment_rows (wf : ScatterDims.WF ⟨2, ![N, C]⟩ ⟨2, ![R, 1]⟩ ⟨2, ![R, C]⟩ [1] [0] [0] 1)
    (idx : IVec ⟨2, ![R, 1]⟩ w) (x : (⟨2, ![R, C]⟩ : Shape).Idx → EReal) (g : Fin N) (c : Fin C) :
    Ideal.hostScatterAdd (rowScatterDims N R C wf) (fun _ => 0) idx x (ix2 g c)
      = ∑ n : Fin R, if (idx (ix2 n (0 : Fin 1))).toInt = (g.val : ℤ) then x (ix2 n c) else 0 := by
  rw [scatter_rows_zero_apply]
  unfold landsOn
  exact Finset.sum_filter _ _

/-- The same for dimension numbers given by their four fields, and the column of labels given as the broadcast of a label
    vector `b`: element `(g, c)` is the sum over all `n` of `x (n, c)` if `b n`, read signed, is `g`, else zero. -/
theorem segment_rows_of_labels (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) (hb : (⟨1, ![R]⟩ : Shape).BroadcastsInDim ⟨2, ![R, 1]⟩ ![0]) (b : IVec ⟨1, ![R]⟩ w)
    (x : (⟨2, ![R, C]⟩ : Shape).Idx → EReal) (g : Fin N) (c : Fin C) :
    Ideal.hostScatterAdd d (fun _ => 0) (broadcastInDim (⟨2, ![R, 1]⟩ : Shape) ![0] hb b) x (ix2 g c)
      = ∑ n : Fin R, if (b (ix1 n)).toInt = (g.val : ℤ) then x (ix2 n c) else 0 := by
  obtain ⟨uw, iw, sd, iv, wf⟩ := d
  simp only at h1 h2 h3 h4
  subst h1 h2 h3 h4
  refine (segment_rows wf _ x g c).trans ?_
  refine Finset.sum_congr rfl (fun n _ => ?_)
  rw [bcast_col_apply hb b n (0 : Fin 1)]

/-- The same for the host operation at the ideal reading, started from a table that is zero everywhere. -/
theorem host_segment_rows_of_labels {φ : FTy} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) (hb : (⟨1, ![R]⟩ : Shape).BroadcastsInDim ⟨2, ![R, 1]⟩ ![0])
    (z : FVec Ideal ⟨2, ![N, C]⟩ φ) (hz : ∀ i, z i = 0) (b : IVec ⟨1, ![R]⟩ w)
    (x : FVec Ideal ⟨2, ![R, C]⟩ φ) (g : Fin N) (c : Fin C) :
    Host.scatterAdd (F := Ideal) (φ := φ) d z (broadcastInDim (⟨2, ![R, 1]⟩ : Shape) ![0] hb b) x (ix2 g c)
      = ∑ n : Fin R, if (b (ix1 n)).toInt = (g.val : ℤ) then x (ix2 n c) else 0 := by
  obtain rfl : z = fun _ => 0 := funext hz
  exact segment_rows_of_labels d h1 h2 h3 h4 hb b x g c

end Rows

/-! ## Entries summed by label (the count) -/

section Entries

variable {N R w : ℕ}

/-- The dimension numbers of scattering single entries into a vector: the update has no window axis, the operand's one axis
    is inserted and indexed by the one component of each scatter index. -/
abbrev vecScatterDims (N R : ℕ) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- A vector's one axis, being the inserted one, is not a kept one. -/
private theorem axis_not_kept : (0 : Fin 1) ∉ (List.finRange 1).filter (fun a : Fin 1 => a ∉ ([0] : List (Fin 1))) := by decide

/-- The window of update `e` starts at the label stored for `e`, read signed. -/
private theorem start_vec (wf : ScatterDims.WF ⟨1, ![N]⟩ ⟨2, ![R, 1]⟩ ⟨1, ![R]⟩ [] [0] [0] 1)
    (idx : IVec ⟨2, ![R, 1]⟩ w) (e : Fin R) :
    (vecScatterDims N R wf).start (ix1 e) idx (0 : Fin 1) = (idx (ix2 e (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- An update of single entries has no window coordinate. -/
private theorem window_vec (wf : ScatterDims.WF ⟨1, ![N]⟩ ⟨2, ![R, 1]⟩ ⟨1, ![R]⟩ [] [0] [0] 1) (e : Fin R) :
    (vecScatterDims N R wf).window (ix1 e) (0 : Fin 1) = 0 := by
  unfold ScatterDims.window
  rw [dif_neg (show (0 : Fin 1) ∉ (vecScatterDims N R wf).sKept from axis_not_kept)]

/-- Where an update of a scatter of single entries lands: update `e` lands on entry `p` exactly when the label stored for
    `e`, read signed and not clamped, is `p`. -/
theorem scatter_vec_lands_iff (wf : ScatterDims.WF ⟨1, ![N]⟩ ⟨2, ![R, 1]⟩ ⟨1, ![R]⟩ [] [0] [0] 1)
    (idx : IVec ⟨2, ![R, 1]⟩ w) (e : Fin R) (p : Fin N) :
    (vecScatterDims N R wf).resultIdx? (ix1 e) idx = some (ix1 p) ↔ (idx (ix2 e (0 : Fin 1))).toInt = (p.val : ℤ) := by
  constructor
  · intro h
    unfold ScatterDims.resultIdx? at h
    split at h
    · rename_i hin
      have h0 := congrArg Fin.val (congrFun (Option.some.inj h) (0 : Fin 1))
      have hpos := (hin (0 : Fin 1)).1
      rw [start_vec, window_vec] at hpos
      simp only [start_vec, window_vec] at h0
      have h2 : ((ix1 p) (0 : Fin 1)).val = p.val := rfl
      omega
    · exact absurd h (by simp)
  · intro hp
    have hin : ∀ a, 0 ≤ (vecScatterDims N R wf).start (ix1 e) idx a + (vecScatterDims N R wf).window (ix1 e) a
        ∧ (vecScatterDims N R wf).start (ix1 e) idx a + (vecScatterDims N R wf).window (ix1 e) a
          < (⟨1, ![N]⟩ : Shape).size a := by
      intro a
      match a with
      | ⟨0, _⟩ =>
        show 0 ≤ (vecScatterDims N R wf).start (ix1 e) idx (0 : Fin 1) + (vecScatterDims N R wf).window (ix1 e) (0 : Fin 1)
          ∧ (vecScatterDims N R wf).start (ix1 e) idx (0 : Fin 1) + (vecScatterDims N R wf).window (ix1 e) (0 : Fin 1) < (N : ℤ)
        rw [start_vec, window_vec, hp]
        have := p.isLt
        omega
    unfold ScatterDims.resultIdx?
    rw [dif_pos hin]
    refine congrArg some ?_
    funext a
    refine Fin.ext ?_
    match a with
    | ⟨0, _⟩ =>
      show ((vecScatterDims N R wf).start (ix1 e) idx (0 : Fin 1)
        + (vecScatterDims N R wf).window (ix1 e) (0 : Fin 1)).toNat = p.val
      rw [start_vec, window_vec, hp]
      omega

/-- An accumulating scatter of the entries of `u` into the zero vector at a column of labels, read at `g`: the sum over all `n`
    of `u n` if the label stored for `n`, read signed, is `g`, and of zero otherwise. -/
theorem segment_entries (wf : ScatterDims.WF ⟨1, ![N]⟩ ⟨2, ![R, 1]⟩ ⟨1, ![R]⟩ [] [0] [0] 1)
    (idx : IVec ⟨2, ![R, 1]⟩ w) (u : (⟨1, ![R]⟩ : Shape).Idx → EReal) (g : Fin N) :
    Ideal.hostScatterAdd (vecScatterDims N R wf) (fun _ => 0) idx u (ix1 g)
      = ∑ n : Fin R, if (idx (ix2 n (0 : Fin 1))).toInt = (g.val : ℤ) then u (ix1 n) else 0 := by
  show (0 : EReal) + ∑ j ∈ Finset.univ.filter (fun j => (vecScatterDims N R wf).resultIdx? j idx = some (ix1 g)), u j = _
  rw [zero_add, Finset.sum_filter, sum_idx1]
  refine Finset.sum_congr rfl (fun e _ => ?_)
  by_cases h : (idx (ix2 e (0 : Fin 1))).toInt = (g.val : ℤ)
  · rw [if_pos ((scatter_vec_lands_iff wf idx e g).mpr h), if_pos h]
  · rw [if_neg (fun h' => h ((scatter_vec_lands_iff wf idx e g).mp h')), if_neg h]

/-- The same for dimension numbers given by their four fields, and the column of labels given as the broadcast of a label
    vector `b`: entry `g` is the sum over all `n` of `u n` if `b n`, read signed, is `g`, else zero. -/
theorem segment_entries_of_labels (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) (hb : (⟨1, ![R]⟩ : Shape).BroadcastsInDim ⟨2, ![R, 1]⟩ ![0]) (b : IVec ⟨1, ![R]⟩ w)
    (u : (⟨1, ![R]⟩ : Shape).Idx → EReal) (g : Fin N) :
    Ideal.hostScatterAdd d (fun _ => 0) (broadcastInDim (⟨2, ![R, 1]⟩ : Shape) ![0] hb b) u (ix1 g)
      = ∑ n : Fin R, if (b (ix1 n)).toInt = (g.val : ℤ) then u (ix1 n) else 0 := by
  obtain ⟨uw, iw, sd, iv, wf⟩ := d
  simp only at h1 h2 h3 h4
  subst h1 h2 h3 h4
  refine (segment_entries wf _ u g).trans ?_
  refine Finset.sum_congr rfl (fun n _ => ?_)
  rw [bcast_col_apply hb b n (0 : Fin 1)]

/-- The count of a label: the host's accumulating scatter, at the ideal reading, of a vector of ones into a vector of zeros at
    the labels `b`, read at `g`, is the sum over all `n` of one if `b n`, read signed, is `g`, else zero. -/
theorem host_segment_count_of_labels {φ : FTy} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) (hb : (⟨1, ![R]⟩ : Shape).BroadcastsInDim ⟨2, ![R, 1]⟩ ![0])
    (z : FVec Ideal ⟨1, ![N]⟩ φ) (hz : ∀ i, z i = 0) (b : IVec ⟨1, ![R]⟩ w)
    (u : FVec Ideal ⟨1, ![R]⟩ φ) (hu : ∀ i, u i = 1) (g : Fin N) :
    Host.scatterAdd (F := Ideal) (φ := φ) d z (broadcastInDim (⟨2, ![R, 1]⟩ : Shape) ![0] hb b) u (ix1 g)
      = ∑ n : Fin R, if (b (ix1 n)).toInt = (g.val : ℤ) then (1 : EReal) else 0 := by
  obtain rfl : z = fun _ => 0 := funext hz
  refine (segment_entries_of_labels d h1 h2 h3 h4 hb b u g).trans ?_
  refine Finset.sum_congr rfl (fun n _ => ?_)
  rw [hu]

end Entries

end Cert.LibSegmentRows
-- ==== Proof.LibCountLabels.lean ====
/-
  Counting labels with an integer scatter: the 32-bit count is the true count, and its float is the sum of ones.

  A pooling layer counts, for each g, the labels equal to g by adding the integer one into entry "label of n" of a vector of
  32-bit zeros, for every n in index order, and converts the count to a float. The 32-bit additions wrap, but a count is at
  most the number R of labels, and R < 2³¹, so the word holds the true count and, read signed, is that natural number: its
  float, at the ideal reading, is the sum over all n of "1 if the label of n is g, else 0". Before the scatter jnp clips each
  label from below at zero and wraps a negative one by adding the extent; on a label that is non-negative to begin with
  both steps do nothing. As in every scatter the label is read signed and not clamped, and an update whose label is not an
  entry of the vector is dropped, so no upper bound on the labels is needed.
-/
import Mathlib.Data.BitVec
import Idealize.ShloMosaic.PureOps.Ideal
import Idealize.ShloMosaic.Lib.ValueIdx
import Idealize.ShloMosaic.Lib.Pipeline.Value
import proofs.«151719_j66898410602732_1_alg».proof.Proof.LibRowIndex
import proofs.«151719_j66898410602732_1_alg».proof.Proof.LibRowAggLinear
import proofs.«151719_j66898410602732_1_alg».proof.Proof.LibSegmentRows

namespace Cert.LibCountLabels

open Idealize.ShloMosaic Idealize.ShloMosaic.ValueIdx Cert.LibRowIndex Cert.LibRowAggLinear Cert.LibSegmentRows
open scoped BigOperators

/-! ## Non-negative labels pass the clip and the wrap unchanged -/

/-- The signed maximum of zero and a non-negative word is the word. -/
theorem maxsi_zero_of_nonneg (v : BitVec 32) (hv : 0 ≤ v.toInt) : IntOp.maxsi 0#32 v = v := by
  have h0 : (0#32 : BitVec 32).toInt = 0 := by decide
  have hs : v.slt 0#32 = false := by
    simp only [BitVec.slt]
    rw [h0]
    exact decide_eq_false (by omega)
  simp [IntOp.maxsi, hs]

/-- jnp's preparation of scatter indices — clip from below at zero, then wrap a negative index by adding the extent `k` — leaves a
    vector of non-negative labels as it is. (`z` and `z'` are the two splats of zero the program compares with.) -/
theorem labels_clip_wrap {s : Shape} (z z' k b : IVec s 32) (hz : ∀ i, z i = 0#32) (hz' : ∀ i, z' i = 0#32)
    (hb : ∀ i, 0 ≤ (b i).toInt) :
    select (cmpi .slt (maxsi z b) z') (addi (maxsi z b) k) (maxsi z b) = b := by
  funext i
  show Scalar.select (IntOp.cmpi .slt (IntOp.maxsi (z i) (b i)) (z' i)) (IntOp.addi (IntOp.maxsi (z i) (b i)) (k i))
    (IntOp.maxsi (z i) (b i)) = b i
  rw [hz, hz', maxsi_zero_of_nonneg _ (hb i)]
  exact wrap_of_nonneg (b i) (k i) (hb i)

/-! ## The scatter's fold, read at an index -/

/-- One step of a scatter's fold, read at `i`: the body applied to the element and the update if the update lands on `i`, the
    element unchanged if it lands elsewhere or nowhere. -/
theorem scatter_step_apply {α : Type} {s si u : Shape} {w : ℕ} (d : ScatterDims s si u) (f : α → α → α) (idx : IVec si w)
    (upd : u.Idx → α) (r : s.Idx → α) (j : u.Idx) (i : s.Idx) :
    (match d.resultIdx? j idx with
      | some i₀ => fun i' => if i' = i₀ then f (r i₀) (upd j) else r i'
      | none => r) i = if d.resultIdx? j idx = some i then f (r i) (upd j) else r i := by
  cases h : d.resultIdx? j idx with
  | none => simp
  | some i₀ =>
    simp only [Option.some.injEq]
    by_cases hi : i = i₀
    · subst hi; simp
    · rw [if_neg hi, if_neg (fun h' => hi h'.symm)]

/-- A fold of steps each of which adds `v n` to the entries `i` with `P n i` and leaves the others: entry `i` ends as its start plus the
    (wrapping) sum of the `v n` with `P n i`. -/
theorem foldl_addi_apply {m : ℕ} {ι : Type} (P : Fin m → ι → Prop) [∀ n i, Decidable (P n i)] (v : Fin m → BitVec 32)
    (step : (ι → BitVec 32) → Fin m → (ι → BitVec 32))
    (hstep : ∀ r n i, step r n i = if P n i then r i + v n else r i)
    (L : List (Fin m)) (x : ι → BitVec 32) (i : ι) :
    L.foldl step x i = x i + (L.map (fun n => if P n i then v n else 0)).sum := by
  induction L generalizing x with
  | nil => simp
  | cons n L ih =>
    rw [List.foldl_cons, ih, hstep, List.map_cons, List.sum_cons]
    by_cases h : P n i
    · simp only [if_pos h]; rw [add_assoc]
    · simp only [if_neg h, zero_add]

/-- An integer accumulating scatter, read at `i`: the operand's element plus the (wrapping) sum of the updates that land on `i`. -/
theorem scatter_addi_apply {s si u : Shape} {w : ℕ} (d : ScatterDims s si u) (x : s.Idx → BitVec 32) (idx : IVec si w)
    (upd : u.Idx → BitVec 32) (i : s.Idx) :
    Host.scatter d IntOp.addi x idx upd i = x i + ∑ j : u.Idx, if d.resultIdx? j idx = some i then upd j else 0 := by
  unfold Host.scatter
  refine (foldl_addi_apply (fun n i => d.resultIdx? (u.rowMajor.symm n) idx = some i) (fun n => upd (u.rowMajor.symm n)) _
    (fun r n i => ?_) (List.finRange u.numel) x i).trans ?_
  · exact scatter_step_apply d IntOp.addi idx upd r (u.rowMajor.symm n) i
  · rw [← Fin.sum_univ_def, Equiv.sum_comp u.rowMajor.symm (fun j => if d.resultIdx? j idx = some i then upd j else 0)]

/-! ## The count does not wrap -/

/-- A natural number below `2³¹`, as a 32-bit word read signed, is itself. -/
theorem toInt_natCast_of_lt (k : ℕ) (hk : k < 2 ^ 31) : ((k : BitVec 32)).toInt = (k : ℤ) := by
  rw [BitVec.natCast_eq_ofNat, BitVec.toInt_eq_toNat_cond, BitVec.toNat_ofNat]
  have hm : k % 2 ^ 32 = k := Nat.mod_eq_of_lt (by omega)
  rw [hm]
  split <;> omega

/-- The number of the `R` indices with a property is at most `R`. -/
theorem count_le {R : ℕ} (P : Fin R → Prop) [DecidablePred P] : (∑ n : Fin R, if P n then 1 else 0 : ℕ) ≤ R := by
  rw [← Finset.card_filter]
  exact (Finset.card_filter_le _ _).trans (by rw [Finset.card_univ, Fintype.card_fin])

/-- A (wrapping) 32-bit sum of ones over the indices with a property, fewer than `2³¹` of them in all, converted to a float
    at the ideal reading: the sum of the extended real one over those indices. -/
theorem sitofp_count {R : ℕ} (hR : R < 2 ^ 31) (P : Fin R → Prop) [DecidablePred P] :
    FloatOps.sitofp (F := Ideal) .f32 (∑ n : Fin R, if P n then (1#32 : BitVec 32) else 0)
      = ∑ n : Fin R, if P n then (1 : EReal) else 0 := by
  have hcast : (∑ n : Fin R, if P n then (1#32 : BitVec 32) else 0) = ((∑ n : Fin R, if P n then 1 else 0 : ℕ) : BitVec 32) := by
    rw [Nat.cast_sum]
    refine Finset.sum_congr rfl (fun n _ => ?_)
    split <;> simp
  show ((((∑ n : Fin R, if P n then (1#32 : BitVec 32) else 0).toInt : ℤ) : ℝ) : EReal) = _
  rw [hcast, toInt_natCast_of_lt _ (lt_of_le_of_lt (count_le P) hR), Int.cast_natCast, Nat.cast_sum, coe_sum]
  refine Finset.sum_congr rfl (fun n _ => ?_)
  split <;> simp

/-! ## The count of a label -/

section Count

variable {N R : ℕ}

/-- The integer count at the labels in an `[R, 1]` column: ones scattered with integer addition into a vector of zeros, entry `g`
    converted to a float at the ideal reading, is the sum over all `n` of one if the label stored for `n`, read signed, is `g`, else
    zero. (`R < 2³¹`: the 32-bit count cannot wrap.) -/
theorem count_entries (hR : R < 2 ^ 31) (wf : ScatterDims.WF ⟨1, ![N]⟩ ⟨2, ![R, 1]⟩ ⟨1, ![R]⟩ [] [0] [0] 1)
    (idx : IVec ⟨2, ![R, 1]⟩ 32) (z : IVec ⟨1, ![N]⟩ 32) (hz : ∀ i, z i = 0#32) (ones : IVec ⟨1, ![R]⟩ 32)
    (hones : ∀ i, ones i = 1#32) (g : Fin N) :
    FloatOps.sitofp (F := Ideal) .f32 (Host.scatter (vecScatterDims N R wf) IntOp.addi z idx ones (ix1 g))
      = ∑ n : Fin R, if (idx (ix2 n (0 : Fin 1))).toInt = (g.val : ℤ) then (1 : EReal) else 0 := by
  have hsum : Host.scatter (vecScatterDims N R wf) IntOp.addi z idx ones (ix1 g)
      = ∑ n : Fin R, if (idx (ix2 n (0 : Fin 1))).toInt = (g.val : ℤ) then (1#32 : BitVec 32) else 0 := by
    rw [scatter_addi_apply, hz, BitVec.zero_add, sum_idx1]
    refine Finset.sum_congr rfl (fun e _ => ?_)
    rw [hones]
    exact if_congr (scatter_vec_lands_iff wf idx e g) rfl rfl
  rw [hsum]
  exact sitofp_count hR _

/-- The same for dimension numbers given by their four fields, the vector operation `sitofp`, and the column of labels given
    as the broadcast of a label vector `b`. -/
theorem count_of_labels (hR : R < 2 ^ 31) (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) (hb : (⟨1, ![R]⟩ : Shape).BroadcastsInDim ⟨2, ![R, 1]⟩ ![0])
    (z : IVec ⟨1, ![N]⟩ 32) (hz : ∀ i, z i = 0#32) (ones : IVec ⟨1, ![R]⟩ 32) (hones : ∀ i, ones i = 1#32)
    (b : IVec ⟨1, ![R]⟩ 32) (g : Fin N) :
    sitofp (F := Ideal) .f32 (Host.scatter d IntOp.addi z (broadcastInDim (⟨2, ![R, 1]⟩ : Shape) ![0] hb b) ones) (ix1 g)
      = ∑ n : Fin R, if (b (ix1 n)).toInt = (g.val : ℤ) then (1 : EReal) else 0 := by
  obtain ⟨uw, iw, sd, iv, wf⟩ := d
  simp only at h1 h2 h3 h4
  subst h1 h2 h3 h4
  refine (count_entries hR wf _ z hz ones hones g).trans ?_
  refine Finset.sum_congr rfl (fun n _ => ?_)
  rw [bcast_col_apply hb b n (0 : Fin 1)]

/-- The kernel's count of a label, as the program computes it from the raw labels `b`: clip at zero, wrap by the extent, broadcast
    to a column, scatter ones with integer addition into zeros, convert to a float. If every label is non-negative, entry `g` is
    the sum over all `n` of one if `b n`, read signed, is `g`, else zero. -/
theorem count_of_raw_labels (hR : R < 2 ^ 31) (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) (hb : (⟨1, ![R]⟩ : Shape).BroadcastsInDim ⟨2, ![R, 1]⟩ ![0])
    (z : IVec ⟨1, ![N]⟩ 32) (hz : ∀ i, z i = 0#32) (ones : IVec ⟨1, ![R]⟩ 32) (hones : ∀ i, ones i = 1#32)
    (z0 z0' k b : IVec ⟨1, ![R]⟩ 32) (hz0 : ∀ i, z0 i = 0#32) (hz0' : ∀ i, z0' i = 0#32) (hnn : ∀ i, 0 ≤ (b i).toInt)
    (g : Fin N) :
    sitofp (F := Ideal) .f32 (Host.scatter d IntOp.addi z (broadcastInDim (⟨2, ![R, 1]⟩ : Shape) ![0] hb
        (select (cmpi .slt (maxsi z0 b) z0') (addi (maxsi z0 b) k) (maxsi z0 b))) ones) (ix1 g)
      = ∑ n : Fin R, if (b (ix1 n)).toInt = (g.val : ℤ) then (1 : EReal) else 0 := by
  rw [labels_clip_wrap z0 z0' k b hz0 hz0' hnn]
  exact count_of_labels hR d h1 h2 h3 h4 hb z hz ones hones b g

end Count

end Cert.LibCountLabels
-- ==== Proof.LibMeanPool.lean ====
/-
  The mean of rows pooled by label, two ways.

  Rows of an [R, C] array X carry labels b (R signed 32-bit words, none negative). The mean of the rows with label g is
  their sum divided by max(their number, 1). One program has the sums already (an array S whose entry (g, q) is the sum
  of X (n, q) over the rows n with label g) and counts the labels with an integer scatter of ones — after clipping the
  labels at zero and wrapping negative ones by the extent, which leaves non-negative labels as they are — converting the
  count to a float. The other computes the sums by a float scatter-add of the rows into a table of zeros and the counts
  by a float scatter-add of ones. The two quotients have equal numerators and equal denominators, entry by entry, so
  they are the same array; the division itself is never opened.
-/
import Idealize.ShloMosaic.PureOps.Ideal
import Idealize.ShloMosaic.Lib.ValueIdx
import Idealize.ShloMosaic.Lib.Pipeline.Value
import proofs.«151719_j66898410602732_1_alg».proof.Proof.LibSegmentRows
import proofs.«151719_j66898410602732_1_alg».proof.Proof.LibCountLabels

namespace Cert.LibMeanPool

open Idealize.ShloMosaic Idealize.ShloMosaic.ValueIdx Cert.LibSegmentRows Cert.LibCountLabels
open scoped BigOperators

variable {N R C : ℕ}

/-- The pooled sums are the float scatter-add of the rows into zeros at the labels. -/
theorem sums_eq_scatterAdd (b : IVec ⟨1, ![R]⟩ 32) (X : FVec Ideal ⟨2, ![R, C]⟩ .f32) (S : FVec Ideal ⟨2, ![N, C]⟩ .f32)
    (hS : ∀ (g : Fin N) (q : Fin C),
      S (ix2 g q) = ∑ n : Fin R, if (b (ix1 n)).toInt = (g.val : ℤ) then X (ix2 n q) else 0)
    (hb : (⟨1, ![R]⟩ : Shape).BroadcastsInDim ⟨2, ![R, 1]⟩ ![0])
    (dR : ScatterDims ⟨2, ![N, C]⟩ ⟨2, ![R, 1]⟩ ⟨2, ![R, C]⟩)
    (r1 : dR.updateWindowDims = [1]) (r2 : dR.insertedWindowDims = [0]) (r3 : dR.scatterDimsToOperandDims = [0])
    (r4 : dR.indexVectorDim = 1)
    (zF2 : FVec Ideal ⟨2, ![N, C]⟩ .f32) (hzF2 : ∀ i, zF2 i = 0) :
    S = Host.scatterAdd (F := Ideal) (φ := .f32) dR zF2 (broadcastInDim (⟨2, ![R, 1]⟩ : Shape) ![0] hb b) X := by
  funext j
  obtain ⟨g, q, rfl⟩ : ∃ (g : Fin N) (q : Fin C), j = ix2 g q := ⟨j 0, j 1, eq_ix2 j⟩
  rw [hS, host_segment_rows_of_labels dR r1 r2 r3 r4 hb zF2 hzF2 b X g q]

/-- The integer count of the clipped and wrapped labels, converted to a float, is the float scatter-add of ones into
    zeros at the labels, when no label is negative. -/
theorem count_eq_scatterAdd (hR : R < 2 ^ 31) (b : IVec ⟨1, ![R]⟩ 32) (hnn : ∀ i, 0 ≤ (b i).toInt)
    (hb : (⟨1, ![R]⟩ : Shape).BroadcastsInDim ⟨2, ![R, 1]⟩ ![0])
    (dK : ScatterDims ⟨1, ![N]⟩ ⟨2, ![R, 1]⟩ ⟨1, ![R]⟩)
    (k1 : dK.updateWindowDims = []) (k2 : dK.insertedWindowDims = [0]) (k3 : dK.scatterDimsToOperandDims = [0])
    (k4 : dK.indexVectorDim = 1)
    (zI : IVec ⟨1, ![N]⟩ 32) (hzI : ∀ i, zI i = 0#32) (onesI : IVec ⟨1, ![R]⟩ 32) (honesI : ∀ i, onesI i = 1#32)
    (z0 z0' k : IVec ⟨1, ![R]⟩ 32) (hz0 : ∀ i, z0 i = 0#32) (hz0' : ∀ i, z0' i = 0#32)
    (dC : ScatterDims ⟨1, ![N]⟩ ⟨2, ![R, 1]⟩ ⟨1, ![R]⟩)
    (c1 : dC.updateWindowDims = []) (c2 : dC.insertedWindowDims = [0]) (c3 : dC.scatterDimsToOperandDims = [0])
    (c4 : dC.indexVectorDim = 1)
    (zF1 : FVec Ideal ⟨1, ![N]⟩ .f32) (hzF1 : ∀ i, zF1 i = 0) (onesF : FVec Ideal ⟨1, ![R]⟩ .f32) (honesF : ∀ i, onesF i = 1) :
    sitofp (F := Ideal) .f32 (Host.scatter dK IntOp.addi zI (broadcastInDim (⟨2, ![R, 1]⟩ : Shape) ![0] hb
        (select (cmpi .slt (maxsi z0 b) z0') (addi (maxsi z0 b) k) (maxsi z0 b))) onesI)
      = Host.scatterAdd (F := Ideal) (φ := .f32) dC zF1 (broadcastInDim (⟨2, ![R, 1]⟩ : Shape) ![0] hb b) onesF := by
  funext j
  obtain ⟨g, rfl⟩ : ∃ g : Fin N, j = ix1 g := ⟨j 0, eq_ix1 j⟩
  rw [count_of_raw_labels hR dK k1 k2 k3 k4 hb zI hzI onesI honesI z0 z0' k b hz0 hz0' hnn g,
    host_segment_count_of_labels dC c1 c2 c3 c4 hb zF1 hzF1 b onesF honesF g]

/-- THE MEAN POOL, two ways: the pooled sums over the clamped integer count, and the scatter-added rows over the clamped
    scatter-added count, are the same array when no label is negative. `oneK` and `oneR` are the two programs' splats
    of the clamp's lower bound. -/
theorem mean_pool_eq (hR : R < 2 ^ 31) (b : IVec ⟨1, ![R]⟩ 32) (hnn : ∀ i, 0 ≤ (b i).toInt)
    (X : FVec Ideal ⟨2, ![R, C]⟩ .f32) (S : FVec Ideal ⟨2, ![N, C]⟩ .f32)
    (hS : ∀ (g : Fin N) (q : Fin C),
      S (ix2 g q) = ∑ n : Fin R, if (b (ix1 n)).toInt = (g.val : ℤ) then X (ix2 n q) else 0)
    (hb : (⟨1, ![R]⟩ : Shape).BroadcastsInDim ⟨2, ![R, 1]⟩ ![0])
    (hb1 : (⟨1, ![N]⟩ : Shape).BroadcastsInDim ⟨2, ![N, 1]⟩ ![0])
    (hb2 : (⟨2, ![N, 1]⟩ : Shape).BroadcastsInDim ⟨2, ![N, C]⟩ ![0, 1])
    (dK : ScatterDims ⟨1, ![N]⟩ ⟨2, ![R, 1]⟩ ⟨1, ![R]⟩)
    (k1 : dK.updateWindowDims = []) (k2 : dK.insertedWindowDims = [0]) (k3 : dK.scatterDimsToOperandDims = [0])
    (k4 : dK.indexVectorDim = 1)
    (zI : IVec ⟨1, ![N]⟩ 32) (hzI : ∀ i, zI i = 0#32) (onesI : IVec ⟨1, ![R]⟩ 32) (honesI : ∀ i, onesI i = 1#32)
    (z0 z0' k : IVec ⟨1, ![R]⟩ 32) (hz0 : ∀ i, z0 i = 0#32) (hz0' : ∀ i, z0' i = 0#32)
    (oneK : FVec Ideal ⟨1, ![N]⟩ .f32)
    (dR : ScatterDims ⟨2, ![N, C]⟩ ⟨2, ![R, 1]⟩ ⟨2, ![R, C]⟩)
    (r1 : dR.updateWindowDims = [1]) (r2 : dR.insertedWindowDims = [0]) (r3 : dR.scatterDimsToOperandDims = [0])
    (r4 : dR.indexVectorDim = 1)
    (zF2 : FVec Ideal ⟨2, ![N, C]⟩ .f32) (hzF2 : ∀ i, zF2 i = 0)
    (dC : ScatterDims ⟨1, ![N]⟩ ⟨2, ![R, 1]⟩ ⟨1, ![R]⟩)
    (c1 : dC.updateWindowDims = []) (c2 : dC.insertedWindowDims = [0]) (c3 : dC.scatterDimsToOperandDims = [0])
    (c4 : dC.indexVectorDim = 1)
    (zF1 : FVec Ideal ⟨1, ![N]⟩ .f32) (hzF1 : ∀ i, zF1 i = 0) (onesF : FVec Ideal ⟨1, ![R]⟩ .f32) (honesF : ∀ i, onesF i = 1)
    (oneR : FVec Ideal ⟨1, ![N]⟩ .f32) (hone : oneK = oneR) :
    Host.divf (F := Ideal) S
        (broadcastInDim (⟨2, ![N, C]⟩ : Shape) ![0, 1] hb2 (broadcastInDim (⟨2, ![N, 1]⟩ : Shape) ![0] hb1
          (maximumf (sitofp (F := Ideal) .f32 (Host.scatter dK IntOp.addi zI (broadcastInDim (⟨2, ![R, 1]⟩ : Shape) ![0] hb
            (select (cmpi .slt (maxsi z0 b) z0') (addi (maxsi z0 b) k) (maxsi z0 b))) onesI)) oneK)))
      = Host.divf (F := Ideal)
          (Host.scatterAdd (F := Ideal) (φ := .f32) dR zF2 (broadcastInDim (⟨2, ![R, 1]⟩ : Shape) ![0] hb b) X)
          (broadcastInDim (⟨2, ![N, C]⟩ : Shape) ![0, 1] hb2 (broadcastInDim (⟨2, ![N, 1]⟩ : Shape) ![0] hb1
            (maximumf (Host.scatterAdd (F := Ideal) (φ := .f32) dC zF1 (broadcastInDim (⟨2, ![R, 1]⟩ : Shape) ![0] hb b) onesF)
              oneR))) := by
  rw [← sums_eq_scatterAdd b X S hS hb dR r1 r2 r3 r4 zF2 hzF2,
    ← count_eq_scatterAdd hR b hnn hb dK k1 k2 k3 k4 zI hzI onesI honesI z0 z0' k hz0 hz0' dC c1 c2 c3 c4 zF1 hzF1 onesF honesF,
    hone]

end Cert.LibMeanPool
-- ==== Proof.PoolStage.lean ====
import proofs.«151719_j66898410602732_1_alg».proof.Proof.Gen.KernelIdeal.Launch
import proofs.«151719_j66898410602732_1_alg».proof.Proof.RefRead
import proofs.«151719_j66898410602732_1_alg».proof.Proof.LibMeanPool
import Idealize.ShloMosaic.Lib.StableHlo.Run
import Idealize.ShloMosaic.PureOps.Ideal.Laws

set_option maxRecDepth 16384

noncomputable section

namespace Cert.KernelIdeal.PoolStage

open Cert.KernelIdeal Cert.KernelIdeal.Gen
open Idealize.ShloMosaic Idealize.ShloMosaic.TcCoe Idealize.ShloMosaic.ValueIdx Idealize.ShloMosaic.StableHlo
open Idealize.SL.Sem
open scoped BigOperators

-- the buffer contents before the pooling's host operations, and the reference's arguments
variable (Vin : Valuation τ sig (Elt Ideal))
variable (x0 x1 : (⟨Cert.ReferenceIdeal.S50000x64, .f32⟩ : BufTy).Contents (Elt Ideal))
  (x2 : (⟨Cert.ReferenceIdeal.S2x800000, .i32⟩ : BufTy).Contents (Elt Ideal))
  (x3 : (⟨Cert.ReferenceIdeal.S50000, .i32⟩ : BufTy).Contents (Elt Ideal))
  (x4 : (⟨Cert.ReferenceIdeal.S64x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S128x128, .f32⟩ : BufTy).Contents (Elt Ideal))
  (x9 : (⟨Cert.ReferenceIdeal.S128, .f32⟩ : BufTy).Contents (Elt Ideal))

/-! # The pooling's mean: the kernel's host operations after the pooled sums against the reference's

After the region that pools the rows by label, the kernel's program divides the pooled sums by the clamped integer
count of each label; the reference divides its scatter-added rows by the clamped scatter-added count. With no label
negative the two quotients are the same array. -/

/-- The f32 word of one is one. -/
theorem ofBits_one_f32 : Ideal.ofBits .f32 0x3F800000#32 = 1 := by
  simp [Ideal.ofBits, Ideal.ieee, -EReal.coe_mul]; norm_num

set_option maxHeartbeats 8000000 in
/-- The kernel's mean pool, read after its three stretches of host operations, is the reference's, when the kernel's
    pooled sums are the sums of the reference's rows by label, the labels are the reference's, and none is negative. -/
theorem pool_stage
    (hS : ∀ g q : Fin 128, (Vin (Proc.devRef .tc main_v65) : S128x128.Idx → EReal) (ix2 g q)
      = ∑ n : Fin 50000, if ((x3 : Cert.ReferenceIdeal.S50000.Idx → BitVec 32) (ix1 n)).toInt = (g.val : ℤ)
          then (Cert.ReferenceIdeal.ReadP.val_main_v94 (F := Ideal) x0 x1 x2 x4 x5 x6 x7 x8 x9 : Cert.ReferenceIdeal.S50000x128.Idx → EReal) (ix2 n q) else 0)
    (hlab : (Vin (Proc.devRef .tc main_arg3) : S50000.Idx → BitVec 32) = x3)
    (hnn : ∀ n : Fin 50000, 0 ≤ ((x3 : Cert.ReferenceIdeal.S50000.Idx → BitVec 32) (ix1 n)).toInt) :
    StableHlo.after (hostOps6_2 (F := Ideal)) (StableHlo.after (hostOps6_1 (F := Ideal)) (StableHlo.after (hostOps6 (F := Ideal)) Vin)) (Proc.devRef .tc main_v81)
      = Cert.ReferenceIdeal.ReadP.val_main_v106 (F := Ideal) x0 x1 x2 x3 x4 x5 x6 x7 x8 x9 := by
  dsimp only [hostOps6_2, hostOps6_1, hostOps6]
  after_results_simp
  simp only [TRef.toBuf, TRef.ofBuf, cast_eq, id_eq]
  rw [hlab]
  unfold Cert.ReferenceIdeal.ReadP.val_main_v106 Cert.ReferenceIdeal.ReadP.val_main_v105 Cert.ReferenceIdeal.ReadP.val_main_v104
    Cert.ReferenceIdeal.ReadP.val_main_v103 Cert.ReferenceIdeal.ReadP.val_main_v102 Cert.ReferenceIdeal.ReadP.val_main_v101
    Cert.ReferenceIdeal.ReadP.val_main_v100 Cert.ReferenceIdeal.ReadP.val_main_v99 Cert.ReferenceIdeal.ReadP.val_main_v98
    Cert.ReferenceIdeal.ReadP.val_main_v97 Cert.ReferenceIdeal.ReadP.val_main_v96 Cert.ReferenceIdeal.ReadP.val_main_v95
    Cert.ReferenceIdeal.ReadP.val_main_cst_20 Cert.ReferenceIdeal.ReadP.val_main_cst_21 Cert.ReferenceIdeal.ReadP.val_main_cst_22
    Cert.ReferenceIdeal.ReadP.val_main_cst_23
  refine Cert.LibMeanPool.mean_pool_eq (N := 128) (R := 50000) (C := 128) (by norm_num) x3
    (fun i => by rw [eq_ix1 i]; exact hnn (i 0))
    (Cert.ReferenceIdeal.ReadP.val_main_v94 (F := Ideal) x0 x1 x2 x4 x5 x6 x7 x8 x9) (Vin (Proc.devRef .tc main_v65)) hS _ _ _
    _ rfl rfl rfl rfl _ (fun _ => rfl) _ (fun _ => rfl) _ _ _ (fun _ => rfl) (fun _ => rfl) _
    _ rfl rfl rfl rfl _ (fun _ => Ideal.ofBits_zero_f32) _ rfl rfl rfl rfl _ (fun _ => Ideal.ofBits_zero_f32) _ (fun _ => ofBits_one_f32) _ rfl

set_option maxHeartbeats 8000000 in
/-- The bias row of the layer after the pooling: the kernel's program reshapes argument 11, a vector of 64, to a
    `[1, 64]` row; entry `(0, q)` of the row is entry `q` of the vector. -/
theorem bias3 (q : Fin 64) :
    (StableHlo.after (hostOps6_2 (F := Ideal)) (StableHlo.after (hostOps6_1 (F := Ideal)) (StableHlo.after (hostOps6 (F := Ideal)) Vin)) (Proc.devRef .tc main_v82) : S1x64.Idx → EReal) (ix2 (0 : Fin 1) q)
      = (Vin (Proc.devRef .tc main_arg11) : S64.Idx → EReal) (ix1 q) := by
  dsimp only [hostOps6_2, hostOps6_1, hostOps6]
  after_results_simp
  refine shapeCast_apply (s := S64) (t := S1x64) _ shapeCasts_S64_S1x64 (ix2 (0 : Fin 1) q) (ix1 q) ?_
  rw [Shape.rowMajor_val_one, Shape.rowMajor_val_two]
  show q.val = 0 * 64 + q.val
  omega

end Cert.KernelIdeal.PoolStage

end
-- ==== Proof.IdealChain.lean ====
/- The chain of values through the kernel program's eighteen items, read against the reference's own stages.
   Between two items the run (Proof/IdealRun.lean) names what every buffer holds. Here each buffer that carries a stage of the
   network is shown to hold the value the reference computes for that stage, as a function of the argument arrays at launch:
   the index vectors and the normalisation; the first dense layer; for each graph-convolution layer its dense product, the
   aggregation over the edges, the bias and the ramp; the per-graph sums and the mean; the two layers of the head. A kernel
   region contributes its result array as one function of the arrays it was entered with; a host stretch contributes its
   operations, which are the reference's own. The labels enter only through the hypothesis that none is negative. -/
import proofs.«151719_j66898410602732_1_alg».proof.Proof.IdealKeep
import proofs.«151719_j66898410602732_1_alg».proof.Proof.Stages
import proofs.«151719_j66898410602732_1_alg».proof.Proof.HostChains
import proofs.«151719_j66898410602732_1_alg».proof.Proof.HostPre
import proofs.«151719_j66898410602732_1_alg».proof.Proof.HostNorm
import proofs.«151719_j66898410602732_1_alg».proof.Proof.PoolStage

noncomputable section

namespace Cert.KernelIdeal.Chain

open Cert.KernelIdeal Cert.KernelIdeal.Gen Cert.KernelIdeal.Hand
open Idealize.ShloMosaic Idealize.ShloMosaic.TcCoe Idealize.SL.Sem Idealize.ShloMosaic.ValueIdx
open Cert.ReferenceIdeal.ReadP Cert.KernelIdeal.HostChains Cert.KernelIdeal.Stages Cert.KernelIdeal.PoolStage

variable (m : (ℓ : Loc nD τ sig) → Buf (Elt Ideal) ℓ) (ρ : Dev nD → PrngReg) (c : Dev nD)

/-! ## The index vectors, the normalisation and the first bias row (the first three host stretches) -/

theorem src_eq : W3 (F := Ideal) m ρ c (Proc.devRef .tc main_v3) = val_main_v3 (F := Ideal) (m ((c.tc : Thread nD τ).loc main_arg2)) :=
  pre_src (W0 m ρ c)
theorem dst_eq : W3 (F := Ideal) m ρ c (Proc.devRef .tc main_v6) = val_main_v6 (F := Ideal) (m ((c.tc : Thread nD τ).loc main_arg2)) :=
  pre_dst (W0 m ρ c)
theorem norm_eq : W3 (F := Ideal) m ρ c (Proc.devRef .tc main_v29) = val_main_v36 (F := Ideal) (m ((c.tc : Thread nD τ).loc main_arg2)) :=
  pre_norm (W0 m ρ c)
theorem bias0_eq (q : Fin 128) : W3 (F := Ideal) m ρ c (Proc.devRef .tc main_v30) (ix2 (0 : Fin 1) q) = (m ((c.tc : Thread nD τ).loc main_arg5)) (ix1 q) :=
  pre_bias (W0 m ρ c) q

/-! ## The first dense layer and the first layer's features (regions 0 and 1) -/

theorem x0_eq : W4 (F := Ideal) m ρ c (Proc.devRef .tc main_v31) = val_main_v12 (F := Ideal) (m ((c.tc : Thread nD τ).loc main_arg0)) (m ((c.tc : Thread nD τ).loc main_arg1)) (m ((c.tc : Thread nD τ).loc main_arg4)) (m ((c.tc : Thread nD τ).loc main_arg5)) :=
  (W4_arr m ρ c 4).trans (stage0 (T3 m ρ) c _ _ _ _ (W3_main_arg0' m ρ c) (W3_main_arg1' m ρ c) (W3_main_arg4' m ρ c) (bias0_eq m ρ c))

theorem h1_eq : W5 (F := Ideal) m ρ c (Proc.devRef .tc main_v32) = val_main_v13 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) :=
  (W5_arr m ρ c 2).trans (stage1 (T4 m ρ) c _ _ _ _ _ (x0_eq m ρ c) (W4_main_arg6' m ρ c))

/-! ## The first aggregation, its bias and ramp, and the second layer's features -/

theorem src5 : W5 (F := Ideal) m ρ c (Proc.devRef .tc main_v3) = val_main_v3 (F := Ideal) (m ((c.tc : Thread nD τ).loc main_arg2)) :=
  (W5_keep m ρ c main_v3 (by decide)).trans ((W4_keep m ρ c main_v3 (by decide)).trans (src_eq m ρ c))
theorem dst5 : W5 (F := Ideal) m ρ c (Proc.devRef .tc main_v6) = val_main_v6 (F := Ideal) (m ((c.tc : Thread nD τ).loc main_arg2)) :=
  (W5_keep m ρ c main_v6 (by decide)).trans ((W4_keep m ρ c main_v6 (by decide)).trans (dst_eq m ρ c))
theorem norm5 : W5 (F := Ideal) m ρ c (Proc.devRef .tc main_v29) = val_main_v36 (F := Ideal) (m ((c.tc : Thread nD τ).loc main_arg2)) :=
  (W5_keep m ρ c main_v29 (by decide)).trans ((W4_keep m ρ c main_v29 (by decide)).trans (norm_eq m ρ c))

theorem agg1_eq : W6 (F := Ideal) m ρ c (Proc.devRef .tc main_v45) = val_main_v49 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) :=
  agg1 (W5 m ρ c) _ _ _ _ _ _ (src5 m ρ c) (dst5 m ρ c) (norm5 m ρ c) (h1_eq m ρ c)
theorem bias1_eq (q : Fin 128) : W6 (F := Ideal) m ρ c (Proc.devRef .tc main_v46) (ix2 (0 : Fin 1) q) = (m ((c.tc : Thread nD τ).loc main_arg7)) (ix1 q) :=
  (bias1 (W5 m ρ c) q).trans (congrFun (W5_main_arg7' m ρ c) (ix1 q))

theorem x1_eq : W7 (F := Ideal) m ρ c (Proc.devRef .tc main_v47) = val_main_v53 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) :=
  (W7_arr m ρ c 2).trans (stage2 (T6 m ρ) c _ _ _ _ _ _ _ (agg1_eq m ρ c) (bias1_eq m ρ c))

theorem h2_eq : W8 (F := Ideal) m ρ c (Proc.devRef .tc main_v48) = val_main_v54 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W8_arr m ρ c 2).trans (stage3 (T7 m ρ) c _ _ _ _ _ _ _ _ (x1_eq m ρ c) (W7_main_arg8' m ρ c))

/-! ## The second aggregation, its bias and ramp -/

theorem src8 : W8 (F := Ideal) m ρ c (Proc.devRef .tc main_v3) = val_main_v3 (F := Ideal) (m ((c.tc : Thread nD τ).loc main_arg2)) :=
  (W8_keep m ρ c main_v3 (by decide)).trans ((W7_keep m ρ c main_v3 (by decide)).trans ((W6_keep m ρ c main_v3 (by decide)).trans (src5 m ρ c)))
theorem dst8 : W8 (F := Ideal) m ρ c (Proc.devRef .tc main_v6) = val_main_v6 (F := Ideal) (m ((c.tc : Thread nD τ).loc main_arg2)) :=
  (W8_keep m ρ c main_v6 (by decide)).trans ((W7_keep m ρ c main_v6 (by decide)).trans ((W6_keep m ρ c main_v6 (by decide)).trans (dst5 m ρ c)))
theorem norm8 : W8 (F := Ideal) m ρ c (Proc.devRef .tc main_v29) = val_main_v36 (F := Ideal) (m ((c.tc : Thread nD τ).loc main_arg2)) :=
  (W8_keep m ρ c main_v29 (by decide)).trans ((W7_keep m ρ c main_v29 (by decide)).trans ((W6_keep m ρ c main_v29 (by decide)).trans (norm5 m ρ c)))

theorem agg2_eq : W9 (F := Ideal) m ρ c (Proc.devRef .tc main_v61) = val_main_v90 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  agg2 (W8 m ρ c) _ _ _ _ _ _ _ _ (src8 m ρ c) (dst8 m ρ c) (norm8 m ρ c) (h2_eq m ρ c)
theorem bias2_eq (q : Fin 128) : W9 (F := Ideal) m ρ c (Proc.devRef .tc main_v62) (ix2 (0 : Fin 1) q) = (m ((c.tc : Thread nD τ).loc main_arg9)) (ix1 q) :=
  (bias2 (W8 m ρ c) q).trans (congrFun (W8_main_arg9' m ρ c) (ix1 q))

theorem x2_eq : W10 (F := Ideal) m ρ c (Proc.devRef .tc main_v63) = val_main_v94 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W10_arr m ρ c 2).trans (stage4 (T9 m ρ) c _ _ _ _ _ _ _ _ _ (agg2_eq m ρ c) (bias2_eq m ρ c))

/-! ## The per-graph sums and the mean -/

theorem labels_eq (n : Fin 50000) : W11 (F := Ideal) m ρ c (Proc.devRef .tc main_v64) (ix2 n (0 : Fin 1)) = (m ((c.tc : Thread nD τ).loc main_arg3)) (ix1 n) :=
  (labels_col (W10 m ρ c) n).trans (congrFun (W10_main_arg3' m ρ c) (ix1 n))

theorem sums_eq (g q : Fin 128) : W12 (F := Ideal) m ρ c (Proc.devRef .tc main_v65) (ix2 g q)
    = ∑ n : Fin 50000, if ((m ((c.tc : Thread nD τ).loc main_arg3)) (ix1 n)).toInt = (g.val : ℤ) then val_main_v94 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 n q) else 0 :=
  (congrFun (W12_arr m ρ c 2) (ix2 g q)).trans
    (stage5 (T11 m ρ) c _ _ _ _ _ _ _ _ _ _ ((W11_keep m ρ c main_v63 (by decide)).trans (x2_eq m ρ c)) (labels_eq m ρ c) g q)

theorem pooled_eq (hnn : ∀ n : Fin 50000, 0 ≤ ((m ((c.tc : Thread nD τ).loc main_arg3)) (ix1 n)).toInt) :
    W15 (F := Ideal) m ρ c (Proc.devRef .tc main_v81) = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  pool_stage (W12 m ρ c) _ _ _ _ _ _ _ _ _ _ (sums_eq m ρ c) (W12_main_arg3' m ρ c) hnn
theorem bias3_eq (q : Fin 64) : W15 (F := Ideal) m ρ c (Proc.devRef .tc main_v82) (ix2 (0 : Fin 1) q) = (m ((c.tc : Thread nD τ).loc main_arg11)) (ix1 q) :=
  (bias3 (W12 m ρ c) q).trans (congrFun (W12_main_arg11' m ρ c) (ix1 q))

/-! ## The head -/

theorem hid_eq (hnn : ∀ n : Fin 50000, 0 ≤ ((m ((c.tc : Thread nD τ).loc main_arg3)) (ix1 n)).toInt) :
    W16 (F := Ideal) m ρ c (Proc.devRef .tc main_v83) = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (W16_arr m ρ c 3).trans (stage6 (T15 m ρ) c _ _ _ _ _ _ _ _ _ _ _ _ (pooled_eq m ρ c hnn) (W15_main_arg10' m ρ c) (bias3_eq m ρ c))

theorem bias4_eq (q : Fin 32) : W17 (F := Ideal) m ρ c (Proc.devRef .tc main_v84) (ix2 (0 : Fin 1) q) = (m ((c.tc : Thread nD τ).loc main_arg13)) (ix1 q) :=
  (bias4 (W16 m ρ c) q).trans (congrFun (W16_main_arg13' m ρ c) (ix1 q))

/-- The result array after the run is the reference's result, as a function of the argument arrays at launch. -/
theorem out_eq (hnn : ∀ n : Fin 50000, 0 ≤ ((m ((c.tc : Thread nD τ).loc main_arg3)) (ix1 n)).toInt) :
    W18 (F := Ideal) m ρ c (Proc.devRef .tc main_v85) = val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (W18_arr m ρ c 3).trans (stage7 (T17 m ρ) c _ _ _ _ _ _ _ _ _ _ _ _ _ _
    ((W17_keep m ρ c main_v83 (by decide)).trans (hid_eq m ρ c hnn)) (W17_main_arg12' m ρ c) (bias4_eq m ρ c))

end Cert.KernelIdeal.Chain

end
-- ==== Proof.PreLabels.lean ====
import proofs.«151719_j66898410602732_1_alg».proof.Defs
import proofs.«151719_j66898410602732_1_alg».proof.Proof.Gen.Pre_finite_inputs
import Idealize.ShloMosaic.Lib.ReduceAll
import Idealize.ShloMosaic.Lib.ValueIdx

set_option maxRecDepth 16384

noncomputable section

namespace Cert.Proof

open Idealize.ShloMosaic Idealize.ShloMosaic.TcCoe Idealize.SL.Sem
open Cert.Pre_finite_inputs (S50000 S_)

/-! # The precondition read at the labels

The printed precondition is a conjunction of one test per argument; its last conjunct says every label is at least zero,
read signed. Only that one is opened here: the others are split off whole. -/

/-- A conjunction of two bits is one exactly when both are. -/
theorem and1 : ∀ (a b : BitVec 1), IntOp.andi a b = 1#1 ↔ a = 1#1 ∧ b = 1#1 := by decide

theorem ofBool_eq_one (b : Bool) : BitVec.ofBool b = 1#1 ↔ b = true := by cases b <;> decide

/-- The scalar shape has at most one index. -/
instance : Subsingleton S_.Idx := ⟨fun a b => funext fun d => d.elim0⟩

/-- The signed comparison "at least zero", when it is one, says the word read signed is at least zero. -/
theorem sge_zero (w : BitVec 32) (h : IntOp.cmpi .sge w 0#32 = 1#1) : 0 ≤ w.toInt := by
  have h' : BitVec.ofBool ((0#32 : BitVec 32).sle w) = 1#1 := h
  rw [ofBool_eq_one] at h'
  simpa [BitVec.sle] using h'

/-- Under the precondition every label, read signed, is at least zero. -/
theorem labels_nonneg (m : (ℓ : Loc Cert.KernelIdeal.nD Cert.KernelIdeal.τ Cert.KernelIdeal.sig) → Buf (Elt Ideal) ℓ)
    (h : Cert.Pre_KernelIdeal m) (c : Dev Cert.KernelIdeal.nD) (n : Fin 50000) :
    0 ≤ ((m ((c.tc : Thread Cert.KernelIdeal.nD Cert.KernelIdeal.τ).loc Cert.KernelIdeal.main_arg3) : S50000.Idx → BitVec 32) (ValueIdx.ix1 n)).toInt := by
  have e := congrFun (h c) ValueIdx.ix0
  dsimp only [Cert.Pre_finite_inputs.fn, Cert.Pre_finite_inputs.fn_part1, Cert.Pre_finite_inputs.fn_part2, Cert.Pre_finite_inputs.fn_part3] at e
  simp only [andi] at e
  rw [and1] at e
  have e2 := e.2
  clear e
  have e3 := Host.reduce_andi_all _ _ _ _ _ e2 (ValueIdx.ix1 n)
  exact sge_zero _ e3

end Cert.Proof

end
-- ==== Proof.lean ====
/- A graph network — a dense layer on the summed embeddings, two graph-convolution layers (a dense product, then every node's
   symmetric-normalised sum over its incoming edges and itself, a bias and a ramp), a mean over each graph's nodes and a two-layer
   head — computed by eight tiled kernels among host gathers and scatters, against the same network written with whole-array
   operations.
   The three frames: each program runs to its end, faults nowhere and leaves its fourteen argument arrays as launched. For the
   two kernel programs this is the run of @main's eighteen items (Proof/BitsRun.lean, Proof/IdealRun.lean: ten stretches of host
   operations and eight kernel regions, each region's body run once per grid point over whole staging buffers; the pooling region
   carries its accumulator in a scratch buffer from point to point); for the reference it is its run as a list of host operations.
   No operation of the kernel was rewritten when it was read over the extended reals, so there is nothing to preserve.
   The values: over the extended reals the kernel program's result array is the reference's result, as one function of the
   argument arrays (Proof/IdealChain.lean). Each tiled dense kernel writes, block of rows by block of rows, the rows of the
   whole-array product, bias and ramp the reference computes at once; the gathers, the scaling by the normalisation and the
   scatter-adds of the two convolution layers are the same host operations in both programs; the pooling kernel's one-hot
   products, accumulated over the ten blocks of nodes, are the reference's segment sums, and the kernel's integer count of each
   graph's nodes, converted, is the reference's float count. Sums over the extended reals may be regrouped freely, and a
   one-hot factor is 0 or 1, so no finiteness is used.
   The precondition asks, beyond finite float inputs, that no graph label be negative: the kernel counts a negative label into
   graph 0 (it clips before it counts), while the reference's segment sums drop it; labels of 128 and more are dropped by
   both programs and need no hypothesis. -/
import proofs.«151719_j66898410602732_1_alg».proof.Defs
import proofs.«151719_j66898410602732_1_alg».proof.Proof.Gen.Kernel
import proofs.«151719_j66898410602732_1_alg».proof.Proof.Gen.KernelIdeal
import proofs.«151719_j66898410602732_1_alg».proof.Proof.Gen.ReferenceIdeal
import proofs.«151719_j66898410602732_1_alg».proof.Proof.Gen.Pre_finite_inputs
import proofs.«151719_j66898410602732_1_alg».proof.Proof.BitsRun
import proofs.«151719_j66898410602732_1_alg».proof.Proof.IdealRun
import proofs.«151719_j66898410602732_1_alg».proof.Proof.RefRun
import proofs.«151719_j66898410602732_1_alg».proof.Proof.RefRead
import proofs.«151719_j66898410602732_1_alg».proof.Proof.IdealChain
import proofs.«151719_j66898410602732_1_alg».proof.Proof.PreLabels
import Idealize.ShloMosaic.Adequacy
import Idealize.ShloMosaic.Init

noncomputable section

namespace Cert.Proof

open Idealize.ShloMosaic Idealize.SL.Sem

/-- The word-level program's frame: its run, with what the result holds forgotten. -/
theorem frame_words : Cert.frame_Kernel := fun m ρ _ =>
  (θ_run (Cert.Kernel.defs (F := Bits)) _ _).mono (fun _ h c => (h c).2) (Cert.Kernel.Hand.run_all (F := Bits) m ρ)

/-- The same program over the extended reals. -/
theorem frame_reals : Cert.frame_KernelIdeal := fun m ρ _ =>
  (θ_run (Cert.KernelIdeal.defs (F := Ideal)) _ _).mono (fun _ h c => (h c).2) (Cert.KernelIdeal.Hand.run_all (F := Ideal) m ρ)

/-- The reference's frame: its run as a list of host operations, the result forgotten. -/
theorem frame_reference : Cert.frame_ReferenceIdeal := fun m ρ _ =>
  (θ_run (Cert.ReferenceIdeal.defs (F := Ideal)) _ _).mono (fun _ h c => (h c).2) (Cert.ReferenceIdeal.ValueP.run (F := Ideal) m ρ)

/-- Nothing was rewritten. -/
theorem preserves : Cert.preserves_Kernel_KernelIdeal := trivial

/-- Both programs run; the kernel program's result array ends at the last contents of its run read at it, the reference's at
    its composed term of arguments that agree with the kernel's; the chain of values says these are one function. -/
theorem algebraic : Cert.algebraic_KernelIdeal_ReferenceIdeal := by
  intro m ρ m' ρ' hpre hagree
  refine ⟨fun c => Cert.KernelIdeal.Hand.W18 (F := Ideal) m ρ c (Proc.devRef .tc Cert.KernelIdeal.main_v85),
    Cert.KernelIdeal.Hand.run_all (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  rw [Cert.ReferenceIdeal.ReadP.val_main_v116_eq]
  obtain ⟨h0, h1, h2, h3, h4, h5, h6, h7, h8, h9, h10, h11, h12, h13⟩ := hagree c
  rw [h0, h1, h2, h3, h4, h5, h6, h7, h8, h9, h10, h11, h12, h13]
  exact (Cert.KernelIdeal.Chain.out_eq m ρ c (labels_nonneg m hpre c)).symm

theorem claim : Cert.Claim :=
  ⟨Cert.Kernel.Gen.facts, Cert.KernelIdeal.Gen.facts, Cert.ReferenceIdeal.Gen.facts, Cert.Pre_finite_inputs.Gen.facts,
    frame_words, frame_reals, frame_reference, preserves, algebraic⟩

end Cert.Proof

end
